-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S100 : Shape := ⟨1, ![100]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S100 : S_.BroadcastsInDim S100 (![] : Fin 0 → Fin S100.rank)
  reducesTo_S100_S_d0 : S100.ReducesTo [0] S_

variable [Facts]

def fn {F : FTy → Type} [FloatOps F] (main_arg0 : FVec F S4096x1024 .f32) (main_arg1 : FVec F S100 .f32) (main_arg2 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S100 .f32 := Host.absf main_arg1
  let main_cst_0 : FVec F S_ .f32 := constant S_ .f32 0x7F800000#32
  let main_v5 : FVec F S100 .f32 := broadcastInDim S100 ![] bcast_S_S100 main_cst_0
  let main_v6 : IVec S100 1 := cmpf .olt main_v4 main_v5
  let main_c_1 : IVec S_ 1 := constantI S_ 1 1#1
  let main_v7 : IVec S_ 1 := (fun x v => Host.reduce IntOp.andi x v reducesTo_S100_S_d0 h_S_) main_v6 main_c_1
  let main_v8 : IVec S_ 1 := andi main_v3 main_v7
  main_v8
-- ==== Kernel.lean ====
abbrev S4096x1024 : Shape := ⟨2, ![4096, 1024]⟩
abbrev S100 : Shape := ⟨1, ![100]⟩
abbrev S4096 : Shape := ⟨1, ![4096]⟩
abbrev S4096x1 : Shape := ⟨2, ![4096, 1]⟩
abbrev S1x4096 : Shape := ⟨2, ![1, 4096]⟩
abbrev S_ : Shape := ⟨0, ![]⟩
abbrev S512x1024 : Shape := ⟨2, ![512, 1024]⟩
abbrev S512x1 : Shape := ⟨2, ![512, 1]⟩
abbrev S1x512 : Shape := ⟨2, ![1, 512]⟩
abbrev S1024x512 : Shape := ⟨2, ![1024, 512]⟩
abbrev S512x512 : Shape := ⟨2, ![512, 512]⟩
abbrev S512 : Shape := ⟨1, ![512]⟩

abbrev nBuf : Space → Nat
  | .hbm => 22
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S100, .f32⟩
  | .hbm, ⟨2, _⟩ => ⟨S4096, .i32⟩
  | .hbm, ⟨3, _⟩ => ⟨S4096x1, .i32⟩
  | .hbm, ⟨4, _⟩ => ⟨S1x4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1, .i32⟩
  | .local _ .vmem, ⟨19, _⟩ => ⟨S512x1, .i32⟩
  | .local _ .vmem, ⟨20, _⟩ => ⟨S1x512, .i32⟩
  | .local _ .vmem, ⟨21, _⟩ => ⟨S1x512, .i32⟩
  | .local _ .vmem, ⟨22, _⟩ => ⟨S512x1, .f32⟩
  | .local _ .vmem, ⟨23, _⟩ => ⟨S512x1, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1, .f32⟩
  | .local _ .vmem, ⟨33, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc1_scratch3 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_24 : BitVec 32 := 0#32
  let v51 : BitVec 1 := Scalar.cmpi .ne v50 c0_i32_24
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v91 : BitVec 1 := Scalar.cmpi .eq arg1 c7_i32
  let v92 : BitVec 32 := Scalar.extui v91
  let c0_i32_42 : BitVec 32 := 0#32
  let v93 : BitVec 1 := Scalar.cmpi .ne v92 c0_i32_42
  v93

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S4096_S4096x1 : S4096.ShapeCasts S4096x1
  shapeCasts_S4096_S1x4096 : S4096.ShapeCasts S1x4096
  bcast_S_S4096 : S_.BroadcastsInDim S4096 (![] : Fin 0 → Fin S4096.rank)
  bcast_S4096_S4096x1_0 : S4096.BroadcastsInDim S4096x1 (![0] : Fin 1 → Fin S4096x1.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  transposes_S512x1024_p1_0_S1024x512 : S512x1024.Transposes [1, 0] S1024x512
  iota_S512x512_d0_w32 : S512x512.Iotas .tc 32 [0]
  iota_S512x512_d1_w32 : S512x512.Iotas .tc 32 [1]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  natLt_1_32 : 1 < 32
  reducesTo_S4096x1_S_d0_1 : S4096x1.ReducesTo [0, 1] S_
  h_S_ : 0 < S_.numel
  gather_S100_S4096x1_S4096_n_0_n_n_0_1_1_wf : GatherDims.WF S100 S4096x1 S4096 [] [0] [] [0] [] 1 ![1]
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .f32 = 32 ∨ (Rect.block (s := S4096x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .i32 = 32 ∨ (Rect.block (s := S4096x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .i32 = 32 ∨ (Rect.block (s := S1x4096) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S4096x1.size a
  hwx1_4 : ∀ i : grid1.Coords, EltTy.bits .f32 = 32 ∨ (Rect.block (s := S4096x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S4096x1.size a
  hwx1_5 : ∀ i : grid1.Coords, EltTy.bits .f32 = 32 ∨ (Rect.block (s := S4096x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S4096x1.size a
  hwx1_6 : ∀ i : grid1.Coords, EltTy.bits .f32 = 32 ∨ (Rect.block (s := S4096x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S4096x1.size a
  hwx1_7 : ∀ i : grid1.Coords, EltTy.bits .f32 = 32 ∨ (Rect.block (s := S4096x1) S512x1.size (cc1_transform_7 i) (hinb1_7 i)).WholeWords (EltTy.packing .f32)

variable [Facts₀]

def gather_S100_S4096x1_S4096_n_0_n_n_0_1_1 : GatherDims S100 S4096x1 S4096 where
  offsetDims := []
  collapsedSliceDims := [0]
  operandBatchingDims := []
  startIndicesBatchingDims := []
  startIndexMap := [0]
  indexVectorDim := 1
  sliceSizes := ![1]
  wf := gather_S100_S4096x1_S4096_n_0_n_n_0_1_1_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10_0) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10_1) S512x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v11) S512x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S4096x1024 : Shape := ⟨2, ![4096, 1024]⟩
abbrev S100 : Shape := ⟨1, ![100]⟩
abbrev S4096 : Shape := ⟨1, ![4096]⟩
abbrev S1024x4096 : Shape := ⟨2, ![1024, 4096]⟩
abbrev S4096x4096 : Shape := ⟨2, ![4096, 4096]⟩
abbrev S4096x1 : Shape := ⟨2, ![4096, 1]⟩
abbrev S1x4096 : Shape := ⟨2, ![1, 4096]⟩
abbrev S_ : Shape := ⟨0, ![]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S100, .f32⟩
  | .hbm, ⟨2, _⟩ => ⟨S4096, .i32⟩
  | .hbm, ⟨3, _⟩ => ⟨S1024x4096, .f32⟩
  | .hbm, ⟨4, _⟩ => ⟨S4096x4096, .f32⟩
  | .hbm, ⟨5, _⟩ => ⟨S4096x1, .i32⟩
  | .hbm, ⟨6, _⟩ => ⟨S1x4096, .i32⟩
  | .hbm, ⟨7, _⟩ => ⟨S4096x4096, .i32⟩
  | .hbm, ⟨8, _⟩ => ⟨S4096x4096, .i32⟩
  | .hbm, ⟨9, _⟩ => ⟨S4096x4096, .i1⟩
  | .hbm, ⟨10, _⟩ => ⟨S4096x4096, .i32⟩
  | .hbm, ⟨11, _⟩ => ⟨S4096x4096, .i32⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S4096x4096, .i1⟩
  | .hbm, ⟨17, _⟩ => ⟨S4096x4096, .i1⟩
  | .hbm, ⟨18, _⟩ => ⟨S_, .f32⟩
  | .hbm, ⟨19, _⟩ => ⟨S4096x4096, .f32⟩
  | .hbm, ⟨20, _⟩ => ⟨S4096x4096, .i1⟩
  | .hbm, ⟨21, _⟩ => ⟨S4096x4096, .i1⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1, .f32⟩
  | .hbm, ⟨39, _⟩ => ⟨S4096x4096, .f32⟩
  | .hbm, ⟨40, _⟩ => ⟨S4096x4096, .i1⟩
  | .hbm, ⟨41, _⟩ => ⟨S4096x4096, .i1⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x1, .f32⟩
  | .hbm, ⟨46, _⟩ => ⟨S4096x4096, .f32⟩
  | .hbm, ⟨47, _⟩ => ⟨S4096x4096, .i1⟩
  | .hbm, ⟨48, _⟩ => ⟨S4096x4096, .i1⟩
  | .hbm, ⟨49, _⟩ => ⟨S_, .i1⟩
  | .hbm, ⟨50, _⟩ => ⟨S4096, .i1⟩
  | .hbm, ⟨51, _⟩ => ⟨S_, .i1⟩
  | .hbm, ⟨52, _⟩ => ⟨S4096, .i1⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S4096x1, .i32⟩
  | .hbm, ⟨62, _⟩ => ⟨S4096, .f32⟩
  | .hbm, ⟨63, _⟩ => ⟨S4096x1, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S_, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S4096, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S4096x4096, .f32⟩
  | .hbm, ⟨80, _⟩ => ⟨S4096x4096, .f32⟩
  | .hbm, ⟨81, _⟩ => ⟨S_, .f32⟩
  | .hbm, ⟨82, _⟩ => ⟨S4096x4096, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S_, .f32⟩
  | .hbm, ⟨87, _⟩ => ⟨S4096, .f32⟩
  | .hbm, ⟨88, _⟩ => ⟨S4096, .f32⟩
  | .hbm, ⟨89, _⟩ => ⟨S_, .f32⟩
  | .hbm, ⟨90, _⟩ => ⟨S4096, .f32⟩
  | .hbm, ⟨91, _⟩ => ⟨S4096, .f32⟩
  | .hbm, ⟨92, _⟩ => ⟨S4096, .f32⟩
  | .hbm, ⟨93, _⟩ => ⟨S_, .f32⟩
  | .hbm, ⟨94, _⟩ => ⟨S_, .f32⟩
  | .hbm, ⟨95, _⟩ => ⟨S4096, .f32⟩
  | .hbm, ⟨96, _⟩ => ⟨S4096, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_14 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_16 : Ref sig .tc := ⟨.hbm, 93, rfl⟩
abbrev main_call2_v0 : Ref sig .tc := ⟨.hbm, 94, rfl⟩
abbrev main_call2_v1 : Ref sig .tc := ⟨.hbm, 95, rfl⟩
abbrev main_v68 : Ref sig .tc := ⟨.hbm, 96, rfl⟩
abbrev main_cst_17 : Ref sig .tc := ⟨.hbm, 97, rfl⟩
abbrev main_v69 : Ref sig .tc := ⟨.hbm, 98, rfl⟩
abbrev main_cst_18 : Ref sig .tc := ⟨.hbm, 99, rfl⟩
abbrev main_v70 : Ref sig .tc := ⟨.hbm, 100, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  reducesTo_S4096_S_d0 : S4096.ReducesTo [0] S_
  dot_S4096x1024_S1024x4096_S4096x4096_1_0_0_1_n_n_wf : DotDims.WF S4096x1024 S1024x4096 S4096x4096 [1] [0] [0] [1] [] []
  gather_S100_S4096x1_S4096_n_0_n_n_0_1_1_wf : GatherDims.WF S100 S4096x1 S4096 [] [0] [] [0] [] 1 ![1]

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def gather_S100_S4096x1_S4096_n_0_n_n_0_1_1 : GatherDims S100 S4096x1 S4096 where
  offsetDims := []
  collapsedSliceDims := [0]
  operandBatchingDims := []
  startIndicesBatchingDims := []
  startIndexMap := [0]
  indexVectorDim := 1
  sliceSizes := ![1]
  wf := gather_S100_S4096x1_S4096_n_0_n_n_0_1_1_wf

class Facts : Prop extends Facts₀ where

variable [Facts]
-- ==== Proof.K.Share.lean ====
import proofs.«115905_j90486370992708_1_alg».proof.Proof.Gen.Kernel.Launch

/-! # One array handed to two input windows: entering and leaving a kernel region

Both kernel regions read `main_arg0` through two input windows (a row block and a column block of the same
matrix). The pipeline's proof data holds each window's array at a share of its own, so the full share of
`main_arg0` is dealt as two halves, one per window, when the region is entered, and the halves are joined back
when it is left (both windows end holding the same contents, the array being read only). Every other array
belongs to one window and stays at the full share. -/

noncomputable section

namespace Cert.Kernel.Share

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-! ## The two halves of the full share -/

/-- The share of `main_arg0` held for the first window on it, -/
abbrev qL : PosShare TreeShare := fullShare.left
/-- and for the second. -/
abbrev qR : PosShare TreeShare := fullShare.right
/-- Together they are the full share. -/
theorem qL_qR : fullShare ∈ PCS.op qL qR := PosShare.mem_left_op_right fullShare

/-- Each window's share in region 0: the halves for the two windows on `main_arg0`, the full share otherwise. -/
abbrev q0 : Fin 6 → PosShare TreeShare := fun | 0 => qL | 1 => qR | _ => fullShare
/-- Each window's share in region 1, likewise. -/
abbrev q1 : Fin 8 → PosShare TreeShare := fun | 0 => qL | 1 => qR | _ => fullShare

/-- A whole buffer at the full share is the same buffer at the two halves. -/
theorem pt_halves {ℓ : Loc nD τ sig} (f : Buf (Elt F) ℓ) :
    (ℓ ↦{fullShare} f : sProp 𝕄) ⊣⊢ iprop((ℓ ↦{qL} f) ∗ ℓ ↦{qR} f) := pointsTo_share qL_qR

/-! ## Region 0 (custom_call 0) -/

section R0

variable {c : Dev nD} (dat : Dat τ (Elt F) Unit ℕ (UR sig nD τ) ℕ cfg0 c)

/-- The share each window's array is held at: an output's is full whatever `q` says, and `q0` says full there. -/
theorem share0 (hq : ∀ w, dat.q w = q0 w) : ∀ w : Fin 6, dat.share w = q0 w := fun
  | 0 => (if_neg (by decide)).trans (hq 0)
  | 1 => (if_neg (by decide)).trans (hq 1)
  | 2 => (if_neg (by decide)).trans (hq 2)
  | 3 => (if_neg (by decide)).trans (hq 3)
  | 4 => if_pos (by decide)
  | 5 => if_pos (by decide)
  | ⟨_ + 6, h⟩ => absurd h (Nat.not_lt.2 (Nat.le_add_left _ _))

/-- The region's arrays at contents read off a valuation `V`: each window's whole buffer at the window's share. -/
theorem arrays0_eq (hq : ∀ w, dat.q w = q0 w) (V : (b : Ref sig .tc) → Buf (Elt F) ((c : Thread nD τ).loc b))
    (Fa : (w : Fin cfg0.W) → Buf (Elt F) ((cfg0.win w).arr.view.loc (c : Thread nD τ))) (hFa : ∀ w, Fa w = V (Pipeline.arrRef spec0 w)) :
    (dat.arrays Fa : sProp 𝕄)
      = bigSep Finset.univ fun w : Fin 6 => (((c : Thread nD τ).loc (Pipeline.arrRef spec0 w)) ↦{q0 w} V (Pipeline.arrRef spec0 w) : sProp 𝕄) := by
  unfold Pipeline.Dat.arrays
  exact bigSep_congr fun w _ => by rw [(arr_whole0 w).set_eq_univ, share0 dat hq w, hFa w]

/-- The five buffers behind the six windows, one by one. -/
theorem arrBufs0_eq (V : (b : Ref sig .tc) → Buf (Elt F) ((c : Thread nD τ).loc b)) :
    (Pipeline.arrBufs spec0 c V : sProp 𝕄)
      = iprop((((c : Thread nD τ).loc main_arg0) ↦{fullShare} V main_arg0) ∗ (((c : Thread nD τ).loc main_v0) ↦{fullShare} V main_v0)
          ∗ (((c : Thread nD τ).loc main_v1) ↦{fullShare} V main_v1) ∗ (((c : Thread nD τ).loc main_v10_0) ↦{fullShare} V main_v10_0)
          ∗ (((c : Thread nD τ).loc main_v10_1) ↦{fullShare} V main_v10_1)) := by
  unfold Pipeline.arrBufs
  rw [bigSep_eq_bigSepL_of_eq [main_arg0, main_v0, main_v1, main_v10_0, main_v10_1] (by decide) (by decide)]
  rfl

/-- The core's unscoped buffers are the five buffers behind the windows and the rest. -/
theorem unscopedBufs0_split (V : (b : Ref sig .tc) → Buf (Elt F) ((c : Thread nD τ).loc b)) :
    (unscopedBufs c V : sProp 𝕄) = iprop(Pipeline.arrBufs spec0 c V ∗ Pipeline.unscopedRest spec0 c V) :=
  Pipeline.unscopedBufs_split₀ (fun _ : Unit => cfg0) () winFacts₀0.arr_unscoped c V

/-- The windows' arrays at contents read off a valuation `V`: `main_arg0` at the two halves, the rest whole. -/
theorem arrays0_of (hq : ∀ w, dat.q w = q0 w) (V : (b : Ref sig .tc) → Buf (Elt F) ((c : Thread nD τ).loc b))
    (Fa : (w : Fin cfg0.W) → Buf (Elt F) ((cfg0.win w).arr.view.loc (c : Thread nD τ))) (hFa : ∀ w, Fa w = V (Pipeline.arrRef spec0 w)) :
    (dat.arrays Fa : sProp 𝕄)
      = iprop((((c : Thread nD τ).loc main_arg0) ↦{qL} V main_arg0) ∗ (((c : Thread nD τ).loc main_arg0) ↦{qR} V main_arg0)
          ∗ (((c : Thread nD τ).loc main_v0) ↦{fullShare} V main_v0) ∗ (((c : Thread nD τ).loc main_v1) ↦{fullShare} V main_v1)
          ∗ (((c : Thread nD τ).loc main_v10_0) ↦{fullShare} V main_v10_0) ∗ (((c : Thread nD τ).loc main_v10_1) ↦{fullShare} V main_v10_1)) := by
  rw [arrays0_eq dat hq V Fa hFa, bigSep_W0]
  rfl

/-- ENTRY: the core's unscoped buffers at `V` are the region's arrays at contents read off `V` — `main_arg0` dealt to
    its two windows by halves — and the unscoped rest. -/
theorem arrays_of_unscopedBufs0 (hq : ∀ w, dat.q w = q0 w) (V : (b : Ref sig .tc) → Buf (Elt F) ((c : Thread nD τ).loc b))
    (Fa : (w : Fin cfg0.W) → Buf (Elt F) ((cfg0.win w).arr.view.loc (c : Thread nD τ))) (hFa : ∀ w, Fa w = V (Pipeline.arrRef spec0 w)) :
    (unscopedBufs c V : sProp 𝕄) ⊢ iprop(dat.arrays Fa ∗ Pipeline.unscopedRest spec0 c V) := by
  rw [unscopedBufs0_split, arrBufs0_eq, arrays0_of dat hq V Fa hFa]
  refine sep_mono ?_ .rfl
  exact (sep_mono (pt_halves _).1 .rfl).trans sep_assoc.1

/-- EXIT: the region's arrays at contents `Fa` and the unscoped rest at `V` are the core's unscoped buffers at any
    valuation `V'` that has the arrays at `Fa` and agrees with `V` off them; the two halves of `main_arg0`, both at
    `V' main_arg0`, join back. -/
theorem unscopedBufs_of_arrays0 (hq : ∀ w, dat.q w = q0 w) (V V' : (b : Ref sig .tc) → Buf (Elt F) ((c : Thread nD τ).loc b))
    (Fa : (w : Fin cfg0.W) → Buf (Elt F) ((cfg0.win w).arr.view.loc (c : Thread nD τ))) (hFa : ∀ w, Fa w = V' (Pipeline.arrRef spec0 w))
    (hrest : ∀ b, b ∉ Finset.univ.image (Pipeline.arrRef spec0) → V' b = V b) :
    iprop(dat.arrays Fa ∗ Pipeline.unscopedRest spec0 c V) ⊢ (unscopedBufs c V' : sProp 𝕄) := by
  rw [unscopedBufs0_split, arrBufs0_eq, arrays0_of dat hq V' Fa hFa]
  refine sep_mono ?_ (Entails.of_eq ?_)
  · exact sep_assoc.2.trans (sep_mono (pt_halves _).2 .rfl)
  · unfold Pipeline.unscopedRest
    exact bigSep_congr fun b hb => by rw [hrest b (Finset.mem_sdiff.mp hb).2]

end R0

/-! ## Region 1 (custom_call 1) -/

section R1

variable {c : Dev nD} (dat : Dat τ (Elt F) Unit ℕ (UR sig nD τ) ℕ cfg1 c)

/-- The share each window's array is held at: the output's is full whatever `q` says, and `q1` says full there. -/
theorem share1 (hq : ∀ w, dat.q w = q1 w) : ∀ w : Fin 8, dat.share w = q1 w := fun
  | 0 => (if_neg (by decide)).trans (hq 0)
  | 1 => (if_neg (by decide)).trans (hq 1)
  | 2 => (if_neg (by decide)).trans (hq 2)
  | 3 => (if_neg (by decide)).trans (hq 3)
  | 4 => (if_neg (by decide)).trans (hq 4)
  | 5 => (if_neg (by decide)).trans (hq 5)
  | 6 => (if_neg (by decide)).trans (hq 6)
  | 7 => if_pos (by decide)
  | ⟨_ + 8, h⟩ => absurd h (Nat.not_lt.2 (Nat.le_add_left _ _))

/-- The region's arrays at contents read off a valuation `V`: each window's whole buffer at the window's share. -/
theorem arrays1_eq (hq : ∀ w, dat.q w = q1 w) (V : (b : Ref sig .tc) → Buf (Elt F) ((c : Thread nD τ).loc b))
    (Fa : (w : Fin cfg1.W) → Buf (Elt F) ((cfg1.win w).arr.view.loc (c : Thread nD τ))) (hFa : ∀ w, Fa w = V (Pipeline.arrRef spec1 w)) :
    (dat.arrays Fa : sProp 𝕄)
      = bigSep Finset.univ fun w : Fin 8 => (((c : Thread nD τ).loc (Pipeline.arrRef spec1 w)) ↦{q1 w} V (Pipeline.arrRef spec1 w) : sProp 𝕄) := by
  unfold Pipeline.Dat.arrays
  exact bigSep_congr fun w _ => by rw [(arr_whole1 w).set_eq_univ, share1 dat hq w, hFa w]

/-- The seven buffers behind the eight windows, one by one. -/
theorem arrBufs1_eq (V : (b : Ref sig .tc) → Buf (Elt F) ((c : Thread nD τ).loc b)) :
    (Pipeline.arrBufs spec1 c V : sProp 𝕄)
      = iprop((((c : Thread nD τ).loc main_arg0) ↦{fullShare} V main_arg0) ∗ (((c : Thread nD τ).loc main_v0) ↦{fullShare} V main_v0)
          ∗ (((c : Thread nD τ).loc main_v1) ↦{fullShare} V main_v1) ∗ (((c : Thread nD τ).loc main_v9) ↦{fullShare} V main_v9)
          ∗ (((c : Thread nD τ).loc main_v10_0) ↦{fullShare} V main_v10_0) ∗ (((c : Thread nD τ).loc main_v10_1) ↦{fullShare} V main_v10_1)
          ∗ (((c : Thread nD τ).loc main_v11) ↦{fullShare} V main_v11)) := by
  unfold Pipeline.arrBufs
  rw [bigSep_eq_bigSepL_of_eq [main_arg0, main_v0, main_v1, main_v9, main_v10_0, main_v10_1, main_v11] (by decide) (by decide)]
  rfl

/-- The core's unscoped buffers are the seven buffers behind the windows and the rest. -/
theorem unscopedBufs1_split (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ (fun _ : Unit => cfg1) () winFacts₀1.arr_unscoped c V

/-- The windows' arrays at contents read off a valuation `V`: `main_arg0` at the two halves, the rest whole. -/
theorem arrays1_of (hq : ∀ w, dat.q w = q1 w) (V : (b : Ref sig .tc) → Buf (Elt F) ((c : Thread nD τ).loc b))
    (Fa : (w : Fin cfg1.W) → Buf (Elt F) ((cfg1.win w).arr.view.loc (c : Thread nD τ))) (hFa : ∀ w, Fa w = V (Pipeline.arrRef spec1 w)) :
    (dat.arrays Fa : sProp 𝕄)
      = iprop((((c : Thread nD τ).loc main_arg0) ↦{qL} V main_arg0) ∗ (((c : Thread nD τ).loc main_arg0) ↦{qR} V main_arg0)
          ∗ (((c : Thread nD τ).loc main_v0) ↦{fullShare} V main_v0) ∗ (((c : Thread nD τ).loc main_v1) ↦{fullShare} V main_v1)
          ∗ (((c : Thread nD τ).loc main_v9) ↦{fullShare} V main_v9) ∗ (((c : Thread nD τ).loc main_v10_0) ↦{fullShare} V main_v10_0)
          ∗ (((c : Thread nD τ).loc main_v10_1) ↦{fullShare} V main_v10_1) ∗ (((c : Thread nD τ).loc main_v11) ↦{fullShare} V main_v11)) := by
  rw [arrays1_eq dat hq V Fa hFa, bigSep_W1]
  rfl

/-- ENTRY: the core's unscoped buffers at `V` are the region's arrays at contents read off `V` — `main_arg0` dealt to
    its two windows by halves — and the unscoped rest. -/
theorem arrays_of_unscopedBufs1 (hq : ∀ w, dat.q w = q1 w) (V : (b : Ref sig .tc) → Buf (Elt F) ((c : Thread nD τ).loc b))
    (Fa : (w : Fin cfg1.W) → Buf (Elt F) ((cfg1.win w).arr.view.loc (c : Thread nD τ))) (hFa : ∀ w, Fa w = V (Pipeline.arrRef spec1 w)) :
    (unscopedBufs c V : sProp 𝕄) ⊢ iprop(dat.arrays Fa ∗ Pipeline.unscopedRest spec1 c V) := by
  rw [unscopedBufs1_split, arrBufs1_eq, arrays1_of dat hq V Fa hFa]
  refine sep_mono ?_ .rfl
  exact (sep_mono (pt_halves _).1 .rfl).trans sep_assoc.1

/-- EXIT: the region's arrays at contents `Fa` and the unscoped rest at `V` are the core's unscoped buffers at any
    valuation `V'` that has the arrays at `Fa` and agrees with `V` off them; the two halves of `main_arg0`, both at
    `V' main_arg0`, join back. -/
theorem unscopedBufs_of_arrays1 (hq : ∀ w, dat.q w = q1 w) (V V' : (b : Ref sig .tc) → Buf (Elt F) ((c : Thread nD τ).loc b))
    (Fa : (w : Fin cfg1.W) → Buf (Elt F) ((cfg1.win w).arr.view.loc (c : Thread nD τ))) (hFa : ∀ w, Fa w = V' (Pipeline.arrRef spec1 w))
    (hrest : ∀ b, b ∉ Finset.univ.image (Pipeline.arrRef spec1) → V' b = V b) :
    iprop(dat.arrays Fa ∗ Pipeline.unscopedRest spec1 c V) ⊢ (unscopedBufs c V' : sProp 𝕄) := by
  rw [unscopedBufs1_split, arrBufs1_eq, arrays1_of dat hq V' Fa hFa]
  refine sep_mono ?_ (Entails.of_eq ?_)
  · exact sep_assoc.2.trans (sep_mono (pt_halves _).2 .rfl)
  · unfold Pipeline.unscopedRest
    exact bigSep_congr fun b hb => by rw [hrest b (Finset.mem_sdiff.mp hb).2]

end R1

end Cert.Kernel.Share

end
-- ==== Proof.K.R0Cond.lean ====
import proofs.«115905_j90486370992708_1_alg».proof.Proof.Gen.Kernel.Launch
import proofs.«115905_j90486370992708_1_alg».proof.Proof.Gen.Kernel.Skeleton
import proofs.«115905_j90486370992708_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.MinMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The two conditions the body of the first kernel branches on, in closed form over the 8 × 8 grid: the column
    coordinate is the point's number modulo 8. -/

/-- The accumulators are reset at the first column block. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- The row's minimum and maximum are written out at the last column block. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

end Cert.Kernel.MinMax

end
-- ==== Proof.K.R0RunF.lean ====
import proofs.«115905_j90486370992708_1_alg».proof.Proof.K.R0Cond

set_option maxRecDepth 16384

noncomputable section

namespace Cert.Kernel.MinMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : condFirst i) (hc1 : ¬condLast i)
    (x0 x1 : Vec F S512x1024 .f32) (x2 : Vec F S512x1 .i32) (x3 : Vec F S1x512 .i32) :
    Σ' (LS0 : List (View.Piece (Elt F) S512x1 .f32)), { LS1 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__minmax_kernel i arg2 harg2 arg3 harg3 arg4 harg4 arg5 harg5 arg6 harg6 arg7 harg7 arg8 harg8 arg9 harg9) K } := by
  refine ⟨?_, ?_, fun xi4 xi5 E K => ?run⟩
  case run =>
    simp only [cc0__minmax_kernel_eq_skeleton]; unfold cc0__minmax_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; iexact H7

end Cert.Kernel.MinMax

end
-- ==== Proof.K.R0RunM.lean ====
import proofs.«115905_j90486370992708_1_alg».proof.Proof.K.R0RunF

set_option maxRecDepth 16384

noncomputable section

namespace Cert.Kernel.MinMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : ¬condLast i)
    (x0 x1 : Vec F S512x1024 .f32) (x2 : Vec F S512x1 .i32) (x3 : Vec F S1x512 .i32) (xs0 xs1 : Vec F S512x1 .f32) :
    Σ' (LS0 : List (View.Piece (Elt F) S512x1 .f32)), { LS1 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__minmax_kernel i arg2 harg2 arg3 harg3 arg4 harg4 arg5 harg5 arg6 harg6 arg7 harg7 arg8 harg8 arg9 harg9) K } := by
  refine ⟨?_, ?_, fun xi4 xi5 E K => ?run⟩
  case run =>
    simp only [cc0__minmax_kernel_eq_skeleton]; unfold cc0__minmax_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; iexact H7

end Cert.Kernel.MinMax

end
-- ==== Proof.K.R0RunL.lean ====
import proofs.«115905_j90486370992708_1_alg».proof.Proof.K.R0RunM

set_option maxRecDepth 16384

noncomputable section

namespace Cert.Kernel.MinMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : condLast i)
    (x0 x1 : Vec F S512x1024 .f32) (x2 : Vec F S512x1 .i32) (x3 : Vec F S1x512 .i32) (xs0 xs1 : Vec F S512x1 .f32) :
    Σ' (L4 : List (View.Piece (Elt F) S512x1 .f32)) (L5 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__minmax_kernel i arg2 harg2 arg3 harg3 arg4 harg4 arg5 harg5 arg6 harg6 arg7 harg7 arg8 harg8 arg9 harg9) K } := by
  refine ⟨?_, ?_, ?_, ?_, fun  E K => ?run⟩
  case run =>
    simp only [cc0__minmax_kernel_eq_skeleton]; unfold cc0__minmax_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    isplitl [H6]
    · iexists _; iexact H6
    iexists _; iexact H7

end Cert.Kernel.MinMax

end
-- ==== Proof.K.R0Dat.lean ====
import proofs.«115905_j90486370992708_1_alg».proof.Proof.K.R0RunL

set_option maxRecDepth 16384

noncomputable section

namespace Cert.Kernel.MinMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's proof data

The grid is 8 row blocks × 8 column blocks, point `t` at row block `t / 8` and column block `t % 8`. The body keeps two
running accumulators (the least similarity over the row's positives seen so far, the greatest over its negatives) in
two scratch buffers: reset at column block 0, updated at every column block, copied to the two output blocks at column
block 7. What the accumulators hold after each point is stated by recursion on the point. -/

section
variable (V : (c : Dev nD) → (b : Ref sig .tc) → Buf (Elt F) ((c : Thread nD τ).loc b))
variable (qL qR : PosShare TreeShare)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4_of : ∀ t : Fin cfg0.N, ¬condLast (grid0.coords t) → cfg0.idle 4 (grid0.coords t) = true := by decide +kernel
theorem noFlush4_of : ∀ t : Fin cfg0.N, ¬condLast (grid0.coords t) → (cfg0.win 4).flush t = false := by decide +kernel
theorem live4_of : ∀ t : Fin cfg0.N, condLast (grid0.coords t) → cfg0.idle 4 (grid0.coords t) = false := by decide +kernel
theorem idle5_of : ∀ t : Fin cfg0.N, ¬condLast (grid0.coords t) → cfg0.idle 5 (grid0.coords t) = true := by decide +kernel
theorem noFlush5_of : ∀ t : Fin cfg0.N, ¬condLast (grid0.coords t) → (cfg0.win 5).flush t = false := by decide +kernel
theorem live5_of : ∀ t : Fin cfg0.N, condLast (grid0.coords t) → cfg0.idle 5 (grid0.coords t) = false := by decide +kernel

/-! ## The memrefs the body is called with -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
abbrev scM0 : Memref sig .tc .vmem S512x1 .f32 := Memref.whole cc0_scratch0
abbrev scM1 : Memref sig .tc .vmem S512x1 .f32 := Memref.whole cc0_scratch1
/-- Views through which the contents of a 512 × 1 buffer are stated (the choice does not matter once the pieces cover it). -/
abbrev VS0 : View sig .tc .vmem S512x1 .f32 := scM0.view
abbrev VS1 : View sig .tc .vmem S512x1 .f32 := scM1.view
abbrev VO : View sig .tc .vmem S512x1 .f32 := (Memref.whole cc0_stg4_0 : Memref sig .tc .vmem S512x1 .f32).view

/-- The scoped buffers that are neither staging buffers of this call nor its two accumulators, each at some contents. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f))

/-- What the region's invariant holds before the first point: the two accumulators and the other scoped buffers at
    some contents, the generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ others c) ∗ (∃ r, prngReg c r)) := by
  unfold Pipeline.ΦA; rw [scopedRest0_eq]; simp only [scM0, scM1, owns_whole]; try rfl

/-! ## What each case of the body leaves -/

/-- An output block at a point where the body does not store into it: a placeholder nothing consults (the window is
    neither written back there nor read at the next point). -/
def idleOut : Vec F S512x1 .f32 := VO.read (Elt F) VO.junk

/-- The two accumulators after a point at column block 0: the pieces the run stores, read back. -/
def firstAt (c : Dev nD) (t : Fin cfg0.N) (h0 : t.val % 8 = 0) : Vec F S512x1 .f32 × Vec F S512x1 .f32 :=
  let R := runFirst (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcondFirst t).mpr h0) (fun h => by have := (hcondLast t).mp h; omega) (iblk V c 0 t) (iblk V c 1 t) (iblk V c 2 t) (iblk V c 3 t)
  (VS0.read (Elt F) (VS0.writes (Elt F) VS0.junk R.1), VS1.read (Elt F) (VS1.writes (Elt F) VS1.junk R.2.1))

/-- The two accumulators after a point at a column block strictly between 0 and 7, from what the point before left. -/
def midAt (c : Dev nD) (t : Fin cfg0.N) (h0 : ¬t.val % 8 = 0) (h7 : ¬t.val % 8 = 7) (xs : Vec F S512x1 .f32 × Vec F S512x1 .f32) : Vec F S512x1 .f32 × Vec F S512x1 .f32 :=
  let R := runMid (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcondFirst t).mp h)) (fun h => h7 ((hcondLast t).mp h)) (iblk V c 0 t) (iblk V c 1 t) (iblk V c 2 t) (iblk V c 3 t) xs.1 xs.2
  (VS0.read (Elt F) (VS0.writes (Elt F) VS0.junk R.1), VS1.read (Elt F) (VS1.writes (Elt F) VS1.junk R.2.1))

/-- The two output blocks and the two accumulators after a point at column block 7, from what the point before left. -/
def lastAt (c : Dev nD) (t : Fin cfg0.N) (h7 : t.val % 8 = 7) (xs : Vec F S512x1 .f32 × Vec F S512x1 .f32) : (Vec F S512x1 .f32 × Vec F S512x1 .f32) × (Vec F S512x1 .f32 × Vec F S512x1 .f32) :=
  let R := runLast (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => by have := (hcondFirst t).mp h; omega) ((hcondLast t).mpr h7) (iblk V c 0 t) (iblk V c 1 t) (iblk V c 2 t) (iblk V c 3 t) xs.1 xs.2
  ((VO.read (Elt F) (VO.writes (Elt F) VO.junk R.1), VO.read (Elt F) (VO.writes (Elt F) VO.junk R.2.1)),
   (VS0.read (Elt F) (VS0.writes (Elt F) VS0.junk R.2.2.1), VS1.read (Elt F) (VS1.writes (Elt F) VS1.junk R.2.2.2.1)))

/-- THE RECURSION over the points: the two output blocks and the two accumulators after the body at point `n`. -/
def outsAt (c : Dev nD) : (n : ℕ) → n < cfg0.N → (Vec F S512x1 .f32 × Vec F S512x1 .f32) × (Vec F S512x1 .f32 × Vec F S512x1 .f32)
  | 0, hn => ((idleOut, idleOut), firstAt V c ⟨0, hn⟩ (Nat.zero_mod 8))
  | n + 1, hn =>
    if h0 : (n + 1) % 8 = 0 then ((idleOut, idleOut), firstAt V c ⟨n + 1, hn⟩ h0)
    else if h7 : (n + 1) % 8 = 7 then lastAt V c ⟨n + 1, hn⟩ h7 (outsAt c n (Nat.lt_of_succ_lt hn)).2
    else ((idleOut, idleOut), midAt V c ⟨n + 1, hn⟩ h0 h7 (outsAt c n (Nat.lt_of_succ_lt hn)).2)

theorem outsAt_first (c : Dev nD) (t : Fin cfg0.N) (h0 : t.val % 8 = 0) :
    outsAt V c t.val t.isLt = ((idleOut, idleOut), firstAt V c t h0) := by
  obtain ⟨n, hn⟩ := t
  cases n with
  | zero => exact rfl
  | succ n => exact (dif_pos h0).trans rfl

theorem outsAt_mid (c : Dev nD) (t : Fin cfg0.N) (h0 : ¬t.val % 8 = 0) (h7 : ¬t.val % 8 = 7) :
    outsAt V c t.val t.isLt = ((idleOut, idleOut), midAt V c t h0 h7 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem outsAt_last (c : Dev nD) (t : Fin cfg0.N) (h7 : t.val % 8 = 7) :
    outsAt V c t.val t.isLt = lastAt V c t h7 (outsAt V c (t.val - 1) (Nat.lt_of_le_of_lt (Nat.sub_le _ _) t.isLt)).2 := by
  obtain ⟨n, hn⟩ := t
  cases n with
  | zero => exact (by exfalso; (try dsimp only at h7); omega)
  | succ n => exact (dif_neg (by dsimp only at h7 ⊢; omega)).trans ((dif_pos h7).trans rfl)

/-- The region's invariant before position `n`: before the first point the launch's; afterwards the two accumulators
    at what the point before left, the other scoped buffers at some contents, the generator register at some state. -/
def PhiS (c : Dev nD) : (n : ℕ) → n ≤ cfg0.N → sProp 𝕄
  | 0, _ => Pipeline.ΦA spec0 c
  | n + 1, hn => iprop(iprop(owns (c : Thread nD τ) scM0 fullShare (outsAt V c n hn).2.1 ∗ owns (c : Thread nD τ) scM1 fullShare (outsAt V c n hn).2.2 ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare (outsAt V c n hn).2.1 ∗ owns (c : Thread nD τ) scM1 fullShare (outsAt V c n hn).2.2 ∗ others c) ∗ (∃ r, prngReg c r)) := rfl
theorem PhiS_pos (c : Dev nD) (n : ℕ) (h : n ≤ cfg0.N) (hz : n ≠ 0) :
    PhiS V c n h = iprop(iprop(owns (c : Thread nD τ) scM0 fullShare (outsAt V c (n - 1) (by omega)).2.1 ∗ owns (c : Thread nD τ) scM1 fullShare (outsAt V c (n - 1) (by omega)).2.2 ∗ others c) ∗ (∃ r, prngReg c r)) := by
  cases n with
  | zero => exact absurd rfl hz
  | succ n => rfl

/-- Whatever the position, the invariant gives back the launch's: the accumulators' named contents are forgotten. -/
theorem PhiS_forget (c : Dev nD) (n : ℕ) (h : n ≤ cfg0.N) : PhiS V c n h ⊢ Pipeline.ΦA spec0 c := by
  cases n with
  | zero => exact Idealize.SL.BI.Entails.refl _
  | succ n =>
    rw [PhiS_succ, PhiA_eq]
    iintro ⟨⟨HS0, HS1, Hr⟩, Hg⟩
    isplitr [Hg]
    · isplitl [HS0]; · iexists _; iexact HS0
      isplitl [HS1]; · iexists _; iexact HS1
      iexact Hr
    · iexact Hg

/-! ## The proof data -/

/-- The proof data of the first kernel on core `c`, at the entry contents `V`: each input's buffer at its block, the
    two outputs' and the two accumulators' by the recursion; nothing owed; the array the row-block and column-block
    windows share held by the two at the shares `qL`, `qR`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1.1
    | ⟨5, _⟩ => (outsAt V c t.val t.isLt).1.2
  Φ t := PhiS V c t.val (Nat.le_of_lt_succ t.isLt)
  q w := match w with
    | ⟨0, _⟩ => qL
    | ⟨1, _⟩ => qR
    | ⟨2, _⟩ => fullShare
    | ⟨3, _⟩ => fullShare
    | ⟨4, _⟩ => fullShare
    | ⟨5, _⟩ => fullShare
  owed _ := 0

theorem A_eq (c : Dev nD) (w : Fin cfg0.W) : (dat0 V qL qR c).A w = V c (Pipeline.arrRef spec0 w) := by
  dsimp only [dat0]
theorem Phi_castSucc (c : Dev nD) (t : Fin cfg0.N) :
    (dat0 V qL qR c).Φ t.castSucc = PhiS V c t.val (Nat.le_of_lt t.isLt) := by
  dsimp only [dat0]; simp only [Fin.coe_castSucc]
theorem after0 (c : Dev nD) (t : Fin cfg0.N) : (dat0 V qL qR c).after 0 t = iblk V c 0 t := by dsimp only [dat0]
theorem after1 (c : Dev nD) (t : Fin cfg0.N) : (dat0 V qL qR c).after 1 t = iblk V c 1 t := by dsimp only [dat0]
theorem after2 (c : Dev nD) (t : Fin cfg0.N) : (dat0 V qL qR c).after 2 t = iblk V c 2 t := by dsimp only [dat0]
theorem after3 (c : Dev nD) (t : Fin cfg0.N) : (dat0 V qL qR c).after 3 t = iblk V c 3 t := by dsimp only [dat0]
theorem after4 (c : Dev nD) (t : Fin cfg0.N) : (dat0 V qL qR c).after 4 t = (outsAt V c t.val t.isLt).1.1 := by dsimp only [dat0]
theorem after5 (c : Dev nD) (t : Fin cfg0.N) : (dat0 V qL qR c).after 5 t = (outsAt V c t.val t.isLt).1.2 := by dsimp only [dat0]
theorem before0 (c : Dev nD) (t : Fin cfg0.N) (d) : (dat0 V qL qR c).before 0 t d = iblk V c 0 t :=
  before_in0 V (dat0 V qL qR c) (A_eq V qL qR c 0) (after0 V qL qR c) t d
theorem before1 (c : Dev nD) (t : Fin cfg0.N) (d) : (dat0 V qL qR c).before 1 t d = iblk V c 1 t :=
  before_in1 V (dat0 V qL qR c) (A_eq V qL qR c 1) (after1 V qL qR c) t d
theorem before2 (c : Dev nD) (t : Fin cfg0.N) (d) : (dat0 V qL qR c).before 2 t d = iblk V c 2 t :=
  before_in2 V (dat0 V qL qR c) (A_eq V qL qR c 2) (after2 V qL qR c) t d
theorem before3 (c : Dev nD) (t : Fin cfg0.N) (d) : (dat0 V qL qR c).before 3 t d = iblk V c 3 t :=
  before_in3 V (dat0 V qL qR c) (A_eq V qL qR c 3) (after3 V qL qR c) t d

end

end Cert.Kernel.MinMax

end
-- ==== Proof.K.R1Cond.lean ====
import proofs.«115905_j90486370992708_1_alg».proof.Proof.Gen.Kernel.Launch
import proofs.«115905_j90486370992708_1_alg».proof.Proof.Gen.Kernel.Skeleton
import proofs.«115905_j90486370992708_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The two conditions the body of the second kernel branches on, in closed form over the 8 × 8 grid. -/

/-- The four accumulators are reset at the first column block. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- The row's loss is written out at the last column block. -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

end Cert.Kernel.Loss

end
-- ==== Proof.K.R1RunF.lean ====
import proofs.«115905_j90486370992708_1_alg».proof.Proof.K.R1Cond

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : condFirst i) (hc1 : ¬condLast i)
    (x0 x1 : Vec F S512x1024 .f32) (x2 : Vec F S512x1 .i32) (x3 : Vec F S1x512 .i32) (x4 x5 x6 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi7 E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; iexact H9
    isplitl [H10]
    · iexists _; iexact H10
    iexists _; iexact H11

end Cert.Kernel.Loss

end
-- ==== Proof.K.R1RunM.lean ====
import proofs.«115905_j90486370992708_1_alg».proof.Proof.K.R1RunF

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : ¬condLast i)
    (x0 x1 : Vec F S512x1024 .f32) (x2 : Vec F S512x1 .i32) (x3 : Vec F S1x512 .i32) (x4 x5 x6 : Vec F S512x1 .f32) (xs0 xs1 xs2 xs3 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi7 E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; iexact H9
    isplitl [H10]
    · iexists _; iexact H10
    iexists _; iexact H11

end Cert.Kernel.Loss

end
-- ==== Proof.K.R1RunL.lean ====
import proofs.«115905_j90486370992708_1_alg».proof.Proof.K.R1RunM

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i)
    (x0 x1 : Vec F S512x1024 .f32) (x2 : Vec F S512x1 .i32) (x3 : Vec F S1x512 .i32) (x4 x5 x6 : Vec F S512x1 .f32) (xs0 xs1 xs2 xs3 : Vec F S512x1 .f32) :
    Σ' (L7 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun  E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; iexact H8
    isplitl [H9]
    · iexists _; iexact H9
    isplitl [H10]
    · iexists _; iexact H10
    iexists _; iexact H11

end Cert.Kernel.Loss

end
-- ==== Proof.K.R1Dat.lean ====
import proofs.«115905_j90486370992708_1_alg».proof.Proof.K.R1RunL

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's proof data

The grid is 8 row blocks × 8 column blocks, point `t` at row block `t / 8` and column block `t % 8`. The body keeps four
running accumulators in four scratch buffers (the sum of the kept positives' exponentials, the sum of the kept
negatives', and for each kind the greatest 0/1 keep flag seen so far): reset at column block 0, updated at every column
block; at column block 7 the row's loss is computed from them and stored into the output block. What the accumulators
hold after each point is stated by recursion on the point. -/

section
variable (V : (c : Dev nD) → (b : Ref sig .tc) → Buf (Elt F) ((c : Thread nD τ).loc b))
variable (qL qR : PosShare TreeShare)

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before_in3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before_in4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before_in5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before_in6 {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
theorem live5 : ∀ t : Fin cfg1.N, cfg1.idle 5 (grid1.coords t) = false := by decide +kernel
theorem live6 : ∀ t : Fin cfg1.N, cfg1.idle 6 (grid1.coords t) = false := by decide +kernel
theorem idle7_of : ∀ t : Fin cfg1.N, ¬condLast (grid1.coords t) → cfg1.idle 7 (grid1.coords t) = true := by decide +kernel
theorem noFlush7_of : ∀ t : Fin cfg1.N, ¬condLast (grid1.coords t) → (cfg1.win 7).flush t = false := by decide +kernel
theorem live7_of : ∀ t : Fin cfg1.N, condLast (grid1.coords t) → cfg1.idle 7 (grid1.coords t) = false := by decide +kernel

/-! ## The memrefs the body is called with -/

abbrev ms0 (t : Fin cfg1.N) : Memref sig .tc .vmem S512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S512x1 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S512x1 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x1 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S512x1 .f32 := win1_7.stage (cfg1.slots t 7)
abbrev hs7 (t : Fin cfg1.N) : (ms7 t).IsWhole := hstage1_7 ((cfg1.slots t 7).cast nbuf1_7)
abbrev scM0 : Memref sig .tc .vmem S512x1 .f32 := Memref.whole cc1_scratch0
abbrev scM1 : Memref sig .tc .vmem S512x1 .f32 := Memref.whole cc1_scratch1
abbrev scM2 : Memref sig .tc .vmem S512x1 .f32 := Memref.whole cc1_scratch2
abbrev scM3 : Memref sig .tc .vmem S512x1 .f32 := Memref.whole cc1_scratch3
/-- Views through which the contents of a 512 × 1 buffer are stated (the choice does not matter once the pieces cover it). -/
abbrev VS0 : View sig .tc .vmem S512x1 .f32 := scM0.view
abbrev VS1 : View sig .tc .vmem S512x1 .f32 := scM1.view
abbrev VS2 : View sig .tc .vmem S512x1 .f32 := scM2.view
abbrev VS3 : View sig .tc .vmem S512x1 .f32 := scM3.view
abbrev VO : View sig .tc .vmem S512x1 .f32 := (Memref.whole cc1_stg7_0 : Memref sig .tc .vmem S512x1 .f32).view

/-- The scoped buffers that are neither staging buffers of this call nor its four accumulators, each at some contents. -/
abbrev others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- What the region's invariant holds before the first point, opened: the four accumulators and the other scoped buffers
    at some contents, the generator register at some state. -/
theorem PhiA_open (c : Dev nD) :
    (Pipeline.ΦA spec1 c : sProp 𝕄)
      ⊢ iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ others c) ∗ (∃ r, prngReg c r)) := by
  unfold Pipeline.ΦA; rw [scopedRest1_eq]; simp only [scM0, scM1, scM2, scM3, owns_whole]
  iintro ⟨⟨A0, A1, A2, A3, A4, A5, A6, A7, A8, A9, A10, A11, A12, A13, HS0, HS1, HS2, HS3⟩, Hg⟩
  isplitr [Hg]
  · isplitl [HS0]; · iexact HS0
    isplitl [HS1]; · iexact HS1
    isplitl [HS2]; · iexact HS2
    isplitl [HS3]; · iexact HS3
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  · iexact Hg

/-- and closed again. -/
theorem PhiA_close (c : Dev nD) :
    iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ others c) ∗ (∃ r, prngReg c r))
      ⊢ (Pipeline.ΦA spec1 c : sProp 𝕄) := by
  unfold Pipeline.ΦA; rw [scopedRest1_eq]; simp only [scM0, scM1, scM2, scM3, owns_whole]
  iintro ⟨⟨HS0, HS1, HS2, HS3, A0, A1, A2, A3, A4, A5, A6, A7, A8, A9, A10, A11, A12, A13⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [HS0]; · iexact HS0
    isplitl [HS1]; · iexact HS1
    isplitl [HS2]; · iexact HS2
    iexact HS3
  · iexact Hg

/-! ## What each case of the body leaves -/

/-- The output block at a point where the body does not store into it: a placeholder nothing consults (the window is
    neither written back there nor read at the next point). -/
def idleOut : Vec F S512x1 .f32 := VO.read (Elt F) VO.junk

/-- The four accumulators after a point at column block 0: the pieces the run stores, read back. -/
def firstAt (c : Dev nD) (t : Fin cfg1.N) (h0 : t.val % 8 = 0) : Vec F S512x1 .f32 × Vec F S512x1 .f32 × Vec F S512x1 .f32 × Vec F S512x1 .f32 :=
  let R := runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) ((hcondFirst t).mpr h0) (fun h => by have := (hcondLast t).mp h; omega) (iblk V c 0 t) (iblk V c 1 t) (iblk V c 2 t) (iblk V c 3 t) (iblk V c 4 t) (iblk V c 5 t) (iblk V c 6 t)
  (VS0.read (Elt F) (VS0.writes (Elt F) VS0.junk R.1), VS1.read (Elt F) (VS1.writes (Elt F) VS1.junk R.2.1), VS2.read (Elt F) (VS2.writes (Elt F) VS2.junk R.2.2.1), VS3.read (Elt F) (VS3.writes (Elt F) VS3.junk R.2.2.2.1))

/-- The four accumulators after a point at a column block strictly between 0 and 7, from what the point before left. -/
def midAt (c : Dev nD) (t : Fin cfg1.N) (h0 : ¬t.val % 8 = 0) (h7 : ¬t.val % 8 = 7) (xs : Vec F S512x1 .f32 × Vec F S512x1 .f32 × Vec F S512x1 .f32 × Vec F S512x1 .f32) : Vec F S512x1 .f32 × Vec F S512x1 .f32 × Vec F S512x1 .f32 × Vec F S512x1 .f32 :=
  let R := runMid (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) (fun h => h0 ((hcondFirst t).mp h)) (fun h => h7 ((hcondLast t).mp h)) (iblk V c 0 t) (iblk V c 1 t) (iblk V c 2 t) (iblk V c 3 t) (iblk V c 4 t) (iblk V c 5 t) (iblk V c 6 t) xs.1 xs.2.1 xs.2.2.1 xs.2.2.2
  (VS0.read (Elt F) (VS0.writes (Elt F) VS0.junk R.1), VS1.read (Elt F) (VS1.writes (Elt F) VS1.junk R.2.1), VS2.read (Elt F) (VS2.writes (Elt F) VS2.junk R.2.2.1), VS3.read (Elt F) (VS3.writes (Elt F) VS3.junk R.2.2.2.1))

/-- The output block and the four accumulators after a point at column block 7, from what the point before left. -/
def lastAt (c : Dev nD) (t : Fin cfg1.N) (h7 : t.val % 8 = 7) (xs : Vec F S512x1 .f32 × Vec F S512x1 .f32 × Vec F S512x1 .f32 × Vec F S512x1 .f32) : Vec F S512x1 .f32 × (Vec F S512x1 .f32 × Vec F S512x1 .f32 × Vec F S512x1 .f32 × Vec F S512x1 .f32) :=
  let R := runLast (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) (fun h => by have := (hcondFirst t).mp h; omega) ((hcondLast t).mpr h7) (iblk V c 0 t) (iblk V c 1 t) (iblk V c 2 t) (iblk V c 3 t) (iblk V c 4 t) (iblk V c 5 t) (iblk V c 6 t) xs.1 xs.2.1 xs.2.2.1 xs.2.2.2
  (VO.read (Elt F) (VO.writes (Elt F) VO.junk R.1),
   (VS0.read (Elt F) (VS0.writes (Elt F) VS0.junk R.2.1), VS1.read (Elt F) (VS1.writes (Elt F) VS1.junk R.2.2.1), VS2.read (Elt F) (VS2.writes (Elt F) VS2.junk R.2.2.2.1), VS3.read (Elt F) (VS3.writes (Elt F) VS3.junk R.2.2.2.2.1)))

/-- THE RECURSION over the points: the output block and the four accumulators after the body at point `n`. -/
def outsAt (c : Dev nD) : (n : ℕ) → n < cfg1.N → Vec F S512x1 .f32 × (Vec F S512x1 .f32 × Vec F S512x1 .f32 × Vec F S512x1 .f32 × Vec F S512x1 .f32)
  | 0, hn => (idleOut, firstAt V c ⟨0, hn⟩ (Nat.zero_mod 8))
  | n + 1, hn =>
    if h0 : (n + 1) % 8 = 0 then (idleOut, firstAt V c ⟨n + 1, hn⟩ h0)
    else if h7 : (n + 1) % 8 = 7 then lastAt V c ⟨n + 1, hn⟩ h7 (outsAt c n (Nat.lt_of_succ_lt hn)).2
    else (idleOut, midAt V c ⟨n + 1, hn⟩ h0 h7 (outsAt c n (Nat.lt_of_succ_lt hn)).2)

theorem outsAt_first (c : Dev nD) (t : Fin cfg1.N) (h0 : t.val % 8 = 0) :
    outsAt V c t.val t.isLt = (idleOut, firstAt V c t h0) := by
  obtain ⟨n, hn⟩ := t
  cases n with
  | zero => exact rfl
  | succ n => exact (dif_pos h0).trans rfl

theorem outsAt_mid (c : Dev nD) (t : Fin cfg1.N) (h0 : ¬t.val % 8 = 0) (h7 : ¬t.val % 8 = 7) :
    outsAt V c t.val t.isLt = (idleOut, midAt V c t h0 h7 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem outsAt_last (c : Dev nD) (t : Fin cfg1.N) (h7 : t.val % 8 = 7) :
    outsAt V c t.val t.isLt = lastAt V c t h7 (outsAt V c (t.val - 1) (Nat.lt_of_le_of_lt (Nat.sub_le _ _) t.isLt)).2 := by
  obtain ⟨n, hn⟩ := t
  cases n with
  | zero => exact (by exfalso; (try dsimp only at h7); omega)
  | succ n => exact (dif_neg (by dsimp only at h7 ⊢; omega)).trans ((dif_pos h7).trans rfl)

/-- The region's invariant before position `n`: before the first point the launch's; afterwards the four accumulators
    at what the point before left, the other scoped buffers at some contents, the generator register at some state. -/
def PhiS (c : Dev nD) : (n : ℕ) → n ≤ cfg1.N → sProp 𝕄
  | 0, _ => Pipeline.ΦA spec1 c
  | n + 1, hn => iprop(iprop(owns (c : Thread nD τ) scM0 fullShare (outsAt V c n hn).2.1 ∗ owns (c : Thread nD τ) scM1 fullShare (outsAt V c n hn).2.2.1 ∗ owns (c : Thread nD τ) scM2 fullShare (outsAt V c n hn).2.2.2.1 ∗ owns (c : Thread nD τ) scM3 fullShare (outsAt V c n hn).2.2.2.2 ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM0 fullShare (outsAt V c n hn).2.1 ∗ owns (c : Thread nD τ) scM1 fullShare (outsAt V c n hn).2.2.1 ∗ owns (c : Thread nD τ) scM2 fullShare (outsAt V c n hn).2.2.2.1 ∗ owns (c : Thread nD τ) scM3 fullShare (outsAt V c n hn).2.2.2.2 ∗ others c) ∗ (∃ r, prngReg c r)) := rfl
theorem PhiS_pos (c : Dev nD) (n : ℕ) (h : n ≤ cfg1.N) (hz : n ≠ 0) :
    PhiS V c n h = iprop(iprop(owns (c : Thread nD τ) scM0 fullShare (outsAt V c (n - 1) (by omega)).2.1 ∗ owns (c : Thread nD τ) scM1 fullShare (outsAt V c (n - 1) (by omega)).2.2.1 ∗ owns (c : Thread nD τ) scM2 fullShare (outsAt V c (n - 1) (by omega)).2.2.2.1 ∗ owns (c : Thread nD τ) scM3 fullShare (outsAt V c (n - 1) (by omega)).2.2.2.2 ∗ others c) ∗ (∃ r, prngReg c r)) := by
  cases n with
  | zero => exact absurd rfl hz
  | succ n => rfl

/-- The invariant at any position, opened: the four accumulators at some contents. -/
theorem PhiS_open (c : Dev nD) (n : ℕ) (h : n ≤ cfg1.N) :
    PhiS V c n h ⊢ iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ others c) ∗ (∃ r, prngReg c r)) := by
  cases n with
  | zero => exact PhiA_open c
  | succ n =>
    rw [PhiS_succ]
    iintro ⟨⟨HS0, HS1, HS2, HS3, Hr⟩, Hg⟩
    isplitr [Hg]
    · isplitl [HS0]; · iexists _; iexact HS0
      isplitl [HS1]; · iexists _; iexact HS1
      isplitl [HS2]; · iexists _; iexact HS2
      isplitl [HS3]; · iexists _; iexact HS3
      iexact Hr
    · iexact Hg

/-- Whatever the position, the invariant gives back the launch's: the accumulators' named contents are forgotten. -/
theorem PhiS_forget (c : Dev nD) (n : ℕ) (h : n ≤ cfg1.N) : PhiS V c n h ⊢ Pipeline.ΦA spec1 c :=
  (PhiS_open V c n h).trans (PhiA_close c)

/-! ## The proof data -/

/-- The proof data of the second kernel on core `c`, at the entry contents `V`: each input's buffer at its block, the
    output's and the four accumulators' by the recursion; nothing owed; the array the row-block and column-block
    windows share held by the two at the shares `qL`, `qR`. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
  Φ t := PhiS V c t.val (Nat.le_of_lt_succ t.isLt)
  q w := match w with
    | ⟨0, _⟩ => qL
    | ⟨1, _⟩ => qR
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg1.W) : (dat1 V qL qR c).A w = V c (Pipeline.arrRef spec1 w) := by
  dsimp only [dat1]
theorem Phi_castSucc (c : Dev nD) (t : Fin cfg1.N) :
    (dat1 V qL qR c).Φ t.castSucc = PhiS V c t.val (Nat.le_of_lt t.isLt) := by
  dsimp only [dat1]; simp only [Fin.coe_castSucc]
theorem after0 (c : Dev nD) (t : Fin cfg1.N) : (dat1 V qL qR c).after 0 t = iblk V c 0 t := by dsimp only [dat1]
theorem after1 (c : Dev nD) (t : Fin cfg1.N) : (dat1 V qL qR c).after 1 t = iblk V c 1 t := by dsimp only [dat1]
theorem after2 (c : Dev nD) (t : Fin cfg1.N) : (dat1 V qL qR c).after 2 t = iblk V c 2 t := by dsimp only [dat1]
theorem after3 (c : Dev nD) (t : Fin cfg1.N) : (dat1 V qL qR c).after 3 t = iblk V c 3 t := by dsimp only [dat1]
theorem after4 (c : Dev nD) (t : Fin cfg1.N) : (dat1 V qL qR c).after 4 t = iblk V c 4 t := by dsimp only [dat1]
theorem after5 (c : Dev nD) (t : Fin cfg1.N) : (dat1 V qL qR c).after 5 t = iblk V c 5 t := by dsimp only [dat1]
theorem after6 (c : Dev nD) (t : Fin cfg1.N) : (dat1 V qL qR c).after 6 t = iblk V c 6 t := by dsimp only [dat1]
theorem after7 (c : Dev nD) (t : Fin cfg1.N) : (dat1 V qL qR c).after 7 t = (outsAt V c t.val t.isLt).1 := by dsimp only [dat1]
theorem before0 (c : Dev nD) (t : Fin cfg1.N) (d) : (dat1 V qL qR c).before 0 t d = iblk V c 0 t :=
  before_in0 V (dat1 V qL qR c) (A_eq V qL qR c 0) (after0 V qL qR c) t d
theorem before1 (c : Dev nD) (t : Fin cfg1.N) (d) : (dat1 V qL qR c).before 1 t d = iblk V c 1 t :=
  before_in1 V (dat1 V qL qR c) (A_eq V qL qR c 1) (after1 V qL qR c) t d
theorem before2 (c : Dev nD) (t : Fin cfg1.N) (d) : (dat1 V qL qR c).before 2 t d = iblk V c 2 t :=
  before_in2 V (dat1 V qL qR c) (A_eq V qL qR c 2) (after2 V qL qR c) t d
theorem before3 (c : Dev nD) (t : Fin cfg1.N) (d) : (dat1 V qL qR c).before 3 t d = iblk V c 3 t :=
  before_in3 V (dat1 V qL qR c) (A_eq V qL qR c 3) (after3 V qL qR c) t d
theorem before4 (c : Dev nD) (t : Fin cfg1.N) (d) : (dat1 V qL qR c).before 4 t d = iblk V c 4 t :=
  before_in4 V (dat1 V qL qR c) (A_eq V qL qR c 4) (after4 V qL qR c) t d
theorem before5 (c : Dev nD) (t : Fin cfg1.N) (d) : (dat1 V qL qR c).before 5 t d = iblk V c 5 t :=
  before_in5 V (dat1 V qL qR c) (A_eq V qL qR c 5) (after5 V qL qR c) t d
theorem before6 (c : Dev nD) (t : Fin cfg1.N) (d) : (dat1 V qL qR c).before 6 t d = iblk V c 6 t :=
  before_in6 V (dat1 V qL qR c) (A_eq V qL qR c 6) (after6 V qL qR c) t d

end

end Cert.Kernel.Loss

end
-- ==== Proof.K.FrameData.lean ====
import proofs.«115905_j90486370992708_1_alg».proof.Proof.Gen.Kernel.Regions
import proofs.«115905_j90486370992708_1_alg».proof.Proof.K.Share
import proofs.«115905_j90486370992708_1_alg».proof.Proof.K.R0Dat
import proofs.«115905_j90486370992708_1_alg».proof.Proof.K.R1Dat

/-! # The buffers' contents between the two kernel regions

The program is a host stretch, the first kernel (two outputs: per row the least similarity over positives and the
greatest over negatives), the second kernel (one output: the per-row loss, reading the first kernel's two outputs),
and a closing host stretch (the mean). The first kernel is entered at the launch memory after the first host
stretch; the second at those contents with the first kernel's two output arrays at what its write-backs leave; the
closing stretch at those with the second kernel's output array at what its write-backs leave. No region writes any
other array. -/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-! ## The first kernel -/

/-- The contents the first kernel is entered at, read at the TensorCore's references. -/
abbrev E1 : (c : Dev nD) → (b : Ref sig .tc) → Buf (Elt F) ((c : Thread nD τ).loc b) := fun c b => Gen.V1 m c b
/-- The first kernel's proof data: `main_arg0` held by its two windows at the two halves of the full share. -/
abbrev D0 (c : Dev nD) : Dat τ (Elt F) Unit ℕ (UR sig nD τ) ℕ cfg0 c := MinMax.dat0 (E1 m) Share.qL Share.qR c
/-- What the first kernel's write-backs leave in its two output arrays. -/
def o0 (c : Dev nD) : Buf (Elt F) ((c : Thread nD τ).loc main_v10_0) := (D0 m c).arrAt 4 cfg0.N
def o1 (c : Dev nD) : Buf (Elt F) ((c : Thread nD τ).loc main_v10_1) := (D0 m c).arrAt 5 cfg0.N

/-! ## The second kernel -/

/-- The contents the second kernel is entered at: the first kernel's, its two output arrays at what it left. -/
abbrev W2 (c : Dev nD) : Valuation τ sig (Elt F) := Function.update (Function.update (Gen.V1 m c) main_v10_0 (o0 m c)) main_v10_1 (o1 m c)
/-- The same read at the TensorCore's references. -/
abbrev E2 : (c : Dev nD) → (b : Ref sig .tc) → Buf (Elt F) ((c : Thread nD τ).loc b) := fun c b => W2 m c b
/-- The second kernel's proof data. -/
abbrev D1 (c : Dev nD) : Dat τ (Elt F) Unit ℕ (UR sig nD τ) ℕ cfg1 c := Loss.dat1 (E2 m) Share.qL Share.qR c
/-- What the second kernel's write-backs leave in its output array. -/
def o2 (c : Dev nD) : Buf (Elt F) ((c : Thread nD τ).loc main_v11) := (D1 m c).arrAt 7 cfg1.N

/-! ## What the regions leave, as one family -/

/-- What the regions leave in the arrays they write: the three output arrays at what the write-backs leave (any
    other reference is never asked for). -/
def outs : Gen.Outs (F := F) := fun _ r c =>
  if h : r = main_v10_0 then h ▸ o0 m c
  else if h : r = main_v10_1 then h ▸ o1 m c
  else if h : r = main_v11 then h ▸ o2 m c
  else Gen.V1 m c r

theorem outs_v10_0 (n : ℕ) (c : Dev nD) : outs m n main_v10_0 c = o0 m c := dif_pos rfl
theorem outs_v10_1 (n : ℕ) (c : Dev nD) : outs m n main_v10_1 c = o1 m c := (dif_neg (by decide)).trans (dif_pos rfl)
theorem outs_v11 (n : ℕ) (c : Dev nD) : outs m n main_v11 c = o2 m c :=
  (dif_neg (by decide)).trans ((dif_neg (by decide)).trans (dif_pos rfl))

/-- The first kernel's two outputs and the second kernel's, as the proof data name them. -/
theorem outs_2_v10_0 (c : Dev nD) : outs m 2 main_v10_0 c = (D0 m c).arrAt 4 cfg0.N := outs_v10_0 m 2 c
theorem outs_2_v10_1 (c : Dev nD) : outs m 2 main_v10_1 c = (D0 m c).arrAt 5 cfg0.N := outs_v10_1 m 2 c
theorem outs_3_v11 (c : Dev nD) : outs m 3 main_v11 c = (D1 m c).arrAt 7 cfg1.N := outs_v11 m 3 c

/-- The contents after the first kernel are those the second kernel's proof data is stated at. -/
theorem V2_eq (c : Dev nD) : Gen.V2 m (outs m) c = W2 m c := by
  show Function.update (Function.update (Gen.V1 m c) main_v10_0 (outs m 2 main_v10_0 c)) main_v10_1 (outs m 2 main_v10_1 c) = _
  rw [outs_v10_0, outs_v10_1]

/-! ## Every pipeline's proof data -/

/-- The two kernels' proof data, by the pipeline's number. -/
def pdats : (p : Fin 2) → (c : Dev nD) → Dat τ (Elt F) Unit ℕ (UR sig nD τ) ℕ (cfgs p) c
  | ⟨0, _⟩ => fun c => D0 m c
  | ⟨1, _⟩ => fun c => D1 m c

/-- Each window's share, as the entry and exit lemmas take it. -/
theorem hq0 (c : Dev nD) : ∀ w, (D0 m c).q w = Share.q0 w := fun
  | 0 => rfl | 1 => rfl | 2 => rfl | 3 => rfl | 4 => rfl | 5 => rfl
  | ⟨_ + 6, h⟩ => absurd h (Nat.not_lt.2 (Nat.le_add_left _ _))
theorem hq1 (c : Dev nD) : ∀ w, (D1 m c).q w = Share.q1 w := fun
  | 0 => rfl | 1 => rfl | 2 => rfl | 3 => rfl | 4 => rfl | 5 => rfl | 6 => rfl | 7 => rfl
  | ⟨_ + 8, h⟩ => absurd h (Nat.not_lt.2 (Nat.le_add_left _ _))

/-! ## The arrays at the regions' exits -/

/-- An input window's array ends as the region found it. -/
theorem arrAt0_in (c : Dev nD) (w : Fin cfg0.W) (hin : (cfg0.win w).isOut = false) (n : ℕ) :
    (D0 m c).arrAt w n = Gen.V1 m c (Pipeline.arrRef spec0 w) :=
  ((D0 m c).arrAt_in w hin n).trans (MinMax.A_eq (E1 m) Share.qL Share.qR c w)
theorem arrAt1_in (c : Dev nD) (w : Fin cfg1.W) (hin : (cfg1.win w).isOut = false) (n : ℕ) :
    (D1 m c).arrAt w n = W2 m c (Pipeline.arrRef spec1 w) :=
  ((D1 m c).arrAt_in w hin n).trans (Loss.A_eq (E2 m) Share.qL Share.qR c w)

/-- After the first kernel every array of its windows holds what the pipeline leaves there. -/
theorem hF0 (c : Dev nD) : ∀ w : Fin cfg0.W, (D0 m c).arrAt w cfg0.N = Gen.V2 m (outs m) c (Pipeline.arrRef spec0 w) := fun
  | 0 => (arrAt0_in m c 0 rfl _).trans (Gen.V2_of m (outs m) c main_arg0 (by decide)).symm
  | 1 => (arrAt0_in m c 1 rfl _).trans (Gen.V2_of m (outs m) c main_arg0 (by decide)).symm
  | 2 => (arrAt0_in m c 2 rfl _).trans (Gen.V2_of m (outs m) c main_v0 (by decide)).symm
  | 3 => (arrAt0_in m c 3 rfl _).trans (Gen.V2_of m (outs m) c main_v1 (by decide)).symm
  | 4 => by
    show _ = Function.update (Function.update (Gen.V1 m c) main_v10_0 (outs m 2 main_v10_0 c)) main_v10_1 (outs m 2 main_v10_1 c) main_v10_0
    rw [Function.update_of_ne (StableHlo.devRef_ne_of_ne (by decide) : (Proc.devRef .tc main_v10_0 : DevRef τ sig) ≠ Proc.devRef .tc main_v10_1),
      Function.update_self, outs_2_v10_0]
  | 5 => by
    show _ = Function.update (Function.update (Gen.V1 m c) main_v10_0 (outs m 2 main_v10_0 c)) main_v10_1 (outs m 2 main_v10_1 c) main_v10_1
    rw [Function.update_self, outs_2_v10_1]
  | ⟨_ + 6, h⟩ => absurd h (Nat.not_lt.2 (Nat.le_add_left _ _))

/-- Off those arrays nothing changed. -/
theorem hrest0 (c : Dev nD) : ∀ b : Ref sig .tc, b ∉ Finset.univ.image (Pipeline.arrRef spec0) → Gen.V2 m (outs m) c b = Gen.V1 m c b :=
  fun b hb => Gen.V2_of m (outs m) c b fun hmem => hb (by
    rcases List.mem_cons.mp hmem with rfl | hmem
    · exact Finset.mem_image.mpr ⟨4, Finset.mem_univ _, rfl⟩
    · rcases List.mem_cons.mp hmem with rfl | hmem
      · exact Finset.mem_image.mpr ⟨5, Finset.mem_univ _, rfl⟩
      · exact absurd hmem (List.not_mem_nil))

/-- After the second kernel every array of its windows holds what the pipeline leaves there. -/
theorem hF1 (c : Dev nD) : ∀ w : Fin cfg1.W, (D1 m c).arrAt w cfg1.N = Gen.V3 m (outs m) c (Pipeline.arrRef spec1 w) := fun
  | 0 => (arrAt1_in m c 0 rfl _).trans ((Gen.V3_of m (outs m) c main_arg0 (by decide)).trans (congrFun (V2_eq m c) _)).symm
  | 1 => (arrAt1_in m c 1 rfl _).trans ((Gen.V3_of m (outs m) c main_arg0 (by decide)).trans (congrFun (V2_eq m c) _)).symm
  | 2 => (arrAt1_in m c 2 rfl _).trans ((Gen.V3_of m (outs m) c main_v0 (by decide)).trans (congrFun (V2_eq m c) _)).symm
  | 3 => (arrAt1_in m c 3 rfl _).trans ((Gen.V3_of m (outs m) c main_v1 (by decide)).trans (congrFun (V2_eq m c) _)).symm
  | 4 => (arrAt1_in m c 4 rfl _).trans ((Gen.V3_of m (outs m) c main_v9 (by decide)).trans (congrFun (V2_eq m c) _)).symm
  | 5 => (arrAt1_in m c 5 rfl _).trans ((Gen.V3_of m (outs m) c main_v10_0 (by decide)).trans (congrFun (V2_eq m c) _)).symm
  | 6 => (arrAt1_in m c 6 rfl _).trans ((Gen.V3_of m (outs m) c main_v10_1 (by decide)).trans (congrFun (V2_eq m c) _)).symm
  | 7 => by
    show _ = Function.update (Gen.V2 m (outs m) c) main_v11 (outs m 3 main_v11 c) main_v11
    rw [Function.update_self, outs_3_v11]
  | ⟨_ + 8, h⟩ => absurd h (Nat.not_lt.2 (Nat.le_add_left _ _))

/-- Off those arrays nothing changed. -/
theorem hrest1 (c : Dev nD) : ∀ b : Ref sig .tc, b ∉ Finset.univ.image (Pipeline.arrRef spec1) → Gen.V3 m (outs m) c b = W2 m c b :=
  fun b hb => (Gen.V3_of m (outs m) c b fun hmem => hb (by
    rcases List.mem_cons.mp hmem with rfl | hmem
    · exact Finset.mem_image.mpr ⟨7, Finset.mem_univ _, rfl⟩
    · exact absurd hmem (List.not_mem_nil))).trans (congrFun (V2_eq m c) _)

end Cert.Kernel.Hand

end
-- ==== Proof.K.R0Cover.lean ====
import proofs.«115905_j90486370992708_1_alg».proof.Proof.K.R0RunL

set_option maxRecDepth 16384

noncomputable section

namespace Cert.Kernel.MinMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! In each case of the body the stores into a buffer tile it, so the pieces cover it (checked by evaluating the pieces). -/

theorem coverF_S0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : condFirst i) (hc1 : ¬condLast i) (x0 x1 : Vec F S512x1024 .f32) (x2 : Vec F S512x1 .i32) (x3 : Vec F S1x512 .i32) (y : S512x1.Idx) :
    ∃ pc ∈ (runFirst (F := F) c i arg2 harg2 arg3 harg3 arg4 harg4 arg5 harg5 arg6 harg6 arg7 harg7 arg8 harg8 arg9 harg9 hc0 hc1 x0 x1 x2 x3).1, y ∈ pc.1.set :=
  View.cover_of_tiledL (runFirst (F := F) c i arg2 harg2 arg3 harg3 arg4 harg4 arg5 harg5 arg6 harg6 arg7 harg7 arg8 harg8 arg9 harg9 hc0 hc1 x0 x1 x2 x3).1 S512x1.size (by sl_kernel_rfl) y
theorem coverF_S1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : condFirst i) (hc1 : ¬condLast i) (x0 x1 : Vec F S512x1024 .f32) (x2 : Vec F S512x1 .i32) (x3 : Vec F S1x512 .i32) (y : S512x1.Idx) :
    ∃ pc ∈ (runFirst (F := F) c i arg2 harg2 arg3 harg3 arg4 harg4 arg5 harg5 arg6 harg6 arg7 harg7 arg8 harg8 arg9 harg9 hc0 hc1 x0 x1 x2 x3).2.1, y ∈ pc.1.set :=
  View.cover_of_tiledL (runFirst (F := F) c i arg2 harg2 arg3 harg3 arg4 harg4 arg5 harg5 arg6 harg6 arg7 harg7 arg8 harg8 arg9 harg9 hc0 hc1 x0 x1 x2 x3).2.1 S512x1.size (by sl_kernel_rfl) y
theorem coverM_S0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : ¬condLast i) (x0 x1 : Vec F S512x1024 .f32) (x2 : Vec F S512x1 .i32) (x3 : Vec F S1x512 .i32) (xs0 xs1 : Vec F S512x1 .f32) (y : S512x1.Idx) :
    ∃ pc ∈ (runMid (F := F) c i arg2 harg2 arg3 harg3 arg4 harg4 arg5 harg5 arg6 harg6 arg7 harg7 arg8 harg8 arg9 harg9 hc0 hc1 x0 x1 x2 x3 xs0 xs1).1, y ∈ pc.1.set :=
  View.cover_of_tiledL (runMid (F := F) c i arg2 harg2 arg3 harg3 arg4 harg4 arg5 harg5 arg6 harg6 arg7 harg7 arg8 harg8 arg9 harg9 hc0 hc1 x0 x1 x2 x3 xs0 xs1).1 S512x1.size (by sl_kernel_rfl) y
theorem coverM_S1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : ¬condLast i) (x0 x1 : Vec F S512x1024 .f32) (x2 : Vec F S512x1 .i32) (x3 : Vec F S1x512 .i32) (xs0 xs1 : Vec F S512x1 .f32) (y : S512x1.Idx) :
    ∃ pc ∈ (runMid (F := F) c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (runMid (F := F) c i arg2 harg2 arg3 harg3 arg4 harg4 arg5 harg5 arg6 harg6 arg7 harg7 arg8 harg8 arg9 harg9 hc0 hc1 x0 x1 x2 x3 xs0 xs1).2.1 S512x1.size (by sl_kernel_rfl) y
theorem coverL_4 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : condLast i) (x0 x1 : Vec F S512x1024 .f32) (x2 : Vec F S512x1 .i32) (x3 : Vec F S1x512 .i32) (xs0 xs1 : Vec F S512x1 .f32) (y : S512x1.Idx) :
    ∃ pc ∈ (runLast (F := F) c i arg2 harg2 arg3 harg3 arg4 harg4 arg5 harg5 arg6 harg6 arg7 harg7 arg8 harg8 arg9 harg9 hc0 hc1 x0 x1 x2 x3 xs0 xs1).1, y ∈ pc.1.set :=
  View.cover_of_tiledL (runLast (F := F) c i arg2 harg2 arg3 harg3 arg4 harg4 arg5 harg5 arg6 harg6 arg7 harg7 arg8 harg8 arg9 harg9 hc0 hc1 x0 x1 x2 x3 xs0 xs1).1 S512x1.size (by sl_kernel_rfl) y
theorem coverL_5 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : condLast i) (x0 x1 : Vec F S512x1024 .f32) (x2 : Vec F S512x1 .i32) (x3 : Vec F S1x512 .i32) (xs0 xs1 : Vec F S512x1 .f32) (y : S512x1.Idx) :
    ∃ pc ∈ (runLast (F := F) c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (runLast (F := F) c i arg2 harg2 arg3 harg3 arg4 harg4 arg5 harg5 arg6 harg6 arg7 harg7 arg8 harg8 arg9 harg9 hc0 hc1 x0 x1 x2 x3 xs0 xs1).2.1 S512x1.size (by sl_kernel_rfl) y
theorem coverL_S0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : condLast i) (x0 x1 : Vec F S512x1024 .f32) (x2 : Vec F S512x1 .i32) (x3 : Vec F S1x512 .i32) (xs0 xs1 : Vec F S512x1 .f32) (y : S512x1.Idx) :
    ∃ pc ∈ (runLast (F := F) c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (runLast (F := F) c i arg2 harg2 arg3 harg3 arg4 harg4 arg5 harg5 arg6 harg6 arg7 harg7 arg8 harg8 arg9 harg9 hc0 hc1 x0 x1 x2 x3 xs0 xs1).2.2.1 S512x1.size (by sl_kernel_rfl) y
theorem coverL_S1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : condLast i) (x0 x1 : Vec F S512x1024 .f32) (x2 : Vec F S512x1 .i32) (x3 : Vec F S1x512 .i32) (xs0 xs1 : Vec F S512x1 .f32) (y : S512x1.Idx) :
    ∃ pc ∈ (runLast (F := F) c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (runLast (F := F) c i arg2 harg2 arg3 harg3 arg4 harg4 arg5 harg5 arg6 harg6 arg7 harg7 arg8 harg8 arg9 harg9 hc0 hc1 x0 x1 x2 x3 xs0 xs1).2.2.2.1 S512x1.size (by sl_kernel_rfl) y

end Cert.Kernel.MinMax

end
-- ==== Proof.K.R0Body.lean ====
import proofs.«115905_j90486370992708_1_alg».proof.Proof.K.R0Dat
import proofs.«115905_j90486370992708_1_alg».proof.Proof.K.R0Cover

set_option maxRecDepth 16384

noncomputable section

namespace Cert.Kernel.MinMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body obligation

At every point the inputs' buffers hold their blocks; the closed forms of the two conditions say which case the point
is in; that case's run applies, handed the two accumulators at what the point before left (at anything at column block
0) and handing them back at this point's contents. -/

section
variable (V : (c : Dev nD) → (b : Ref sig .tc) → Buf (Elt F) ((c : Thread nD τ).loc b))
variable (qL qR : PosShare TreeShare)

theorem leaves_in0 (c : Dev nD) (t : Fin cfg0.N) :
    (dat0 V qL qR c).leavesExact 0 t = owns (c : Thread nD τ) (ms0 t) fullShare (iblk V c 0 t) := by
  unfold Dat.leavesExact; rw [live0 t, after0]
theorem leaves_in1 (c : Dev nD) (t : Fin cfg0.N) :
    (dat0 V qL qR c).leavesExact 1 t = owns (c : Thread nD τ) (ms1 t) fullShare (iblk V c 1 t) := by
  unfold Dat.leavesExact; rw [live1 t, after1]
theorem leaves_in2 (c : Dev nD) (t : Fin cfg0.N) :
    (dat0 V qL qR c).leavesExact 2 t = owns (c : Thread nD τ) (ms2 t) fullShare (iblk V c 2 t) := by
  unfold Dat.leavesExact; rw [live2 t, after2]
theorem leaves_in3 (c : Dev nD) (t : Fin cfg0.N) :
    (dat0 V qL qR c).leavesExact 3 t = owns (c : Thread nD τ) (ms3 t) fullShare (iblk V c 3 t) := by
  unfold Dat.leavesExact; rw [live3 t, after3]
theorem leaves_out4 (c : Dev nD) (t : Fin cfg0.N) (h : condLast (grid0.coords t)) :
    (dat0 V qL qR c).leavesExact 4 t = owns (c : Thread nD τ) (ms4 t) fullShare ((dat0 V qL qR c).after 4 t) := by
  unfold Dat.leavesExact; rw [live4_of t h]
theorem leaves_out5 (c : Dev nD) (t : Fin cfg0.N) (h : condLast (grid0.coords t)) :
    (dat0 V qL qR c).leavesExact 5 t = owns (c : Thread nD τ) (ms5 t) fullShare ((dat0 V qL qR c).after 5 t) := by
  unfold Dat.leavesExact; rw [live5_of t h]

/-- The invariant at any position, opened: the two accumulators at some contents. -/
theorem PhiS_open (c : Dev nD) (n : ℕ) (h : n ≤ cfg0.N) :
    PhiS V c n h ⊢ iprop(iprop((∃ d, owns (c : Thread nD τ) scM0 fullShare d) ∗ (∃ d, owns (c : Thread nD τ) scM1 fullShare d) ∗ others c) ∗ (∃ r, prngReg c r)) :=
  (PhiS_forget V c n h).trans (Entails.of_eq (PhiA_eq c))

def bodyPre (c : Dev nD) (t : Fin cfg0.N) : sProp 𝕄 :=
  iprop((dat0 V qL qR c).Φ t.castSucc ∗ (dat0 V qL qR c).owesAt () t.castSucc
    ∗ (∃ d, owns (c : Thread nD τ) (ms0 t) fullShare ((dat0 V qL qR c).before 0 t d))
    ∗ (∃ d, owns (c : Thread nD τ) (ms1 t) fullShare ((dat0 V qL qR c).before 1 t d))
    ∗ (∃ d, owns (c : Thread nD τ) (ms2 t) fullShare ((dat0 V qL qR c).before 2 t d))
    ∗ (∃ d, owns (c : Thread nD τ) (ms3 t) fullShare ((dat0 V qL qR c).before 3 t d))
    ∗ (∃ d, owns (c : Thread nD τ) (ms4 t) fullShare ((dat0 V qL qR c).before 4 t d))
    ∗ (∃ d, owns (c : Thread nD τ) (ms5 t) fullShare ((dat0 V qL qR c).before 5 t d)))

def bodyPost (c : Dev nD) (t : Fin cfg0.N) : sProp 𝕄 :=
  iprop((dat0 V qL qR c).Φ t.succ ∗ (dat0 V qL qR c).owesAt () t.succ
    ∗ (dat0 V qL qR c).leavesExact 0 t
    ∗ (dat0 V qL qR c).leavesExact 1 t
    ∗ (dat0 V qL qR c).leavesExact 2 t
    ∗ (dat0 V qL qR c).leavesExact 3 t
    ∗ (dat0 V qL qR c).leavesExact 4 t
    ∗ (dat0 V qL qR c).leavesExact 5 t)

set_option maxHeartbeats 4800000 in
theorem sound_body (c : Dev nD) (t : Fin cfg0.N) :
    bodyPre V qL qR c t ⊢ wp frame (wpE (defs₀ (F := F)) Variants.none c none) Set.univ (bodyAt0 t) (fun _ => bodyPost V qL qR c t) := by
  unfold bodyPre bodyPost bodyAt0
  simp only [before0, before1, before2, before3]
  rw [show (dat0 V qL qR c).owesAt () t.succ = (dat0 V qL qR c).owesAt () t.castSucc from rfl]
  rw [show (dat0 V qL qR c).Φ t.succ = PhiS V c (t.val + 1) t.isLt from rfl, PhiS_succ]
  rw [leaves_in0, leaves_in1, leaves_in2, leaves_in3]
  have hN : t.val < 64 := lt_of_lt_of_eq t.isLt (show cfg0.N = 64 from N_0)
  by_cases h0 : t.val % 8 = 0
  · have h7 : ¬t.val % 8 = 7 := by omega
    have hc1 : ¬condLast (grid0.coords t) := fun h => h7 ((hcondLast t).mp h)
    rw [Dat.leavesExact_idle (dat0 V qL qR c) 4 t (idle4_of t hc1) (noFlush4_of t hc1),
      Dat.leavesExact_idle (dat0 V qL qR c) 5 t (idle5_of t hc1) (noFlush5_of t hc1)]
    rw [outsAt_first V c t h0]
    unfold firstAt; dsimp only
    rw [Phi_castSucc]
    iintro ⟨HΦ, Ho, ⟨%d0, H0⟩, ⟨%d1, H1⟩, ⟨%d2, H2⟩, ⟨%d3, H3⟩, ⟨%d4, H4⟩, ⟨%d5, H5⟩⟩
    ihave HΦ' := (PhiS_open V c _ _) $$ HΦ
    icases HΦ' with ⟨⟨HS0, HS1, Hr⟩, Hg⟩
    iapply ((runFirst c (grid0.coords t) _ _ _ _ _ _ _ _ _ _ _ _ _ _ _ _ ((hcondFirst t).mpr h0) hc1 (iblk V c 0 t) (iblk V c 1 t) (iblk V c 2 t) (iblk V c 3 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hr Hg]
    · isplitr [Hg]
      · isplitl [HS0]
        · unfold owns; iexists _; isplitr
          swap; · iexact HS0
          ipureintro; exact View.read_writes_of_cover _ _ _ _ _ (coverF_S0 c _ _ _ _ _ _ _ _ _ _ _ _ _ _ _ _ _ _ _ _ _ _ _)
        isplitl [HS1]
        · unfold owns; iexists _; isplitr
          swap; · iexact HS1
          ipureintro; exact View.read_writes_of_cover _ _ _ _ _ (coverF_S1 c _ _ _ _ _ _ _ _ _ _ _ _ _ _ _ _ _ _ _ _ _ _ _)
        iexact Hr
      · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hz : t.val ≠ 0 := fun h => h0 (by rw [h])
    have hc0 : ¬condFirst (grid0.coords t) := fun h => h0 ((hcondFirst t).mp h)
    by_cases h7 : t.val % 8 = 7
    · have hc1 : condLast (grid0.coords t) := (hcondLast t).mpr h7
      rw [leaves_out4 V qL qR c t hc1, leaves_out5 V qL qR c t hc1, after4, after5]
      rw [outsAt_last V c t h7]
      unfold lastAt; dsimp only
      rw [Phi_castSucc, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ _ _ hc0 hc1 (iblk V c 0 t) (iblk V c 1 t) (iblk V c 2 t) (iblk V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (coverL_S0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverL_S1 c _ _ _ _ _ _ _ _ _ _ _ _ _ _ _ _ _ _ _ _ _ _ _ _ _)
          iexact Hr
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverL_4 c _ _ _ _ _ _ _ _ _ _ _ _ _ _ _ _ _ _ _ _ _ _ _ _ _)
      unfold owns; iexists _; isplitr
      swap; · iexact H5
      ipureintro; exact View.read_writes_of_cover _ _ _ _ _ (coverL_5 c _ _ _ _ _ _ _ _ _ _ _ _ _ _ _ _ _ _ _ _ _ _ _ _ _)
    · have hc1 : ¬condLast (grid0.coords t) := fun h => h7 ((hcondLast t).mp h)
      rw [Dat.leavesExact_idle (dat0 V qL qR c) 4 t (idle4_of t hc1) (noFlush4_of t hc1),
        Dat.leavesExact_idle (dat0 V qL qR c) 5 t (idle5_of t hc1) (noFlush5_of t hc1)]
      rw [outsAt_mid V c t h0 h7]
      unfold midAt; dsimp only
      rw [Phi_castSucc, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ _ _ hc0 hc1 (iblk V c 0 t) (iblk V c 1 t) (iblk V c 2 t) (iblk V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (coverM_S0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverM_S1 c _ _ _ _ _ _ _ _ _ _ _ _ _ _ _ _ _ _ _ _ _ _ _ _ _)
          iexact Hr
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dat0 (F := F) V qL qR c) (defs₀ (F := F)) Variants.none () Set.univ := fun t => by
  rw [bigSep_W0, bigSep_W0]
  exact sound_body V qL qR c t

/-- What the launch hands the region is the invariant before the first point. -/
theorem hin (c : Dev nD) : Pipeline.ΦA spec0 c ⊢ (dat0 V qL qR c).Φ 0 := by
  rw [show (dat0 V qL qR c).Φ 0 = PhiS V c 0 (Nat.zero_le _) from rfl, PhiS_zero V c 0 _ rfl]
  try exact Idealize.SL.BI.Entails.refl _

/-- After the last point the invariant gives the launch's back. -/
theorem hout (c : Dev nD) : (dat0 V qL qR c).Φ (Fin.last cfg0.N) ⊢ Pipeline.ΦA spec0 c := by
  rw [show (dat0 V qL qR c).Φ (Fin.last cfg0.N) = PhiS V c (Fin.last cfg0.N).val (Nat.le_of_lt_succ (Fin.last cfg0.N).isLt) from rfl]
  exact PhiS_forget V c _ _

end

end Cert.Kernel.MinMax

end
-- ==== Proof.K.R1Cover.lean ====
import proofs.«115905_j90486370992708_1_alg».proof.Proof.K.R1RunL

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! In each case of the body the stores into a buffer tile it, so the pieces cover it (checked by evaluating the pieces). -/

theorem coverF_S0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : condFirst i) (hc1 : ¬condLast i) (x0 x1 : Vec F S512x1024 .f32) (x2 : Vec F S512x1 .i32) (x3 : Vec F S1x512 .i32) (x4 x5 x6 : Vec F S512x1 .f32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1, y ∈ pc.1.set :=
  View.cover_of_tiledL (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1 S512x1.size (by sl_kernel_rfl) y
theorem coverF_S1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : condFirst i) (hc1 : ¬condLast i) (x0 x1 : Vec F S512x1024 .f32) (x2 : Vec F S512x1 .i32) (x3 : Vec F S1x512 .i32) (x4 x5 x6 : Vec F S512x1 .f32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_tiledL (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1 S512x1.size (by sl_kernel_rfl) y
theorem coverF_S2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : condFirst i) (hc1 : ¬condLast i) (x0 x1 : Vec F S512x1024 .f32) (x2 : Vec F S512x1 .i32) (x3 : Vec F S1x512 .i32) (x4 x5 x6 : Vec F S512x1 .f32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_tiledL (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1 S512x1.size (by sl_kernel_rfl) y
theorem coverF_S3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : condFirst i) (hc1 : ¬condLast i) (x0 x1 : Vec F S512x1024 .f32) (x2 : Vec F S512x1 .i32) (x3 : Vec F S1x512 .i32) (x4 x5 x6 : Vec F S512x1 .f32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.1, y ∈ pc.1.set :=
  View.cover_of_tiledL (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.1 S512x1.size (by sl_kernel_rfl) y
theorem coverM_S0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : ¬condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1, y ∈ pc.1.set :=
  View.cover_of_tiledL (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1 S512x1.size (by sl_kernel_rfl) y
theorem coverM_S1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : ¬condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1, y ∈ pc.1.set :=
  View.cover_of_tiledL (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1 S512x1.size (by sl_kernel_rfl) y
theorem coverM_S2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : ¬condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1, y ∈ pc.1.set :=
  View.cover_of_tiledL (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1 S512x1.size (by sl_kernel_rfl) y
theorem coverM_S3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : ¬condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1, y ∈ pc.1.set :=
  View.cover_of_tiledL (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1 S512x1.size (by sl_kernel_rfl) y
theorem coverL_7 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1, y ∈ pc.1.set :=
  View.cover_of_tiledL (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1 S512x1.size (by sl_kernel_rfl) y
theorem coverL_S0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1, y ∈ pc.1.set :=
  View.cover_of_tiledL (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1 S512x1.size (by sl_kernel_rfl) y
theorem coverL_S1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1, y ∈ pc.1.set :=
  View.cover_of_tiledL (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1 S512x1.size (by sl_kernel_rfl) y
theorem coverL_S2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1, y ∈ pc.1.set :=
  View.cover_of_tiledL (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1 S512x1.size (by sl_kernel_rfl) y
theorem coverL_S3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.2.1, y ∈ pc.1.set :=
  View.cover_of_tiledL (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.2.1 S512x1.size (by sl_kernel_rfl) y

end Cert.Kernel.Loss

end
-- ==== Proof.K.R1Body.lean ====
import proofs.«115905_j90486370992708_1_alg».proof.Proof.K.R1Dat
import proofs.«115905_j90486370992708_1_alg».proof.Proof.K.R1Cover

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body obligation

At every point the inputs' buffers hold their blocks; the closed forms of the two conditions say which case the point
is in; that case's run applies, handed the four accumulators at what the point before left (at anything at column block
0) and handing them back at this point's contents. -/

section
variable (V : (c : Dev nD) → (b : Ref sig .tc) → Buf (Elt F) ((c : Thread nD τ).loc b))
variable (qL qR : PosShare TreeShare)

theorem leaves_in0 (c : Dev nD) (t : Fin cfg1.N) :
    (dat1 V qL qR c).leavesExact 0 t = owns (c : Thread nD τ) (ms0 t) fullShare (iblk V c 0 t) := by
  unfold Dat.leavesExact; rw [live0 t, after0]
theorem leaves_in1 (c : Dev nD) (t : Fin cfg1.N) :
    (dat1 V qL qR c).leavesExact 1 t = owns (c : Thread nD τ) (ms1 t) fullShare (iblk V c 1 t) := by
  unfold Dat.leavesExact; rw [live1 t, after1]
theorem leaves_in2 (c : Dev nD) (t : Fin cfg1.N) :
    (dat1 V qL qR c).leavesExact 2 t = owns (c : Thread nD τ) (ms2 t) fullShare (iblk V c 2 t) := by
  unfold Dat.leavesExact; rw [live2 t, after2]
theorem leaves_in3 (c : Dev nD) (t : Fin cfg1.N) :
    (dat1 V qL qR c).leavesExact 3 t = owns (c : Thread nD τ) (ms3 t) fullShare (iblk V c 3 t) := by
  unfold Dat.leavesExact; rw [live3 t, after3]
theorem leaves_in4 (c : Dev nD) (t : Fin cfg1.N) :
    (dat1 V qL qR c).leavesExact 4 t = owns (c : Thread nD τ) (ms4 t) fullShare (iblk V c 4 t) := by
  unfold Dat.leavesExact; rw [live4 t, after4]
theorem leaves_in5 (c : Dev nD) (t : Fin cfg1.N) :
    (dat1 V qL qR c).leavesExact 5 t = owns (c : Thread nD τ) (ms5 t) fullShare (iblk V c 5 t) := by
  unfold Dat.leavesExact; rw [live5 t, after5]
theorem leaves_in6 (c : Dev nD) (t : Fin cfg1.N) :
    (dat1 V qL qR c).leavesExact 6 t = owns (c : Thread nD τ) (ms6 t) fullShare (iblk V c 6 t) := by
  unfold Dat.leavesExact; rw [live6 t, after6]
theorem leaves_out7 (c : Dev nD) (t : Fin cfg1.N) (h : condLast (grid1.coords t)) :
    (dat1 V qL qR c).leavesExact 7 t = owns (c : Thread nD τ) (ms7 t) fullShare ((dat1 V qL qR c).after 7 t) := by
  unfold Dat.leavesExact; rw [live7_of t h]

def bodyPre (c : Dev nD) (t : Fin cfg1.N) : sProp 𝕄 :=
  iprop((dat1 V qL qR c).Φ t.castSucc ∗ (dat1 V qL qR c).owesAt () t.castSucc
    ∗ (∃ d, owns (c : Thread nD τ) (ms0 t) fullShare ((dat1 V qL qR c).before 0 t d))
    ∗ (∃ d, owns (c : Thread nD τ) (ms1 t) fullShare ((dat1 V qL qR c).before 1 t d))
    ∗ (∃ d, owns (c : Thread nD τ) (ms2 t) fullShare ((dat1 V qL qR c).before 2 t d))
    ∗ (∃ d, owns (c : Thread nD τ) (ms3 t) fullShare ((dat1 V qL qR c).before 3 t d))
    ∗ (∃ d, owns (c : Thread nD τ) (ms4 t) fullShare ((dat1 V qL qR c).before 4 t d))
    ∗ (∃ d, owns (c : Thread nD τ) (ms5 t) fullShare ((dat1 V qL qR c).before 5 t d))
    ∗ (∃ d, owns (c : Thread nD τ) (ms6 t) fullShare ((dat1 V qL qR c).before 6 t d))
    ∗ (∃ d, owns (c : Thread nD τ) (ms7 t) fullShare ((dat1 V qL qR c).before 7 t d)))

def bodyPost (c : Dev nD) (t : Fin cfg1.N) : sProp 𝕄 :=
  iprop((dat1 V qL qR c).Φ t.succ ∗ (dat1 V qL qR c).owesAt () t.succ
    ∗ (dat1 V qL qR c).leavesExact 0 t
    ∗ (dat1 V qL qR c).leavesExact 1 t
    ∗ (dat1 V qL qR c).leavesExact 2 t
    ∗ (dat1 V qL qR c).leavesExact 3 t
    ∗ (dat1 V qL qR c).leavesExact 4 t
    ∗ (dat1 V qL qR c).leavesExact 5 t
    ∗ (dat1 V qL qR c).leavesExact 6 t
    ∗ (dat1 V qL qR c).leavesExact 7 t)

set_option maxHeartbeats 6400000 in
theorem sound_body (c : Dev nD) (t : Fin cfg1.N) :
    bodyPre V qL qR c t ⊢ wp frame (wpE (defs₀ (F := F)) Variants.none c none) Set.univ (bodyAt1 t) (fun _ => bodyPost V qL qR c t) := by
  unfold bodyPre bodyPost bodyAt1
  simp only [before0, before1, before2, before3, before4, before5, before6]
  rw [show (dat1 V qL qR c).owesAt () t.succ = (dat1 V qL qR c).owesAt () t.castSucc from rfl]
  rw [show (dat1 V qL qR c).Φ t.succ = PhiS V c (t.val + 1) t.isLt from rfl, PhiS_succ]
  rw [leaves_in0, leaves_in1, leaves_in2, leaves_in3, leaves_in4, leaves_in5, leaves_in6]
  have hN : t.val < 64 := lt_of_lt_of_eq t.isLt (show cfg1.N = 64 from N_1)
  by_cases h0 : t.val % 8 = 0
  · have h7 : ¬t.val % 8 = 7 := by omega
    have hc1 : ¬condLast (grid1.coords t) := fun h => h7 ((hcondLast t).mp h)
    rw [Dat.leavesExact_idle (dat1 V qL qR c) 7 t (idle7_of t hc1) (noFlush7_of t hc1)]
    rw [outsAt_first V c t h0]
    unfold firstAt; dsimp only
    rw [Phi_castSucc]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiS_open V c _ _) $$ HΦ
    icases HΦ' with ⟨⟨HS0, HS1, HS2, HS3, Hr⟩, Hg⟩
    iapply ((runFirst c (grid1.coords t) _ _ _ _ _ _ _ _ _ _ _ _ _ _ _ _ _ _ _ _ _ _ _ _ ((hcondFirst t).mpr h0) hc1 (iblk V c 0 t) (iblk V c 1 t) (iblk V c 2 t) (iblk V c 3 t) (iblk V c 4 t) (iblk V c 5 t) (iblk V c 6 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    iintro ⟨H0, H1, H2, H3, H4, H5, H6, H7, ⟨%es0, HS0⟩, ⟨%es1, HS1⟩, ⟨%es2, HS2⟩, ⟨%es3, HS3⟩⟩
    isplitl [HS0 HS1 HS2 HS3 Hr Hg]
    · isplitr [Hg]
      · isplitl [HS0]
        · unfold owns; iexists _; isplitr
          swap; · iexact HS0
          ipureintro; exact View.read_writes_of_cover _ _ _ _ _ (coverF_S0 c _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverF_S1 c _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverF_S2 c _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (coverF_S3 c _ _ _ _ _ _ _ _ _ _ _ _ _ _ _ _ _ _ _ _ _ _ _ _ _ _ _ _ _ _ _ _ _ _)
        iexact Hr
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hz : t.val ≠ 0 := fun h => h0 (by rw [h])
    have hc0 : ¬condFirst (grid1.coords t) := fun h => h0 ((hcondFirst t).mp h)
    by_cases h7 : t.val % 8 = 7
    · have hc1 : condLast (grid1.coords t) := (hcondLast t).mpr h7
      rw [leaves_out7 V qL qR c t hc1, after7]
      rw [outsAt_last V c t h7]
      unfold lastAt; dsimp only
      rw [Phi_castSucc, PhiS_pos V c _ _ hz]
      iintro ⟨⟨⟨HS0, HS1, HS2, HS3, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid1.coords t) _ _ _ _ _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, ⟨%e7, H7⟩, ⟨%es0, HS0⟩, ⟨%es1, HS1⟩, ⟨%es2, HS2⟩, ⟨%es3, HS3⟩⟩
      isplitl [HS0 HS1 HS2 HS3 Hr Hg]
      · isplitr [Hg]
        · isplitl [HS0]
          · unfold owns; iexists _; isplitr
            swap; · iexact HS0
            ipureintro; exact View.read_writes_of_cover _ _ _ _ _ (coverL_S0 c _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverL_S1 c _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverL_S2 c _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (coverL_S3 c _ _ _ _ _ _ _ _ _ _ _ _ _ _ _ _ _ _ _ _ _ _ _ _ _ _ _ _ _ _ _ _ _ _ _ _ _ _)
          iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverL_7 c _ _ _ _ _ _ _ _ _ _ _ _ _ _ _ _ _ _ _ _ _ _ _ _ _ _ _ _ _ _ _ _ _ _ _ _ _ _)
    · have hc1 : ¬condLast (grid1.coords t) := fun h => h7 ((hcondLast t).mp h)
      rw [Dat.leavesExact_idle (dat1 V qL qR c) 7 t (idle7_of t hc1) (noFlush7_of t hc1)]
      rw [outsAt_mid V c t h0 h7]
      unfold midAt; dsimp only
      rw [Phi_castSucc, PhiS_pos V c _ _ hz]
      iintro ⟨⟨⟨HS0, HS1, HS2, HS3, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid1.coords t) _ _ _ _ _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) _ _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, ⟨%es0, HS0⟩, ⟨%es1, HS1⟩, ⟨%es2, HS2⟩, ⟨%es3, HS3⟩⟩
      isplitl [HS0 HS1 HS2 HS3 Hr Hg]
      · isplitr [Hg]
        · isplitl [HS0]
          · unfold owns; iexists _; isplitr
            swap; · iexact HS0
            ipureintro; exact View.read_writes_of_cover _ _ _ _ _ (coverM_S0 c _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverM_S1 c _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverM_S2 c _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (coverM_S3 c _ _ _ _ _ _ _ _ _ _ _ _ _ _ _ _ _ _ _ _ _ _ _ _ _ _ _ _ _ _ _ _ _ _ _ _ _ _)
          iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dat1 (F := F) V qL qR c) (defs₀ (F := F)) Variants.none () Set.univ := fun t => by
  rw [bigSep_W1, bigSep_W1]
  exact sound_body V qL qR c t

/-- What the launch hands the region is the invariant before the first point. -/
theorem hin (c : Dev nD) : Pipeline.ΦA spec1 c ⊢ (dat1 V qL qR c).Φ 0 := by
  rw [show (dat1 V qL qR c).Φ 0 = PhiS V c 0 (Nat.zero_le _) from rfl, PhiS_zero V c 0 _ rfl]
  try exact Idealize.SL.BI.Entails.refl _

/-- After the last point the invariant gives the launch's back. -/
theorem hout (c : Dev nD) : (dat1 V qL qR c).Φ (Fin.last cfg1.N) ⊢ Pipeline.ΦA spec1 c := by
  rw [show (dat1 V qL qR c).Φ (Fin.last cfg1.N) = PhiS V c (Fin.last cfg1.N).val (Nat.le_of_lt_succ (Fin.last cfg1.N).isLt) from rfl]
  exact PhiS_forget V c _ _

end

end Cert.Kernel.Loss

end
-- ==== Proof.K.Frame.lean ====
import proofs.«115905_j90486370992708_1_alg».proof.Proof.K.FrameData
import proofs.«115905_j90486370992708_1_alg».proof.Proof.K.R0Body
import proofs.«115905_j90486370992708_1_alg».proof.Proof.K.R1Body

/-! # The program's run, assembled from its two kernel regions

Between two items of the program a core holds every unscoped buffer whole at the contents named in the data module,
its generator register at some state, and owes nothing. A kernel region takes its windows' arrays out of the unscoped
buffers when it is entered — `main_arg0`, read through two windows, by halves — and puts them back when it is left,
the output arrays at what the write-backs leave. The host stretches, the chaining and the launch are the generated
conditional frame's; here are the two regions' records and the launch's two side conditions. -/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-! ## The thread state beside the buffers -/

abbrev 𝒱₀ : Variants := Variants.none
/-- No core waits on another: no level is assigned. -/
abbrev L : GSem nD τ sig → Finset Unit := fun _ => ∅
abbrev lv : GSem nD τ sig → Unit → ℕ := fun _ _ => 0
/-- What rides beside the buffers through every item: the core's generator register at some state (a region's
    invariant takes it in and gives it back), and that the core owes nothing. -/
abbrev R (c : Dev nD) : sProp 𝕄 := iprop((∃ r, prngReg c r) ∗ ∃ W, owes (c : Thread nD τ) (0 : CellTallies nD τ sig Unit) W)
/-- The same between any two items. -/
abbrev E : Fin 3 → Dev nD → sProp 𝕄 := fun _ c => R (F := F) c

/-! ## The regions as segments -/

set_option backward.isDefEq.respectTransparency.types false in
/-- THE FIRST KERNEL: entered from every unscoped buffer at the contents after the first host stretch, left with its
    two output arrays at what the write-backs leave. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (MinMax.body_obligation (E1 m) Share.qL Share.qR c).loose
  hwaits := Pipeline.hwaits_of_owed_zero _ _ _ _ L lv 0 fun _ _ => rfl
  pre c := iprop(StableHlo.held (c : Thread nD τ) (Pipeline.ucRefs τ sig) (Gen.V1 m c) ∗ E 0 c)
  post c := iprop(StableHlo.held (c : Thread nD τ) (Pipeline.ucRefs τ sig) (Gen.V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Share.arrays_of_unscopedBufs0 (pdats m 0 c) (hq0 m c) (E1 m c) ((pdats m 0 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (MinMax.hin (E1 m) Share.qL Share.qR c)
    unfold Pipeline.ΦA
    iintro ⟨Hp, -, Hr⟩
    isplitl [Hr]; · iexact Hr
    iexact Hp
  hout c := by
    rw [Pipeline.ownSems0_none]
    refine BIBase.Entails.trans (MinMax.hout (E1 m) Share.qL Share.qR c) ?_
    unfold Pipeline.ΦA
    iintro ⟨Hr, Hp⟩
    isplitl [Hp]; · iexact Hp
    isplitr; · iempintro
    iexact Hr
  hexit c := by
    have hjoin := Share.unscopedBufs_of_arrays0 (pdats m 0 c) (hq0 m c) (E1 m c) (fun b => Gen.V2 m (outs m) c b)
      ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND KERNEL: entered from every unscoped buffer at the contents the first kernel leaves, left with its
    output array at what the write-backs leave. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (Loss.body_obligation (E2 m) Share.qL Share.qR c).loose
  hwaits := Pipeline.hwaits_of_owed_zero _ _ _ _ L lv 1 fun _ _ => rfl
  pre c := iprop(StableHlo.held (c : Thread nD τ) (Pipeline.ucRefs τ sig) (Gen.V2 m (outs m) c) ∗ E 1 c)
  post c := iprop(StableHlo.held (c : Thread nD τ) (Pipeline.ucRefs τ sig) (Gen.V3 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none, V2_eq]
    have hsplit := Share.arrays_of_unscopedBufs1 (pdats m 1 c) (hq1 m c) (E2 m c) ((pdats m 1 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Loss.hin (E2 m) Share.qL Share.qR c)
    unfold Pipeline.ΦA
    iintro ⟨Hp, -, Hr⟩
    isplitl [Hr]; · iexact Hr
    iexact Hp
  hout c := by
    rw [Pipeline.ownSems0_none]
    refine BIBase.Entails.trans (Loss.hout (E2 m) Share.qL Share.qR c) ?_
    unfold Pipeline.ΦA
    iintro ⟨Hr, Hp⟩
    isplitl [Hp]; · iexact Hp
    isplitr; · iempintro
    iexact Hr
  hexit c := by
    have hjoin := Share.unscopedBufs_of_arrays1 (pdats m 1 c) (hq1 m c) (E2 m c) (fun b => Gen.V3 m (outs m) c b)
      ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side conditions and the frame -/

variable (ρ : Dev nD → PrngReg)

/-- The launch element is the pipeline library's, and nothing else is made at launch. -/
theorem hu₀ : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core beside its buffers makes the first thread state's rest: the generator register at
    its launch state, nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: from any memory with zero counters every weakly fair execution of the program terminates, nothing
    faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) hu₀ E (hE0 ρ)
    (fun c => by iintro ⟨-, HO⟩; iexact HO)
    (reg0 m) (fun _ => .rfl) (fun _ => .rfl) (reg1 m) (fun _ => .rfl) (fun _ => .rfl)

end Cert.Kernel.Hand

end
-- ==== Proof.KI.Share.lean ====
import proofs.«115905_j90486370992708_1_alg».proof.Proof.Gen.KernelIdeal.Launch

/-! # One array handed to two input windows: entering and leaving a kernel region

Both kernel regions read `main_arg0` through two input windows (a row block and a column block of the same
matrix). The pipeline's proof data holds each window's array at a share of its own, so the full share of
`main_arg0` is dealt as two halves, one per window, when the region is entered, and the halves are joined back
when it is left (both windows end holding the same contents, the array being read only). Every other array
belongs to one window and stays at the full share. -/

noncomputable section

namespace Cert.KernelIdeal.Share

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-! ## The two halves of the full share -/

/-- The share of `main_arg0` held for the first window on it, -/
abbrev qL : PosShare TreeShare := fullShare.left
/-- and for the second. -/
abbrev qR : PosShare TreeShare := fullShare.right
/-- Together they are the full share. -/
theorem qL_qR : fullShare ∈ PCS.op qL qR := PosShare.mem_left_op_right fullShare

/-- Each window's share in region 0: the halves for the two windows on `main_arg0`, the full share otherwise. -/
abbrev q0 : Fin 6 → PosShare TreeShare := fun | 0 => qL | 1 => qR | _ => fullShare
/-- Each window's share in region 1, likewise. -/
abbrev q1 : Fin 8 → PosShare TreeShare := fun | 0 => qL | 1 => qR | _ => fullShare

/-- A whole buffer at the full share is the same buffer at the two halves. -/
theorem pt_halves {ℓ : Loc nD τ sig} (f : Buf (Elt F) ℓ) :
    (ℓ ↦{fullShare} f : sProp 𝕄) ⊣⊢ iprop((ℓ ↦{qL} f) ∗ ℓ ↦{qR} f) := pointsTo_share qL_qR

/-! ## Region 0 (custom_call 0) -/

section R0

variable {c : Dev nD} (dat : Dat τ (Elt F) Unit ℕ (UR sig nD τ) ℕ cfg0 c)

/-- The share each window's array is held at: an output's is full whatever `q` says, and `q0` says full there. -/
theorem share0 (hq : ∀ w, dat.q w = q0 w) : ∀ w : Fin 6, dat.share w = q0 w := fun
  | 0 => (if_neg (by decide)).trans (hq 0)
  | 1 => (if_neg (by decide)).trans (hq 1)
  | 2 => (if_neg (by decide)).trans (hq 2)
  | 3 => (if_neg (by decide)).trans (hq 3)
  | 4 => if_pos (by decide)
  | 5 => if_pos (by decide)
  | ⟨_ + 6, h⟩ => absurd h (Nat.not_lt.2 (Nat.le_add_left _ _))

/-- The region's arrays at contents read off a valuation `V`: each window's whole buffer at the window's share. -/
theorem arrays0_eq (hq : ∀ w, dat.q w = q0 w) (V : (b : Ref sig .tc) → Buf (Elt F) ((c : Thread nD τ).loc b))
    (Fa : (w : Fin cfg0.W) → Buf (Elt F) ((cfg0.win w).arr.view.loc (c : Thread nD τ))) (hFa : ∀ w, Fa w = V (Pipeline.arrRef spec0 w)) :
    (dat.arrays Fa : sProp 𝕄)
      = bigSep Finset.univ fun w : Fin 6 => (((c : Thread nD τ).loc (Pipeline.arrRef spec0 w)) ↦{q0 w} V (Pipeline.arrRef spec0 w) : sProp 𝕄) := by
  unfold Pipeline.Dat.arrays
  exact bigSep_congr fun w _ => by rw [(arr_whole0 w).set_eq_univ, share0 dat hq w, hFa w]

/-- The five buffers behind the six windows, one by one. -/
theorem arrBufs0_eq (V : (b : Ref sig .tc) → Buf (Elt F) ((c : Thread nD τ).loc b)) :
    (Pipeline.arrBufs spec0 c V : sProp 𝕄)
      = iprop((((c : Thread nD τ).loc main_arg0) ↦{fullShare} V main_arg0) ∗ (((c : Thread nD τ).loc main_v0) ↦{fullShare} V main_v0)
          ∗ (((c : Thread nD τ).loc main_v1) ↦{fullShare} V main_v1) ∗ (((c : Thread nD τ).loc main_v10_0) ↦{fullShare} V main_v10_0)
          ∗ (((c : Thread nD τ).loc main_v10_1) ↦{fullShare} V main_v10_1)) := by
  unfold Pipeline.arrBufs
  rw [bigSep_eq_bigSepL_of_eq [main_arg0, main_v0, main_v1, main_v10_0, main_v10_1] (by decide) (by decide)]
  rfl

/-- The core's unscoped buffers are the five buffers behind the windows and the rest. -/
theorem unscopedBufs0_split (V : (b : Ref sig .tc) → Buf (Elt F) ((c : Thread nD τ).loc b)) :
    (unscopedBufs c V : sProp 𝕄) = iprop(Pipeline.arrBufs spec0 c V ∗ Pipeline.unscopedRest spec0 c V) :=
  Pipeline.unscopedBufs_split₀ (fun _ : Unit => cfg0) () winFacts₀0.arr_unscoped c V

/-- The windows' arrays at contents read off a valuation `V`: `main_arg0` at the two halves, the rest whole. -/
theorem arrays0_of (hq : ∀ w, dat.q w = q0 w) (V : (b : Ref sig .tc) → Buf (Elt F) ((c : Thread nD τ).loc b))
    (Fa : (w : Fin cfg0.W) → Buf (Elt F) ((cfg0.win w).arr.view.loc (c : Thread nD τ))) (hFa : ∀ w, Fa w = V (Pipeline.arrRef spec0 w)) :
    (dat.arrays Fa : sProp 𝕄)
      = iprop((((c : Thread nD τ).loc main_arg0) ↦{qL} V main_arg0) ∗ (((c : Thread nD τ).loc main_arg0) ↦{qR} V main_arg0)
          ∗ (((c : Thread nD τ).loc main_v0) ↦{fullShare} V main_v0) ∗ (((c : Thread nD τ).loc main_v1) ↦{fullShare} V main_v1)
          ∗ (((c : Thread nD τ).loc main_v10_0) ↦{fullShare} V main_v10_0) ∗ (((c : Thread nD τ).loc main_v10_1) ↦{fullShare} V main_v10_1)) := by
  rw [arrays0_eq dat hq V Fa hFa, bigSep_W0]
  rfl

/-- ENTRY: the core's unscoped buffers at `V` are the region's arrays at contents read off `V` — `main_arg0` dealt to
    its two windows by halves — and the unscoped rest. -/
theorem arrays_of_unscopedBufs0 (hq : ∀ w, dat.q w = q0 w) (V : (b : Ref sig .tc) → Buf (Elt F) ((c : Thread nD τ).loc b))
    (Fa : (w : Fin cfg0.W) → Buf (Elt F) ((cfg0.win w).arr.view.loc (c : Thread nD τ))) (hFa : ∀ w, Fa w = V (Pipeline.arrRef spec0 w)) :
    (unscopedBufs c V : sProp 𝕄) ⊢ iprop(dat.arrays Fa ∗ Pipeline.unscopedRest spec0 c V) := by
  rw [unscopedBufs0_split, arrBufs0_eq, arrays0_of dat hq V Fa hFa]
  refine sep_mono ?_ .rfl
  exact (sep_mono (pt_halves _).1 .rfl).trans sep_assoc.1

/-- EXIT: the region's arrays at contents `Fa` and the unscoped rest at `V` are the core's unscoped buffers at any
    valuation `V'` that has the arrays at `Fa` and agrees with `V` off them; the two halves of `main_arg0`, both at
    `V' main_arg0`, join back. -/
theorem unscopedBufs_of_arrays0 (hq : ∀ w, dat.q w = q0 w) (V V' : (b : Ref sig .tc) → Buf (Elt F) ((c : Thread nD τ).loc b))
    (Fa : (w : Fin cfg0.W) → Buf (Elt F) ((cfg0.win w).arr.view.loc (c : Thread nD τ))) (hFa : ∀ w, Fa w = V' (Pipeline.arrRef spec0 w))
    (hrest : ∀ b, b ∉ Finset.univ.image (Pipeline.arrRef spec0) → V' b = V b) :
    iprop(dat.arrays Fa ∗ Pipeline.unscopedRest spec0 c V) ⊢ (unscopedBufs c V' : sProp 𝕄) := by
  rw [unscopedBufs0_split, arrBufs0_eq, arrays0_of dat hq V' Fa hFa]
  refine sep_mono ?_ (Entails.of_eq ?_)
  · exact sep_assoc.2.trans (sep_mono (pt_halves _).2 .rfl)
  · unfold Pipeline.unscopedRest
    exact bigSep_congr fun b hb => by rw [hrest b (Finset.mem_sdiff.mp hb).2]

end R0

/-! ## Region 1 (custom_call 1) -/

section R1

variable {c : Dev nD} (dat : Dat τ (Elt F) Unit ℕ (UR sig nD τ) ℕ cfg1 c)

/-- The share each window's array is held at: the output's is full whatever `q` says, and `q1` says full there. -/
theorem share1 (hq : ∀ w, dat.q w = q1 w) : ∀ w : Fin 8, dat.share w = q1 w := fun
  | 0 => (if_neg (by decide)).trans (hq 0)
  | 1 => (if_neg (by decide)).trans (hq 1)
  | 2 => (if_neg (by decide)).trans (hq 2)
  | 3 => (if_neg (by decide)).trans (hq 3)
  | 4 => (if_neg (by decide)).trans (hq 4)
  | 5 => (if_neg (by decide)).trans (hq 5)
  | 6 => (if_neg (by decide)).trans (hq 6)
  | 7 => if_pos (by decide)
  | ⟨_ + 8, h⟩ => absurd h (Nat.not_lt.2 (Nat.le_add_left _ _))

/-- The region's arrays at contents read off a valuation `V`: each window's whole buffer at the window's share. -/
theorem arrays1_eq (hq : ∀ w, dat.q w = q1 w) (V : (b : Ref sig .tc) → Buf (Elt F) ((c : Thread nD τ).loc b))
    (Fa : (w : Fin cfg1.W) → Buf (Elt F) ((cfg1.win w).arr.view.loc (c : Thread nD τ))) (hFa : ∀ w, Fa w = V (Pipeline.arrRef spec1 w)) :
    (dat.arrays Fa : sProp 𝕄)
      = bigSep Finset.univ fun w : Fin 8 => (((c : Thread nD τ).loc (Pipeline.arrRef spec1 w)) ↦{q1 w} V (Pipeline.arrRef spec1 w) : sProp 𝕄) := by
  unfold Pipeline.Dat.arrays
  exact bigSep_congr fun w _ => by rw [(arr_whole1 w).set_eq_univ, share1 dat hq w, hFa w]

/-- The seven buffers behind the eight windows, one by one. -/
theorem arrBufs1_eq (V : (b : Ref sig .tc) → Buf (Elt F) ((c : Thread nD τ).loc b)) :
    (Pipeline.arrBufs spec1 c V : sProp 𝕄)
      = iprop((((c : Thread nD τ).loc main_arg0) ↦{fullShare} V main_arg0) ∗ (((c : Thread nD τ).loc main_v0) ↦{fullShare} V main_v0)
          ∗ (((c : Thread nD τ).loc main_v1) ↦{fullShare} V main_v1) ∗ (((c : Thread nD τ).loc main_v9) ↦{fullShare} V main_v9)
          ∗ (((c : Thread nD τ).loc main_v10_0) ↦{fullShare} V main_v10_0) ∗ (((c : Thread nD τ).loc main_v10_1) ↦{fullShare} V main_v10_1)
          ∗ (((c : Thread nD τ).loc main_v11) ↦{fullShare} V main_v11)) := by
  unfold Pipeline.arrBufs
  rw [bigSep_eq_bigSepL_of_eq [main_arg0, main_v0, main_v1, main_v9, main_v10_0, main_v10_1, main_v11] (by decide) (by decide)]
  rfl

/-- The core's unscoped buffers are the seven buffers behind the windows and the rest. -/
theorem unscopedBufs1_split (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ (fun _ : Unit => cfg1) () winFacts₀1.arr_unscoped c V

/-- The windows' arrays at contents read off a valuation `V`: `main_arg0` at the two halves, the rest whole. -/
theorem arrays1_of (hq : ∀ w, dat.q w = q1 w) (V : (b : Ref sig .tc) → Buf (Elt F) ((c : Thread nD τ).loc b))
    (Fa : (w : Fin cfg1.W) → Buf (Elt F) ((cfg1.win w).arr.view.loc (c : Thread nD τ))) (hFa : ∀ w, Fa w = V (Pipeline.arrRef spec1 w)) :
    (dat.arrays Fa : sProp 𝕄)
      = iprop((((c : Thread nD τ).loc main_arg0) ↦{qL} V main_arg0) ∗ (((c : Thread nD τ).loc main_arg0) ↦{qR} V main_arg0)
          ∗ (((c : Thread nD τ).loc main_v0) ↦{fullShare} V main_v0) ∗ (((c : Thread nD τ).loc main_v1) ↦{fullShare} V main_v1)
          ∗ (((c : Thread nD τ).loc main_v9) ↦{fullShare} V main_v9) ∗ (((c : Thread nD τ).loc main_v10_0) ↦{fullShare} V main_v10_0)
          ∗ (((c : Thread nD τ).loc main_v10_1) ↦{fullShare} V main_v10_1) ∗ (((c : Thread nD τ).loc main_v11) ↦{fullShare} V main_v11)) := by
  rw [arrays1_eq dat hq V Fa hFa, bigSep_W1]
  rfl

/-- ENTRY: the core's unscoped buffers at `V` are the region's arrays at contents read off `V` — `main_arg0` dealt to
    its two windows by halves — and the unscoped rest. -/
theorem arrays_of_unscopedBufs1 (hq : ∀ w, dat.q w = q1 w) (V : (b : Ref sig .tc) → Buf (Elt F) ((c : Thread nD τ).loc b))
    (Fa : (w : Fin cfg1.W) → Buf (Elt F) ((cfg1.win w).arr.view.loc (c : Thread nD τ))) (hFa : ∀ w, Fa w = V (Pipeline.arrRef spec1 w)) :
    (unscopedBufs c V : sProp 𝕄) ⊢ iprop(dat.arrays Fa ∗ Pipeline.unscopedRest spec1 c V) := by
  rw [unscopedBufs1_split, arrBufs1_eq, arrays1_of dat hq V Fa hFa]
  refine sep_mono ?_ .rfl
  exact (sep_mono (pt_halves _).1 .rfl).trans sep_assoc.1

/-- EXIT: the region's arrays at contents `Fa` and the unscoped rest at `V` are the core's unscoped buffers at any
    valuation `V'` that has the arrays at `Fa` and agrees with `V` off them; the two halves of `main_arg0`, both at
    `V' main_arg0`, join back. -/
theorem unscopedBufs_of_arrays1 (hq : ∀ w, dat.q w = q1 w) (V V' : (b : Ref sig .tc) → Buf (Elt F) ((c : Thread nD τ).loc b))
    (Fa : (w : Fin cfg1.W) → Buf (Elt F) ((cfg1.win w).arr.view.loc (c : Thread nD τ))) (hFa : ∀ w, Fa w = V' (Pipeline.arrRef spec1 w))
    (hrest : ∀ b, b ∉ Finset.univ.image (Pipeline.arrRef spec1) → V' b = V b) :
    iprop(dat.arrays Fa ∗ Pipeline.unscopedRest spec1 c V) ⊢ (unscopedBufs c V' : sProp 𝕄) := by
  rw [unscopedBufs1_split, arrBufs1_eq, arrays1_of dat hq V' Fa hFa]
  refine sep_mono ?_ (Entails.of_eq ?_)
  · exact sep_assoc.2.trans (sep_mono (pt_halves _).2 .rfl)
  · unfold Pipeline.unscopedRest
    exact bigSep_congr fun b hb => by rw [hrest b (Finset.mem_sdiff.mp hb).2]

end R1

end Cert.KernelIdeal.Share

end
-- ==== Proof.KI.R0Cond.lean ====
import proofs.«115905_j90486370992708_1_alg».proof.Proof.Gen.KernelIdeal.Launch
import proofs.«115905_j90486370992708_1_alg».proof.Proof.Gen.KernelIdeal.Skeleton
import proofs.«115905_j90486370992708_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.MinMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The two conditions the body of the first kernel branches on, in closed form over the 8 × 8 grid: the column
    coordinate is the point's number modulo 8. -/

/-- The accumulators are reset at the first column block. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- The row's minimum and maximum are written out at the last column block. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

end Cert.KernelIdeal.MinMax

end
-- ==== Proof.KI.R0RunF.lean ====
import proofs.«115905_j90486370992708_1_alg».proof.Proof.KI.R0Cond

set_option maxRecDepth 16384

noncomputable section

namespace Cert.KernelIdeal.MinMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : condFirst i) (hc1 : ¬condLast i)
    (x0 x1 : Vec F S512x1024 .f32) (x2 : Vec F S512x1 .i32) (x3 : Vec F S1x512 .i32) :
    Σ' (LS0 : List (View.Piece (Elt F) S512x1 .f32)), { LS1 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__minmax_kernel i arg2 harg2 arg3 harg3 arg4 harg4 arg5 harg5 arg6 harg6 arg7 harg7 arg8 harg8 arg9 harg9) K } := by
  refine ⟨?_, ?_, fun xi4 xi5 E K => ?run⟩
  case run =>
    simp only [cc0__minmax_kernel_eq_skeleton]; unfold cc0__minmax_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; iexact H7

end Cert.KernelIdeal.MinMax

end
-- ==== Proof.KI.R0RunM.lean ====
import proofs.«115905_j90486370992708_1_alg».proof.Proof.KI.R0RunF

set_option maxRecDepth 16384

noncomputable section

namespace Cert.KernelIdeal.MinMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : ¬condLast i)
    (x0 x1 : Vec F S512x1024 .f32) (x2 : Vec F S512x1 .i32) (x3 : Vec F S1x512 .i32) (xs0 xs1 : Vec F S512x1 .f32) :
    Σ' (LS0 : List (View.Piece (Elt F) S512x1 .f32)), { LS1 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__minmax_kernel i arg2 harg2 arg3 harg3 arg4 harg4 arg5 harg5 arg6 harg6 arg7 harg7 arg8 harg8 arg9 harg9) K } := by
  refine ⟨?_, ?_, fun xi4 xi5 E K => ?run⟩
  case run =>
    simp only [cc0__minmax_kernel_eq_skeleton]; unfold cc0__minmax_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; iexact H7

end Cert.KernelIdeal.MinMax

end
-- ==== Proof.KI.R0RunL.lean ====
import proofs.«115905_j90486370992708_1_alg».proof.Proof.KI.R0RunM

set_option maxRecDepth 16384

noncomputable section

namespace Cert.KernelIdeal.MinMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : condLast i)
    (x0 x1 : Vec F S512x1024 .f32) (x2 : Vec F S512x1 .i32) (x3 : Vec F S1x512 .i32) (xs0 xs1 : Vec F S512x1 .f32) :
    Σ' (L4 : List (View.Piece (Elt F) S512x1 .f32)) (L5 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__minmax_kernel i arg2 harg2 arg3 harg3 arg4 harg4 arg5 harg5 arg6 harg6 arg7 harg7 arg8 harg8 arg9 harg9) K } := by
  refine ⟨?_, ?_, ?_, ?_, fun  E K => ?run⟩
  case run =>
    simp only [cc0__minmax_kernel_eq_skeleton]; unfold cc0__minmax_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    isplitl [H6]
    · iexists _; iexact H6
    iexists _; iexact H7

end Cert.KernelIdeal.MinMax

end
-- ==== Proof.KI.R0Dat.lean ====
import proofs.«115905_j90486370992708_1_alg».proof.Proof.KI.R0RunL

set_option maxRecDepth 16384

noncomputable section

namespace Cert.KernelIdeal.MinMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's proof data

The grid is 8 row blocks × 8 column blocks, point `t` at row block `t / 8` and column block `t % 8`. The body keeps two
running accumulators (the least similarity over the row's positives seen so far, the greatest over its negatives) in
two scratch buffers: reset at column block 0, updated at every column block, copied to the two output blocks at column
block 7. What the accumulators hold after each point is stated by recursion on the point. -/

section
variable (V : (c : Dev nD) → (b : Ref sig .tc) → Buf (Elt F) ((c : Thread nD τ).loc b))
variable (qL qR : PosShare TreeShare)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4_of : ∀ t : Fin cfg0.N, ¬condLast (grid0.coords t) → cfg0.idle 4 (grid0.coords t) = true := by decide +kernel
theorem noFlush4_of : ∀ t : Fin cfg0.N, ¬condLast (grid0.coords t) → (cfg0.win 4).flush t = false := by decide +kernel
theorem live4_of : ∀ t : Fin cfg0.N, condLast (grid0.coords t) → cfg0.idle 4 (grid0.coords t) = false := by decide +kernel
theorem idle5_of : ∀ t : Fin cfg0.N, ¬condLast (grid0.coords t) → cfg0.idle 5 (grid0.coords t) = true := by decide +kernel
theorem noFlush5_of : ∀ t : Fin cfg0.N, ¬condLast (grid0.coords t) → (cfg0.win 5).flush t = false := by decide +kernel
theorem live5_of : ∀ t : Fin cfg0.N, condLast (grid0.coords t) → cfg0.idle 5 (grid0.coords t) = false := by decide +kernel

/-! ## The memrefs the body is called with -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
abbrev scM0 : Memref sig .tc .vmem S512x1 .f32 := Memref.whole cc0_scratch0
abbrev scM1 : Memref sig .tc .vmem S512x1 .f32 := Memref.whole cc0_scratch1
/-- Views through which the contents of a 512 × 1 buffer are stated (the choice does not matter once the pieces cover it). -/
abbrev VS0 : View sig .tc .vmem S512x1 .f32 := scM0.view
abbrev VS1 : View sig .tc .vmem S512x1 .f32 := scM1.view
abbrev VO : View sig .tc .vmem S512x1 .f32 := (Memref.whole cc0_stg4_0 : Memref sig .tc .vmem S512x1 .f32).view

/-- The scoped buffers that are neither staging buffers of this call nor its two accumulators, each at some contents. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f))

/-- What the region's invariant holds before the first point: the two accumulators and the other scoped buffers at
    some contents, the generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ others c) ∗ (∃ r, prngReg c r)) := by
  unfold Pipeline.ΦA; rw [scopedRest0_eq]; simp only [scM0, scM1, owns_whole]; try rfl

/-! ## What each case of the body leaves -/

/-- An output block at a point where the body does not store into it: a placeholder nothing consults (the window is
    neither written back there nor read at the next point). -/
def idleOut : Vec F S512x1 .f32 := VO.read (Elt F) VO.junk

/-- The two accumulators after a point at column block 0: the pieces the run stores, read back. -/
def firstAt (c : Dev nD) (t : Fin cfg0.N) (h0 : t.val % 8 = 0) : Vec F S512x1 .f32 × Vec F S512x1 .f32 :=
  let R := runFirst (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) ((hcondFirst t).mpr h0) (fun h => by have := (hcondLast t).mp h; omega) (iblk V c 0 t) (iblk V c 1 t) (iblk V c 2 t) (iblk V c 3 t)
  (VS0.read (Elt F) (VS0.writes (Elt F) VS0.junk R.1), VS1.read (Elt F) (VS1.writes (Elt F) VS1.junk R.2.1))

/-- The two accumulators after a point at a column block strictly between 0 and 7, from what the point before left. -/
def midAt (c : Dev nD) (t : Fin cfg0.N) (h0 : ¬t.val % 8 = 0) (h7 : ¬t.val % 8 = 7) (xs : Vec F S512x1 .f32 × Vec F S512x1 .f32) : Vec F S512x1 .f32 × Vec F S512x1 .f32 :=
  let R := runMid (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => h0 ((hcondFirst t).mp h)) (fun h => h7 ((hcondLast t).mp h)) (iblk V c 0 t) (iblk V c 1 t) (iblk V c 2 t) (iblk V c 3 t) xs.1 xs.2
  (VS0.read (Elt F) (VS0.writes (Elt F) VS0.junk R.1), VS1.read (Elt F) (VS1.writes (Elt F) VS1.junk R.2.1))

/-- The two output blocks and the two accumulators after a point at column block 7, from what the point before left. -/
def lastAt (c : Dev nD) (t : Fin cfg0.N) (h7 : t.val % 8 = 7) (xs : Vec F S512x1 .f32 × Vec F S512x1 .f32) : (Vec F S512x1 .f32 × Vec F S512x1 .f32) × (Vec F S512x1 .f32 × Vec F S512x1 .f32) :=
  let R := runLast (F := F) c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (fun h => by have := (hcondFirst t).mp h; omega) ((hcondLast t).mpr h7) (iblk V c 0 t) (iblk V c 1 t) (iblk V c 2 t) (iblk V c 3 t) xs.1 xs.2
  ((VO.read (Elt F) (VO.writes (Elt F) VO.junk R.1), VO.read (Elt F) (VO.writes (Elt F) VO.junk R.2.1)),
   (VS0.read (Elt F) (VS0.writes (Elt F) VS0.junk R.2.2.1), VS1.read (Elt F) (VS1.writes (Elt F) VS1.junk R.2.2.2.1)))

/-- THE RECURSION over the points: the two output blocks and the two accumulators after the body at point `n`. -/
def outsAt (c : Dev nD) : (n : ℕ) → n < cfg0.N → (Vec F S512x1 .f32 × Vec F S512x1 .f32) × (Vec F S512x1 .f32 × Vec F S512x1 .f32)
  | 0, hn => ((idleOut, idleOut), firstAt V c ⟨0, hn⟩ (Nat.zero_mod 8))
  | n + 1, hn =>
    if h0 : (n + 1) % 8 = 0 then ((idleOut, idleOut), firstAt V c ⟨n + 1, hn⟩ h0)
    else if h7 : (n + 1) % 8 = 7 then lastAt V c ⟨n + 1, hn⟩ h7 (outsAt c n (Nat.lt_of_succ_lt hn)).2
    else ((idleOut, idleOut), midAt V c ⟨n + 1, hn⟩ h0 h7 (outsAt c n (Nat.lt_of_succ_lt hn)).2)

theorem outsAt_first (c : Dev nD) (t : Fin cfg0.N) (h0 : t.val % 8 = 0) :
    outsAt V c t.val t.isLt = ((idleOut, idleOut), firstAt V c t h0) := by
  obtain ⟨n, hn⟩ := t
  cases n with
  | zero => exact rfl
  | succ n => exact (dif_pos h0).trans rfl

theorem outsAt_mid (c : Dev nD) (t : Fin cfg0.N) (h0 : ¬t.val % 8 = 0) (h7 : ¬t.val % 8 = 7) :
    outsAt V c t.val t.isLt = ((idleOut, idleOut), midAt V c t h0 h7 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem outsAt_last (c : Dev nD) (t : Fin cfg0.N) (h7 : t.val % 8 = 7) :
    outsAt V c t.val t.isLt = lastAt V c t h7 (outsAt V c (t.val - 1) (Nat.lt_of_le_of_lt (Nat.sub_le _ _) t.isLt)).2 := by
  obtain ⟨n, hn⟩ := t
  cases n with
  | zero => exact (by exfalso; (try dsimp only at h7); omega)
  | succ n => exact (dif_neg (by dsimp only at h7 ⊢; omega)).trans ((dif_pos h7).trans rfl)

/-- The region's invariant before position `n`: before the first point the launch's; afterwards the two accumulators
    at what the point before left, the other scoped buffers at some contents, the generator register at some state. -/
def PhiS (c : Dev nD) : (n : ℕ) → n ≤ cfg0.N → sProp 𝕄
  | 0, _ => Pipeline.ΦA spec0 c
  | n + 1, hn => iprop(iprop(owns (c : Thread nD τ) scM0 fullShare (outsAt V c n hn).2.1 ∗ owns (c : Thread nD τ) scM1 fullShare (outsAt V c n hn).2.2 ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare (outsAt V c n hn).2.1 ∗ owns (c : Thread nD τ) scM1 fullShare (outsAt V c n hn).2.2 ∗ others c) ∗ (∃ r, prngReg c r)) := rfl
theorem PhiS_pos (c : Dev nD) (n : ℕ) (h : n ≤ cfg0.N) (hz : n ≠ 0) :
    PhiS V c n h = iprop(iprop(owns (c : Thread nD τ) scM0 fullShare (outsAt V c (n - 1) (by omega)).2.1 ∗ owns (c : Thread nD τ) scM1 fullShare (outsAt V c (n - 1) (by omega)).2.2 ∗ others c) ∗ (∃ r, prngReg c r)) := by
  cases n with
  | zero => exact absurd rfl hz
  | succ n => rfl

/-- Whatever the position, the invariant gives back the launch's: the accumulators' named contents are forgotten. -/
theorem PhiS_forget (c : Dev nD) (n : ℕ) (h : n ≤ cfg0.N) : PhiS V c n h ⊢ Pipeline.ΦA spec0 c := by
  cases n with
  | zero => exact Idealize.SL.BI.Entails.refl _
  | succ n =>
    rw [PhiS_succ, PhiA_eq]
    iintro ⟨⟨HS0, HS1, Hr⟩, Hg⟩
    isplitr [Hg]
    · isplitl [HS0]; · iexists _; iexact HS0
      isplitl [HS1]; · iexists _; iexact HS1
      iexact Hr
    · iexact Hg

/-! ## The proof data -/

/-- The proof data of the first kernel on core `c`, at the entry contents `V`: each input's buffer at its block, the
    two outputs' and the two accumulators' by the recursion; nothing owed; the array the row-block and column-block
    windows share held by the two at the shares `qL`, `qR`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1.1
    | ⟨5, _⟩ => (outsAt V c t.val t.isLt).1.2
  Φ t := PhiS V c t.val (Nat.le_of_lt_succ t.isLt)
  q w := match w with
    | ⟨0, _⟩ => qL
    | ⟨1, _⟩ => qR
    | ⟨2, _⟩ => fullShare
    | ⟨3, _⟩ => fullShare
    | ⟨4, _⟩ => fullShare
    | ⟨5, _⟩ => fullShare
  owed _ := 0

theorem A_eq (c : Dev nD) (w : Fin cfg0.W) : (dat0 V qL qR c).A w = V c (Pipeline.arrRef spec0 w) := by
  dsimp only [dat0]
theorem Phi_castSucc (c : Dev nD) (t : Fin cfg0.N) :
    (dat0 V qL qR c).Φ t.castSucc = PhiS V c t.val (Nat.le_of_lt t.isLt) := by
  dsimp only [dat0]; simp only [Fin.coe_castSucc]
theorem after0 (c : Dev nD) (t : Fin cfg0.N) : (dat0 V qL qR c).after 0 t = iblk V c 0 t := by dsimp only [dat0]
theorem after1 (c : Dev nD) (t : Fin cfg0.N) : (dat0 V qL qR c).after 1 t = iblk V c 1 t := by dsimp only [dat0]
theorem after2 (c : Dev nD) (t : Fin cfg0.N) : (dat0 V qL qR c).after 2 t = iblk V c 2 t := by dsimp only [dat0]
theorem after3 (c : Dev nD) (t : Fin cfg0.N) : (dat0 V qL qR c).after 3 t = iblk V c 3 t := by dsimp only [dat0]
theorem after4 (c : Dev nD) (t : Fin cfg0.N) : (dat0 V qL qR c).after 4 t = (outsAt V c t.val t.isLt).1.1 := by dsimp only [dat0]
theorem after5 (c : Dev nD) (t : Fin cfg0.N) : (dat0 V qL qR c).after 5 t = (outsAt V c t.val t.isLt).1.2 := by dsimp only [dat0]
theorem before0 (c : Dev nD) (t : Fin cfg0.N) (d) : (dat0 V qL qR c).before 0 t d = iblk V c 0 t :=
  before_in0 V (dat0 V qL qR c) (A_eq V qL qR c 0) (after0 V qL qR c) t d
theorem before1 (c : Dev nD) (t : Fin cfg0.N) (d) : (dat0 V qL qR c).before 1 t d = iblk V c 1 t :=
  before_in1 V (dat0 V qL qR c) (A_eq V qL qR c 1) (after1 V qL qR c) t d
theorem before2 (c : Dev nD) (t : Fin cfg0.N) (d) : (dat0 V qL qR c).before 2 t d = iblk V c 2 t :=
  before_in2 V (dat0 V qL qR c) (A_eq V qL qR c 2) (after2 V qL qR c) t d
theorem before3 (c : Dev nD) (t : Fin cfg0.N) (d) : (dat0 V qL qR c).before 3 t d = iblk V c 3 t :=
  before_in3 V (dat0 V qL qR c) (A_eq V qL qR c 3) (after3 V qL qR c) t d

end

end Cert.KernelIdeal.MinMax

end
-- ==== Proof.KI.R1Cond.lean ====
import proofs.«115905_j90486370992708_1_alg».proof.Proof.Gen.KernelIdeal.Launch
import proofs.«115905_j90486370992708_1_alg».proof.Proof.Gen.KernelIdeal.Skeleton
import proofs.«115905_j90486370992708_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The two conditions the body of the second kernel branches on, in closed form over the 8 × 8 grid. -/

/-- The four accumulators are reset at the first column block. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- The row's loss is written out at the last column block. -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

end Cert.KernelIdeal.Loss

end
-- ==== Proof.KI.R1RunF.lean ====
import proofs.«115905_j90486370992708_1_alg».proof.Proof.KI.R1Cond

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : condFirst i) (hc1 : ¬condLast i)
    (x0 x1 : Vec F S512x1024 .f32) (x2 : Vec F S512x1 .i32) (x3 : Vec F S1x512 .i32) (x4 x5 x6 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi7 E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; iexact H9
    isplitl [H10]
    · iexists _; iexact H10
    iexists _; iexact H11

end Cert.KernelIdeal.Loss

end
-- ==== Proof.KI.R1RunM.lean ====
import proofs.«115905_j90486370992708_1_alg».proof.Proof.KI.R1RunF

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : ¬condLast i)
    (x0 x1 : Vec F S512x1024 .f32) (x2 : Vec F S512x1 .i32) (x3 : Vec F S1x512 .i32) (x4 x5 x6 : Vec F S512x1 .f32) (xs0 xs1 xs2 xs3 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi7 E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; iexact H9
    isplitl [H10]
    · iexists _; iexact H10
    iexists _; iexact H11

end Cert.KernelIdeal.Loss

end
-- ==== Proof.KI.R1RunL.lean ====
import proofs.«115905_j90486370992708_1_alg».proof.Proof.KI.R1RunM

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i)
    (x0 x1 : Vec F S512x1024 .f32) (x2 : Vec F S512x1 .i32) (x3 : Vec F S1x512 .i32) (x4 x5 x6 : Vec F S512x1 .f32) (xs0 xs1 xs2 xs3 : Vec F S512x1 .f32) :
    Σ' (L7 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun  E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; iexact H8
    isplitl [H9]
    · iexists _; iexact H9
    isplitl [H10]
    · iexists _; iexact H10
    iexists _; iexact H11

end Cert.KernelIdeal.Loss

end
-- ==== Proof.KI.R1Dat.lean ====
import proofs.«115905_j90486370992708_1_alg».proof.Proof.KI.R1RunL

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's proof data

The grid is 8 row blocks × 8 column blocks, point `t` at row block `t / 8` and column block `t % 8`. The body keeps four
running accumulators in four scratch buffers (the sum of the kept positives' exponentials, the sum of the kept
negatives', and for each kind the greatest 0/1 keep flag seen so far): reset at column block 0, updated at every column
block; at column block 7 the row's loss is computed from them and stored into the output block. What the accumulators
hold after each point is stated by recursion on the point. -/

section
variable (V : (c : Dev nD) → (b : Ref sig .tc) → Buf (Elt F) ((c : Thread nD τ).loc b))
variable (qL qR : PosShare TreeShare)

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before_in3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before_in4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before_in5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before_in6 {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
theorem live5 : ∀ t : Fin cfg1.N, cfg1.idle 5 (grid1.coords t) = false := by decide +kernel
theorem live6 : ∀ t : Fin cfg1.N, cfg1.idle 6 (grid1.coords t) = false := by decide +kernel
theorem idle7_of : ∀ t : Fin cfg1.N, ¬condLast (grid1.coords t) → cfg1.idle 7 (grid1.coords t) = true := by decide +kernel
theorem noFlush7_of : ∀ t : Fin cfg1.N, ¬condLast (grid1.coords t) → (cfg1.win 7).flush t = false := by decide +kernel
theorem live7_of : ∀ t : Fin cfg1.N, condLast (grid1.coords t) → cfg1.idle 7 (grid1.coords t) = false := by decide +kernel

/-! ## The memrefs the body is called with -/

abbrev ms0 (t : Fin cfg1.N) : Memref sig .tc .vmem S512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S512x1 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S512x1 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x1 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S512x1 .f32 := win1_7.stage (cfg1.slots t 7)
abbrev hs7 (t : Fin cfg1.N) : (ms7 t).IsWhole := hstage1_7 ((cfg1.slots t 7).cast nbuf1_7)
abbrev scM0 : Memref sig .tc .vmem S512x1 .f32 := Memref.whole cc1_scratch0
abbrev scM1 : Memref sig .tc .vmem S512x1 .f32 := Memref.whole cc1_scratch1
abbrev scM2 : Memref sig .tc .vmem S512x1 .f32 := Memref.whole cc1_scratch2
abbrev scM3 : Memref sig .tc .vmem S512x1 .f32 := Memref.whole cc1_scratch3
/-- Views through which the contents of a 512 × 1 buffer are stated (the choice does not matter once the pieces cover it). -/
abbrev VS0 : View sig .tc .vmem S512x1 .f32 := scM0.view
abbrev VS1 : View sig .tc .vmem S512x1 .f32 := scM1.view
abbrev VS2 : View sig .tc .vmem S512x1 .f32 := scM2.view
abbrev VS3 : View sig .tc .vmem S512x1 .f32 := scM3.view
abbrev VO : View sig .tc .vmem S512x1 .f32 := (Memref.whole cc1_stg7_0 : Memref sig .tc .vmem S512x1 .f32).view

/-- The scoped buffers that are neither staging buffers of this call nor its four accumulators, each at some contents. -/
abbrev others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- What the region's invariant holds before the first point, opened: the four accumulators and the other scoped buffers
    at some contents, the generator register at some state. -/
theorem PhiA_open (c : Dev nD) :
    (Pipeline.ΦA spec1 c : sProp 𝕄)
      ⊢ iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ others c) ∗ (∃ r, prngReg c r)) := by
  unfold Pipeline.ΦA; rw [scopedRest1_eq]; simp only [scM0, scM1, scM2, scM3, owns_whole]
  iintro ⟨⟨A0, A1, A2, A3, A4, A5, A6, A7, A8, A9, A10, A11, A12, A13, HS0, HS1, HS2, HS3⟩, Hg⟩
  isplitr [Hg]
  · isplitl [HS0]; · iexact HS0
    isplitl [HS1]; · iexact HS1
    isplitl [HS2]; · iexact HS2
    isplitl [HS3]; · iexact HS3
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  · iexact Hg

/-- and closed again. -/
theorem PhiA_close (c : Dev nD) :
    iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ others c) ∗ (∃ r, prngReg c r))
      ⊢ (Pipeline.ΦA spec1 c : sProp 𝕄) := by
  unfold Pipeline.ΦA; rw [scopedRest1_eq]; simp only [scM0, scM1, scM2, scM3, owns_whole]
  iintro ⟨⟨HS0, HS1, HS2, HS3, A0, A1, A2, A3, A4, A5, A6, A7, A8, A9, A10, A11, A12, A13⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [HS0]; · iexact HS0
    isplitl [HS1]; · iexact HS1
    isplitl [HS2]; · iexact HS2
    iexact HS3
  · iexact Hg

/-! ## What each case of the body leaves -/

/-- The output block at a point where the body does not store into it: a placeholder nothing consults (the window is
    neither written back there nor read at the next point). -/
def idleOut : Vec F S512x1 .f32 := VO.read (Elt F) VO.junk

/-- The four accumulators after a point at column block 0: the pieces the run stores, read back. -/
def firstAt (c : Dev nD) (t : Fin cfg1.N) (h0 : t.val % 8 = 0) : Vec F S512x1 .f32 × Vec F S512x1 .f32 × Vec F S512x1 .f32 × Vec F S512x1 .f32 :=
  let R := runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) ((hcondFirst t).mpr h0) (fun h => by have := (hcondLast t).mp h; omega) (iblk V c 0 t) (iblk V c 1 t) (iblk V c 2 t) (iblk V c 3 t) (iblk V c 4 t) (iblk V c 5 t) (iblk V c 6 t)
  (VS0.read (Elt F) (VS0.writes (Elt F) VS0.junk R.1), VS1.read (Elt F) (VS1.writes (Elt F) VS1.junk R.2.1), VS2.read (Elt F) (VS2.writes (Elt F) VS2.junk R.2.2.1), VS3.read (Elt F) (VS3.writes (Elt F) VS3.junk R.2.2.2.1))

/-- The four accumulators after a point at a column block strictly between 0 and 7, from what the point before left. -/
def midAt (c : Dev nD) (t : Fin cfg1.N) (h0 : ¬t.val % 8 = 0) (h7 : ¬t.val % 8 = 7) (xs : Vec F S512x1 .f32 × Vec F S512x1 .f32 × Vec F S512x1 .f32 × Vec F S512x1 .f32) : Vec F S512x1 .f32 × Vec F S512x1 .f32 × Vec F S512x1 .f32 × Vec F S512x1 .f32 :=
  let R := runMid (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) (fun h => h0 ((hcondFirst t).mp h)) (fun h => h7 ((hcondLast t).mp h)) (iblk V c 0 t) (iblk V c 1 t) (iblk V c 2 t) (iblk V c 3 t) (iblk V c 4 t) (iblk V c 5 t) (iblk V c 6 t) xs.1 xs.2.1 xs.2.2.1 xs.2.2.2
  (VS0.read (Elt F) (VS0.writes (Elt F) VS0.junk R.1), VS1.read (Elt F) (VS1.writes (Elt F) VS1.junk R.2.1), VS2.read (Elt F) (VS2.writes (Elt F) VS2.junk R.2.2.1), VS3.read (Elt F) (VS3.writes (Elt F) VS3.junk R.2.2.2.1))

/-- The output block and the four accumulators after a point at column block 7, from what the point before left. -/
def lastAt (c : Dev nD) (t : Fin cfg1.N) (h7 : t.val % 8 = 7) (xs : Vec F S512x1 .f32 × Vec F S512x1 .f32 × Vec F S512x1 .f32 × Vec F S512x1 .f32) : Vec F S512x1 .f32 × (Vec F S512x1 .f32 × Vec F S512x1 .f32 × Vec F S512x1 .f32 × Vec F S512x1 .f32) :=
  let R := runLast (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) (fun h => by have := (hcondFirst t).mp h; omega) ((hcondLast t).mpr h7) (iblk V c 0 t) (iblk V c 1 t) (iblk V c 2 t) (iblk V c 3 t) (iblk V c 4 t) (iblk V c 5 t) (iblk V c 6 t) xs.1 xs.2.1 xs.2.2.1 xs.2.2.2
  (VO.read (Elt F) (VO.writes (Elt F) VO.junk R.1),
   (VS0.read (Elt F) (VS0.writes (Elt F) VS0.junk R.2.1), VS1.read (Elt F) (VS1.writes (Elt F) VS1.junk R.2.2.1), VS2.read (Elt F) (VS2.writes (Elt F) VS2.junk R.2.2.2.1), VS3.read (Elt F) (VS3.writes (Elt F) VS3.junk R.2.2.2.2.1)))

/-- THE RECURSION over the points: the output block and the four accumulators after the body at point `n`. -/
def outsAt (c : Dev nD) : (n : ℕ) → n < cfg1.N → Vec F S512x1 .f32 × (Vec F S512x1 .f32 × Vec F S512x1 .f32 × Vec F S512x1 .f32 × Vec F S512x1 .f32)
  | 0, hn => (idleOut, firstAt V c ⟨0, hn⟩ (Nat.zero_mod 8))
  | n + 1, hn =>
    if h0 : (n + 1) % 8 = 0 then (idleOut, firstAt V c ⟨n + 1, hn⟩ h0)
    else if h7 : (n + 1) % 8 = 7 then lastAt V c ⟨n + 1, hn⟩ h7 (outsAt c n (Nat.lt_of_succ_lt hn)).2
    else (idleOut, midAt V c ⟨n + 1, hn⟩ h0 h7 (outsAt c n (Nat.lt_of_succ_lt hn)).2)

theorem outsAt_first (c : Dev nD) (t : Fin cfg1.N) (h0 : t.val % 8 = 0) :
    outsAt V c t.val t.isLt = (idleOut, firstAt V c t h0) := by
  obtain ⟨n, hn⟩ := t
  cases n with
  | zero => exact rfl
  | succ n => exact (dif_pos h0).trans rfl

theorem outsAt_mid (c : Dev nD) (t : Fin cfg1.N) (h0 : ¬t.val % 8 = 0) (h7 : ¬t.val % 8 = 7) :
    outsAt V c t.val t.isLt = (idleOut, midAt V c t h0 h7 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem outsAt_last (c : Dev nD) (t : Fin cfg1.N) (h7 : t.val % 8 = 7) :
    outsAt V c t.val t.isLt = lastAt V c t h7 (outsAt V c (t.val - 1) (Nat.lt_of_le_of_lt (Nat.sub_le _ _) t.isLt)).2 := by
  obtain ⟨n, hn⟩ := t
  cases n with
  | zero => exact (by exfalso; (try dsimp only at h7); omega)
  | succ n => exact (dif_neg (by dsimp only at h7 ⊢; omega)).trans ((dif_pos h7).trans rfl)

/-- The region's invariant before position `n`: before the first point the launch's; afterwards the four accumulators
    at what the point before left, the other scoped buffers at some contents, the generator register at some state. -/
def PhiS (c : Dev nD) : (n : ℕ) → n ≤ cfg1.N → sProp 𝕄
  | 0, _ => Pipeline.ΦA spec1 c
  | n + 1, hn => iprop(iprop(owns (c : Thread nD τ) scM0 fullShare (outsAt V c n hn).2.1 ∗ owns (c : Thread nD τ) scM1 fullShare (outsAt V c n hn).2.2.1 ∗ owns (c : Thread nD τ) scM2 fullShare (outsAt V c n hn).2.2.2.1 ∗ owns (c : Thread nD τ) scM3 fullShare (outsAt V c n hn).2.2.2.2 ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM0 fullShare (outsAt V c n hn).2.1 ∗ owns (c : Thread nD τ) scM1 fullShare (outsAt V c n hn).2.2.1 ∗ owns (c : Thread nD τ) scM2 fullShare (outsAt V c n hn).2.2.2.1 ∗ owns (c : Thread nD τ) scM3 fullShare (outsAt V c n hn).2.2.2.2 ∗ others c) ∗ (∃ r, prngReg c r)) := rfl
theorem PhiS_pos (c : Dev nD) (n : ℕ) (h : n ≤ cfg1.N) (hz : n ≠ 0) :
    PhiS V c n h = iprop(iprop(owns (c : Thread nD τ) scM0 fullShare (outsAt V c (n - 1) (by omega)).2.1 ∗ owns (c : Thread nD τ) scM1 fullShare (outsAt V c (n - 1) (by omega)).2.2.1 ∗ owns (c : Thread nD τ) scM2 fullShare (outsAt V c (n - 1) (by omega)).2.2.2.1 ∗ owns (c : Thread nD τ) scM3 fullShare (outsAt V c (n - 1) (by omega)).2.2.2.2 ∗ others c) ∗ (∃ r, prngReg c r)) := by
  cases n with
  | zero => exact absurd rfl hz
  | succ n => rfl

/-- The invariant at any position, opened: the four accumulators at some contents. -/
theorem PhiS_open (c : Dev nD) (n : ℕ) (h : n ≤ cfg1.N) :
    PhiS V c n h ⊢ iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ others c) ∗ (∃ r, prngReg c r)) := by
  cases n with
  | zero => exact PhiA_open c
  | succ n =>
    rw [PhiS_succ]
    iintro ⟨⟨HS0, HS1, HS2, HS3, Hr⟩, Hg⟩
    isplitr [Hg]
    · isplitl [HS0]; · iexists _; iexact HS0
      isplitl [HS1]; · iexists _; iexact HS1
      isplitl [HS2]; · iexists _; iexact HS2
      isplitl [HS3]; · iexists _; iexact HS3
      iexact Hr
    · iexact Hg

/-- Whatever the position, the invariant gives back the launch's: the accumulators' named contents are forgotten. -/
theorem PhiS_forget (c : Dev nD) (n : ℕ) (h : n ≤ cfg1.N) : PhiS V c n h ⊢ Pipeline.ΦA spec1 c :=
  (PhiS_open V c n h).trans (PhiA_close c)

/-! ## The proof data -/

/-- The proof data of the second kernel on core `c`, at the entry contents `V`: each input's buffer at its block, the
    output's and the four accumulators' by the recursion; nothing owed; the array the row-block and column-block
    windows share held by the two at the shares `qL`, `qR`. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
  Φ t := PhiS V c t.val (Nat.le_of_lt_succ t.isLt)
  q w := match w with
    | ⟨0, _⟩ => qL
    | ⟨1, _⟩ => qR
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg1.W) : (dat1 V qL qR c).A w = V c (Pipeline.arrRef spec1 w) := by
  dsimp only [dat1]
theorem Phi_castSucc (c : Dev nD) (t : Fin cfg1.N) :
    (dat1 V qL qR c).Φ t.castSucc = PhiS V c t.val (Nat.le_of_lt t.isLt) := by
  dsimp only [dat1]; simp only [Fin.coe_castSucc]
theorem after0 (c : Dev nD) (t : Fin cfg1.N) : (dat1 V qL qR c).after 0 t = iblk V c 0 t := by dsimp only [dat1]
theorem after1 (c : Dev nD) (t : Fin cfg1.N) : (dat1 V qL qR c).after 1 t = iblk V c 1 t := by dsimp only [dat1]
theorem after2 (c : Dev nD) (t : Fin cfg1.N) : (dat1 V qL qR c).after 2 t = iblk V c 2 t := by dsimp only [dat1]
theorem after3 (c : Dev nD) (t : Fin cfg1.N) : (dat1 V qL qR c).after 3 t = iblk V c 3 t := by dsimp only [dat1]
theorem after4 (c : Dev nD) (t : Fin cfg1.N) : (dat1 V qL qR c).after 4 t = iblk V c 4 t := by dsimp only [dat1]
theorem after5 (c : Dev nD) (t : Fin cfg1.N) : (dat1 V qL qR c).after 5 t = iblk V c 5 t := by dsimp only [dat1]
theorem after6 (c : Dev nD) (t : Fin cfg1.N) : (dat1 V qL qR c).after 6 t = iblk V c 6 t := by dsimp only [dat1]
theorem after7 (c : Dev nD) (t : Fin cfg1.N) : (dat1 V qL qR c).after 7 t = (outsAt V c t.val t.isLt).1 := by dsimp only [dat1]
theorem before0 (c : Dev nD) (t : Fin cfg1.N) (d) : (dat1 V qL qR c).before 0 t d = iblk V c 0 t :=
  before_in0 V (dat1 V qL qR c) (A_eq V qL qR c 0) (after0 V qL qR c) t d
theorem before1 (c : Dev nD) (t : Fin cfg1.N) (d) : (dat1 V qL qR c).before 1 t d = iblk V c 1 t :=
  before_in1 V (dat1 V qL qR c) (A_eq V qL qR c 1) (after1 V qL qR c) t d
theorem before2 (c : Dev nD) (t : Fin cfg1.N) (d) : (dat1 V qL qR c).before 2 t d = iblk V c 2 t :=
  before_in2 V (dat1 V qL qR c) (A_eq V qL qR c 2) (after2 V qL qR c) t d
theorem before3 (c : Dev nD) (t : Fin cfg1.N) (d) : (dat1 V qL qR c).before 3 t d = iblk V c 3 t :=
  before_in3 V (dat1 V qL qR c) (A_eq V qL qR c 3) (after3 V qL qR c) t d
theorem before4 (c : Dev nD) (t : Fin cfg1.N) (d) : (dat1 V qL qR c).before 4 t d = iblk V c 4 t :=
  before_in4 V (dat1 V qL qR c) (A_eq V qL qR c 4) (after4 V qL qR c) t d
theorem before5 (c : Dev nD) (t : Fin cfg1.N) (d) : (dat1 V qL qR c).before 5 t d = iblk V c 5 t :=
  before_in5 V (dat1 V qL qR c) (A_eq V qL qR c 5) (after5 V qL qR c) t d
theorem before6 (c : Dev nD) (t : Fin cfg1.N) (d) : (dat1 V qL qR c).before 6 t d = iblk V c 6 t :=
  before_in6 V (dat1 V qL qR c) (A_eq V qL qR c 6) (after6 V qL qR c) t d

end

end Cert.KernelIdeal.Loss

end
-- ==== Proof.KI.FrameData.lean ====
import proofs.«115905_j90486370992708_1_alg».proof.Proof.Gen.KernelIdeal.Regions
import proofs.«115905_j90486370992708_1_alg».proof.Proof.KI.Share
import proofs.«115905_j90486370992708_1_alg».proof.Proof.KI.R0Dat
import proofs.«115905_j90486370992708_1_alg».proof.Proof.KI.R1Dat

/-! # The buffers' contents between the two kernel regions

The program is a host stretch, the first kernel (two outputs: per row the least similarity over positives and the
greatest over negatives), the second kernel (one output: the per-row loss, reading the first kernel's two outputs),
and a closing host stretch (the mean). The first kernel is entered at the launch memory after the first host
stretch; the second at those contents with the first kernel's two output arrays at what its write-backs leave; the
closing stretch at those with the second kernel's output array at what its write-backs leave. No region writes any
other array. -/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-! ## The first kernel -/

/-- The contents the first kernel is entered at, read at the TensorCore's references. -/
abbrev E1 : (c : Dev nD) → (b : Ref sig .tc) → Buf (Elt F) ((c : Thread nD τ).loc b) := fun c b => Gen.V1 m c b
/-- The first kernel's proof data: `main_arg0` held by its two windows at the two halves of the full share. -/
abbrev D0 (c : Dev nD) : Dat τ (Elt F) Unit ℕ (UR sig nD τ) ℕ cfg0 c := MinMax.dat0 (E1 m) Share.qL Share.qR c
/-- What the first kernel's write-backs leave in its two output arrays. -/
def o0 (c : Dev nD) : Buf (Elt F) ((c : Thread nD τ).loc main_v10_0) := (D0 m c).arrAt 4 cfg0.N
def o1 (c : Dev nD) : Buf (Elt F) ((c : Thread nD τ).loc main_v10_1) := (D0 m c).arrAt 5 cfg0.N

/-! ## The second kernel -/

/-- The contents the second kernel is entered at: the first kernel's, its two output arrays at what it left. -/
abbrev W2 (c : Dev nD) : Valuation τ sig (Elt F) := Function.update (Function.update (Gen.V1 m c) main_v10_0 (o0 m c)) main_v10_1 (o1 m c)
/-- The same read at the TensorCore's references. -/
abbrev E2 : (c : Dev nD) → (b : Ref sig .tc) → Buf (Elt F) ((c : Thread nD τ).loc b) := fun c b => W2 m c b
/-- The second kernel's proof data. -/
abbrev D1 (c : Dev nD) : Dat τ (Elt F) Unit ℕ (UR sig nD τ) ℕ cfg1 c := Loss.dat1 (E2 m) Share.qL Share.qR c
/-- What the second kernel's write-backs leave in its output array. -/
def o2 (c : Dev nD) : Buf (Elt F) ((c : Thread nD τ).loc main_v11) := (D1 m c).arrAt 7 cfg1.N

/-! ## What the regions leave, as one family -/

/-- What the regions leave in the arrays they write: the three output arrays at what the write-backs leave (any
    other reference is never asked for). -/
def outs : Gen.Outs (F := F) := fun _ r c =>
  if h : r = main_v10_0 then h ▸ o0 m c
  else if h : r = main_v10_1 then h ▸ o1 m c
  else if h : r = main_v11 then h ▸ o2 m c
  else Gen.V1 m c r

theorem outs_v10_0 (n : ℕ) (c : Dev nD) : outs m n main_v10_0 c = o0 m c := dif_pos rfl
theorem outs_v10_1 (n : ℕ) (c : Dev nD) : outs m n main_v10_1 c = o1 m c := (dif_neg (by decide)).trans (dif_pos rfl)
theorem outs_v11 (n : ℕ) (c : Dev nD) : outs m n main_v11 c = o2 m c :=
  (dif_neg (by decide)).trans ((dif_neg (by decide)).trans (dif_pos rfl))

/-- The first kernel's two outputs and the second kernel's, as the proof data name them. -/
theorem outs_2_v10_0 (c : Dev nD) : outs m 2 main_v10_0 c = (D0 m c).arrAt 4 cfg0.N := outs_v10_0 m 2 c
theorem outs_2_v10_1 (c : Dev nD) : outs m 2 main_v10_1 c = (D0 m c).arrAt 5 cfg0.N := outs_v10_1 m 2 c
theorem outs_3_v11 (c : Dev nD) : outs m 3 main_v11 c = (D1 m c).arrAt 7 cfg1.N := outs_v11 m 3 c

/-- The contents after the first kernel are those the second kernel's proof data is stated at. -/
theorem V2_eq (c : Dev nD) : Gen.V2 m (outs m) c = W2 m c := by
  show Function.update (Function.update (Gen.V1 m c) main_v10_0 (outs m 2 main_v10_0 c)) main_v10_1 (outs m 2 main_v10_1 c) = _
  rw [outs_v10_0, outs_v10_1]

/-! ## Every pipeline's proof data -/

/-- The two kernels' proof data, by the pipeline's number. -/
def pdats : (p : Fin 2) → (c : Dev nD) → Dat τ (Elt F) Unit ℕ (UR sig nD τ) ℕ (cfgs p) c
  | ⟨0, _⟩ => fun c => D0 m c
  | ⟨1, _⟩ => fun c => D1 m c

/-- Each window's share, as the entry and exit lemmas take it. -/
theorem hq0 (c : Dev nD) : ∀ w, (D0 m c).q w = Share.q0 w := fun
  | 0 => rfl | 1 => rfl | 2 => rfl | 3 => rfl | 4 => rfl | 5 => rfl
  | ⟨_ + 6, h⟩ => absurd h (Nat.not_lt.2 (Nat.le_add_left _ _))
theorem hq1 (c : Dev nD) : ∀ w, (D1 m c).q w = Share.q1 w := fun
  | 0 => rfl | 1 => rfl | 2 => rfl | 3 => rfl | 4 => rfl | 5 => rfl | 6 => rfl | 7 => rfl
  | ⟨_ + 8, h⟩ => absurd h (Nat.not_lt.2 (Nat.le_add_left _ _))

/-! ## The arrays at the regions' exits -/

/-- An input window's array ends as the region found it. -/
theorem arrAt0_in (c : Dev nD) (w : Fin cfg0.W) (hin : (cfg0.win w).isOut = false) (n : ℕ) :
    (D0 m c).arrAt w n = Gen.V1 m c (Pipeline.arrRef spec0 w) :=
  ((D0 m c).arrAt_in w hin n).trans (MinMax.A_eq (E1 m) Share.qL Share.qR c w)
theorem arrAt1_in (c : Dev nD) (w : Fin cfg1.W) (hin : (cfg1.win w).isOut = false) (n : ℕ) :
    (D1 m c).arrAt w n = W2 m c (Pipeline.arrRef spec1 w) :=
  ((D1 m c).arrAt_in w hin n).trans (Loss.A_eq (E2 m) Share.qL Share.qR c w)

/-- After the first kernel every array of its windows holds what the pipeline leaves there. -/
theorem hF0 (c : Dev nD) : ∀ w : Fin cfg0.W, (D0 m c).arrAt w cfg0.N = Gen.V2 m (outs m) c (Pipeline.arrRef spec0 w) := fun
  | 0 => (arrAt0_in m c 0 rfl _).trans (Gen.V2_of m (outs m) c main_arg0 (by decide)).symm
  | 1 => (arrAt0_in m c 1 rfl _).trans (Gen.V2_of m (outs m) c main_arg0 (by decide)).symm
  | 2 => (arrAt0_in m c 2 rfl _).trans (Gen.V2_of m (outs m) c main_v0 (by decide)).symm
  | 3 => (arrAt0_in m c 3 rfl _).trans (Gen.V2_of m (outs m) c main_v1 (by decide)).symm
  | 4 => by
    show _ = Function.update (Function.update (Gen.V1 m c) main_v10_0 (outs m 2 main_v10_0 c)) main_v10_1 (outs m 2 main_v10_1 c) main_v10_0
    rw [Function.update_of_ne (StableHlo.devRef_ne_of_ne (by decide) : (Proc.devRef .tc main_v10_0 : DevRef τ sig) ≠ Proc.devRef .tc main_v10_1),
      Function.update_self, outs_2_v10_0]
  | 5 => by
    show _ = Function.update (Function.update (Gen.V1 m c) main_v10_0 (outs m 2 main_v10_0 c)) main_v10_1 (outs m 2 main_v10_1 c) main_v10_1
    rw [Function.update_self, outs_2_v10_1]
  | ⟨_ + 6, h⟩ => absurd h (Nat.not_lt.2 (Nat.le_add_left _ _))

/-- Off those arrays nothing changed. -/
theorem hrest0 (c : Dev nD) : ∀ b : Ref sig .tc, b ∉ Finset.univ.image (Pipeline.arrRef spec0) → Gen.V2 m (outs m) c b = Gen.V1 m c b :=
  fun b hb => Gen.V2_of m (outs m) c b fun hmem => hb (by
    rcases List.mem_cons.mp hmem with rfl | hmem
    · exact Finset.mem_image.mpr ⟨4, Finset.mem_univ _, rfl⟩
    · rcases List.mem_cons.mp hmem with rfl | hmem
      · exact Finset.mem_image.mpr ⟨5, Finset.mem_univ _, rfl⟩
      · exact absurd hmem (List.not_mem_nil))

/-- After the second kernel every array of its windows holds what the pipeline leaves there. -/
theorem hF1 (c : Dev nD) : ∀ w : Fin cfg1.W, (D1 m c).arrAt w cfg1.N = Gen.V3 m (outs m) c (Pipeline.arrRef spec1 w) := fun
  | 0 => (arrAt1_in m c 0 rfl _).trans ((Gen.V3_of m (outs m) c main_arg0 (by decide)).trans (congrFun (V2_eq m c) _)).symm
  | 1 => (arrAt1_in m c 1 rfl _).trans ((Gen.V3_of m (outs m) c main_arg0 (by decide)).trans (congrFun (V2_eq m c) _)).symm
  | 2 => (arrAt1_in m c 2 rfl _).trans ((Gen.V3_of m (outs m) c main_v0 (by decide)).trans (congrFun (V2_eq m c) _)).symm
  | 3 => (arrAt1_in m c 3 rfl _).trans ((Gen.V3_of m (outs m) c main_v1 (by decide)).trans (congrFun (V2_eq m c) _)).symm
  | 4 => (arrAt1_in m c 4 rfl _).trans ((Gen.V3_of m (outs m) c main_v9 (by decide)).trans (congrFun (V2_eq m c) _)).symm
  | 5 => (arrAt1_in m c 5 rfl _).trans ((Gen.V3_of m (outs m) c main_v10_0 (by decide)).trans (congrFun (V2_eq m c) _)).symm
  | 6 => (arrAt1_in m c 6 rfl _).trans ((Gen.V3_of m (outs m) c main_v10_1 (by decide)).trans (congrFun (V2_eq m c) _)).symm
  | 7 => by
    show _ = Function.update (Gen.V2 m (outs m) c) main_v11 (outs m 3 main_v11 c) main_v11
    rw [Function.update_self, outs_3_v11]
  | ⟨_ + 8, h⟩ => absurd h (Nat.not_lt.2 (Nat.le_add_left _ _))

/-- Off those arrays nothing changed. -/
theorem hrest1 (c : Dev nD) : ∀ b : Ref sig .tc, b ∉ Finset.univ.image (Pipeline.arrRef spec1) → Gen.V3 m (outs m) c b = W2 m c b :=
  fun b hb => (Gen.V3_of m (outs m) c b fun hmem => hb (by
    rcases List.mem_cons.mp hmem with rfl | hmem
    · exact Finset.mem_image.mpr ⟨7, Finset.mem_univ _, rfl⟩
    · exact absurd hmem (List.not_mem_nil))).trans (congrFun (V2_eq m c) _)

end Cert.KernelIdeal.Hand

end
-- ==== Proof.KI.FrameRun.lean ====
import proofs.«115905_j90486370992708_1_alg».proof.Proof.Gen.KernelIdeal.Regions

/-! # The run with its result

The program's run from the two regions' records: every weakly fair execution terminates with the three argument arrays
as launched, and — one more fact read off the last thread state — the result array holds what the last valuation names
there. -/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

set_option backward.isDefEq.respectTransparency.types false in
/-- THE RUN WITH ITS RESULT, given the regions' records: for any user algebra, level assignment, launch dues and ghost
    resources, any rest states `E` the launch makes on every core at once and that end owing nothing, any contents the
    regions leave and any proof data — given per region a segment record entered from the thread state before it and
    left at the one after it — every weakly fair execution from memory `m` with zero counters terminates, every final
    memory holds each argument as launched, and holds in the result array `main_v13` what the last valuation names there. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v13) = V4 m outs c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, (hpost0 c).trans (hpre1 c), hpost1 c, sep_mono .rfl (hE2 c)⟩)
    (hinit := ?_) (QY := fun c s => s.mem ((c.tc : Thread nD τ).loc main_v13) = V4 m outs c main_v13 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨h (Proc.devRef .tc main_v13) (Finset.mem_filter.mpr ⟨StableHlo.devRef_mem_tcRefs main_v13, by decide⟩),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c)⟩
    · iexact HSI

end Cert.KernelIdeal.Hand

end
-- ==== Proof.KI.R0Cover.lean ====
import proofs.«115905_j90486370992708_1_alg».proof.Proof.KI.R0RunL

set_option maxRecDepth 16384

noncomputable section

namespace Cert.KernelIdeal.MinMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! In each case of the body the stores into a buffer tile it, so the pieces cover it (checked by evaluating the pieces). -/

theorem coverF_S0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : condFirst i) (hc1 : ¬condLast i) (x0 x1 : Vec F S512x1024 .f32) (x2 : Vec F S512x1 .i32) (x3 : Vec F S1x512 .i32) (y : S512x1.Idx) :
    ∃ pc ∈ (runFirst (F := F) c i arg2 harg2 arg3 harg3 arg4 harg4 arg5 harg5 arg6 harg6 arg7 harg7 arg8 harg8 arg9 harg9 hc0 hc1 x0 x1 x2 x3).1, y ∈ pc.1.set :=
  View.cover_of_tiledL (runFirst (F := F) c i arg2 harg2 arg3 harg3 arg4 harg4 arg5 harg5 arg6 harg6 arg7 harg7 arg8 harg8 arg9 harg9 hc0 hc1 x0 x1 x2 x3).1 S512x1.size (by sl_kernel_rfl) y
theorem coverF_S1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : condFirst i) (hc1 : ¬condLast i) (x0 x1 : Vec F S512x1024 .f32) (x2 : Vec F S512x1 .i32) (x3 : Vec F S1x512 .i32) (y : S512x1.Idx) :
    ∃ pc ∈ (runFirst (F := F) c i arg2 harg2 arg3 harg3 arg4 harg4 arg5 harg5 arg6 harg6 arg7 harg7 arg8 harg8 arg9 harg9 hc0 hc1 x0 x1 x2 x3).2.1, y ∈ pc.1.set :=
  View.cover_of_tiledL (runFirst (F := F) c i arg2 harg2 arg3 harg3 arg4 harg4 arg5 harg5 arg6 harg6 arg7 harg7 arg8 harg8 arg9 harg9 hc0 hc1 x0 x1 x2 x3).2.1 S512x1.size (by sl_kernel_rfl) y
theorem coverM_S0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : ¬condLast i) (x0 x1 : Vec F S512x1024 .f32) (x2 : Vec F S512x1 .i32) (x3 : Vec F S1x512 .i32) (xs0 xs1 : Vec F S512x1 .f32) (y : S512x1.Idx) :
    ∃ pc ∈ (runMid (F := F) c i arg2 harg2 arg3 harg3 arg4 harg4 arg5 harg5 arg6 harg6 arg7 harg7 arg8 harg8 arg9 harg9 hc0 hc1 x0 x1 x2 x3 xs0 xs1).1, y ∈ pc.1.set :=
  View.cover_of_tiledL (runMid (F := F) c i arg2 harg2 arg3 harg3 arg4 harg4 arg5 harg5 arg6 harg6 arg7 harg7 arg8 harg8 arg9 harg9 hc0 hc1 x0 x1 x2 x3 xs0 xs1).1 S512x1.size (by sl_kernel_rfl) y
theorem coverM_S1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : ¬condLast i) (x0 x1 : Vec F S512x1024 .f32) (x2 : Vec F S512x1 .i32) (x3 : Vec F S1x512 .i32) (xs0 xs1 : Vec F S512x1 .f32) (y : S512x1.Idx) :
    ∃ pc ∈ (runMid (F := F) c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (runMid (F := F) c i arg2 harg2 arg3 harg3 arg4 harg4 arg5 harg5 arg6 harg6 arg7 harg7 arg8 harg8 arg9 harg9 hc0 hc1 x0 x1 x2 x3 xs0 xs1).2.1 S512x1.size (by sl_kernel_rfl) y
theorem coverL_4 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : condLast i) (x0 x1 : Vec F S512x1024 .f32) (x2 : Vec F S512x1 .i32) (x3 : Vec F S1x512 .i32) (xs0 xs1 : Vec F S512x1 .f32) (y : S512x1.Idx) :
    ∃ pc ∈ (runLast (F := F) c i arg2 harg2 arg3 harg3 arg4 harg4 arg5 harg5 arg6 harg6 arg7 harg7 arg8 harg8 arg9 harg9 hc0 hc1 x0 x1 x2 x3 xs0 xs1).1, y ∈ pc.1.set :=
  View.cover_of_tiledL (runLast (F := F) c i arg2 harg2 arg3 harg3 arg4 harg4 arg5 harg5 arg6 harg6 arg7 harg7 arg8 harg8 arg9 harg9 hc0 hc1 x0 x1 x2 x3 xs0 xs1).1 S512x1.size (by sl_kernel_rfl) y
theorem coverL_5 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : condLast i) (x0 x1 : Vec F S512x1024 .f32) (x2 : Vec F S512x1 .i32) (x3 : Vec F S1x512 .i32) (xs0 xs1 : Vec F S512x1 .f32) (y : S512x1.Idx) :
    ∃ pc ∈ (runLast (F := F) c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (runLast (F := F) c i arg2 harg2 arg3 harg3 arg4 harg4 arg5 harg5 arg6 harg6 arg7 harg7 arg8 harg8 arg9 harg9 hc0 hc1 x0 x1 x2 x3 xs0 xs1).2.1 S512x1.size (by sl_kernel_rfl) y
theorem coverL_S0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : condLast i) (x0 x1 : Vec F S512x1024 .f32) (x2 : Vec F S512x1 .i32) (x3 : Vec F S1x512 .i32) (xs0 xs1 : Vec F S512x1 .f32) (y : S512x1.Idx) :
    ∃ pc ∈ (runLast (F := F) c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (runLast (F := F) c i arg2 harg2 arg3 harg3 arg4 harg4 arg5 harg5 arg6 harg6 arg7 harg7 arg8 harg8 arg9 harg9 hc0 hc1 x0 x1 x2 x3 xs0 xs1).2.2.1 S512x1.size (by sl_kernel_rfl) y
theorem coverL_S1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : condLast i) (x0 x1 : Vec F S512x1024 .f32) (x2 : Vec F S512x1 .i32) (x3 : Vec F S1x512 .i32) (xs0 xs1 : Vec F S512x1 .f32) (y : S512x1.Idx) :
    ∃ pc ∈ (runLast (F := F) c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (runLast (F := F) c i arg2 harg2 arg3 harg3 arg4 harg4 arg5 harg5 arg6 harg6 arg7 harg7 arg8 harg8 arg9 harg9 hc0 hc1 x0 x1 x2 x3 xs0 xs1).2.2.2.1 S512x1.size (by sl_kernel_rfl) y

end Cert.KernelIdeal.MinMax

end
-- ==== Proof.KI.R0Body.lean ====
import proofs.«115905_j90486370992708_1_alg».proof.Proof.KI.R0Dat
import proofs.«115905_j90486370992708_1_alg».proof.Proof.KI.R0Cover

set_option maxRecDepth 16384

noncomputable section

namespace Cert.KernelIdeal.MinMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body obligation

At every point the inputs' buffers hold their blocks; the closed forms of the two conditions say which case the point
is in; that case's run applies, handed the two accumulators at what the point before left (at anything at column block
0) and handing them back at this point's contents. -/

section
variable (V : (c : Dev nD) → (b : Ref sig .tc) → Buf (Elt F) ((c : Thread nD τ).loc b))
variable (qL qR : PosShare TreeShare)

theorem leaves_in0 (c : Dev nD) (t : Fin cfg0.N) :
    (dat0 V qL qR c).leavesExact 0 t = owns (c : Thread nD τ) (ms0 t) fullShare (iblk V c 0 t) := by
  unfold Dat.leavesExact; rw [live0 t, after0]
theorem leaves_in1 (c : Dev nD) (t : Fin cfg0.N) :
    (dat0 V qL qR c).leavesExact 1 t = owns (c : Thread nD τ) (ms1 t) fullShare (iblk V c 1 t) := by
  unfold Dat.leavesExact; rw [live1 t, after1]
theorem leaves_in2 (c : Dev nD) (t : Fin cfg0.N) :
    (dat0 V qL qR c).leavesExact 2 t = owns (c : Thread nD τ) (ms2 t) fullShare (iblk V c 2 t) := by
  unfold Dat.leavesExact; rw [live2 t, after2]
theorem leaves_in3 (c : Dev nD) (t : Fin cfg0.N) :
    (dat0 V qL qR c).leavesExact 3 t = owns (c : Thread nD τ) (ms3 t) fullShare (iblk V c 3 t) := by
  unfold Dat.leavesExact; rw [live3 t, after3]
theorem leaves_out4 (c : Dev nD) (t : Fin cfg0.N) (h : condLast (grid0.coords t)) :
    (dat0 V qL qR c).leavesExact 4 t = owns (c : Thread nD τ) (ms4 t) fullShare ((dat0 V qL qR c).after 4 t) := by
  unfold Dat.leavesExact; rw [live4_of t h]
theorem leaves_out5 (c : Dev nD) (t : Fin cfg0.N) (h : condLast (grid0.coords t)) :
    (dat0 V qL qR c).leavesExact 5 t = owns (c : Thread nD τ) (ms5 t) fullShare ((dat0 V qL qR c).after 5 t) := by
  unfold Dat.leavesExact; rw [live5_of t h]

/-- The invariant at any position, opened: the two accumulators at some contents. -/
theorem PhiS_open (c : Dev nD) (n : ℕ) (h : n ≤ cfg0.N) :
    PhiS V c n h ⊢ iprop(iprop((∃ d, owns (c : Thread nD τ) scM0 fullShare d) ∗ (∃ d, owns (c : Thread nD τ) scM1 fullShare d) ∗ others c) ∗ (∃ r, prngReg c r)) :=
  (PhiS_forget V c n h).trans (Entails.of_eq (PhiA_eq c))

def bodyPre (c : Dev nD) (t : Fin cfg0.N) : sProp 𝕄 :=
  iprop((dat0 V qL qR c).Φ t.castSucc ∗ (dat0 V qL qR c).owesAt () t.castSucc
    ∗ (∃ d, owns (c : Thread nD τ) (ms0 t) fullShare ((dat0 V qL qR c).before 0 t d))
    ∗ (∃ d, owns (c : Thread nD τ) (ms1 t) fullShare ((dat0 V qL qR c).before 1 t d))
    ∗ (∃ d, owns (c : Thread nD τ) (ms2 t) fullShare ((dat0 V qL qR c).before 2 t d))
    ∗ (∃ d, owns (c : Thread nD τ) (ms3 t) fullShare ((dat0 V qL qR c).before 3 t d))
    ∗ (∃ d, owns (c : Thread nD τ) (ms4 t) fullShare ((dat0 V qL qR c).before 4 t d))
    ∗ (∃ d, owns (c : Thread nD τ) (ms5 t) fullShare ((dat0 V qL qR c).before 5 t d)))

def bodyPost (c : Dev nD) (t : Fin cfg0.N) : sProp 𝕄 :=
  iprop((dat0 V qL qR c).Φ t.succ ∗ (dat0 V qL qR c).owesAt () t.succ
    ∗ (dat0 V qL qR c).leavesExact 0 t
    ∗ (dat0 V qL qR c).leavesExact 1 t
    ∗ (dat0 V qL qR c).leavesExact 2 t
    ∗ (dat0 V qL qR c).leavesExact 3 t
    ∗ (dat0 V qL qR c).leavesExact 4 t
    ∗ (dat0 V qL qR c).leavesExact 5 t)

set_option maxHeartbeats 4800000 in
theorem sound_body (c : Dev nD) (t : Fin cfg0.N) :
    bodyPre V qL qR c t ⊢ wp frame (wpE (defs₀ (F := F)) Variants.none c none) Set.univ (bodyAt0 t) (fun _ => bodyPost V qL qR c t) := by
  unfold bodyPre bodyPost bodyAt0
  simp only [before0, before1, before2, before3]
  rw [show (dat0 V qL qR c).owesAt () t.succ = (dat0 V qL qR c).owesAt () t.castSucc from rfl]
  rw [show (dat0 V qL qR c).Φ t.succ = PhiS V c (t.val + 1) t.isLt from rfl, PhiS_succ]
  rw [leaves_in0, leaves_in1, leaves_in2, leaves_in3]
  have hN : t.val < 64 := lt_of_lt_of_eq t.isLt (show cfg0.N = 64 from N_0)
  by_cases h0 : t.val % 8 = 0
  · have h7 : ¬t.val % 8 = 7 := by omega
    have hc1 : ¬condLast (grid0.coords t) := fun h => h7 ((hcondLast t).mp h)
    rw [Dat.leavesExact_idle (dat0 V qL qR c) 4 t (idle4_of t hc1) (noFlush4_of t hc1),
      Dat.leavesExact_idle (dat0 V qL qR c) 5 t (idle5_of t hc1) (noFlush5_of t hc1)]
    rw [outsAt_first V c t h0]
    unfold firstAt; dsimp only
    rw [Phi_castSucc]
    iintro ⟨HΦ, Ho, ⟨%d0, H0⟩, ⟨%d1, H1⟩, ⟨%d2, H2⟩, ⟨%d3, H3⟩, ⟨%d4, H4⟩, ⟨%d5, H5⟩⟩
    ihave HΦ' := (PhiS_open V c _ _) $$ HΦ
    icases HΦ' with ⟨⟨HS0, HS1, Hr⟩, Hg⟩
    iapply ((runFirst c (grid0.coords t) _ _ _ _ _ _ _ _ _ _ _ _ _ _ _ _ ((hcondFirst t).mpr h0) hc1 (iblk V c 0 t) (iblk V c 1 t) (iblk V c 2 t) (iblk V c 3 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hr Hg]
    · isplitr [Hg]
      · isplitl [HS0]
        · unfold owns; iexists _; isplitr
          swap; · iexact HS0
          ipureintro; exact View.read_writes_of_cover _ _ _ _ _ (coverF_S0 c _ _ _ _ _ _ _ _ _ _ _ _ _ _ _ _ _ _ _ _ _ _ _)
        isplitl [HS1]
        · unfold owns; iexists _; isplitr
          swap; · iexact HS1
          ipureintro; exact View.read_writes_of_cover _ _ _ _ _ (coverF_S1 c _ _ _ _ _ _ _ _ _ _ _ _ _ _ _ _ _ _ _ _ _ _ _)
        iexact Hr
      · iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hz : t.val ≠ 0 := fun h => h0 (by rw [h])
    have hc0 : ¬condFirst (grid0.coords t) := fun h => h0 ((hcondFirst t).mp h)
    by_cases h7 : t.val % 8 = 7
    · have hc1 : condLast (grid0.coords t) := (hcondLast t).mpr h7
      rw [leaves_out4 V qL qR c t hc1, leaves_out5 V qL qR c t hc1, after4, after5]
      rw [outsAt_last V c t h7]
      unfold lastAt; dsimp only
      rw [Phi_castSucc, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ _ _ hc0 hc1 (iblk V c 0 t) (iblk V c 1 t) (iblk V c 2 t) (iblk V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (coverL_S0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverL_S1 c _ _ _ _ _ _ _ _ _ _ _ _ _ _ _ _ _ _ _ _ _ _ _ _ _)
          iexact Hr
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverL_4 c _ _ _ _ _ _ _ _ _ _ _ _ _ _ _ _ _ _ _ _ _ _ _ _ _)
      unfold owns; iexists _; isplitr
      swap; · iexact H5
      ipureintro; exact View.read_writes_of_cover _ _ _ _ _ (coverL_5 c _ _ _ _ _ _ _ _ _ _ _ _ _ _ _ _ _ _ _ _ _ _ _ _ _)
    · have hc1 : ¬condLast (grid0.coords t) := fun h => h7 ((hcondLast t).mp h)
      rw [Dat.leavesExact_idle (dat0 V qL qR c) 4 t (idle4_of t hc1) (noFlush4_of t hc1),
        Dat.leavesExact_idle (dat0 V qL qR c) 5 t (idle5_of t hc1) (noFlush5_of t hc1)]
      rw [outsAt_mid V c t h0 h7]
      unfold midAt; dsimp only
      rw [Phi_castSucc, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ _ _ hc0 hc1 (iblk V c 0 t) (iblk V c 1 t) (iblk V c 2 t) (iblk V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (coverM_S0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverM_S1 c _ _ _ _ _ _ _ _ _ _ _ _ _ _ _ _ _ _ _ _ _ _ _ _ _)
          iexact Hr
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dat0 (F := F) V qL qR c) (defs₀ (F := F)) Variants.none () Set.univ := fun t => by
  rw [bigSep_W0, bigSep_W0]
  exact sound_body V qL qR c t

/-- What the launch hands the region is the invariant before the first point. -/
theorem hin (c : Dev nD) : Pipeline.ΦA spec0 c ⊢ (dat0 V qL qR c).Φ 0 := by
  rw [show (dat0 V qL qR c).Φ 0 = PhiS V c 0 (Nat.zero_le _) from rfl, PhiS_zero V c 0 _ rfl]
  try exact Idealize.SL.BI.Entails.refl _

/-- After the last point the invariant gives the launch's back. -/
theorem hout (c : Dev nD) : (dat0 V qL qR c).Φ (Fin.last cfg0.N) ⊢ Pipeline.ΦA spec0 c := by
  rw [show (dat0 V qL qR c).Φ (Fin.last cfg0.N) = PhiS V c (Fin.last cfg0.N).val (Nat.le_of_lt_succ (Fin.last cfg0.N).isLt) from rfl]
  exact PhiS_forget V c _ _

end

end Cert.KernelIdeal.MinMax

end
-- ==== Proof.KI.R1Cover.lean ====
import proofs.«115905_j90486370992708_1_alg».proof.Proof.KI.R1RunL

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! In each case of the body the stores into a buffer tile it, so the pieces cover it (checked by evaluating the pieces). -/

theorem coverF_S0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : condFirst i) (hc1 : ¬condLast i) (x0 x1 : Vec F S512x1024 .f32) (x2 : Vec F S512x1 .i32) (x3 : Vec F S1x512 .i32) (x4 x5 x6 : Vec F S512x1 .f32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1, y ∈ pc.1.set :=
  View.cover_of_tiledL (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1 S512x1.size (by sl_kernel_rfl) y
theorem coverF_S1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : condFirst i) (hc1 : ¬condLast i) (x0 x1 : Vec F S512x1024 .f32) (x2 : Vec F S512x1 .i32) (x3 : Vec F S1x512 .i32) (x4 x5 x6 : Vec F S512x1 .f32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_tiledL (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1 S512x1.size (by sl_kernel_rfl) y
theorem coverF_S2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : condFirst i) (hc1 : ¬condLast i) (x0 x1 : Vec F S512x1024 .f32) (x2 : Vec F S512x1 .i32) (x3 : Vec F S1x512 .i32) (x4 x5 x6 : Vec F S512x1 .f32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_tiledL (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1 S512x1.size (by sl_kernel_rfl) y
theorem coverF_S3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : condFirst i) (hc1 : ¬condLast i) (x0 x1 : Vec F S512x1024 .f32) (x2 : Vec F S512x1 .i32) (x3 : Vec F S1x512 .i32) (x4 x5 x6 : Vec F S512x1 .f32) (y : S512x1.Idx) :
    ∃ pc ∈ (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.1, y ∈ pc.1.set :=
  View.cover_of_tiledL (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.1 S512x1.size (by sl_kernel_rfl) y
theorem coverM_S0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : ¬condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1, y ∈ pc.1.set :=
  View.cover_of_tiledL (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1 S512x1.size (by sl_kernel_rfl) y
theorem coverM_S1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : ¬condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1, y ∈ pc.1.set :=
  View.cover_of_tiledL (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1 S512x1.size (by sl_kernel_rfl) y
theorem coverM_S2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : ¬condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1, y ∈ pc.1.set :=
  View.cover_of_tiledL (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1 S512x1.size (by sl_kernel_rfl) y
theorem coverM_S3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : ¬condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1, y ∈ pc.1.set :=
  View.cover_of_tiledL (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1 S512x1.size (by sl_kernel_rfl) y
theorem coverL_7 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1, y ∈ pc.1.set :=
  View.cover_of_tiledL (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1 S512x1.size (by sl_kernel_rfl) y
theorem coverL_S0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1, y ∈ pc.1.set :=
  View.cover_of_tiledL (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1 S512x1.size (by sl_kernel_rfl) y
theorem coverL_S1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1, y ∈ pc.1.set :=
  View.cover_of_tiledL (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1 S512x1.size (by sl_kernel_rfl) y
theorem coverL_S2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1, y ∈ pc.1.set :=
  View.cover_of_tiledL (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1 S512x1.size (by sl_kernel_rfl) y
theorem coverL_S3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i) (x0 x1 : Vec F S512x1024 .f32) (x2 : Vec F S512x1 .i32) (x3 : Vec F S1x512 .i32) (x4 x5 x6 : Vec F S512x1 .f32) (xs0 xs1 xs2 xs3 : Vec F S512x1 .f32) (y : S512x1.Idx) :
    ∃ pc ∈ (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.2.1, y ∈ pc.1.set :=
  View.cover_of_tiledL (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.2.1 S512x1.size (by sl_kernel_rfl) y

end Cert.KernelIdeal.Loss

end
-- ==== Proof.KI.R1Body.lean ====
import proofs.«115905_j90486370992708_1_alg».proof.Proof.KI.R1Dat
import proofs.«115905_j90486370992708_1_alg».proof.Proof.KI.R1Cover

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body obligation

At every point the inputs' buffers hold their blocks; the closed forms of the two conditions say which case the point
is in; that case's run applies, handed the four accumulators at what the point before left (at anything at column block
0) and handing them back at this point's contents. -/

section
variable (V : (c : Dev nD) → (b : Ref sig .tc) → Buf (Elt F) ((c : Thread nD τ).loc b))
variable (qL qR : PosShare TreeShare)

theorem leaves_in0 (c : Dev nD) (t : Fin cfg1.N) :
    (dat1 V qL qR c).leavesExact 0 t = owns (c : Thread nD τ) (ms0 t) fullShare (iblk V c 0 t) := by
  unfold Dat.leavesExact; rw [live0 t, after0]
theorem leaves_in1 (c : Dev nD) (t : Fin cfg1.N) :
    (dat1 V qL qR c).leavesExact 1 t = owns (c : Thread nD τ) (ms1 t) fullShare (iblk V c 1 t) := by
  unfold Dat.leavesExact; rw [live1 t, after1]
theorem leaves_in2 (c : Dev nD) (t : Fin cfg1.N) :
    (dat1 V qL qR c).leavesExact 2 t = owns (c : Thread nD τ) (ms2 t) fullShare (iblk V c 2 t) := by
  unfold Dat.leavesExact; rw [live2 t, after2]
theorem leaves_in3 (c : Dev nD) (t : Fin cfg1.N) :
    (dat1 V qL qR c).leavesExact 3 t = owns (c : Thread nD τ) (ms3 t) fullShare (iblk V c 3 t) := by
  unfold Dat.leavesExact; rw [live3 t, after3]
theorem leaves_in4 (c : Dev nD) (t : Fin cfg1.N) :
    (dat1 V qL qR c).leavesExact 4 t = owns (c : Thread nD τ) (ms4 t) fullShare (iblk V c 4 t) := by
  unfold Dat.leavesExact; rw [live4 t, after4]
theorem leaves_in5 (c : Dev nD) (t : Fin cfg1.N) :
    (dat1 V qL qR c).leavesExact 5 t = owns (c : Thread nD τ) (ms5 t) fullShare (iblk V c 5 t) := by
  unfold Dat.leavesExact; rw [live5 t, after5]
theorem leaves_in6 (c : Dev nD) (t : Fin cfg1.N) :
    (dat1 V qL qR c).leavesExact 6 t = owns (c : Thread nD τ) (ms6 t) fullShare (iblk V c 6 t) := by
  unfold Dat.leavesExact; rw [live6 t, after6]
theorem leaves_out7 (c : Dev nD) (t : Fin cfg1.N) (h : condLast (grid1.coords t)) :
    (dat1 V qL qR c).leavesExact 7 t = owns (c : Thread nD τ) (ms7 t) fullShare ((dat1 V qL qR c).after 7 t) := by
  unfold Dat.leavesExact; rw [live7_of t h]

def bodyPre (c : Dev nD) (t : Fin cfg1.N) : sProp 𝕄 :=
  iprop((dat1 V qL qR c).Φ t.castSucc ∗ (dat1 V qL qR c).owesAt () t.castSucc
    ∗ (∃ d, owns (c : Thread nD τ) (ms0 t) fullShare ((dat1 V qL qR c).before 0 t d))
    ∗ (∃ d, owns (c : Thread nD τ) (ms1 t) fullShare ((dat1 V qL qR c).before 1 t d))
    ∗ (∃ d, owns (c : Thread nD τ) (ms2 t) fullShare ((dat1 V qL qR c).before 2 t d))
    ∗ (∃ d, owns (c : Thread nD τ) (ms3 t) fullShare ((dat1 V qL qR c).before 3 t d))
    ∗ (∃ d, owns (c : Thread nD τ) (ms4 t) fullShare ((dat1 V qL qR c).before 4 t d))
    ∗ (∃ d, owns (c : Thread nD τ) (ms5 t) fullShare ((dat1 V qL qR c).before 5 t d))
    ∗ (∃ d, owns (c : Thread nD τ) (ms6 t) fullShare ((dat1 V qL qR c).before 6 t d))
    ∗ (∃ d, owns (c : Thread nD τ) (ms7 t) fullShare ((dat1 V qL qR c).before 7 t d)))

def bodyPost (c : Dev nD) (t : Fin cfg1.N) : sProp 𝕄 :=
  iprop((dat1 V qL qR c).Φ t.succ ∗ (dat1 V qL qR c).owesAt () t.succ
    ∗ (dat1 V qL qR c).leavesExact 0 t
    ∗ (dat1 V qL qR c).leavesExact 1 t
    ∗ (dat1 V qL qR c).leavesExact 2 t
    ∗ (dat1 V qL qR c).leavesExact 3 t
    ∗ (dat1 V qL qR c).leavesExact 4 t
    ∗ (dat1 V qL qR c).leavesExact 5 t
    ∗ (dat1 V qL qR c).leavesExact 6 t
    ∗ (dat1 V qL qR c).leavesExact 7 t)

set_option maxHeartbeats 6400000 in
theorem sound_body (c : Dev nD) (t : Fin cfg1.N) :
    bodyPre V qL qR c t ⊢ wp frame (wpE (defs₀ (F := F)) Variants.none c none) Set.univ (bodyAt1 t) (fun _ => bodyPost V qL qR c t) := by
  unfold bodyPre bodyPost bodyAt1
  simp only [before0, before1, before2, before3, before4, before5, before6]
  rw [show (dat1 V qL qR c).owesAt () t.succ = (dat1 V qL qR c).owesAt () t.castSucc from rfl]
  rw [show (dat1 V qL qR c).Φ t.succ = PhiS V c (t.val + 1) t.isLt from rfl, PhiS_succ]
  rw [leaves_in0, leaves_in1, leaves_in2, leaves_in3, leaves_in4, leaves_in5, leaves_in6]
  have hN : t.val < 64 := lt_of_lt_of_eq t.isLt (show cfg1.N = 64 from N_1)
  by_cases h0 : t.val % 8 = 0
  · have h7 : ¬t.val % 8 = 7 := by omega
    have hc1 : ¬condLast (grid1.coords t) := fun h => h7 ((hcondLast t).mp h)
    rw [Dat.leavesExact_idle (dat1 V qL qR c) 7 t (idle7_of t hc1) (noFlush7_of t hc1)]
    rw [outsAt_first V c t h0]
    unfold firstAt; dsimp only
    rw [Phi_castSucc]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiS_open V c _ _) $$ HΦ
    icases HΦ' with ⟨⟨HS0, HS1, HS2, HS3, Hr⟩, Hg⟩
    iapply ((runFirst c (grid1.coords t) _ _ _ _ _ _ _ _ _ _ _ _ _ _ _ _ _ _ _ _ _ _ _ _ ((hcondFirst t).mpr h0) hc1 (iblk V c 0 t) (iblk V c 1 t) (iblk V c 2 t) (iblk V c 3 t) (iblk V c 4 t) (iblk V c 5 t) (iblk V c 6 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    iintro ⟨H0, H1, H2, H3, H4, H5, H6, H7, ⟨%es0, HS0⟩, ⟨%es1, HS1⟩, ⟨%es2, HS2⟩, ⟨%es3, HS3⟩⟩
    isplitl [HS0 HS1 HS2 HS3 Hr Hg]
    · isplitr [Hg]
      · isplitl [HS0]
        · unfold owns; iexists _; isplitr
          swap; · iexact HS0
          ipureintro; exact View.read_writes_of_cover _ _ _ _ _ (coverF_S0 c _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverF_S1 c _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverF_S2 c _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (coverF_S3 c _ _ _ _ _ _ _ _ _ _ _ _ _ _ _ _ _ _ _ _ _ _ _ _ _ _ _ _ _ _ _ _ _ _)
        iexact Hr
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hz : t.val ≠ 0 := fun h => h0 (by rw [h])
    have hc0 : ¬condFirst (grid1.coords t) := fun h => h0 ((hcondFirst t).mp h)
    by_cases h7 : t.val % 8 = 7
    · have hc1 : condLast (grid1.coords t) := (hcondLast t).mpr h7
      rw [leaves_out7 V qL qR c t hc1, after7]
      rw [outsAt_last V c t h7]
      unfold lastAt; dsimp only
      rw [Phi_castSucc, PhiS_pos V c _ _ hz]
      iintro ⟨⟨⟨HS0, HS1, HS2, HS3, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid1.coords t) _ _ _ _ _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, ⟨%e7, H7⟩, ⟨%es0, HS0⟩, ⟨%es1, HS1⟩, ⟨%es2, HS2⟩, ⟨%es3, HS3⟩⟩
      isplitl [HS0 HS1 HS2 HS3 Hr Hg]
      · isplitr [Hg]
        · isplitl [HS0]
          · unfold owns; iexists _; isplitr
            swap; · iexact HS0
            ipureintro; exact View.read_writes_of_cover _ _ _ _ _ (coverL_S0 c _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverL_S1 c _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverL_S2 c _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (coverL_S3 c _ _ _ _ _ _ _ _ _ _ _ _ _ _ _ _ _ _ _ _ _ _ _ _ _ _ _ _ _ _ _ _ _ _ _ _ _ _)
          iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverL_7 c _ _ _ _ _ _ _ _ _ _ _ _ _ _ _ _ _ _ _ _ _ _ _ _ _ _ _ _ _ _ _ _ _ _ _ _ _ _)
    · have hc1 : ¬condLast (grid1.coords t) := fun h => h7 ((hcondLast t).mp h)
      rw [Dat.leavesExact_idle (dat1 V qL qR c) 7 t (idle7_of t hc1) (noFlush7_of t hc1)]
      rw [outsAt_mid V c t h0 h7]
      unfold midAt; dsimp only
      rw [Phi_castSucc, PhiS_pos V c _ _ hz]
      iintro ⟨⟨⟨HS0, HS1, HS2, HS3, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid1.coords t) _ _ _ _ _ _ _ _ _ _ _ _ _ _ _ _ _ _ _ _ _ _ _ _ hc0 hc1 (iblk V c 0 t) (iblk V c 1 t) (iblk V c 2 t) (iblk V c 3 t) (iblk V c 4 t) (iblk V c 5 t) (iblk V c 6 t) _ _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, ⟨%es0, HS0⟩, ⟨%es1, HS1⟩, ⟨%es2, HS2⟩, ⟨%es3, HS3⟩⟩
      isplitl [HS0 HS1 HS2 HS3 Hr Hg]
      · isplitr [Hg]
        · isplitl [HS0]
          · unfold owns; iexists _; isplitr
            swap; · iexact HS0
            ipureintro; exact View.read_writes_of_cover _ _ _ _ _ (coverM_S0 c _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (coverM_S1 c _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (coverM_S2 c _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (coverM_S3 c _ _ _ _ _ _ _ _ _ _ _ _ _ _ _ _ _ _ _ _ _ _ _ _ _ _ _ _ _ _ _ _ _ _ _ _ _ _)
          iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dat1 (F := F) V qL qR c) (defs₀ (F := F)) Variants.none () Set.univ := fun t => by
  rw [bigSep_W1, bigSep_W1]
  exact sound_body V qL qR c t

/-- What the launch hands the region is the invariant before the first point. -/
theorem hin (c : Dev nD) : Pipeline.ΦA spec1 c ⊢ (dat1 V qL qR c).Φ 0 := by
  rw [show (dat1 V qL qR c).Φ 0 = PhiS V c 0 (Nat.zero_le _) from rfl, PhiS_zero V c 0 _ rfl]
  try exact Idealize.SL.BI.Entails.refl _

/-- After the last point the invariant gives the launch's back. -/
theorem hout (c : Dev nD) : (dat1 V qL qR c).Φ (Fin.last cfg1.N) ⊢ Pipeline.ΦA spec1 c := by
  rw [show (dat1 V qL qR c).Φ (Fin.last cfg1.N) = PhiS V c (Fin.last cfg1.N).val (Nat.le_of_lt_succ (Fin.last cfg1.N).isLt) from rfl]
  exact PhiS_forget V c _ _

end

end Cert.KernelIdeal.Loss

end
-- ==== Proof.KI.Frame.lean ====
import proofs.«115905_j90486370992708_1_alg».proof.Proof.KI.FrameData
import proofs.«115905_j90486370992708_1_alg».proof.Proof.KI.FrameRun
import proofs.«115905_j90486370992708_1_alg».proof.Proof.KI.R0Body
import proofs.«115905_j90486370992708_1_alg».proof.Proof.KI.R1Body

/-! # The program's run, assembled from its two kernel regions

Between two items of the program a core holds every unscoped buffer whole at the contents named in the data module,
its generator register at some state, and owes nothing. A kernel region takes its windows' arrays out of the unscoped
buffers when it is entered — `main_arg0`, read through two windows, by halves — and puts them back when it is left,
the output arrays at what the write-backs leave. The host stretches, the chaining and the launch are the generated
conditional frame's; here are the two regions' records and the launch's two side conditions. -/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-! ## The thread state beside the buffers -/

abbrev 𝒱₀ : Variants := Variants.none
/-- No core waits on another: no level is assigned. -/
abbrev L : GSem nD τ sig → Finset Unit := fun _ => ∅
abbrev lv : GSem nD τ sig → Unit → ℕ := fun _ _ => 0
/-- What rides beside the buffers through every item: the core's generator register at some state (a region's
    invariant takes it in and gives it back), and that the core owes nothing. -/
abbrev R (c : Dev nD) : sProp 𝕄 := iprop((∃ r, prngReg c r) ∗ ∃ W, owes (c : Thread nD τ) (0 : CellTallies nD τ sig Unit) W)
/-- The same between any two items. -/
abbrev E : Fin 3 → Dev nD → sProp 𝕄 := fun _ c => R (F := F) c

/-! ## The regions as segments -/

set_option backward.isDefEq.respectTransparency.types false in
/-- THE FIRST KERNEL: entered from every unscoped buffer at the contents after the first host stretch, left with its
    two output arrays at what the write-backs leave. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (MinMax.body_obligation (E1 m) Share.qL Share.qR c).loose
  hwaits := Pipeline.hwaits_of_owed_zero _ _ _ _ L lv 0 fun _ _ => rfl
  pre c := iprop(StableHlo.held (c : Thread nD τ) (Pipeline.ucRefs τ sig) (Gen.V1 m c) ∗ E 0 c)
  post c := iprop(StableHlo.held (c : Thread nD τ) (Pipeline.ucRefs τ sig) (Gen.V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Share.arrays_of_unscopedBufs0 (pdats m 0 c) (hq0 m c) (E1 m c) ((pdats m 0 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (MinMax.hin (E1 m) Share.qL Share.qR c)
    unfold Pipeline.ΦA
    iintro ⟨Hp, -, Hr⟩
    isplitl [Hr]; · iexact Hr
    iexact Hp
  hout c := by
    rw [Pipeline.ownSems0_none]
    refine BIBase.Entails.trans (MinMax.hout (E1 m) Share.qL Share.qR c) ?_
    unfold Pipeline.ΦA
    iintro ⟨Hr, Hp⟩
    isplitl [Hp]; · iexact Hp
    isplitr; · iempintro
    iexact Hr
  hexit c := by
    have hjoin := Share.unscopedBufs_of_arrays0 (pdats m 0 c) (hq0 m c) (E1 m c) (fun b => Gen.V2 m (outs m) c b)
      ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND KERNEL: entered from every unscoped buffer at the contents the first kernel leaves, left with its
    output array at what the write-backs leave. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (Loss.body_obligation (E2 m) Share.qL Share.qR c).loose
  hwaits := Pipeline.hwaits_of_owed_zero _ _ _ _ L lv 1 fun _ _ => rfl
  pre c := iprop(StableHlo.held (c : Thread nD τ) (Pipeline.ucRefs τ sig) (Gen.V2 m (outs m) c) ∗ E 1 c)
  post c := iprop(StableHlo.held (c : Thread nD τ) (Pipeline.ucRefs τ sig) (Gen.V3 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none, V2_eq]
    have hsplit := Share.arrays_of_unscopedBufs1 (pdats m 1 c) (hq1 m c) (E2 m c) ((pdats m 1 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Loss.hin (E2 m) Share.qL Share.qR c)
    unfold Pipeline.ΦA
    iintro ⟨Hp, -, Hr⟩
    isplitl [Hr]; · iexact Hr
    iexact Hp
  hout c := by
    rw [Pipeline.ownSems0_none]
    refine BIBase.Entails.trans (Loss.hout (E2 m) Share.qL Share.qR c) ?_
    unfold Pipeline.ΦA
    iintro ⟨Hr, Hp⟩
    isplitl [Hp]; · iexact Hp
    isplitr; · iempintro
    iexact Hr
  hexit c := by
    have hjoin := Share.unscopedBufs_of_arrays1 (pdats m 1 c) (hq1 m c) (E2 m c) (fun b => Gen.V3 m (outs m) c b)
      ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side conditions and the frame -/

variable (ρ : Dev nD → PrngReg)

/-- The launch element is the pipeline library's, and nothing else is made at launch. -/
theorem hu₀ : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core beside its buffers makes the first thread state's rest: the generator register at
    its launch state, nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: from any memory with zero counters every weakly fair execution of the program terminates, nothing
    faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) hu₀ E (hE0 ρ)
    (fun c => by iintro ⟨-, HO⟩; iexact HO)
    (reg0 m) (fun _ => .rfl) (fun _ => .rfl) (reg1 m) (fun _ => .rfl) (fun _ => .rfl)

set_option backward.isDefEq.respectTransparency.types false in
/-- THE RUN WITH ITS RESULT: as the frame, and the result array `main_v13` ends holding what the closing host stretch
    computes from the contents the second kernel leaves. -/
theorem run_value : θ_run defs (onTc (τ := τ) (main (F := F))) ⟨m, fun _ => 0, ρ⟩ (fun r => ∀ c : Dev nD,
      r.2.mem ((c.tc : Thread nD τ).loc main_v13) = Gen.V4 m (outs m) c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_cond m emb₁ () 𝒱₀ L lv (fun _ _ => rfl) ρ (outs m) (pdats m) 0 (fun _ => iprop(emp))
    (initOf (Pipeline.cells cfgs cellOf_inj) (Pipeline.launchToks cfgs cellOf_inj)) hu₀ E (hE0 ρ)
    (fun c => by iintro ⟨-, HO⟩; iexact HO)
    (reg0 m) (fun _ => .rfl) (fun _ => .rfl) (reg1 m) (fun _ => .rfl) (fun _ => .rfl)

end Cert.KernelIdeal.Hand

end
-- ==== Proof.KI.R0Val.lean ====
import proofs.«115905_j90486370992708_1_alg».proof.Proof.KI.R0Dat
import proofs.«115905_j90486370992708_1_alg».proof.Proof.KI.R0Cover
import Idealize.ShloMosaic.Lib.Pipeline.Value

set_option maxRecDepth 16384

noncomputable section

namespace Cert.KernelIdeal.MinMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the first kernel's body computes at a point

In every case the body's stores into a buffer are one covering store, so what it leaves is that store's payload: the
running minimum (maximum) of the accumulator it found and the point's block minimum (maximum). At column block 0 the
accumulator it finds is the reset value it has just stored; at column block 7 the two output blocks receive the updated
accumulators. -/

theorem hz : (![0, 0] : Fin 2 → Nat) = fun _ => 0 := funext fun a => by fin_cases a <;> rfl

theorem mid_S0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : ¬condLast i)
    (x0 x1 : Vec F S512x1024 .f32) (x2 : Vec F S512x1 .i32) (x3 : Vec F S1x512 .i32) (xs0 xs1 : Vec F S512x1 .f32) :
    VS0.read (Elt F) (VS0.writes (Elt F) VS0.junk (runMid (F := F) c i arg2 harg2 arg3 harg3 arg4 harg4 arg5 harg5 arg6 harg6 arg7 harg7 arg8 harg8 arg9 harg9 hc0 hc1 x0 x1 x2 x3 xs0 xs1).1)
      = k0_pay1 (k0_pay8 i x0 x1 x2 x3) xs0 := by
  rw [View.read_writes_eq_canon _ _ _ (coverM_S0 c i arg2 harg2 arg3 harg3 arg4 harg4 arg5 harg5 arg6 harg6 arg7 harg7 arg8 harg8 arg9 harg9 hc0 hc1 x0 x1 x2 x3 xs0 xs1)]
  unfold runMid
  dsimp only
  sl_unfold_words
  rw [View.canon_unit_zero hz]
  simp only [View.readAt_eq_ld, harg2.read_unread, harg3.read_unread, harg4.read_unread, harg5.read_unread, harg8.read_unread, harg9.read_unread, View.ld_unit_zero (S := S512x1024) hz, View.ld_unit_zero (S := S512x1) hz, View.ld_unit_zero (S := S1x512) hz]
theorem mid_S1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : ¬condLast i)
    (x0 x1 : Vec F S512x1024 .f32) (x2 : Vec F S512x1 .i32) (x3 : Vec F S1x512 .i32) (xs0 xs1 : Vec F S512x1 .f32) :
    VS1.read (Elt F) (VS1.writes (Elt F) VS1.junk (runMid (F := F) c i arg2 harg2 arg3 harg3 arg4 harg4 arg5 harg5 arg6 harg6 arg7 harg7 arg8 harg8 arg9 harg9 hc0 hc1 x0 x1 x2 x3 xs0 xs1).2.1)
      = k0_pay2 (k0_pay7 x0 x1 x2 x3) xs1 := by
  rw [View.read_writes_eq_canon _ _ _ (coverM_S1 c i arg2 harg2 arg3 harg3 arg4 harg4 arg5 harg5 arg6 harg6 arg7 harg7 arg8 harg8 arg9 harg9 hc0 hc1 x0 x1 x2 x3 xs0 xs1)]
  unfold runMid
  dsimp only
  sl_unfold_words
  rw [View.canon_unit_zero hz]
  simp only [View.readAt_eq_ld, harg2.read_unread, harg3.read_unread, harg4.read_unread, harg5.read_unread, harg8.read_unread, harg9.read_unread, View.ld_unit_zero (S := S512x1024) hz, View.ld_unit_zero (S := S512x1) hz, View.ld_unit_zero (S := S1x512) hz]
theorem first_S0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : condFirst i) (hc1 : ¬condLast i)
    (x0 x1 : Vec F S512x1024 .f32) (x2 : Vec F S512x1 .i32) (x3 : Vec F S1x512 .i32) :
    VS0.read (Elt F) (VS0.writes (Elt F) VS0.junk (runFirst (F := F) c i arg2 harg2 arg3 harg3 arg4 harg4 arg5 harg5 arg6 harg6 arg7 harg7 arg8 harg8 arg9 harg9 hc0 hc1 x0 x1 x2 x3).1)
      = k0_pay1 (k0_pay8 i x0 x1 x2 x3) (k0_pay3 (F := F)) := by
  rw [View.read_writes_eq_canon _ _ _ (coverF_S0 c i arg2 harg2 arg3 harg3 arg4 harg4 arg5 harg5 arg6 harg6 arg7 harg7 arg8 harg8 arg9 harg9 hc0 hc1 x0 x1 x2 x3)]
  unfold runFirst
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg8.read_unread, harg9.read_unread, View.ld_unit_zero (S := S512x1024) hz, View.ld_unit_zero (S := S512x1) hz, View.ld_unit_zero (S := S1x512) hz]
theorem first_S1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : condFirst i) (hc1 : ¬condLast i)
    (x0 x1 : Vec F S512x1024 .f32) (x2 : Vec F S512x1 .i32) (x3 : Vec F S1x512 .i32) :
    VS1.read (Elt F) (VS1.writes (Elt F) VS1.junk (runFirst (F := F) c i arg2 harg2 arg3 harg3 arg4 harg4 arg5 harg5 arg6 harg6 arg7 harg7 arg8 harg8 arg9 harg9 hc0 hc1 x0 x1 x2 x3).2.1)
      = k0_pay2 (k0_pay7 x0 x1 x2 x3) (k0_pay4 (F := F)) := by
  rw [View.read_writes_eq_canon _ _ _ (coverF_S1 c i arg2 harg2 arg3 harg3 arg4 harg4 arg5 harg5 arg6 harg6 arg7 harg7 arg8 harg8 arg9 harg9 hc0 hc1 x0 x1 x2 x3)]
  unfold runFirst
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg8.read_unread, harg9.read_unread, View.ld_unit_zero (S := S512x1024) hz, View.ld_unit_zero (S := S512x1) hz, View.ld_unit_zero (S := S1x512) hz]
theorem last_4 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : condLast i)
    (x0 x1 : Vec F S512x1024 .f32) (x2 : Vec F S512x1 .i32) (x3 : Vec F S1x512 .i32) (xs0 xs1 : Vec F S512x1 .f32) :
    VO.read (Elt F) (VO.writes (Elt F) VO.junk (runLast (F := F) c i arg2 harg2 arg3 harg3 arg4 harg4 arg5 harg5 arg6 harg6 arg7 harg7 arg8 harg8 arg9 harg9 hc0 hc1 x0 x1 x2 x3 xs0 xs1).1)
      = k0_pay1 (k0_pay8 i x0 x1 x2 x3) xs0 := by
  rw [View.read_writes_eq_canon _ _ _ (coverL_4 c i arg2 harg2 arg3 harg3 arg4 harg4 arg5 harg5 arg6 harg6 arg7 harg7 arg8 harg8 arg9 harg9 hc0 hc1 x0 x1 x2 x3 xs0 xs1)]
  unfold runLast
  dsimp only
  sl_unfold_words
  rw [View.canon_unit_zero hz, View.readCov_unit_zero (S := S512x1) _ hz]
  simp only [View.readAt_eq_ld, harg2.read_unread, harg3.read_unread, harg4.read_unread, harg5.read_unread, harg8.read_unread, harg9.read_unread, View.ld_unit_zero (S := S512x1024) hz, View.ld_unit_zero (S := S512x1) hz, View.ld_unit_zero (S := S1x512) hz]
theorem last_5 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : condLast i)
    (x0 x1 : Vec F S512x1024 .f32) (x2 : Vec F S512x1 .i32) (x3 : Vec F S1x512 .i32) (xs0 xs1 : Vec F S512x1 .f32) :
    VO.read (Elt F) (VO.writes (Elt F) VO.junk (runLast (F := F) c i arg2 harg2 arg3 harg3 arg4 harg4 arg5 harg5 arg6 harg6 arg7 harg7 arg8 harg8 arg9 harg9 hc0 hc1 x0 x1 x2 x3 xs0 xs1).2.1)
      = k0_pay2 (k0_pay7 x0 x1 x2 x3) xs1 := by
  rw [View.read_writes_eq_canon _ _ _ (coverL_5 c i arg2 harg2 arg3 harg3 arg4 harg4 arg5 harg5 arg6 harg6 arg7 harg7 arg8 harg8 arg9 harg9 hc0 hc1 x0 x1 x2 x3 xs0 xs1)]
  unfold runLast
  dsimp only
  sl_unfold_words
  rw [View.canon_unit_zero hz, View.readCov_unit_zero (S := S512x1) _ hz]
  simp only [View.readAt_eq_ld, harg2.read_unread, harg3.read_unread, harg4.read_unread, harg5.read_unread, harg8.read_unread, harg9.read_unread, View.ld_unit_zero (S := S512x1024) hz, View.ld_unit_zero (S := S512x1) hz, View.ld_unit_zero (S := S1x512) hz]
theorem last_S0 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : condLast i)
    (x0 x1 : Vec F S512x1024 .f32) (x2 : Vec F S512x1 .i32) (x3 : Vec F S1x512 .i32) (xs0 xs1 : Vec F S512x1 .f32) :
    VS0.read (Elt F) (VS0.writes (Elt F) VS0.junk (runLast (F := F) c i arg2 harg2 arg3 harg3 arg4 harg4 arg5 harg5 arg6 harg6 arg7 harg7 arg8 harg8 arg9 harg9 hc0 hc1 x0 x1 x2 x3 xs0 xs1).2.2.1)
      = k0_pay1 (k0_pay8 i x0 x1 x2 x3) xs0 := by
  rw [View.read_writes_eq_canon _ _ _ (coverL_S0 c i arg2 harg2 arg3 harg3 arg4 harg4 arg5 harg5 arg6 harg6 arg7 harg7 arg8 harg8 arg9 harg9 hc0 hc1 x0 x1 x2 x3 xs0 xs1)]
  unfold runLast
  dsimp only
  sl_unfold_words
  rw [View.canon_unit_zero hz]
  simp only [View.readAt_eq_ld, harg2.read_unread, harg3.read_unread, harg4.read_unread, harg5.read_unread, harg8.read_unread, harg9.read_unread, View.ld_unit_zero (S := S512x1024) hz, View.ld_unit_zero (S := S512x1) hz, View.ld_unit_zero (S := S1x512) hz]
theorem last_S1 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬condFirst i) (hc1 : condLast i)
    (x0 x1 : Vec F S512x1024 .f32) (x2 : Vec F S512x1 .i32) (x3 : Vec F S1x512 .i32) (xs0 xs1 : Vec F S512x1 .f32) :
    VS1.read (Elt F) (VS1.writes (Elt F) VS1.junk (runLast (F := F) c i arg2 harg2 arg3 harg3 arg4 harg4 arg5 harg5 arg6 harg6 arg7 harg7 arg8 harg8 arg9 harg9 hc0 hc1 x0 x1 x2 x3 xs0 xs1).2.2.2.1)
      = k0_pay2 (k0_pay7 x0 x1 x2 x3) xs1 := by
  rw [View.read_writes_eq_canon _ _ _ (coverL_S1 c i arg2 harg2 arg3 harg3 arg4 harg4 arg5 harg5 arg6 harg6 arg7 harg7 arg8 harg8 arg9 harg9 hc0 hc1 x0 x1 x2 x3 xs0 xs1)]
  unfold runLast
  dsimp only
  sl_unfold_words
  rw [View.canon_unit_zero hz]
  simp only [View.readAt_eq_ld, harg2.read_unread, harg3.read_unread, harg4.read_unread, harg5.read_unread, harg8.read_unread, harg9.read_unread, View.ld_unit_zero (S := S512x1024) hz, View.ld_unit_zero (S := S512x1) hz, View.ld_unit_zero (S := S1x512) hz]

/-- One grid point's update of the two accumulators: the running minimum over the positives and the running maximum
    over the negatives, from the point's four input blocks. -/
def step (i : grid0.Coords) (x0 x1 : Vec F S512x1024 .f32) (x2 : Vec F S512x1 .i32) (x3 : Vec F S1x512 .i32) (s : Vec F S512x1 .f32 × Vec F S512x1 .f32) : Vec F S512x1 .f32 × Vec F S512x1 .f32 :=
  (k0_pay1 (k0_pay8 i x0 x1 x2 x3) s.1, k0_pay2 (k0_pay7 x0 x1 x2 x3) s.2)

/-- The reset values: `+∞` for the minimum, `-∞` for the maximum. -/
def init : Vec F S512x1 .f32 × Vec F S512x1 .f32 := (k0_pay3 (F := F), k0_pay4 (F := F))

section
variable (V : (c : Dev nD) → (b : Ref sig .tc) → Buf (Elt F) ((c : Thread nD τ).loc b))

theorem firstAt_eq (c : Dev nD) (t : Fin cfg0.N) (h0 : t.val % 8 = 0) :
    firstAt V c t h0 = step (grid0.coords t) (iblk V c 0 t) (iblk V c 1 t) (iblk V c 2 t) (iblk V c 3 t) init := by
  unfold firstAt step init; dsimp only
  rw [first_S0, first_S1]

theorem midAt_eq (c : Dev nD) (t : Fin cfg0.N) (h0 : ¬t.val % 8 = 0) (h7 : ¬t.val % 8 = 7) (xs : Vec F S512x1 .f32 × Vec F S512x1 .f32) :
    midAt V c t h0 h7 xs = step (grid0.coords t) (iblk V c 0 t) (iblk V c 1 t) (iblk V c 2 t) (iblk V c 3 t) xs := by
  unfold midAt step; dsimp only
  rw [mid_S0, mid_S1]

theorem lastAt_eq (c : Dev nD) (t : Fin cfg0.N) (h7 : t.val % 8 = 7) (xs : Vec F S512x1 .f32 × Vec F S512x1 .f32) :
    lastAt V c t h7 xs = (step (grid0.coords t) (iblk V c 0 t) (iblk V c 1 t) (iblk V c 2 t) (iblk V c 3 t) xs, step (grid0.coords t) (iblk V c 0 t) (iblk V c 1 t) (iblk V c 2 t) (iblk V c 3 t) xs) := by
  unfold lastAt step; dsimp only
  rw [last_4, last_5, last_S0, last_S1]

/-- The accumulators after point `n`, as the recursion the body performs: the update of the reset values at column
    block 0, of what the point before left elsewhere. -/
theorem outsAt_scr (c : Dev nD) (t : Fin cfg0.N) :
    (outsAt V c t.val t.isLt).2 = step (grid0.coords t) (iblk V c 0 t) (iblk V c 1 t) (iblk V c 2 t) (iblk V c 3 t)
      (if h : t.val % 8 = 0 then init else (outsAt V c (t.val - 1) (Nat.lt_of_le_of_lt (Nat.sub_le _ _) t.isLt)).2) := by
  by_cases h0 : t.val % 8 = 0
  · rw [outsAt_first V c t h0, dif_pos h0]; exact firstAt_eq V c t h0
  · rw [dif_neg h0]
    by_cases h7 : t.val % 8 = 7
    · rw [outsAt_last V c t h7, lastAt_eq]
    · rw [outsAt_mid V c t h0 h7]; exact midAt_eq V c t h0 h7 _

/-- At column block 7 the two output blocks receive the updated accumulators. -/
theorem outsAt_out (c : Dev nD) (t : Fin cfg0.N) (h7 : t.val % 8 = 7) :
    (outsAt V c t.val t.isLt).1 = (outsAt V c t.val t.isLt).2 := by
  rw [outsAt_last V c t h7, lastAt_eq]

end

end Cert.KernelIdeal.MinMax

end
-- ==== Proof.KI.R0Blocks.lean ====
import proofs.«115905_j90486370992708_1_alg».proof.Proof.KI.R0Val
import Idealize.ShloMosaic.Lib.ValueIdx

set_option maxRecDepth 16384

noncomputable section

namespace Cert.KernelIdeal.MinMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # Where the first kernel's blocks sit in the arrays

Point `t` is at row block `t / 8` and column block `t % 8`: the row-block windows (the embeddings' rows, the row
labels, the two outputs) move with `t / 8`, the column-block windows (the embeddings' rows again, the column labels)
with `t % 8`. -/

theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem idx3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem idx4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)
theorem idx5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- Row `r` of block `k` of 512 rows. -/
def blk (k : ℕ) (hk : k < 8) (r : Fin 512) : Fin 4096 := ⟨k * 512 + r.val, by omega⟩

theorem div_lt (t : Fin cfg0.N) : t.val / 8 < 8 := by
  have : t.val < 64 := lt_of_lt_of_eq t.isLt (show cfg0.N = 64 from N_0); omega
theorem mod_lt (t : Fin cfg0.N) : t.val % 8 < 8 := Nat.mod_lt _ (by decide)

section
variable (V : (c : Dev nD) → (b : Ref sig .tc) → Buf (Elt F) ((c : Thread nD τ).loc b))

/-- The row-block window of the embeddings at point `t` holds rows `512 (t / 8) + r`. -/
theorem iblk0_apply (c : Dev nD) (t : Fin cfg0.N) (r : Fin 512) (d : Fin 1024) :
    (iblk V c 0 t : Vec F S512x1024 .f32) (ix2 r d) = V c main_arg0 (ix2 (blk (t.val / 8) (div_lt t) r) d) := by
  unfold iblk
  rw [View.read_apply]
  show V c main_arg0 _ = V c main_arg0 _
  refine congrArg _ ?_
  funext a; apply Fin.ext
  match a with
  | ⟨0, _⟩ => show win0_0.index t 0 * 512 + 1 * r.val = t.val / 8 * 512 + r.val; rw [(idx0 t).1]; omega
  | ⟨1, _⟩ => show win0_0.index t 1 * 1024 + 1 * d.val = d.val; rw [(idx0 t).2]; omega

/-- The column-block window of the embeddings at point `t` holds rows `512 (t % 8) + q`. -/
theorem iblk1_apply (c : Dev nD) (t : Fin cfg0.N) (q : Fin 512) (d : Fin 1024) :
    (iblk V c 1 t : Vec F S512x1024 .f32) (ix2 q d) = V c main_arg0 (ix2 (blk (t.val % 8) (mod_lt t) q) d) := by
  unfold iblk
  rw [View.read_apply]
  show V c main_arg0 _ = V c main_arg0 _
  refine congrArg _ ?_
  funext a; apply Fin.ext
  match a with
  | ⟨0, _⟩ => show win0_1.index t 0 * 512 + 1 * q.val = t.val % 8 * 512 + q.val; rw [(idx1 t).1]; omega
  | ⟨1, _⟩ => show win0_1.index t 1 * 1024 + 1 * d.val = d.val; rw [(idx1 t).2]; omega

/-- The row-label window at point `t` holds the labels of rows `512 (t / 8) + r` (as a 4096 × 1 array). -/
theorem iblk2_apply (c : Dev nD) (t : Fin cfg0.N) (r : Fin 512) :
    (iblk V c 2 t : Vec F S512x1 .i32) (ix2 r 0) = V c main_v0 (ix2 (blk (t.val / 8) (div_lt t) r) 0) := by
  unfold iblk
  rw [View.read_apply]
  show V c main_v0 _ = V c main_v0 _
  refine congrArg _ ?_
  funext a; apply Fin.ext
  match a with
  | ⟨0, _⟩ => show win0_2.index t 0 * 512 + 1 * r.val = t.val / 8 * 512 + r.val; rw [(idx2 t).1]; omega
  | ⟨1, _⟩ => show win0_2.index t 1 * 1 + 1 * 0 = 0; rw [(idx2 t).2]

/-- The column-label window at point `t` holds the labels of rows `512 (t % 8) + q` (as a 1 × 4096 array). -/
theorem iblk3_apply (c : Dev nD) (t : Fin cfg0.N) (q : Fin 512) :
    (iblk V c 3 t : Vec F S1x512 .i32) (ix2 0 q) = V c main_v1 (ix2 0 (blk (t.val % 8) (mod_lt t) q)) := by
  unfold iblk
  rw [View.read_apply]
  show V c main_v1 _ = V c main_v1 _
  refine congrArg _ ?_
  funext a; apply Fin.ext
  match a with
  | ⟨0, _⟩ => show win0_3.index t 0 * 1 + 1 * 0 = 0; rw [(idx3 t).1]
  | ⟨1, _⟩ => show win0_3.index t 1 * 512 + 1 * q.val = t.val % 8 * 512 + q.val; rw [(idx3 t).2]; omega

end

end Cert.KernelIdeal.MinMax

end
-- ==== Proof.KI.R0Final.lean ====
import proofs.«115905_j90486370992708_1_alg».proof.Proof.KI.R0Blocks

set_option maxRecDepth 16384

noncomputable section

namespace Cert.KernelIdeal.MinMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The arrays the first kernel leaves

Each output block is written back once, at column block 7 of its row block, and these blocks tile the 4096 × 1 array. -/

section
variable (V : (c : Dev nD) → (b : Ref sig .tc) → Buf (Elt F) ((c : Thread nD τ).loc b))
variable (qL qR : PosShare TreeShare)

theorem mem_blk4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v10_0).slice (win0_4.rect t)).set ↔ _
  rw [View.set_slice_whole, Rect.mem_set_unit]
  exact Iff.rfl

/-- The blocks written back at column block 7 tile the 4096 × 1 array: row `i` is in the block of row block `i / 512`. -/
theorem cover4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 64 := N_0
  refine ⟨⟨8 * ((i 0).val / 512) + 7, by omega⟩, (flush0_4 _).mpr (by show (8 * ((i 0).val / 512) + 7) % 8 = 7; omega), ?_⟩
  rw [mem_blk4]
  intro a
  match a with
  | ⟨0, _⟩ =>
    show win0_4.index _ (0 : Fin 2) * 512 ≤ (i 0).val ∧ (i 0).val < win0_4.index _ (0 : Fin 2) * 512 + 512
    rw [(idx4 _).1]
    show (8 * ((i 0).val / 512) + 7) / 8 * 512 ≤ (i 0).val ∧ (i 0).val < (8 * ((i 0).val / 512) + 7) / 8 * 512 + 512
    omega
  | ⟨1, _⟩ =>
    show win0_4.index _ (1 : Fin 2) * 1 ≤ (i 1).val ∧ (i 1).val < win0_4.index _ (1 : Fin 2) * 1 + 1
    rw [(idx4 _).2]
    omega

/-- THE ARRAY after the region: any function `G` of the row that every block written back at column block 7 agrees with. -/
theorem final4 (c : Dev nD) (G : S4096x1.Idx → Elt F .f32)
    (hG : ∀ (t : Fin cfg0.N) (h7 : t.val % 8 = 7) (r : Fin 512),
      (outsAt V c t.val t.isLt).1.1 (ix2 r 0) = G (ix2 (blk (t.val / 8) (div_lt t) r) 0)) :
    (dat0 V qL qR c).arrAt 4 cfg0.N = G := by
  refine (dat0 V qL qR c).arrAt_eq_of_cover 4 G (fun t hf => ?_) cover4
  have h7 := (flush0_4 t).mp hf
  show (cfg0.win 4).cut (grid0.coords t) ((dat0 V qL qR c).after 4 t) = _
  rw [after4]
  funext y
  obtain ⟨r, u, rfl⟩ : ∃ (r : Fin 512) (u : Fin 1), y = ix2 r u := ⟨y 0, y 1, eq_ix2 y⟩
  obtain rfl : u = 0 := Subsingleton.elim _ _
  rw [View.read_apply]
  refine (hG t h7 r).trans (congrArg G ?_)
  funext a; apply Fin.ext
  match a with
  | ⟨0, _⟩ => show t.val / 8 * 512 + r.val = win0_4.index t 0 * 512 + 1 * r.val; rw [(idx4 t).1]; omega
  | ⟨1, _⟩ => show 0 = win0_4.index t 1 * 1 + 1 * 0; rw [(idx4 t).2]

theorem mem_blk5 (t : Fin cfg0.N) (i : S4096x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v10_1).slice (win0_5.rect t)).set ↔ _
  rw [View.set_slice_whole, Rect.mem_set_unit]
  exact Iff.rfl

/-- The blocks written back at column block 7 tile the 4096 × 1 array: row `i` is in the block of row block `i / 512`. -/
theorem cover5 (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 64 := N_0
  refine ⟨⟨8 * ((i 0).val / 512) + 7, by omega⟩, (flush0_5 _).mpr (by show (8 * ((i 0).val / 512) + 7) % 8 = 7; omega), ?_⟩
  rw [mem_blk5]
  intro a
  match a with
  | ⟨0, _⟩ =>
    show win0_5.index _ (0 : Fin 2) * 512 ≤ (i 0).val ∧ (i 0).val < win0_5.index _ (0 : Fin 2) * 512 + 512
    rw [(idx5 _).1]
    show (8 * ((i 0).val / 512) + 7) / 8 * 512 ≤ (i 0).val ∧ (i 0).val < (8 * ((i 0).val / 512) + 7) / 8 * 512 + 512
    omega
  | ⟨1, _⟩ =>
    show win0_5.index _ (1 : Fin 2) * 1 ≤ (i 1).val ∧ (i 1).val < win0_5.index _ (1 : Fin 2) * 1 + 1
    rw [(idx5 _).2]
    omega

/-- THE ARRAY after the region: any function `G` of the row that every block written back at column block 7 agrees with. -/
theorem final5 (c : Dev nD) (G : S4096x1.Idx → Elt F .f32)
    (hG : ∀ (t : Fin cfg0.N) (h7 : t.val % 8 = 7) (r : Fin 512),
      (outsAt V c t.val t.isLt).1.2 (ix2 r 0) = G (ix2 (blk (t.val / 8) (div_lt t) r) 0)) :
    (dat0 V qL qR c).arrAt 5 cfg0.N = G := by
  refine (dat0 V qL qR c).arrAt_eq_of_cover 5 G (fun t hf => ?_) cover5
  have h7 := (flush0_5 t).mp hf
  show (cfg0.win 5).cut (grid0.coords t) ((dat0 V qL qR c).after 5 t) = _
  rw [after5]
  funext y
  obtain ⟨r, u, rfl⟩ : ∃ (r : Fin 512) (u : Fin 1), y = ix2 r u := ⟨y 0, y 1, eq_ix2 y⟩
  obtain rfl : u = 0 := Subsingleton.elim _ _
  rw [View.read_apply]
  refine (hG t h7 r).trans (congrArg G ?_)
  funext a; apply Fin.ext
  match a with
  | ⟨0, _⟩ => show t.val / 8 * 512 + r.val = win0_5.index t 0 * 512 + 1 * r.val; rw [(idx5 t).1]; omega
  | ⟨1, _⟩ => show 0 = win0_5.index t 1 * 1 + 1 * 0; rw [(idx5 t).2]

/-- The recursion does not depend on how the point's number is spelt. -/
theorem outsAt_congr (c : Dev nD) {n n' : ℕ} (h : n = n') (hn : n < cfg0.N) (hn' : n' < cfg0.N) :
    outsAt V c n hn = outsAt V c n' hn' := by subst h; rfl

end

/-- The point's grid coordinates: row block `t / 8`, column block `t % 8`. -/
theorem coords_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- The point at row block `i0` and column block `k`. -/
def pt (i0 k : Fin 8) : Fin cfg0.N := ⟨8 * i0.val + k.val, by rw [show cfg0.N = 64 from N_0]; omega⟩

theorem pt_val (i0 k : Fin 8) : (pt i0 k).val = 8 * i0.val + k.val := rfl
theorem pt_div (i0 k : Fin 8) : (pt i0 k).val / 8 = i0.val := by rw [pt_val]; omega
theorem pt_mod (i0 k : Fin 8) : (pt i0 k).val % 8 = k.val := by rw [pt_val]; omega

section
variable (V : (c : Dev nD) → (b : Ref sig .tc) → Buf (Elt F) ((c : Thread nD τ).loc b))

/-- The accumulators after the point at row block `i0`, column block `k`. -/
def accSeq (c : Dev nD) (i0 k : Fin 8) : Vec F S512x1 .f32 × Vec F S512x1 .f32 := (outsAt V c (pt i0 k).val (pt i0 k).isLt).2

theorem accSeq_zero (c : Dev nD) (i0 : Fin 8) :
    accSeq V c i0 0 = step (grid0.coords (pt i0 0)) (iblk V c 0 (pt i0 0)) (iblk V c 1 (pt i0 0)) (iblk V c 2 (pt i0 0)) (iblk V c 3 (pt i0 0)) init := by
  unfold accSeq
  have h : (pt i0 0).val % 8 = 0 := pt_mod i0 0
  rw [outsAt_scr V c (pt i0 0), dif_pos h]

theorem accSeq_succ (c : Dev nD) (i0 : Fin 8) (k : Fin 7) :
    accSeq V c i0 k.succ = step (grid0.coords (pt i0 k.succ)) (iblk V c 0 (pt i0 k.succ)) (iblk V c 1 (pt i0 k.succ)) (iblk V c 2 (pt i0 k.succ)) (iblk V c 3 (pt i0 k.succ)) (accSeq V c i0 k.castSucc) := by
  unfold accSeq
  have hk : ¬(pt i0 k.succ).val % 8 = 0 := by rw [pt_mod]; simp [Fin.val_succ]
  rw [outsAt_scr V c (pt i0 k.succ), dif_neg hk]
  rw [outsAt_congr V c (show (pt i0 k.succ).val - 1 = (pt i0 k.castSucc).val by simp only [pt_val, Fin.val_succ, Fin.coe_castSucc]; omega) _ (pt i0 k.castSucc).isLt]

end

end Cert.KernelIdeal.MinMax

end
-- ==== Proof.KI.HostSide.lean ====
import proofs.«115905_j90486370992708_1_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-! # What the host operations around the two kernels compute

Before the first kernel the labels are re-laid as a column and as a row, and each row's class threshold is gathered;
after the second kernel the 4096 row losses are summed and divided by 4096. -/

/-- The embeddings reach both kernels as launched. -/
theorem V1_arg0 (c : Dev nD) : V1 m c main_arg0 = m ((c : Thread nD τ).loc main_arg0) :=
  (V1_of m c main_arg0 (by decide)).trans rfl

/-- The labels as a 4096 × 1 column. -/
theorem V1_v0 (c : Dev nD) : (V1 m c main_v0 : S4096x1.Idx → Elt F .i32) = shapeCast S4096x1 (m ((c : Thread nD τ).loc main_arg2)) shapeCasts_S4096_S4096x1 := by
  dsimp only [V1, V0, hostOps0]
  after_results
  rfl

theorem V1_v0_apply (c : Dev nD) (r : Fin 4096) :
    (V1 m c main_v0 : S4096x1.Idx → Elt F .i32) (ix2 r 0) = m ((c : Thread nD τ).loc main_arg2) (ix1 r) := by
  rw [V1_v0]
  exact shapeCast_apply _ _ (ix2 r 0) (ix1 r) (by rw [Shape.rowMajor_val_one, Shape.rowMajor_val_two]; show r.val = r.val * 1 + 0; omega)

/-- The labels as a 1 × 4096 row. -/
theorem V1_v1 (c : Dev nD) : (V1 m c main_v1 : S1x4096.Idx → Elt F .i32) = shapeCast S1x4096 (m ((c : Thread nD τ).loc main_arg2)) shapeCasts_S4096_S1x4096 := by
  dsimp only [V1, V0, hostOps0]
  after_results
  rfl

theorem V1_v1_apply (c : Dev nD) (q : Fin 4096) :
    (V1 m c main_v1 : S1x4096.Idx → Elt F .i32) (ix2 0 q) = m ((c : Thread nD τ).loc main_arg2) (ix1 q) := by
  rw [V1_v1]
  exact shapeCast_apply _ _ (ix2 0 q) (ix1 q) (by rw [Shape.rowMajor_val_one, Shape.rowMajor_val_two]; show q.val = 0 * 4096 + q.val; omega)

/-- Each row's class threshold, gathered from the thresholds at the row's label (a negative label counted from the
    end), as a 4096 × 1 column. -/
theorem V1_v9 (c : Dev nD) : (V1 m c main_v9 : S4096x1.Idx → Elt F .f32) =
    shapeCast S4096x1
      (Host.gather gather_S100_S4096x1_S4096_n_0_n_n_0_1_1 (m ((c : Thread nD τ).loc main_arg1))
        (broadcastInDim S4096x1 ![0] bcast_S4096_S4096x1_0
          (select
            (cmpi CmpIPredicate.slt (m ((c : Thread nD τ).loc main_arg2)) (broadcastInDim S4096 ![] bcast_S_S4096 (constantI S_ 32 0#32)))
            (addi (m ((c : Thread nD τ).loc main_arg2)) (broadcastInDim S4096 ![] bcast_S_S4096 (constantI S_ 32 100#32)))
            (m ((c : Thread nD τ).loc main_arg2)))))
      shapeCasts_S4096_S4096x1 := by
  dsimp only [V1, V0, hostOps0]
  after_results
  rfl

/-- The result: the row losses summed from zero and divided by 4096. -/
theorem V4_v13 (outs : Outs (F := F)) (c : Dev nD) : (V4 m outs c main_v13 : S_.Idx → Elt F .f32) =
    Host.divf (Host.reduceAdd (outs 3 main_v11 c : S4096x1.Idx → Elt F .f32) (constant S_ .f32 0x00000000#32) reducesTo_S4096x1_S_d0_1 h_S_)
      (constant S_ .f32 0x45800000#32) := by
  have e : (V3 m outs c main_v11 : S4096x1.Idx → Elt F .f32) = outs 3 main_v11 c := Function.update_self ..
  rw [← e]
  dsimp only [V4, hostOps2]
  after_results

end Cert.KernelIdeal.HostSide

end
-- ==== Proof.Spec.lean ====
import Idealize.ShloMosaic.PureOps.Ideal
import Idealize.ShloMosaic.PureOps.Ideal.Laws
import Idealize.ShloMosaic.Lib.ValueIdx

/-!
The loss as one function of the three argument arrays, read on the extended reals.

`X` is the 4096 × 1024 array of embeddings, `beta` the 100 class thresholds, `lab` the 4096 labels.
For a row `r` and a column `j` of the 4096 × 4096 similarity matrix:

* `sim r j = ∑ d, X r d * X j d`;
* `j` is a *positive* of `r` when the labels agree, `r ≠ j`, and `sim r j` is below the constant just under one;
  it is a *negative* when the labels differ;
* `minPos r` is the least similarity over the positives of `r` (`+∞` when there is none), `maxNeg r` the greatest
  over its negatives (`-∞` when there is none);
* a negative is *kept* when `sim r j + margin > minPos r`, a positive when `sim r j - margin < maxNeg r`;
* `posSum r = ∑ j, exp (-2 (sim r j - b r)) · [j kept positive]`, `negSum r = ∑ j, exp (40 (sim r j - b r)) · [j kept negative]`,
  with `b r` the threshold of `r`'s class;
* the row's loss is `½ log (1 + posSum r) + (1/40) log (1 + negSum r)` when it keeps a negative and a positive, else `0`;
* the result is the mean of the 4096 row losses.

Every float constant stays the word that denotes it (`Ideal.ofBits .f32 w`): the two programs carry the same words, so none
is ever evaluated. A mask is a one-bit word, built with the same bit operations both programs apply to it.
-/

noncomputable section

namespace Cert.Spec

open Idealize.ShloMosaic Idealize.ShloMosaic.ValueIdx
open scoped BigOperators

/-- The embeddings' shape. -/
abbrev SX : Shape := ⟨2, ![4096, 1024]⟩
/-- The thresholds' shape. -/
abbrev SBeta : Shape := ⟨1, ![100]⟩
/-- The labels' shape. -/
abbrev SLab : Shape := ⟨1, ![4096]⟩
/-- The result's shape: a scalar. -/
abbrev S0 : Shape := ⟨0, ![]⟩

/-- A one-bit mask as the float `1` or `0`. -/
def maskF (m : BitVec 1) : EReal := if m = 1#1 then 1 else 0

/-- The similarity of rows `r` and `j`: their inner product. -/
def sim (X : SX.Idx → EReal) (r j : Fin 4096) : EReal := ∑ d : Fin 1024, X (ix2 r d) * X (ix2 j d)

/-- The labels of `r` and `j` agree. -/
def same (lab : SLab.Idx → BitVec 32) (r j : Fin 4096) : BitVec 1 := IntOp.cmpi .eq (lab (ix1 r)) (lab (ix1 j))

/-- `r` and `j` are different rows. -/
def offDiag (r j : Fin 4096) : BitVec 1 := BitVec.ofBool (decide (r ≠ j))

/-- `j` is a positive of `r`: same label, another row, and not a near-duplicate. -/
def pos (X : SX.Idx → EReal) (lab : SLab.Idx → BitVec 32) (r j : Fin 4096) : BitVec 1 :=
  IntOp.andi (IntOp.andi (same lab r j) (offDiag r j)) (Ideal.cmp .olt (sim X r j) (Ideal.ofBits .f32 0x3F7FFF58#32))

/-- `j` is a negative of `r`: another label. -/
def neg (lab : SLab.Idx → BitVec 32) (r j : Fin 4096) : BitVec 1 := ~~~(same lab r j)

/-- The least similarity over the positives of `r`; `+∞` stands in for a column that is not one. -/
def minPos (X : SX.Idx → EReal) (lab : SLab.Idx → BitVec 32) (r : Fin 4096) : EReal :=
  (Finset.univ : Finset (Fin 4096)).fold min (Ideal.ofBits .f32 0x7F800000#32)
    (fun j => Scalar.select (pos X lab r j) (sim X r j) (Ideal.ofBits .f32 0x7F800000#32))

/-- The greatest similarity over the negatives of `r`; `-∞` stands in for a column that is not one. -/
def maxNeg (X : SX.Idx → EReal) (lab : SLab.Idx → BitVec 32) (r : Fin 4096) : EReal :=
  (Finset.univ : Finset (Fin 4096)).fold max (Ideal.ofBits .f32 0xFF800000#32)
    (fun j => Scalar.select (neg lab r j) (sim X r j) (Ideal.ofBits .f32 0xFF800000#32))

/-- A negative harder than the easiest positive: `sim r j + margin > minPos r`. -/
def negKeep (X : SX.Idx → EReal) (lab : SLab.Idx → BitVec 32) (r j : Fin 4096) : BitVec 1 :=
  IntOp.andi (neg lab r j) (Ideal.cmp .ogt (sim X r j + Ideal.ofBits .f32 0x3DCCCCCD#32) (minPos X lab r))

/-- A positive harder than the hardest negative: `sim r j - margin < maxNeg r`. -/
def posKeep (X : SX.Idx → EReal) (lab : SLab.Idx → BitVec 32) (r j : Fin 4096) : BitVec 1 :=
  IntOp.andi (pos X lab r j) (Ideal.cmp .olt (sim X r j - Ideal.ofBits .f32 0x3DCCCCCD#32) (maxNeg X lab r))

/-- Row `r`'s label as an index into the thresholds: a negative label counts from the end. -/
def wrapLab (lab : SLab.Idx → BitVec 32) (r : Fin 4096) : BitVec 32 :=
  Scalar.select (IntOp.cmpi .slt (lab (ix1 r)) 0#32) (IntOp.addi (lab (ix1 r)) 100#32) (lab (ix1 r))

/-- The threshold of row `r`'s class: `beta` at the wrapped label, read signed and clamped into `[0, 99]`. -/
def bRow (beta : SBeta.Idx → EReal) (lab : SLab.Idx → BitVec 32) (r : Fin 4096) : EReal :=
  beta (ix1 ⟨min (wrapLab lab r).toInt.toNat 99, by omega⟩)

/-- The kept positives' sum of `exp (-2 (sim - b))`. -/
def posSum (X : SX.Idx → EReal) (beta : SBeta.Idx → EReal) (lab : SLab.Idx → BitVec 32) (r : Fin 4096) : EReal :=
  ∑ j : Fin 4096, Ideal.exp (Ideal.ofBits .f32 0xC0000000#32 * (sim X r j - bRow beta lab r)) * maskF (posKeep X lab r j)

/-- The kept negatives' sum of `exp (40 (sim - b))`. -/
def negSum (X : SX.Idx → EReal) (beta : SBeta.Idx → EReal) (lab : SLab.Idx → BitVec 32) (r : Fin 4096) : EReal :=
  ∑ j : Fin 4096, Ideal.exp (Ideal.ofBits .f32 0x42200000#32 * (sim X r j - bRow beta lab r)) * maskF (negKeep X lab r j)

/-- Row `r` keeps some negative. -/
def anyNeg (X : SX.Idx → EReal) (lab : SLab.Idx → BitVec 32) (r : Fin 4096) : BitVec 1 :=
  (Finset.univ : Finset (Fin 4096)).fold IntOp.ori 0#1 (fun j => negKeep X lab r j)

/-- Row `r` keeps some positive. -/
def anyPos (X : SX.Idx → EReal) (lab : SLab.Idx → BitVec 32) (r : Fin 4096) : BitVec 1 :=
  (Finset.univ : Finset (Fin 4096)).fold IntOp.ori 0#1 (fun j => posKeep X lab r j)

/-- Row `r` contributes: it keeps a negative and a positive. -/
def valid (X : SX.Idx → EReal) (lab : SLab.Idx → BitVec 32) (r : Fin 4096) : BitVec 1 :=
  IntOp.andi (anyNeg X lab r) (anyPos X lab r)

/-- Row `r`'s loss. -/
def perRow (X : SX.Idx → EReal) (beta : SBeta.Idx → EReal) (lab : SLab.Idx → BitVec 32) (r : Fin 4096) : EReal :=
  Scalar.select (valid X lab r)
    (Ideal.ofBits .f32 0x3F000000#32 * Ideal.log1p (posSum X beta lab r)
      + Ideal.ofBits .f32 0x3CCCCCCD#32 * Ideal.log1p (negSum X beta lab r))
    (Ideal.ofBits .f32 0x00000000#32)

/-- The result: the mean of the row losses. -/
def G (X : SX.Idx → EReal) (beta : SBeta.Idx → EReal) (lab : SLab.Idx → BitVec 32) : S0.Idx → EReal :=
  fun _ => Ideal.div (Ideal.ofBits .f32 0x00000000#32 + ∑ r : Fin 4096, perRow X beta lab r) (Ideal.ofBits .f32 0x45800000#32)

end Cert.Spec

end
-- ==== Proof.SpecLaws.lean ====
import proofs.«115905_j90486370992708_1_alg».proof.Proof.Spec

/-!
Small facts about the one-bit masks of the specification and the words around them, in the forms either program meets them:
a mask read as a float (from the bit itself, or from the bit widened to 32 bits and read signed), the complement of a bit written
as an exclusive or with `1`, the comparison of two row numbers written as 32-bit words, when each mask is set, a fold
of the bitwise or over a finite set, and a sum over a rank-1
index set as the sum over its coordinate.
-/

noncomputable section

namespace Cert.Spec

open Idealize.ShloMosaic Idealize.ShloMosaic.ValueIdx
open scoped BigOperators

/-! ## One bit -/

/-- A bit is `0` or `1`; a statement about every bit is checked at both. -/
theorem bit_cases (P : BitVec 1 → Prop) (h0 : P 0#1) (h1 : P 1#1) (m : BitVec 1) : P m := by
  rcases BitVec.eq_zero_or_eq_one m with h | h <;> subst h <;> assumption

/-- The mask as a float is the bit read as an unsigned integer: the host's conversion of an `i1`. -/
theorem maskF_uitofp (m : BitVec 1) : FloatOps.uitofp (F := Ideal) .f32 m = maskF m := by
  revert m
  refine bit_cases _ ?_ ?_
  · show (((0#1 : BitVec 1).toNat : ℝ) : EReal) = maskF 0#1
    simp [maskF]
  · show (((1#1 : BitVec 1).toNat : ℝ) : EReal) = maskF 1#1
    simp [maskF]

/-- The mask as a float is the bit widened to 32 bits and read as a signed integer: a kernel's conversion. -/
theorem maskF_sitofp_setWidth (m : BitVec 1) : FloatOps.sitofp (F := Ideal) .f32 (m.setWidth 32) = maskF m := by
  revert m
  refine bit_cases _ ?_ ?_
  · show ((((0#1 : BitVec 1).setWidth 32).toInt : ℝ) : EReal) = maskF 0#1
    simp [maskF]
  · show ((((1#1 : BitVec 1).setWidth 32).toInt : ℝ) : EReal) = maskF 1#1
    simp [maskF]

theorem maskF_one : maskF 1#1 = 1 := by simp [maskF]
theorem maskF_zero : maskF 0#1 = 0 := by simp [maskF]

/-- A bit's exclusive or with `1` is its complement. -/
theorem xori_one (m : BitVec 1) : IntOp.xori m 1#1 = ~~~m := by
  revert m; exact bit_cases _ (by decide) (by decide)

/-- A complement is set exactly when the bit is not. -/
theorem not_eq_one (m : BitVec 1) : ~~~m = 1#1 ↔ ¬ m = 1#1 := by
  revert m; exact bit_cases _ (by decide) (by decide)

/-- A conjunction of bits is set exactly when both are. -/
theorem andi_eq_one (a b : BitVec 1) : IntOp.andi a b = 1#1 ↔ a = 1#1 ∧ b = 1#1 := by
  revert a; refine bit_cases _ ?_ ?_ <;> (revert b; exact bit_cases _ (by decide) (by decide))

/-- A disjunction of bits is set exactly when one is. -/
theorem ori_eq_one (a b : BitVec 1) : IntOp.ori a b = 1#1 ↔ a = 1#1 ∨ b = 1#1 := by
  revert a; refine bit_cases _ ?_ ?_ <;> (revert b; exact bit_cases _ (by decide) (by decide))

/-- The bit of a decided proposition is set exactly when the proposition holds. -/
theorem ofBool_decide_eq_one (P : Prop) [Decidable P] : BitVec.ofBool (decide P) = 1#1 ↔ P := by
  by_cases h : P <;> simp [h]

/-- Equality of two words, as a bit. -/
theorem cmpi_eq_eq_one {w : Nat} (a b : BitVec w) : IntOp.cmpi .eq a b = 1#1 ↔ a = b := by
  show BitVec.ofBool (a == b) = 1#1 ↔ a = b
  by_cases h : a = b
  · subst h; simp
  · rw [beq_false_of_ne h]
    exact ⟨fun e => absurd e (by decide), fun e => absurd e h⟩

/-- `x < y` on the extended reals, as a bit. -/
theorem cmp_olt_eq_one (x y : EReal) : Ideal.cmp .olt x y = 1#1 ↔ x < y := by
  unfold Ideal.cmp
  by_cases h : x < y <;> simp [h]

/-- `x > y` on the extended reals, as a bit. -/
theorem cmp_ogt_eq_one (x y : EReal) : Ideal.cmp .ogt x y = 1#1 ↔ y < x := by
  unfold Ideal.cmp
  by_cases h : y < x <;> simp [h]

/-- A fold of the bitwise or from `0` over a finite set is set exactly when some member's bit is. -/
theorem fold_ori_eq_one {ι : Type} [DecidableEq ι] (s : Finset ι) (f : ι → BitVec 1) :
    s.fold IntOp.ori 0#1 f = 1#1 ↔ ∃ j ∈ s, f j = 1#1 := by
  induction s using Finset.induction_on with
  | empty => simp
  | insert a s ha ih =>
    rw [Finset.fold_insert ha, ori_eq_one, ih]
    constructor
    · rintro (h | ⟨j, hj, h⟩)
      · exact ⟨a, Finset.mem_insert_self a s, h⟩
      · exact ⟨j, Finset.mem_insert_of_mem hj, h⟩
    · rintro ⟨j, hj, h⟩
      rcases Finset.mem_insert.1 hj with rfl | hj
      · exact Or.inl h
      · exact Or.inr ⟨j, hj, h⟩

/-! ## Row numbers as 32-bit words -/

/-- Two numbers below `2^32` are equal exactly when their 32-bit words are. -/
theorem cmpi_eq_ofNat (a b : Nat) (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = BitVec.ofBool (decide (a = b))
  by_cases h : a = b
  · subst h; simp
  · have hne : BitVec.ofNat 32 a ≠ BitVec.ofNat 32 b := by
      intro e
      have := congrArg BitVec.toNat e
      rw [BitVec.toNat_ofNat, BitVec.toNat_ofNat, Nat.mod_eq_of_lt ha, Nat.mod_eq_of_lt hb] at this
      exact h this
    rw [beq_false_of_ne hne, decide_eq_false h]

/-- "Row `r` is not column `j`", as the complement of the comparison of the two numbers' words. -/
theorem offDiag_eq (r j : Fin 4096) :
    ~~~(IntOp.cmpi .eq (BitVec.ofNat 32 r.val) (BitVec.ofNat 32 j.val)) = offDiag r j := by
  rw [cmpi_eq_ofNat _ _ (by omega) (by omega)]
  unfold offDiag
  by_cases h : r = j
  · subst h; simp
  · have : ¬ r.val = j.val := fun e => h (Fin.ext e)
    simp [h, this]

/-- The same with the row number written as itself plus the zero word. -/
theorem offDiag_eq_add_zero (r j : Fin 4096) :
    ~~~(IntOp.cmpi .eq (IntOp.addi (BitVec.ofNat 32 r.val) 0#32) (BitVec.ofNat 32 j.val)) = offDiag r j := by
  have : IntOp.addi (BitVec.ofNat 32 r.val) 0#32 = BitVec.ofNat 32 r.val := by
    unfold IntOp.addi; exact BitVec.add_zero _
  rw [this, offDiag_eq]

/-- `offDiag` is set exactly off the diagonal. -/
theorem offDiag_eq_one (r j : Fin 4096) : offDiag r j = 1#1 ↔ r ≠ j := by
  unfold offDiag; exact ofBool_decide_eq_one _

/-! ## When each mask of the specification is set -/

theorem same_eq_one (lab : SLab.Idx → BitVec 32) (r j : Fin 4096) : same lab r j = 1#1 ↔ lab (ix1 r) = lab (ix1 j) :=
  cmpi_eq_eq_one _ _

theorem neg_eq_one (lab : SLab.Idx → BitVec 32) (r j : Fin 4096) : neg lab r j = 1#1 ↔ lab (ix1 r) ≠ lab (ix1 j) := by
  unfold neg; rw [not_eq_one, same_eq_one]

theorem pos_eq_one (X : SX.Idx → EReal) (lab : SLab.Idx → BitVec 32) (r j : Fin 4096) :
    pos X lab r j = 1#1 ↔ lab (ix1 r) = lab (ix1 j) ∧ r ≠ j ∧ sim X r j < Ideal.ofBits .f32 0x3F7FFF58#32 := by
  unfold pos; rw [andi_eq_one, andi_eq_one, same_eq_one, offDiag_eq_one, cmp_olt_eq_one, and_assoc]

theorem negKeep_eq_one (X : SX.Idx → EReal) (lab : SLab.Idx → BitVec 32) (r j : Fin 4096) :
    negKeep X lab r j = 1#1 ↔ neg lab r j = 1#1 ∧ minPos X lab r < sim X r j + Ideal.ofBits .f32 0x3DCCCCCD#32 := by
  unfold negKeep; rw [andi_eq_one, cmp_ogt_eq_one]

theorem posKeep_eq_one (X : SX.Idx → EReal) (lab : SLab.Idx → BitVec 32) (r j : Fin 4096) :
    posKeep X lab r j = 1#1 ↔ pos X lab r j = 1#1 ∧ sim X r j - Ideal.ofBits .f32 0x3DCCCCCD#32 < maxNeg X lab r := by
  unfold posKeep; rw [andi_eq_one, cmp_olt_eq_one]

theorem anyNeg_eq_one (X : SX.Idx → EReal) (lab : SLab.Idx → BitVec 32) (r : Fin 4096) :
    anyNeg X lab r = 1#1 ↔ ∃ j, negKeep X lab r j = 1#1 := by
  unfold anyNeg; rw [fold_ori_eq_one]; simp

theorem anyPos_eq_one (X : SX.Idx → EReal) (lab : SLab.Idx → BitVec 32) (r : Fin 4096) :
    anyPos X lab r = 1#1 ↔ ∃ j, posKeep X lab r j = 1#1 := by
  unfold anyPos; rw [fold_ori_eq_one]; simp

theorem valid_eq_one (X : SX.Idx → EReal) (lab : SLab.Idx → BitVec 32) (r : Fin 4096) :
    valid X lab r = 1#1 ↔ (∃ j, negKeep X lab r j = 1#1) ∧ ∃ j, posKeep X lab r j = 1#1 := by
  unfold valid; rw [andi_eq_one, anyNeg_eq_one, anyPos_eq_one]

/-! ## A sum over a rank-1 index set -/

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- So a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Spec

end
-- ==== Proof.KValSim.lean ====
/-
  The similarity tile of one grid point, entry by entry.

  Both kernel bodies begin with the same product: the row block `x0` (512 rows of the embeddings) times the transpose of the
  column block `x1` (512 other rows), accumulated into a zero tile. On the extended reals a change of float format is the
  identity and the product has no rounding or chunk order left in it, so entry `(r, q)` of the tile is the inner product
  `∑ d, x0 r d * x1 q d` of row `r` of the row block with row `q` of the column block.
-/
import proofs.«115905_j90486370992708_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KVal

open Cert.KernelIdeal Cert.KernelIdeal.Gen Idealize.ShloMosaic Idealize.ShloMosaic.ValueIdx
open scoped BigOperators

/-- The product's dimension numbers: contract axis 1 of the left operand with axis 0 of the right one. -/
abbrev simDims : DotDims S512x1024 S1024x512 S512x512 := dot_S512x1024_S1024x512_S512x512_1_0_0_1_n_n

/-- The left operand's row is the output's row. -/
theorem simDims_lhs_0 (i : S512x512.Idx) (c : simDims.contr.Idx) : (simDims.lhsIdx i c 0).val = (i 0).val := by
  unfold DotDims.lhsIdx
  rw [dif_neg (show ¬(0 : Fin S512x1024.rank) ∈ simDims.lhsBatch by decide),
    dif_pos (show (0 : Fin S512x1024.rank) ∈ simDims.lhsNonContracting by decide)]
  rfl

/-- The left operand's column is the contraction coordinate. -/
theorem simDims_lhs_1 (i : S512x512.Idx) (c : simDims.contr.Idx) :
    (simDims.lhsIdx i c 1).val = (c ⟨0, by decide⟩).val :=
  simDims.lhsIdx_val_of_single rfl i c

/-- The right operand's row is the contraction coordinate. -/
theorem simDims_rhs_0 (i : S512x512.Idx) (c : simDims.contr.Idx) :
    (simDims.rhsIdx i c 0).val = (c ⟨0, by decide⟩).val :=
  simDims.rhsIdx_val_of_single rfl i c

/-- The right operand's column is the output's column. -/
theorem simDims_rhs_1 (i : S512x512.Idx) (c : simDims.contr.Idx) : (simDims.rhsIdx i c 1).val = (i 1).val := by
  unfold DotDims.rhsIdx
  rw [dif_neg (show ¬(1 : Fin S1024x512.rank) ∈ simDims.rhsBatch by decide),
    dif_pos (show (1 : Fin S1024x512.rank) ∈ simDims.rhsNonContracting by decide)]
  rfl

/-- Entry `(r, q)` of the first kernel's similarity tile: the inner product of row `r` of the row block and row `q` of the
    column block. -/
theorem k0_pay5_apply (x0 x1 : FVec Ideal S512x1024 .f32) (r q : Fin 512) :
    k0_pay5 (F := Ideal) x0 x1 (ix2 r q) = ∑ d : Fin 1024, x0 (ix2 r d) * x1 (ix2 q d) := by
  unfold k0_pay5
  refine (Ideal.matmul_constant_zero_apply simDims none _ _ (ix2 r q)).trans ?_
  refine (Equiv.sum_comp (contrEquiv1 simDims 1024 rfl rfl).symm _).symm.trans ?_
  refine Finset.sum_congr rfl fun d _ => ?_
  have hk := contrEquiv1_symm_val simDims 1024 rfl rfl d
  have el : simDims.lhsIdx (ix2 r q) ((contrEquiv1 simDims 1024 rfl rfl).symm d) = ix2 r d :=
    funext fun a => Fin.ext (by
      match a with
      | ⟨0, _⟩ => exact simDims_lhs_0 _ _
      | ⟨1, _⟩ => exact (simDims_lhs_1 _ _).trans hk)
  have er : simDims.rhsIdx (ix2 r q) ((contrEquiv1 simDims 1024 rfl rfl).symm d) = ix2 d q :=
    funext fun a => Fin.ext (by
      match a with
      | ⟨0, _⟩ => exact (simDims_rhs_0 _ _).trans hk
      | ⟨1, _⟩ => exact simDims_rhs_1 _ _)
  refine congrArg₂ (· * ·) (congrArg x0 el) ?_
  refine (congrArg _ er).trans ?_
  exact transpose_ix2_apply (a := 512) (b := 1024) _ _ d q

/-- The second kernel computes the same tile. -/
theorem k1_pay8_eq (x0 x1 : FVec Ideal S512x1024 .f32) : k1_pay8 (F := Ideal) x0 x1 = k0_pay5 (F := Ideal) x0 x1 := rfl

/-- Entry `(r, q)` of the second kernel's similarity tile. -/
theorem k1_pay8_apply (x0 x1 : FVec Ideal S512x1024 .f32) (r q : Fin 512) :
    k1_pay8 (F := Ideal) x0 x1 (ix2 r q) = ∑ d : Fin 1024, x0 (ix2 r d) * x1 (ix2 q d) :=
  (congrFun (k1_pay8_eq x0 x1) _).trans (k0_pay5_apply x0 x1 r q)

end Cert.KVal

end
-- ==== Proof.KValRow.lean ====
/-
  A 512 × 512 tile reduced along its rows, and a column spread across a tile.

  Each kernel body reduces a tile `src` over its second axis (the lanes) and keeps the result as a 512 × 1 column. At row
  `r` that column holds the fold of the operation over the 512 entries `src r q` of the row: a minimum or a maximum folded
  from the accumulator word's value, or a plain sum. In the other direction a 512 × 1 column broadcast to a tile reads,
  at `(r, q)`, the column's entry at row `r`. The 4096 rows of the arrays are cut into 8 blocks of 512; `blk k r` is row `r` of
  block `k`, and the kernels compute its number `k * 512 + r` in 32-bit words without wrapping.
-/
import Idealize.ShloMosaic.Lib.Pipeline.Value
import Idealize.ShloMosaic.Lib.ValueIdx
import Idealize.ShloMosaic.Lib.ValueLayout
import Idealize.ShloMosaic.PureOps.Ideal.Laws

noncomputable section

namespace Cert.KVal

open Idealize.ShloMosaic Idealize.ShloMosaic.ValueIdx
open scoped BigOperators

/-- The tile. -/
abbrev T512 : Shape := ⟨2, ![512, 512]⟩
/-- A row-indexed vector. -/
abbrev V512 : Shape := ⟨1, ![512]⟩
/-- A column: one entry per row. -/
abbrev C512 : Shape := ⟨2, ![512, 1]⟩

/-- Over row `r`, the tile index with lane coordinate `q` inserted is `(r, q)`. -/
theorem lift_row (h : T512.Reduces [1] V512) (r q : Fin 512) : h.lift (ix1 r) q = ix2 r q := by
  funext c
  apply Fin.ext
  match c with
  | ⟨0, _⟩ => rfl
  | ⟨1, _⟩ => rfl

/-- A row-indexed vector viewed as a column reads, at `(r, u)`, its entry `r`. -/
theorem column_of_vector {α : Type} (v : V512.Idx → α) (hc : V512.ShapeCasts C512) (r : Fin 512) (u : Fin 1) :
    shapeCast C512 v hc (ix2 r u) = v (ix1 r) :=
  shapeCast_apply v hc (ix2 r u) (ix1 r) (by
    rw [Shape.rowMajor_val_one, Shape.rowMajor_val_two]
    show r.val = r.val * 1 + u.val
    omega)

/-- The row minimum: the fold of `min` from the accumulator word's value over the row's 512 entries. -/
theorem rowMin_apply (src : FVec Ideal T512 .f32) (acc : BitVec 32) (h : T512.Reduces [1] V512) (hφ : FKind.Formats .f32)
    (hacc : acc = FKind.minimumf.neutral .f32 hφ) (hc : V512.ShapeCasts C512) (r : Fin 512) (u : Fin 1) :
    shapeCast C512 (multiReduction .minimumf [1] V512 src acc h hφ hacc) hc (ix2 r u)
      = (Finset.univ : Finset (Fin 512)).fold min (Ideal.ofBits .f32 acc) (fun q => src (ix2 r q)) := by
  refine (column_of_vector _ hc r u).trans ?_
  refine (multiReduction_minimumf_eq_fold src acc h hφ hacc (ix1 r)).trans ?_
  refine (h.fold_filter_drop_single FloatOps.minimumf _ src (ix1 r)).trans ?_
  exact congrArg (fun g => (Finset.univ : Finset (Fin 512)).fold min (Ideal.ofBits .f32 acc) g)
    (funext fun q => congrArg src (lift_row h r q))

/-- The row maximum: the fold of `max` from the accumulator word's value over the row's 512 entries. -/
theorem rowMax_apply (src : FVec Ideal T512 .f32) (acc : BitVec 32) (h : T512.Reduces [1] V512) (hφ : FKind.Formats .f32)
    (hacc : acc = FKind.maximumf.neutral .f32 hφ) (hc : V512.ShapeCasts C512) (r : Fin 512) (u : Fin 1) :
    shapeCast C512 (multiReduction .maximumf [1] V512 src acc h hφ hacc) hc (ix2 r u)
      = (Finset.univ : Finset (Fin 512)).fold max (Ideal.ofBits .f32 acc) (fun q => src (ix2 r q)) := by
  refine (column_of_vector _ hc r u).trans ?_
  refine (multiReduction_maximumf_eq_fold src acc h hφ hacc (ix1 r)).trans ?_
  refine (h.fold_filter_drop_single FloatOps.maximumf _ src (ix1 r)).trans ?_
  exact congrArg (fun g => (Finset.univ : Finset (Fin 512)).fold max (Ideal.ofBits .f32 acc) g)
    (funext fun q => congrArg src (lift_row h r q))

/-- The row sum: the sum of the row's 512 entries. -/
theorem rowSum_apply (src : FVec Ideal T512 .f32) (acc : BitVec 32) (h : T512.Reduces [1] V512) (hφ : FKind.Formats .f32)
    (hacc : acc = FKind.add.neutral .f32 hφ) (hc : V512.ShapeCasts C512) (r : Fin 512) (u : Fin 1) :
    shapeCast C512 (multiReduction .add [1] V512 src acc h hφ hacc) hc (ix2 r u) = ∑ q : Fin 512, src (ix2 r q) := by
  refine (column_of_vector _ hc r u).trans ?_
  refine (Ideal.multiReduction_add_single src acc h hφ hacc (ix1 r)).trans ?_
  exact Finset.sum_congr rfl fun q _ => congrArg src (lift_row h r q)

/-- A column spread across the tile reads, at `(r, q)`, the column's entry at row `r`. -/
theorem spread_column {α : Type} (v : C512.Idx → α) (hb : C512.Broadcasts T512) (r q : Fin 512) :
    broadcastTo T512 v hb (ix2 r q) = v (ix2 r 0) := by
  refine broadcastTo_apply v hb (ix2 r q) (ix2 r 0) fun ax => ?_
  match ax with
  | ⟨0, _⟩ => rfl
  | ⟨1, _⟩ => rfl

/-- A one-row array spread down the tile reads, at `(r, q)`, the row's entry at lane `q`. -/
theorem spread_row {α : Type} (v : (⟨2, ![1, 512]⟩ : Shape).Idx → α) (hb : (⟨2, ![1, 512]⟩ : Shape).Broadcasts T512)
    (r q : Fin 512) : broadcastTo T512 v hb (ix2 r q) = v (ix2 0 q) :=
  broadcastTo_1b_ab_apply v hb r q

/-- Position `r` of block `k` of the 4096 rows, cut into 8 blocks of 512: row `k * 512 + r`. -/
def blk (k : Fin 8) (r : Fin 512) : Fin 4096 := ⟨k.val * 512 + r.val, by have := k.isLt; have := r.isLt; omega⟩

theorem blk_val (k : Fin 8) (r : Fin 512) : (blk k r).val = k.val * 512 + r.val := rfl

/-- The global row (or column) number `k * 512 + r` of position `r` in block `k`, as the kernel computes it in 32-bit words:
    nothing wraps at these sizes. -/
theorem word_of_block (k r : Nat) (hk : k < 8) (hr : r < 512) :
    IntOp.addi (Scalar.muli (BitVec.ofNat 32 k) 512#32) (BitVec.ofNat 32 r) = BitVec.ofNat 32 (k * 512 + r) := by
  show BitVec.ofNat 32 k * 512#32 + BitVec.ofNat 32 r = BitVec.ofNat 32 (k * 512 + r)
  apply BitVec.eq_of_toNat_eq
  simp only [BitVec.toNat_add, BitVec.toNat_mul, BitVec.toNat_ofNat]
  omega

end Cert.KVal

end
-- ==== Proof.KVal0.lean ====
/-
  The first kernel's values at one grid point, in the specification's terms.

  A grid point sees a row block (rows `k0 * 512 + r` of the embeddings and of the labels) and a column block (rows
  `k1 * 512 + q`). Entry `(r, q)` of its similarity tile is the specification's `sim` of those two rows; its label mask
  is `same`; its "not the same row" mask, computed by comparing the two row numbers as 32-bit words, is `offDiag`; so the
  tile masked for positives is `select (pos …) (sim …) (+∞)` and the tile masked for negatives `select (neg …) (sim …) (-∞)`.
  Reduced along the lanes these give, at row `r`, the minimum over the block's 512 columns of the first and the maximum
  of the second, and the two stores keep the minimum, respectively the maximum, of that and of what the accumulator held.
-/
import proofs.«115905_j90486370992708_1_alg».proof.Proof.Gen.KernelIdeal.Skeleton
import proofs.«115905_j90486370992708_1_alg».proof.Proof.Spec
import proofs.«115905_j90486370992708_1_alg».proof.Proof.SpecLaws
import proofs.«115905_j90486370992708_1_alg».proof.Proof.KValSim
import proofs.«115905_j90486370992708_1_alg».proof.Proof.KValRow

noncomputable section

namespace Cert.KVal

open Cert.KernelIdeal Cert.KernelIdeal.Gen Idealize.ShloMosaic Idealize.ShloMosaic.ValueIdx
open scoped BigOperators

/-- What the four input blocks of the grid point (row block `k0`, column block `k1`) hold: rows `k0 * 512 + r` of the
    embeddings and of the labels on the row side, rows `k1 * 512 + q` on the column side. -/
structure InBlocks (X : Spec.SX.Idx → EReal) (lab : Spec.SLab.Idx → BitVec 32) (k0 k1 : Fin 8)
    (x0 x1 : Vec Ideal S512x1024 .f32) (x2 : Vec Ideal S512x1 .i32) (x3 : Vec Ideal S1x512 .i32) : Prop where
  row : ∀ (r : Fin 512) (d : Fin 1024), x0 (ix2 r d) = X (ix2 (blk k0 r) d)
  col : ∀ (q : Fin 512) (d : Fin 1024), x1 (ix2 q d) = X (ix2 (blk k1 q) d)
  rowLab : ∀ r : Fin 512, x2 (ix2 r 0) = lab (ix1 (blk k0 r))
  colLab : ∀ q : Fin 512, x3 (ix2 0 q) = lab (ix1 (blk k1 q))

section Tile
variable {X : Spec.SX.Idx → EReal} {lab : Spec.SLab.Idx → BitVec 32} {k0 k1 : Fin 8}
  {x0 x1 : Vec Ideal S512x1024 .f32} {x2 : Vec Ideal S512x1 .i32} {x3 : Vec Ideal S1x512 .i32}

/-- The similarity tile holds the similarities of the block's rows with the block's columns. -/
theorem sim_tile (hB : InBlocks X lab k0 k1 x0 x1 x2 x3) (r q : Fin 512) :
    k0_pay5 (F := Ideal) x0 x1 (ix2 r q) = Spec.sim X (blk k0 r) (blk k1 q) := by
  refine (k0_pay5_apply x0 x1 r q).trans ?_
  unfold Spec.sim
  exact Finset.sum_congr rfl fun d _ => congrArg₂ (· * ·) (hB.row r d) (hB.col q d)

/-- The label mask: the row's label against the column's. -/
theorem same_tile (hB : InBlocks X lab k0 k1 x0 x1 x2 x3) (r q : Fin 512) :
    k0_pay6 (F := Ideal) x2 x3 (ix2 r q) = Spec.same lab (blk k0 r) (blk k1 q) := by
  unfold k0_pay6 Spec.same
  refine congrArg₂ (IntOp.cmpi .eq) ?_ ?_
  · refine (spread_column _ _ r q).trans ?_
    exact (congrFun (shapeCast_self x2 _) _).trans (hB.rowLab r)
  · refine (spread_row _ _ r q).trans ?_
    exact (congrFun (shapeCast_self x3 _) _).trans (hB.colLab q)

/-- The "another row" mask: the kernel adds the block's base `a * 512` to the position inside the block, on both sides,
    compares the two 32-bit numbers and complements the bit. -/
theorem offDiag_tile (a0 a1 : ℕ) (h0 : a0 = k0.val) (h1 : a1 = k1.val) (hi0 : S512x512.Iotas .tc 32 [0])
    (hi1 : S512x512.Iotas .tc 32 [1]) (r q : Fin 512) :
    IntOp.xori (IntOp.cmpi .eq
        (IntOp.addi (Scalar.muli (BitVec.ofNat 32 a0) 512#32) (iota .tc S512x512 32 [0] hi0 (ix2 r q)))
        (IntOp.addi (Scalar.muli (BitVec.ofNat 32 a1) 512#32) (iota .tc S512x512 32 [1] hi1 (ix2 r q)))) 1#1
      = Spec.offDiag (blk k0 r) (blk k1 q) := by
  subst h0 h1
  rw [iota_single_apply, iota_single_apply]
  show IntOp.xori (IntOp.cmpi .eq
      (IntOp.addi (Scalar.muli (BitVec.ofNat 32 k0.val) 512#32) (BitVec.ofNat 32 r.val))
      (IntOp.addi (Scalar.muli (BitVec.ofNat 32 k1.val) 512#32) (BitVec.ofNat 32 q.val))) 1#1 = _
  rw [word_of_block _ _ k0.isLt r.isLt, word_of_block _ _ k1.isLt q.isLt, Spec.xori_one]
  exact Spec.offDiag_eq (blk k0 r) (blk k1 q)

/-- The positives' mask: same label, another row, similarity below the near-duplicate threshold. -/
theorem pos_tile (hB : InBlocks X lab k0 k1 x0 x1 x2 x3) (a0 a1 : ℕ) (h0 : a0 = k0.val) (h1 : a1 = k1.val)
    (hi0 : S512x512.Iotas .tc 32 [0]) (hi1 : S512x512.Iotas .tc 32 [1]) (r q : Fin 512) :
    IntOp.andi
        (IntOp.andi (k0_pay6 (F := Ideal) x2 x3 (ix2 r q))
          (IntOp.xori (IntOp.cmpi .eq
            (IntOp.addi (Scalar.muli (BitVec.ofNat 32 a0) 512#32) (iota .tc S512x512 32 [0] hi0 (ix2 r q)))
            (IntOp.addi (Scalar.muli (BitVec.ofNat 32 a1) 512#32) (iota .tc S512x512 32 [1] hi1 (ix2 r q)))) 1#1))
        (FloatOps.cmpf .olt (k0_pay5 (F := Ideal) x0 x1 (ix2 r q)) (Scalar.ofBits (F := Ideal) .f32 0x3F7FFF58#32))
      = Spec.pos X lab (blk k0 r) (blk k1 q) := by
  rw [same_tile hB, offDiag_tile a0 a1 h0 h1, sim_tile hB]
  rfl

/-- The tile masked for positives, reduced along the lanes: at row `r` the minimum, from `+∞`, over the block's 512
    columns of the similarity where the column is a positive of the row and of `+∞` where it is not. -/
theorem k0_pay8_apply (hB : InBlocks X lab k0 k1 x0 x1 x2 x3) (i : grid0.Coords) (hk0 : (i 0).val = k0.val)
    (hk1 : (i 1).val = k1.val) (r : Fin 512) (u : Fin 1) :
    k0_pay8 (F := Ideal) i x0 x1 x2 x3 (ix2 r u)
      = (Finset.univ : Finset (Fin 512)).fold min (Ideal.ofBits .f32 0x7F800000#32) (fun q =>
          Scalar.select (Spec.pos X lab (blk k0 r) (blk k1 q)) (Spec.sim X (blk k0 r) (blk k1 q))
            (Ideal.ofBits .f32 0x7F800000#32)) := by
  unfold k0_pay8
  refine (rowMin_apply _ _ _ _ _ _ r u).trans ?_
  refine congrArg (fun g => (Finset.univ : Finset (Fin 512)).fold min (Ideal.ofBits .f32 0x7F800000#32) g)
    (funext fun q => ?_)
  exact congrArg₂ (fun c a => Scalar.select c a (Ideal.ofBits .f32 0x7F800000#32))
    (pos_tile hB _ _ hk0 hk1 _ _ r q) (sim_tile hB r q)

/-- The tile masked for negatives: the similarity where the labels differ, `-∞` elsewhere. -/
theorem k0_pay7_apply (hB : InBlocks X lab k0 k1 x0 x1 x2 x3) (r q : Fin 512) :
    k0_pay7 (F := Ideal) x0 x1 x2 x3 (ix2 r q)
      = Scalar.select (Spec.neg lab (blk k0 r) (blk k1 q)) (Spec.sim X (blk k0 r) (blk k1 q))
          (Ideal.ofBits .f32 0xFF800000#32) := by
  unfold k0_pay7
  refine congrArg₂ (fun c a => Scalar.select c a (Ideal.ofBits .f32 0xFF800000#32)) ?_ (sim_tile hB r q)
  show IntOp.xori (k0_pay6 (F := Ideal) x2 x3 (ix2 r q)) 1#1 = _
  rw [same_tile hB, Spec.xori_one]
  rfl

end Tile

/-- The maximum's store: the larger of what the accumulator held and the row maximum, from `-∞`, of the tile. -/
theorem k0_pay2_apply (t : FVec Ideal S512x512 .f32) (acc : Vec Ideal S512x1 .f32) (r : Fin 512) (u : Fin 1) :
    k0_pay2 (F := Ideal) t acc (ix2 r u)
      = max (acc (ix2 r u))
          ((Finset.univ : Finset (Fin 512)).fold max (Ideal.ofBits .f32 0xFF800000#32) fun q => t (ix2 r q)) := by
  unfold k0_pay2
  refine (congrFun (shapeCast_self _ _) _).trans ?_
  exact congrArg (max (acc (ix2 r u))) (rowMax_apply t _ _ _ _ _ r u)

/-- The minimum's store: the smaller of what the accumulator held and the new column. -/
theorem k0_pay1_apply (c : FVec Ideal S512x1 .f32) (acc : Vec Ideal S512x1 .f32) (r : Fin 512) (u : Fin 1) :
    k0_pay1 (F := Ideal) c acc (ix2 r u) = min (acc (ix2 r u)) (c (ix2 r u)) := by
  unfold k0_pay1
  exact (congrFun (shapeCast_self _ _) _).trans rfl

/-- The minimum's accumulator starts at `+∞`. -/
theorem k0_pay3_apply (r : Fin 512) (u : Fin 1) :
    k0_pay3 (F := Ideal) (ix2 r u) = Ideal.ofBits .f32 0x7F800000#32 := by
  unfold k0_pay3
  exact (congrFun (shapeCast_self _ _) _).trans rfl

/-- The maximum's accumulator starts at `-∞`. -/
theorem k0_pay4_apply (r : Fin 512) (u : Fin 1) :
    k0_pay4 (F := Ideal) (ix2 r u) = Ideal.ofBits .f32 0xFF800000#32 := by
  unfold k0_pay4
  exact (congrFun (shapeCast_self _ _) _).trans rfl

end Cert.KVal

end
-- ==== Proof.LibBlock.lean ====
/-
  Minima, maxima and sums over `a * b` indices, read block by block.

  The indices below `a * b` are cut into `a` consecutive blocks of length `b`: index `k * b + q` is position `q` of
  block `k` (`col k q`), and every index is of that form. `pre a b k` is the set of the indices that lie in the blocks
  before block `k`: it is empty at `k = 0`, it is every index at `k = a`, and passing from `k` to `k + 1` adds exactly
  block `k`, which is disjoint from it.

  Meet, join and addition are associative and commutative, so a fold over `pre a b (k + 1)` is the fold over `pre a b k`
  combined with the fold over block `k`. Hence an accumulator that starts at the neutral element (`⊤` for a minimum, `⊥`
  for a maximum, `0` for a sum) and absorbs one block's fold per step holds, after `k` steps, the fold over the first
  `k * b` indices, and after `a` steps the fold over all of them. A running maximum started at a value `z` instead of
  `⊥` is `z ⊔` that fold, and it exceeds `z` exactly when some term does.
-/
import Mathlib.Data.Finset.Lattice.Fold
import Mathlib.Algebra.BigOperators.Fin

open scoped BigOperators

namespace Cert.LibBlock

variable {a b : ℕ}

/-! ## Blocks and prefixes -/

/-- Position `q` of block `k`, among `a` blocks of length `b`, is an index below `a * b`. -/
theorem col_lt (k : Fin a) (q : Fin b) : k.val * b + q.val < a * b := by
  have hk : k.val + 1 ≤ a := k.isLt
  have hq : q.val < b := q.isLt
  calc k.val * b + q.val < k.val * b + b := Nat.add_lt_add_left hq _
    _ = (k.val + 1) * b := (Nat.succ_mul _ _).symm
    _ ≤ a * b := Nat.mul_le_mul_right b hk

/-- Position `q` of block `k`: the index `k * b + q`. -/
def col (k : Fin a) (q : Fin b) : Fin (a * b) := ⟨k.val * b + q.val, col_lt k q⟩

theorem col_val (k : Fin a) (q : Fin b) : (col k q).val = k.val * b + q.val := rfl

/-- Inside one block, different positions are different indices. -/
theorem col_injective (k : Fin a) : Function.Injective (col (b := b) k) := fun q q' h => by
  have hv : k.val * b + q.val = k.val * b + q'.val := congrArg Fin.val h
  exact Fin.ext (Nat.add_left_cancel hv)

/-- Every index below `a * b` is a position of a block: block `j / b`, position `j % b`. -/
theorem exists_col (j : Fin (a * b)) : ∃ (k : Fin a) (q : Fin b), j = col k q := by
  have hj : j.val < a * b := j.isLt
  have hb : 0 < b := by
    rcases Nat.eq_zero_or_pos b with h | h
    · have h0 : a * b = 0 := by rw [h, Nat.mul_zero]
      omega
    · exact h
  have hk : j.val / b < a := Nat.div_lt_of_lt_mul (by have := Nat.mul_comm a b; omega)
  exact ⟨⟨j.val / b, hk⟩, ⟨j.val % b, Nat.mod_lt _ hb⟩, Fin.ext (Nat.div_add_mod' j.val b).symm⟩

/-- The indices that lie in the blocks before block `k`: those below `k * b`. -/
def pre (a b k : ℕ) : Finset (Fin (a * b)) := Finset.univ.filter fun j => j.val < k * b

theorem mem_pre {k : ℕ} {j : Fin (a * b)} : j ∈ pre a b k ↔ j.val < k * b := by
  unfold pre; rw [Finset.mem_filter]; exact ⟨fun h => h.2, fun h => ⟨Finset.mem_univ _, h⟩⟩

/-- Before the first block there is nothing. -/
theorem pre_zero : pre a b 0 = ∅ := by
  ext j
  rw [mem_pre, Nat.zero_mul]
  exact ⟨fun h => absurd h (Nat.not_lt_zero _), fun h => absurd h (Finset.notMem_empty j)⟩

/-- Before block `a`, which is past the last one, there is everything. -/
theorem pre_full : pre a b a = Finset.univ := by
  ext j
  rw [mem_pre]
  exact ⟨fun _ => Finset.mem_univ _, fun _ => j.isLt⟩

/-- One step adds exactly block `k`. -/
theorem pre_succ (k : Fin a) : pre a b (k.val + 1) = pre a b k.val ∪ Finset.univ.image (col (b := b) k) := by
  ext j
  rw [Finset.mem_union, mem_pre, mem_pre, Finset.mem_image, Nat.succ_mul]
  constructor
  · intro h
    by_cases hj : j.val < k.val * b
    · exact Or.inl hj
    · refine Or.inr ⟨⟨j.val - k.val * b, by omega⟩, Finset.mem_univ _, Fin.ext ?_⟩
      show k.val * b + (j.val - k.val * b) = j.val
      omega
  · rintro (h | ⟨q, _, rfl⟩)
    · omega
    · show k.val * b + q.val < k.val * b + b
      have := q.isLt
      omega

/-- Block `k` is disjoint from the blocks before it. -/
theorem pre_disjoint (k : Fin a) : Disjoint (pre a b k.val) (Finset.univ.image (col (b := b) k)) := by
  rw [Finset.disjoint_left]
  intro j hj hj'
  rw [mem_pre] at hj
  rw [Finset.mem_image] at hj'
  obtain ⟨q, _, rfl⟩ := hj'
  rw [col_val] at hj
  omega

/-! ## A minimum, block by block -/

section Inf
variable {α : Type*} [SemilatticeInf α] [OrderTop α]

theorem inf_pre_zero (f : Fin (a * b) → α) : (pre a b 0).inf f = ⊤ := by
  rw [pre_zero, Finset.inf_empty]

/-- The minimum over the first `k + 1` blocks is the minimum over the first `k` meet the minimum over block `k`. -/
theorem inf_pre_succ (f : Fin (a * b) → α) (k : Fin a) :
    (pre a b (k.val + 1)).inf f = (pre a b k.val).inf f ⊓ Finset.univ.inf fun q : Fin b => f (col k q) := by
  rw [pre_succ, Finset.inf_union, Finset.inf_image]
  rfl

theorem inf_pre_full (f : Fin (a * b) → α) : (pre a b a).inf f = Finset.univ.inf f := by
  rw [pre_full]

/-- The minimum over all `a * b` indices is the minimum over the blocks of the minima inside each block. -/
theorem inf_blocks (f : Fin (a * b) → α) :
    Finset.univ.inf f = Finset.univ.inf fun k : Fin a => Finset.univ.inf fun q : Fin b => f (col k q) := by
  refine le_antisymm (Finset.le_inf fun k _ => Finset.le_inf fun q _ => Finset.inf_le (Finset.mem_univ _))
    (Finset.le_inf fun j _ => ?_)
  obtain ⟨k, q, rfl⟩ := exists_col j
  exact (Finset.inf_le (Finset.mem_univ k)).trans (Finset.inf_le (Finset.mem_univ q))

end Inf

/-! ## A maximum, block by block -/

section Sup
variable {α : Type*} [SemilatticeSup α] [OrderBot α]

theorem sup_pre_zero (f : Fin (a * b) → α) : (pre a b 0).sup f = ⊥ := by
  rw [pre_zero, Finset.sup_empty]

/-- The maximum over the first `k + 1` blocks is the maximum over the first `k` join the maximum over block `k`. -/
theorem sup_pre_succ (f : Fin (a * b) → α) (k : Fin a) :
    (pre a b (k.val + 1)).sup f = (pre a b k.val).sup f ⊔ Finset.univ.sup fun q : Fin b => f (col k q) := by
  rw [pre_succ, Finset.sup_union, Finset.sup_image]
  rfl

theorem sup_pre_full (f : Fin (a * b) → α) : (pre a b a).sup f = Finset.univ.sup f := by
  rw [pre_full]

/-- The maximum over all `a * b` indices is the maximum over the blocks of the maxima inside each block. -/
theorem sup_blocks (f : Fin (a * b) → α) :
    Finset.univ.sup f = Finset.univ.sup fun k : Fin a => Finset.univ.sup fun q : Fin b => f (col k q) := by
  refine le_antisymm (Finset.sup_le fun j _ => ?_)
    (Finset.sup_le fun k _ => Finset.sup_le fun q _ => Finset.le_sup (Finset.mem_univ _))
  obtain ⟨k, q, rfl⟩ := exists_col j
  exact (Finset.le_sup (f := fun q : Fin b => f (col k q)) (Finset.mem_univ q)).trans
    (Finset.le_sup (f := fun k : Fin a => Finset.univ.sup fun q : Fin b => f (col k q)) (Finset.mem_univ k))

/-- A running maximum started at `z`: absorbing block `k` into `z ⊔` (the maximum over the first `k` blocks) gives
    `z ⊔` (the maximum over the first `k + 1` blocks). -/
theorem sup_acc_succ (z : α) (f : Fin (a * b) → α) (k : Fin a) :
    (z ⊔ (pre a b k.val).sup f) ⊔ (Finset.univ.sup fun q : Fin b => f (col k q)) = z ⊔ (pre a b (k.val + 1)).sup f := by
  rw [sup_pre_succ, sup_assoc]

end Sup

/-! ## A sum, block by block -/

section Sum
variable {M : Type*} [AddCommMonoid M]

theorem sum_pre_zero (f : Fin (a * b) → M) : ∑ j ∈ pre a b 0, f j = 0 := by
  rw [pre_zero, Finset.sum_empty]

/-- The sum over the first `k + 1` blocks is the sum over the first `k` plus the sum over block `k`. -/
theorem sum_pre_succ (f : Fin (a * b) → M) (k : Fin a) :
    ∑ j ∈ pre a b (k.val + 1), f j = ∑ j ∈ pre a b k.val, f j + ∑ q : Fin b, f (col k q) := by
  rw [pre_succ, Finset.sum_union (pre_disjoint k), Finset.sum_image fun q _ q' _ h => col_injective k h]

theorem sum_pre_full (f : Fin (a * b) → M) : ∑ j ∈ pre a b a, f j = ∑ j, f j := by
  rw [pre_full]

end Sum

/-! ## A fold of any commutative, associative operation, block by block

The accumulator may start at a value `z` other than the value `w` each block's own fold starts at, as long as `z` absorbs
`w` (`op z w = z`): a minimum kept from `+∞` with block minima taken from `+∞` (`min` is idempotent), a maximum kept from
`0` with block maxima taken from `-∞`. -/

section Fold
variable {α : Type*} (op : α → α → α) [Std.Commutative op] [Std.Associative op]

theorem fold_pre_zero (z : α) (f : Fin (a * b) → α) : (pre a b 0).fold op z f = z := by
  rw [pre_zero, Finset.fold_empty]

/-- The fold from `z` over the first `k + 1` blocks is the fold from `z` over the first `k` combined with the fold from
    `w` over block `k`, when `z` absorbs `w`. -/
theorem fold_pre_succ {z w : α} (hzw : op z w = z) (f : Fin (a * b) → α) (k : Fin a) :
    (pre a b (k.val + 1)).fold op z f
      = op ((pre a b k.val).fold op z f) (Finset.univ.fold op w fun q : Fin b => f (col k q)) := by
  calc (pre a b (k.val + 1)).fold op z f
      = ((pre a b k.val).disjUnion (Finset.univ.image (col (b := b) k)) (pre_disjoint k)).fold op (op z w) f := by
        rw [hzw, Finset.disjUnion_eq_union, pre_succ]
    _ = op ((pre a b k.val).fold op z f) ((Finset.univ.image (col (b := b) k)).fold op w f) :=
        Finset.fold_disjUnion _
    _ = op ((pre a b k.val).fold op z f) (Finset.univ.fold op w fun q : Fin b => f (col k q)) := by
        rw [Finset.fold_image fun q _ q' _ e => col_injective k e]
        rfl

theorem fold_pre_full (z : α) (f : Fin (a * b) → α) : (pre a b a).fold op z f = Finset.univ.fold op z f := by
  rw [pre_full]

end Fold

/-! ## "Some term is positive", read off a running maximum -/

section Any
variable {α : Type*} [LinearOrder α] [OrderBot α] {ι : Type*}

/-- A maximum started at `z` exceeds `z` exactly when one of its terms does. -/
theorem lt_sup_sup_iff (s : Finset ι) (m : ι → α) (z : α) : z < z ⊔ s.sup m ↔ ∃ j ∈ s, z < m j := by
  rw [lt_sup_iff, Finset.lt_sup_iff]
  exact ⟨fun h => h.resolve_left (lt_irrefl z), Or.inr⟩

/-- Over every index: `z < z ⊔ (maximum of all terms)` exactly when some term exceeds `z`. -/
theorem lt_sup_univ_iff [Fintype ι] (m : ι → α) (z : α) : z < z ⊔ Finset.univ.sup m ↔ ∃ j, z < m j := by
  rw [lt_sup_sup_iff]
  exact ⟨fun ⟨j, _, h⟩ => ⟨j, h⟩, fun ⟨j, h⟩ => ⟨j, Finset.mem_univ _, h⟩⟩

end Any

end Cert.LibBlock
-- ==== Proof.KVal0Final.lean ====
/-
  The first kernel's two accumulators after a row of grid points.

  For a fixed row block `i0` the kernel visits the eight column blocks in order. The first accumulator starts at `+∞` and
  each grid point replaces it by its minimum with the block's row minima of the similarities masked for positives; the
  second starts at `-∞` and takes maxima of the similarities masked for negatives. `min` and `max` are associative,
  commutative and idempotent, so after column block `k` the accumulators hold, at row `r`, the minimum (maximum) over the
  columns of the first `k + 1` blocks, and after the last block the specification's `minPos` and `maxNeg` of row
  `i0 * 512 + r`, which fold the same candidates over all 4096 columns.
-/
import proofs.«115905_j90486370992708_1_alg».proof.Proof.KVal0
import proofs.«115905_j90486370992708_1_alg».proof.Proof.LibBlock

noncomputable section

namespace Cert.KVal

open Cert.KernelIdeal Cert.KernelIdeal.Gen Idealize.ShloMosaic Idealize.ShloMosaic.ValueIdx Cert.LibBlock
open scoped BigOperators

/-- One grid point's update of the pair (running minimum over positives, running maximum over negatives). -/
def update0 (i : grid0.Coords) (x0 x1 : Vec Ideal S512x1024 .f32) (x2 : Vec Ideal S512x1 .i32)
    (x3 : Vec Ideal S1x512 .i32) (s : Vec Ideal S512x1 .f32 × Vec Ideal S512x1 .f32) :
    Vec Ideal S512x1 .f32 × Vec Ideal S512x1 .f32 :=
  (k0_pay1 (k0_pay8 i x0 x1 x2 x3) s.1, k0_pay2 (k0_pay7 x0 x1 x2 x3) s.2)

/-- Column `j`'s candidate for row `R`'s minimum over positives: its similarity if it is a positive, else `+∞`. -/
def posCand (X : Spec.SX.Idx → EReal) (lab : Spec.SLab.Idx → BitVec 32) (R j : Fin 4096) : EReal :=
  Scalar.select (Spec.pos X lab R j) (Spec.sim X R j) (Ideal.ofBits .f32 0x7F800000#32)

/-- Column `j`'s candidate for row `R`'s maximum over negatives: its similarity if it is a negative, else `-∞`. -/
def negCand (X : Spec.SX.Idx → EReal) (lab : Spec.SLab.Idx → BitVec 32) (R j : Fin 4096) : EReal :=
  Scalar.select (Spec.neg lab R j) (Spec.sim X R j) (Ideal.ofBits .f32 0xFF800000#32)

theorem minPos_eq (X : Spec.SX.Idx → EReal) (lab : Spec.SLab.Idx → BitVec 32) (R : Fin 4096) :
    Spec.minPos X lab R
      = (Finset.univ : Finset (Fin 4096)).fold min (Ideal.ofBits .f32 0x7F800000#32) (posCand X lab R) := rfl

theorem maxNeg_eq (X : Spec.SX.Idx → EReal) (lab : Spec.SLab.Idx → BitVec 32) (R : Fin 4096) :
    Spec.maxNeg X lab R
      = (Finset.univ : Finset (Fin 4096)).fold max (Ideal.ofBits .f32 0xFF800000#32) (negCand X lab R) := rfl

section Step
variable {X : Spec.SX.Idx → EReal} {lab : Spec.SLab.Idx → BitVec 32} {k0 : Fin 8}
  {x0 x1 : Vec Ideal S512x1024 .f32} {x2 : Vec Ideal S512x1 .i32} {x3 : Vec Ideal S1x512 .i32}

/-- If the running minimum held, at row `r`, the minimum over the columns before block `k`, the grid point of column
    block `k` leaves there the minimum over the columns before block `k + 1`. -/
theorem update0_fst (k : ℕ) (hk : k < 8) (hB : InBlocks X lab k0 ⟨k, hk⟩ x0 x1 x2 x3) (i : grid0.Coords)
    (hk0 : (i 0).val = k0.val) (hk1 : (i 1).val = k) (s : Vec Ideal S512x1 .f32 × Vec Ideal S512x1 .f32) (r : Fin 512)
    (hs : s.1 (ix2 r 0)
      = (pre 8 512 k).fold min (Ideal.ofBits .f32 0x7F800000#32) (posCand X lab (blk k0 r))) :
    (update0 i x0 x1 x2 x3 s).1 (ix2 r 0)
      = (pre 8 512 (k + 1)).fold min (Ideal.ofBits .f32 0x7F800000#32) (posCand X lab (blk k0 r)) := by
  show k0_pay1 (F := Ideal) (k0_pay8 i x0 x1 x2 x3) s.1 (ix2 r 0) = _
  rw [k0_pay1_apply, hs, k0_pay8_apply hB i hk0 hk1]
  exact (fold_pre_succ (a := 8) (b := 512) min (min_self _) (posCand X lab (blk k0 r)) ⟨k, hk⟩).symm

/-- The same for the running maximum over negatives. -/
theorem update0_snd (k : ℕ) (hk : k < 8) (hB : InBlocks X lab k0 ⟨k, hk⟩ x0 x1 x2 x3) (i : grid0.Coords)
    (s : Vec Ideal S512x1 .f32 × Vec Ideal S512x1 .f32) (r : Fin 512)
    (hs : s.2 (ix2 r 0)
      = (pre 8 512 k).fold max (Ideal.ofBits .f32 0xFF800000#32) (negCand X lab (blk k0 r))) :
    (update0 i x0 x1 x2 x3 s).2 (ix2 r 0)
      = (pre 8 512 (k + 1)).fold max (Ideal.ofBits .f32 0xFF800000#32) (negCand X lab (blk k0 r)) := by
  show k0_pay2 (F := Ideal) (k0_pay7 x0 x1 x2 x3) s.2 (ix2 r 0) = _
  rw [k0_pay2_apply, hs]
  refine Eq.trans ?_ (fold_pre_succ (a := 8) (b := 512) max (max_self _) (negCand X lab (blk k0 r)) ⟨k, hk⟩).symm
  exact congrArg (max _) (congrArg (fun g => (Finset.univ : Finset (Fin 512)).fold max _ g)
    (funext fun q => k0_pay7_apply hB r q))

end Step

/-- After the eight column blocks of row block `i0` the two accumulators hold, at row `r`, the specification's `minPos`
    and `maxNeg` of row `i0 * 512 + r`. `acc k` is the pair after column block `k`; the blocks a grid point sees are
    described by `InBlocks`. -/
theorem minmax_final (X : Spec.SX.Idx → EReal) (lab : Spec.SLab.Idx → BitVec 32) (i0 : Fin 8)
    (coords : Fin 8 → grid0.Coords) (hc0 : ∀ k, (coords k 0).val = i0.val) (hc1 : ∀ k, (coords k 1).val = k.val)
    (xrow xcol : Fin 8 → Vec Ideal S512x1024 .f32) (lrow : Fin 8 → Vec Ideal S512x1 .i32)
    (lcol : Fin 8 → Vec Ideal S1x512 .i32)
    (hB : ∀ k, InBlocks X lab i0 k (xrow k) (xcol k) (lrow k) (lcol k))
    (acc : Fin 8 → Vec Ideal S512x1 .f32 × Vec Ideal S512x1 .f32)
    (h0 : acc 0 = update0 (coords 0) (xrow 0) (xcol 0) (lrow 0) (lcol 0) (k0_pay3 (F := Ideal), k0_pay4 (F := Ideal)))
    (hs : ∀ (k : ℕ) (hk : k + 1 < 8), acc ⟨k + 1, hk⟩
      = update0 (coords ⟨k + 1, hk⟩) (xrow ⟨k + 1, hk⟩) (xcol ⟨k + 1, hk⟩) (lrow ⟨k + 1, hk⟩) (lcol ⟨k + 1, hk⟩)
          (acc ⟨k, Nat.lt_of_succ_lt hk⟩))
    (r : Fin 512) :
    (acc 7).1 (ix2 r 0) = Spec.minPos X lab (blk i0 r) ∧ (acc 7).2 (ix2 r 0) = Spec.maxNeg X lab (blk i0 r) := by
  have inv : ∀ (k : ℕ) (hk : k < 8),
      (acc ⟨k, hk⟩).1 (ix2 r 0)
          = (pre 8 512 (k + 1)).fold min (Ideal.ofBits .f32 0x7F800000#32) (posCand X lab (blk i0 r))
        ∧ (acc ⟨k, hk⟩).2 (ix2 r 0)
          = (pre 8 512 (k + 1)).fold max (Ideal.ofBits .f32 0xFF800000#32) (negCand X lab (blk i0 r)) := by
    intro k
    induction k with
    | zero =>
      intro hk
      have e : acc ⟨0, hk⟩ = update0 (coords 0) (xrow 0) (xcol 0) (lrow 0) (lcol 0)
          (k0_pay3 (F := Ideal), k0_pay4 (F := Ideal)) := h0
      rw [e]
      refine ⟨update0_fst 0 hk (hB 0) _ (hc0 0) (hc1 0) _ r ?_, update0_snd 0 hk (hB 0) _ _ r ?_⟩
      · show k0_pay3 (F := Ideal) (ix2 r 0) = _
        rw [fold_pre_zero (a := 8) (b := 512)]
        exact k0_pay3_apply r 0
      · show k0_pay4 (F := Ideal) (ix2 r 0) = _
        rw [fold_pre_zero (a := 8) (b := 512)]
        exact k0_pay4_apply r 0
    | succ k ih =>
      intro hk
      obtain ⟨ih1, ih2⟩ := ih (Nat.lt_of_succ_lt hk)
      rw [hs k hk]
      exact ⟨update0_fst (k + 1) hk (hB ⟨k + 1, hk⟩) _ (hc0 _) (hc1 _) _ r ih1,
        update0_snd (k + 1) hk (hB ⟨k + 1, hk⟩) _ _ r ih2⟩
  obtain ⟨h1, h2⟩ := inv 7 (by omega)
  exact ⟨h1.trans ((fold_pre_full (a := 8) (b := 512) min _ _).trans (minPos_eq X lab (blk i0 r)).symm),
    h2.trans ((fold_pre_full (a := 8) (b := 512) max _ _).trans (maxNeg_eq X lab (blk i0 r)).symm)⟩

end Cert.KVal

end
-- ==== Proof.KI.ValueSpec0.lean ====
import proofs.«115905_j90486370992708_1_alg».proof.Proof.KI.FrameData
import proofs.«115905_j90486370992708_1_alg».proof.Proof.KI.R0Final
import proofs.«115905_j90486370992708_1_alg».proof.Proof.KI.HostSide
import proofs.«115905_j90486370992708_1_alg».proof.Proof.KVal0Final

noncomputable section

namespace Cert.KernelIdeal.MinMaxSpec

open Cert.KernelIdeal Cert.KernelIdeal.Gen Cert.KernelIdeal.MinMax Cert.KernelIdeal.Hand
open Idealize.ShloMosaic Idealize.ShloMosaic.TcCoe Idealize.SL.Sem Idealize.ShloMosaic.ValueIdx

/-! # The first kernel's two output arrays, on the extended reals

Row `512 i + r` of the first output is the least similarity over the row's positives, of the second the greatest over
its negatives: for each row block the eight grid points fold the eight column blocks of candidates, and the minimum and
maximum over all 4096 columns regroup into those eight blocks. -/

variable (m : (ℓ : Loc nD τ sig) → Buf (Elt Ideal) ℓ)

/-- The embeddings and the labels on core `c`. -/
abbrev X (c : Dev nD) : Cert.Spec.SX.Idx → EReal := m ((c : Thread nD τ).loc main_arg0)
abbrev lab (c : Dev nD) : Cert.Spec.SLab.Idx → BitVec 32 := m ((c : Thread nD τ).loc main_arg2)

theorem blk_div (i0 k : Fin 8) (r : Fin 512) : blk ((pt i0 k).val / 8) (div_lt (pt i0 k)) r = Cert.KVal.blk i0 r :=
  Fin.ext (by show (pt i0 k).val / 8 * 512 + r.val = i0.val * 512 + r.val; rw [pt_div])
theorem blk_mod (i0 k : Fin 8) (q : Fin 512) : blk ((pt i0 k).val % 8) (mod_lt (pt i0 k)) q = Cert.KVal.blk k q :=
  Fin.ext (by show (pt i0 k).val % 8 * 512 + q.val = k.val * 512 + q.val; rw [pt_mod])

/-- What the four input blocks of the point at row block `i0`, column block `k` hold. -/
theorem inBlocks (c : Dev nD) (i0 k : Fin 8) :
    Cert.KVal.InBlocks (X m c) (lab m c) i0 k (iblk (E1 m) c 0 (pt i0 k)) (iblk (E1 m) c 1 (pt i0 k))
      (iblk (E1 m) c 2 (pt i0 k)) (iblk (E1 m) c 3 (pt i0 k)) where
  row r d := by
    rw [iblk0_apply, blk_div]
    exact congrFun (HostSide.V1_arg0 m c) _
  col q d := by
    rw [iblk1_apply, blk_mod]
    exact congrFun (HostSide.V1_arg0 m c) _
  rowLab r := by
    rw [iblk2_apply, blk_div]
    exact HostSide.V1_v0_apply m c _
  colLab q := by
    rw [iblk3_apply, blk_mod]
    exact HostSide.V1_v1_apply m c _

/-- At column block 7 of row block `i0` the two output blocks hold the row's least similarity over positives and
    greatest over negatives. -/
theorem rows (c : Dev nD) (i0 : Fin 8) (r : Fin 512) :
    (accSeq (E1 m) c i0 7).1 (ix2 r 0) = Cert.Spec.minPos (X m c) (lab m c) (Cert.KVal.blk i0 r)
      ∧ (accSeq (E1 m) c i0 7).2 (ix2 r 0) = Cert.Spec.maxNeg (X m c) (lab m c) (Cert.KVal.blk i0 r) :=
  Cert.KVal.minmax_final (X m c) (lab m c) i0 (fun k => grid0.coords (pt i0 k))
    (fun k => (coords_val (pt i0 k)).1.trans (pt_div i0 k)) (fun k => (coords_val (pt i0 k)).2.trans (pt_mod i0 k))
    (fun k => iblk (E1 m) c 0 (pt i0 k)) (fun k => iblk (E1 m) c 1 (pt i0 k))
    (fun k => iblk (E1 m) c 2 (pt i0 k)) (fun k => iblk (E1 m) c 3 (pt i0 k))
    (fun k => inBlocks m c i0 k) (accSeq (E1 m) c i0) (accSeq_zero (E1 m) c i0)
    (fun k hk => accSeq_succ (E1 m) c i0 ⟨k, by omega⟩) r

/-- A point at column block 7 is the last point of its row block. -/
theorem pt_last (t : Fin cfg0.N) (h7 : t.val % 8 = 7) : t = pt ⟨t.val / 8, div_lt t⟩ 7 :=
  Fin.ext (by show t.val = 8 * (t.val / 8) + 7; omega)

theorem out_rows (c : Dev nD) (t : Fin cfg0.N) (h7 : t.val % 8 = 7) (r : Fin 512) :
    (outsAt (E1 m) c t.val t.isLt).1.1 (ix2 r 0) = Cert.Spec.minPos (X m c) (lab m c) (blk (t.val / 8) (div_lt t) r)
      ∧ (outsAt (E1 m) c t.val t.isLt).1.2 (ix2 r 0) = Cert.Spec.maxNeg (X m c) (lab m c) (blk (t.val / 8) (div_lt t) r) := by
  rw [outsAt_out (E1 m) c t h7]
  have e : (outsAt (E1 m) c t.val t.isLt).2 = accSeq (E1 m) c ⟨t.val / 8, div_lt t⟩ 7 :=
    congrArg Prod.snd (outsAt_congr (E1 m) c (congrArg Fin.val (pt_last t h7)) t.isLt _)
  rw [e]
  exact rows m c ⟨t.val / 8, div_lt t⟩ r

/-- THE FIRST OUTPUT ARRAY: per row the least similarity over its positives. -/
theorem minPos_array (c : Dev nD) :
    (o0 m c : S4096x1.Idx → EReal) = fun i => Cert.Spec.minPos (X m c) (lab m c) (i 0) :=
  final4 (E1 m) Share.qL Share.qR c _ (fun t h7 r => (out_rows m c t h7 r).1)

/-- THE SECOND OUTPUT ARRAY: per row the greatest similarity over its negatives. -/
theorem maxNeg_array (c : Dev nD) :
    (o1 m c : S4096x1.Idx → EReal) = fun i => Cert.Spec.maxNeg (X m c) (lab m c) (i 0) :=
  final5 (E1 m) Share.qL Share.qR c _ (fun t h7 r => (out_rows m c t h7 r).2)

end Cert.KernelIdeal.MinMaxSpec

end
-- ==== Proof.KI.R1Val.lean ====
import proofs.«115905_j90486370992708_1_alg».proof.Proof.KI.R1Dat
import proofs.«115905_j90486370992708_1_alg».proof.Proof.KI.R1Cover
import Idealize.ShloMosaic.Lib.Pipeline.Value

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the second kernel's body computes at a point

In every case the body's stores into a buffer are one covering store, so what it leaves is that store's payload: each
accumulator's update from the point's blocks. At column block 0 the accumulator it finds is the zero it has just stored;
at column block 7 the output block receives the row losses computed from the four updated accumulators. -/

theorem hz : (![0, 0] : Fin 2 → Nat) = fun _ => 0 := funext fun a => by fin_cases a <;> rfl

theorem mid_S0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : ¬condLast i)
    (x0 x1 : Vec F S512x1024 .f32) (x2 : Vec F S512x1 .i32) (x3 : Vec F S1x512 .i32) (x4 x5 x6 : Vec F S512x1 .f32) (xs0 xs1 xs2 xs3 : Vec F S512x1 .f32) :
    VS0.read (Elt F) (VS0.writes (Elt F) VS0.junk (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1)
      = k1_pay18 (k1_pay8 x0 x1) (k1_pay10 i x0 x1 x2 x3) (k1_pay13 x6) x4 xs0 := by
  rw [View.read_writes_eq_canon _ _ _ (coverM_S0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold runMid
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S512x1024) hz, View.ld_unit_zero (S := S512x1) hz, View.ld_unit_zero (S := S1x512) hz]
theorem mid_S1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : ¬condLast i)
    (x0 x1 : Vec F S512x1024 .f32) (x2 : Vec F S512x1 .i32) (x3 : Vec F S1x512 .i32) (x4 x5 x6 : Vec F S512x1 .f32) (xs0 xs1 xs2 xs3 : Vec F S512x1 .f32) :
    VS1.read (Elt F) (VS1.writes (Elt F) VS1.junk (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1)
      = k1_pay19 (k1_pay8 x0 x1) (k1_pay11 x2 x3) (k1_pay12 x5) (k1_pay14 (F := F)) x4 xs1 := by
  rw [View.read_writes_eq_canon _ _ _ (coverM_S1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold runMid
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S512x1024) hz, View.ld_unit_zero (S := S512x1) hz, View.ld_unit_zero (S := S1x512) hz]
theorem mid_S2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : ¬condLast i)
    (x0 x1 : Vec F S512x1024 .f32) (x2 : Vec F S512x1 .i32) (x3 : Vec F S1x512 .i32) (x4 x5 x6 : Vec F S512x1 .f32) (xs0 xs1 xs2 xs3 : Vec F S512x1 .f32) :
    VS2.read (Elt F) (VS2.writes (Elt F) VS2.junk (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1)
      = k1_pay1 (k1_pay15 (k1_pay8 x0 x1) (k1_pay10 i x0 x1 x2 x3) (k1_pay13 x6)) xs2 := by
  rw [View.read_writes_eq_canon _ _ _ (coverM_S2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold runMid
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S512x1024) hz, View.ld_unit_zero (S := S512x1) hz, View.ld_unit_zero (S := S1x512) hz]
theorem mid_S3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : ¬condLast i)
    (x0 x1 : Vec F S512x1024 .f32) (x2 : Vec F S512x1 .i32) (x3 : Vec F S1x512 .i32) (x4 x5 x6 : Vec F S512x1 .f32) (xs0 xs1 xs2 xs3 : Vec F S512x1 .f32) :
    VS3.read (Elt F) (VS3.writes (Elt F) VS3.junk (runMid (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1)
      = k1_pay2 (k1_pay16 (k1_pay8 x0 x1) (k1_pay11 x2 x3) (k1_pay12 x5) (k1_pay14 (F := F))) xs3 := by
  rw [View.read_writes_eq_canon _ _ _ (coverM_S3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold runMid
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S512x1024) hz, View.ld_unit_zero (S := S512x1) hz, View.ld_unit_zero (S := S1x512) hz]
theorem first_S0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : condFirst i) (hc1 : ¬condLast i)
    (x0 x1 : Vec F S512x1024 .f32) (x2 : Vec F S512x1 .i32) (x3 : Vec F S1x512 .i32) (x4 x5 x6 : Vec F S512x1 .f32) :
    VS0.read (Elt F) (VS0.writes (Elt F) VS0.junk (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1)
      = k1_pay18 (k1_pay8 x0 x1) (k1_pay10 i x0 x1 x2 x3) (k1_pay13 x6) x4 (k1_pay4 (F := F)) := by
  rw [View.read_writes_eq_canon _ _ _ (coverF_S0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold runFirst
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S512x1024) hz, View.ld_unit_zero (S := S512x1) hz, View.ld_unit_zero (S := S1x512) hz]
theorem first_S1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : condFirst i) (hc1 : ¬condLast i)
    (x0 x1 : Vec F S512x1024 .f32) (x2 : Vec F S512x1 .i32) (x3 : Vec F S1x512 .i32) (x4 x5 x6 : Vec F S512x1 .f32) :
    VS1.read (Elt F) (VS1.writes (Elt F) VS1.junk (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1)
      = k1_pay19 (k1_pay8 x0 x1) (k1_pay11 x2 x3) (k1_pay12 x5) (k1_pay14 (F := F)) x4 (k1_pay5 (F := F)) := by
  rw [View.read_writes_eq_canon _ _ _ (coverF_S1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold runFirst
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S512x1024) hz, View.ld_unit_zero (S := S512x1) hz, View.ld_unit_zero (S := S1x512) hz]
theorem first_S2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : condFirst i) (hc1 : ¬condLast i)
    (x0 x1 : Vec F S512x1024 .f32) (x2 : Vec F S512x1 .i32) (x3 : Vec F S1x512 .i32) (x4 x5 x6 : Vec F S512x1 .f32) :
    VS2.read (Elt F) (VS2.writes (Elt F) VS2.junk (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1)
      = k1_pay1 (k1_pay15 (k1_pay8 x0 x1) (k1_pay10 i x0 x1 x2 x3) (k1_pay13 x6)) (k1_pay6 (F := F)) := by
  rw [View.read_writes_eq_canon _ _ _ (coverF_S2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold runFirst
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S512x1024) hz, View.ld_unit_zero (S := S512x1) hz, View.ld_unit_zero (S := S1x512) hz]
theorem first_S3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : condFirst i) (hc1 : ¬condLast i)
    (x0 x1 : Vec F S512x1024 .f32) (x2 : Vec F S512x1 .i32) (x3 : Vec F S1x512 .i32) (x4 x5 x6 : Vec F S512x1 .f32) :
    VS3.read (Elt F) (VS3.writes (Elt F) VS3.junk (runFirst (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.1)
      = k1_pay2 (k1_pay16 (k1_pay8 x0 x1) (k1_pay11 x2 x3) (k1_pay12 x5) (k1_pay14 (F := F))) (k1_pay7 (F := F)) := by
  rw [View.read_writes_eq_canon _ _ _ (coverF_S3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold runFirst
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S512x1024) hz, View.ld_unit_zero (S := S512x1) hz, View.ld_unit_zero (S := S1x512) hz]
theorem last_S0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i)
    (x0 x1 : Vec F S512x1024 .f32) (x2 : Vec F S512x1 .i32) (x3 : Vec F S1x512 .i32) (x4 x5 x6 : Vec F S512x1 .f32) (xs0 xs1 xs2 xs3 : Vec F S512x1 .f32) :
    VS0.read (Elt F) (VS0.writes (Elt F) VS0.junk (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.1)
      = k1_pay18 (k1_pay8 x0 x1) (k1_pay10 i x0 x1 x2 x3) (k1_pay13 x6) x4 xs0 := by
  rw [View.read_writes_eq_canon _ _ _ (coverL_S0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold runLast
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S512x1024) hz, View.ld_unit_zero (S := S512x1) hz, View.ld_unit_zero (S := S1x512) hz]
theorem last_S1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i)
    (x0 x1 : Vec F S512x1024 .f32) (x2 : Vec F S512x1 .i32) (x3 : Vec F S1x512 .i32) (x4 x5 x6 : Vec F S512x1 .f32) (xs0 xs1 xs2 xs3 : Vec F S512x1 .f32) :
    VS1.read (Elt F) (VS1.writes (Elt F) VS1.junk (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.1)
      = k1_pay19 (k1_pay8 x0 x1) (k1_pay11 x2 x3) (k1_pay12 x5) (k1_pay14 (F := F)) x4 xs1 := by
  rw [View.read_writes_eq_canon _ _ _ (coverL_S1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold runLast
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S512x1024) hz, View.ld_unit_zero (S := S512x1) hz, View.ld_unit_zero (S := S1x512) hz]
theorem last_S2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i)
    (x0 x1 : Vec F S512x1024 .f32) (x2 : Vec F S512x1 .i32) (x3 : Vec F S1x512 .i32) (x4 x5 x6 : Vec F S512x1 .f32) (xs0 xs1 xs2 xs3 : Vec F S512x1 .f32) :
    VS2.read (Elt F) (VS2.writes (Elt F) VS2.junk (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.1)
      = k1_pay1 (k1_pay15 (k1_pay8 x0 x1) (k1_pay10 i x0 x1 x2 x3) (k1_pay13 x6)) xs2 := by
  rw [View.read_writes_eq_canon _ _ _ (coverL_S2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold runLast
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S512x1024) hz, View.ld_unit_zero (S := S512x1) hz, View.ld_unit_zero (S := S1x512) hz]
theorem last_S3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i)
    (x0 x1 : Vec F S512x1024 .f32) (x2 : Vec F S512x1 .i32) (x3 : Vec F S1x512 .i32) (x4 x5 x6 : Vec F S512x1 .f32) (xs0 xs1 xs2 xs3 : Vec F S512x1 .f32) :
    VS3.read (Elt F) (VS3.writes (Elt F) VS3.junk (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).2.2.2.2.1)
      = k1_pay2 (k1_pay16 (k1_pay8 x0 x1) (k1_pay11 x2 x3) (k1_pay12 x5) (k1_pay14 (F := F))) xs3 := by
  rw [View.read_writes_eq_canon _ _ _ (coverL_S3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold runLast
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S512x1024) hz, View.ld_unit_zero (S := S512x1) hz, View.ld_unit_zero (S := S1x512) hz]
theorem last_7 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬condFirst i) (hc1 : condLast i)
    (x0 x1 : Vec F S512x1024 .f32) (x2 : Vec F S512x1 .i32) (x3 : Vec F S1x512 .i32) (x4 x5 x6 : Vec F S512x1 .f32) (xs0 xs1 xs2 xs3 : Vec F S512x1 .f32) :
    VO.read (Elt F) (VO.writes (Elt F) VO.junk (runLast (F := F) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3).1)
      = k1_pay3 (k1_pay18 (k1_pay8 x0 x1) (k1_pay10 i x0 x1 x2 x3) (k1_pay13 x6) x4 xs0) (k1_pay19 (k1_pay8 x0 x1) (k1_pay11 x2 x3) (k1_pay12 x5) (k1_pay14 (F := F)) x4 xs1) (k1_pay1 (k1_pay15 (k1_pay8 x0 x1) (k1_pay10 i x0 x1 x2 x3) (k1_pay13 x6)) xs2) (k1_pay2 (k1_pay16 (k1_pay8 x0 x1) (k1_pay11 x2 x3) (k1_pay12 x5) (k1_pay14 (F := F))) xs3) := by
  rw [View.read_writes_eq_canon _ _ _ (coverL_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold runLast
  dsimp only
  sl_unfold_words
  rw [View.canon_unit_zero hz, View.readCov_unit_zero (S := S512x1) _ hz, View.readCov_unit_zero (S := S512x1) _ hz, View.readCov_unit_zero (S := S512x1) _ hz, View.readCov_unit_zero (S := S512x1) _ hz]
  simp only [View.readAt_eq_ld, harg2.read_unread, harg3.read_unread, harg4.read_unread, harg5.read_unread, harg6.read_unread, harg7.read_unread, harg8.read_unread, harg10.read_unread, harg11.read_unread, harg12.read_unread, harg13.read_unread, View.ld_unit_zero (S := S512x1024) hz, View.ld_unit_zero (S := S512x1) hz, View.ld_unit_zero (S := S1x512) hz]

/-- One grid point's update of the four accumulators (the two sums of exponentials, the two greatest keep flags), from
    the point's seven input blocks. -/
def step (i : grid1.Coords) (x0 x1 : Vec F S512x1024 .f32) (x2 : Vec F S512x1 .i32) (x3 : Vec F S1x512 .i32) (x4 x5 x6 : Vec F S512x1 .f32) (s : Vec F S512x1 .f32 × Vec F S512x1 .f32 × Vec F S512x1 .f32 × Vec F S512x1 .f32) : Vec F S512x1 .f32 × Vec F S512x1 .f32 × Vec F S512x1 .f32 × Vec F S512x1 .f32 :=
  (k1_pay18 (k1_pay8 x0 x1) (k1_pay10 i x0 x1 x2 x3) (k1_pay13 x6) x4 s.1, k1_pay19 (k1_pay8 x0 x1) (k1_pay11 x2 x3) (k1_pay12 x5) (k1_pay14 (F := F)) x4 s.2.1, k1_pay1 (k1_pay15 (k1_pay8 x0 x1) (k1_pay10 i x0 x1 x2 x3) (k1_pay13 x6)) s.2.2.1, k1_pay2 (k1_pay16 (k1_pay8 x0 x1) (k1_pay11 x2 x3) (k1_pay12 x5) (k1_pay14 (F := F))) s.2.2.2)

/-- The reset values: four zero blocks. -/
def init : Vec F S512x1 .f32 × Vec F S512x1 .f32 × Vec F S512x1 .f32 × Vec F S512x1 .f32 := ((k1_pay4 (F := F)), (k1_pay5 (F := F)), (k1_pay6 (F := F)), (k1_pay7 (F := F)))

/-- The row losses from the four accumulators. -/
def lossOf (s : Vec F S512x1 .f32 × Vec F S512x1 .f32 × Vec F S512x1 .f32 × Vec F S512x1 .f32) : Vec F S512x1 .f32 := k1_pay3 s.1 s.2.1 s.2.2.1 s.2.2.2

section
variable (V : (c : Dev nD) → (b : Ref sig .tc) → Buf (Elt F) ((c : Thread nD τ).loc b))

attribute [local irreducible] runFirst runMid runLast

set_option maxHeartbeats 1000000 in
theorem firstAt_eq (c : Dev nD) (t : Fin cfg1.N) (h0 : t.val % 8 = 0) :
    firstAt V c t h0 = step (grid1.coords t) (iblk V c 0 t) (iblk V c 1 t) (iblk V c 2 t) (iblk V c 3 t) (iblk V c 4 t) (iblk V c 5 t) (iblk V c 6 t) init := by
  unfold firstAt step init
  exact Prod.ext (first_S0 c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) _ _ (iblk V c 0 t) (iblk V c 1 t) (iblk V c 2 t) (iblk V c 3 t) (iblk V c 4 t) (iblk V c 5 t) (iblk V c 6 t)) (Prod.ext (first_S1 c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) _ _ (iblk V c 0 t) (iblk V c 1 t) (iblk V c 2 t) (iblk V c 3 t) (iblk V c 4 t) (iblk V c 5 t) (iblk V c 6 t)) (Prod.ext (first_S2 c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) _ _ (iblk V c 0 t) (iblk V c 1 t) (iblk V c 2 t) (iblk V c 3 t) (iblk V c 4 t) (iblk V c 5 t) (iblk V c 6 t)) (first_S3 c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) _ _ (iblk V c 0 t) (iblk V c 1 t) (iblk V c 2 t) (iblk V c 3 t) (iblk V c 4 t) (iblk V c 5 t) (iblk V c 6 t))))

set_option maxHeartbeats 1000000 in
theorem midAt_eq (c : Dev nD) (t : Fin cfg1.N) (h0 : ¬t.val % 8 = 0) (h7 : ¬t.val % 8 = 7) (xs : Vec F S512x1 .f32 × Vec F S512x1 .f32 × Vec F S512x1 .f32 × Vec F S512x1 .f32) :
    midAt V c t h0 h7 xs = step (grid1.coords t) (iblk V c 0 t) (iblk V c 1 t) (iblk V c 2 t) (iblk V c 3 t) (iblk V c 4 t) (iblk V c 5 t) (iblk V c 6 t) xs := by
  unfold midAt step
  exact Prod.ext (mid_S0 c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) _ _ (iblk V c 0 t) (iblk V c 1 t) (iblk V c 2 t) (iblk V c 3 t) (iblk V c 4 t) (iblk V c 5 t) (iblk V c 6 t) xs.1 xs.2.1 xs.2.2.1 xs.2.2.2) (Prod.ext (mid_S1 c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) _ _ (iblk V c 0 t) (iblk V c 1 t) (iblk V c 2 t) (iblk V c 3 t) (iblk V c 4 t) (iblk V c 5 t) (iblk V c 6 t) xs.1 xs.2.1 xs.2.2.1 xs.2.2.2) (Prod.ext (mid_S2 c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) _ _ (iblk V c 0 t) (iblk V c 1 t) (iblk V c 2 t) (iblk V c 3 t) (iblk V c 4 t) (iblk V c 5 t) (iblk V c 6 t) xs.1 xs.2.1 xs.2.2.1 xs.2.2.2) (mid_S3 c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) _ _ (iblk V c 0 t) (iblk V c 1 t) (iblk V c 2 t) (iblk V c 3 t) (iblk V c 4 t) (iblk V c 5 t) (iblk V c 6 t) xs.1 xs.2.1 xs.2.2.1 xs.2.2.2)))

set_option maxHeartbeats 1000000 in
theorem lastAt_eq (c : Dev nD) (t : Fin cfg1.N) (h7 : t.val % 8 = 7) (xs : Vec F S512x1 .f32 × Vec F S512x1 .f32 × Vec F S512x1 .f32 × Vec F S512x1 .f32) :
    lastAt V c t h7 xs = (lossOf (step (grid1.coords t) (iblk V c 0 t) (iblk V c 1 t) (iblk V c 2 t) (iblk V c 3 t) (iblk V c 4 t) (iblk V c 5 t) (iblk V c 6 t) xs), step (grid1.coords t) (iblk V c 0 t) (iblk V c 1 t) (iblk V c 2 t) (iblk V c 3 t) (iblk V c 4 t) (iblk V c 5 t) (iblk V c 6 t) xs) := by
  unfold lastAt step lossOf
  exact Prod.ext (last_7 c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) _ _ (iblk V c 0 t) (iblk V c 1 t) (iblk V c 2 t) (iblk V c 3 t) (iblk V c 4 t) (iblk V c 5 t) (iblk V c 6 t) xs.1 xs.2.1 xs.2.2.1 xs.2.2.2) (Prod.ext (last_S0 c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) _ _ (iblk V c 0 t) (iblk V c 1 t) (iblk V c 2 t) (iblk V c 3 t) (iblk V c 4 t) (iblk V c 5 t) (iblk V c 6 t) xs.1 xs.2.1 xs.2.2.1 xs.2.2.2) (Prod.ext (last_S1 c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) _ _ (iblk V c 0 t) (iblk V c 1 t) (iblk V c 2 t) (iblk V c 3 t) (iblk V c 4 t) (iblk V c 5 t) (iblk V c 6 t) xs.1 xs.2.1 xs.2.2.1 xs.2.2.2) (Prod.ext (last_S2 c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) _ _ (iblk V c 0 t) (iblk V c 1 t) (iblk V c 2 t) (iblk V c 3 t) (iblk V c 4 t) (iblk V c 5 t) (iblk V c 6 t) xs.1 xs.2.1 xs.2.2.1 xs.2.2.2) (last_S3 c (grid1.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) _ _ (iblk V c 0 t) (iblk V c 1 t) (iblk V c 2 t) (iblk V c 3 t) (iblk V c 4 t) (iblk V c 5 t) (iblk V c 6 t) xs.1 xs.2.1 xs.2.2.1 xs.2.2.2))))

/-- The accumulators after point `t`, as the recursion the body performs: the update of the reset values at column
    block 0, of what the point before left elsewhere. -/
theorem outsAt_scr (c : Dev nD) (t : Fin cfg1.N) :
    (outsAt V c t.val t.isLt).2 = step (grid1.coords t) (iblk V c 0 t) (iblk V c 1 t) (iblk V c 2 t) (iblk V c 3 t) (iblk V c 4 t) (iblk V c 5 t) (iblk V c 6 t)
      (if h : t.val % 8 = 0 then init else (outsAt V c (t.val - 1) (Nat.lt_of_le_of_lt (Nat.sub_le _ _) t.isLt)).2) := by
  by_cases h0 : t.val % 8 = 0
  · rw [outsAt_first V c t h0, dif_pos h0]; exact firstAt_eq V c t h0
  · rw [dif_neg h0]
    by_cases h7 : t.val % 8 = 7
    · rw [outsAt_last V c t h7, lastAt_eq]
    · rw [outsAt_mid V c t h0 h7]; exact midAt_eq V c t h0 h7 _

/-- At column block 7 the output block receives the row losses of the updated accumulators. -/
theorem outsAt_out (c : Dev nD) (t : Fin cfg1.N) (h7 : t.val % 8 = 7) :
    (outsAt V c t.val t.isLt).1 = lossOf (outsAt V c t.val t.isLt).2 := by
  rw [outsAt_last V c t h7, lastAt_eq]

end

end Cert.KernelIdeal.Loss

end
-- ==== Proof.KI.R1Blocks.lean ====
import proofs.«115905_j90486370992708_1_alg».proof.Proof.KI.R1Val
import Idealize.ShloMosaic.Lib.ValueIdx

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # Where the second kernel's blocks sit in the arrays

Point `t` is at row block `t / 8` and column block `t % 8`: the row-block windows move with `t / 8`, the column-block
windows with `t % 8`. -/

theorem idx0 : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)
theorem idx1 : ∀ t : Fin cfg1.N, win1_1.index t (0 : Fin 2) = t.val % 8 ∧ win1_1.index t (1 : Fin 2) = 0 :=
  (by decide +kernel : ∀ t : Fin grid1.N, win1_1.index t (0 : Fin 2) = t.val % 8 ∧ win1_1.index t (1 : Fin 2) = 0)
theorem idx2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)
theorem idx3 : ∀ t : Fin cfg1.N, win1_3.index t (0 : Fin 2) = 0 ∧ win1_3.index t (1 : Fin 2) = t.val % 8 :=
  (by decide +kernel : ∀ t : Fin grid1.N, win1_3.index t (0 : Fin 2) = 0 ∧ win1_3.index t (1 : Fin 2) = t.val % 8)
theorem idx4 : ∀ t : Fin cfg1.N, win1_4.index t (0 : Fin 2) = t.val / 8 ∧ win1_4.index t (1 : Fin 2) = 0 :=
  (by decide +kernel : ∀ t : Fin grid1.N, win1_4.index t (0 : Fin 2) = t.val / 8 ∧ win1_4.index t (1 : Fin 2) = 0)
theorem idx5 : ∀ t : Fin cfg1.N, win1_5.index t (0 : Fin 2) = t.val / 8 ∧ win1_5.index t (1 : Fin 2) = 0 :=
  (by decide +kernel : ∀ t : Fin grid1.N, win1_5.index t (0 : Fin 2) = t.val / 8 ∧ win1_5.index t (1 : Fin 2) = 0)
theorem idx6 : ∀ t : Fin cfg1.N, win1_6.index t (0 : Fin 2) = t.val / 8 ∧ win1_6.index t (1 : Fin 2) = 0 :=
  (by decide +kernel : ∀ t : Fin grid1.N, win1_6.index t (0 : Fin 2) = t.val / 8 ∧ win1_6.index t (1 : Fin 2) = 0)
theorem idx7 : ∀ t : Fin cfg1.N, win1_7.index t (0 : Fin 2) = t.val / 8 ∧ win1_7.index t (1 : Fin 2) = 0 :=
  (by decide +kernel : ∀ t : Fin grid1.N, win1_7.index t (0 : Fin 2) = t.val / 8 ∧ win1_7.index t (1 : Fin 2) = 0)

/-- Row `r` of block `k` of 512 rows. -/
def blk (k : ℕ) (hk : k < 8) (r : Fin 512) : Fin 4096 := ⟨k * 512 + r.val, by omega⟩

theorem div_lt (t : Fin cfg1.N) : t.val / 8 < 8 := by
  have : t.val < 64 := lt_of_lt_of_eq t.isLt (show cfg1.N = 64 from N_1); omega
theorem mod_lt (t : Fin cfg1.N) : t.val % 8 < 8 := Nat.mod_lt _ (by decide)

section
variable (V : (c : Dev nD) → (b : Ref sig .tc) → Buf (Elt F) ((c : Thread nD τ).loc b))

/-- The row-block window of the embeddings at point `t` holds rows `512 (t / 8) + r`. -/
theorem iblk0_apply (c : Dev nD) (t : Fin cfg1.N) (r : Fin 512) (d : Fin 1024) :
    (iblk V c 0 t : Vec F S512x1024 .f32) (ix2 r d) = V c main_arg0 (ix2 (blk (t.val / 8) (div_lt t) r) d) := by
  unfold iblk
  rw [View.read_apply]
  show V c main_arg0 _ = V c main_arg0 _
  refine congrArg _ ?_
  funext a; apply Fin.ext
  match a with
  | ⟨0, _⟩ => show win1_0.index t 0 * 512 + 1 * r.val = t.val / 8 * 512 + r.val; rw [(idx0 t).1]; omega
  | ⟨1, _⟩ => show win1_0.index t 1 * 1024 + 1 * d.val = d.val; rw [(idx0 t).2]; omega

/-- The column-block window of the embeddings at point `t` holds rows `512 (t % 8) + q`. -/
theorem iblk1_apply (c : Dev nD) (t : Fin cfg1.N) (q : Fin 512) (d : Fin 1024) :
    (iblk V c 1 t : Vec F S512x1024 .f32) (ix2 q d) = V c main_arg0 (ix2 (blk (t.val % 8) (mod_lt t) q) d) := by
  unfold iblk
  rw [View.read_apply]
  show V c main_arg0 _ = V c main_arg0 _
  refine congrArg _ ?_
  funext a; apply Fin.ext
  match a with
  | ⟨0, _⟩ => show win1_1.index t 0 * 512 + 1 * q.val = t.val % 8 * 512 + q.val; rw [(idx1 t).1]; omega
  | ⟨1, _⟩ => show win1_1.index t 1 * 1024 + 1 * d.val = d.val; rw [(idx1 t).2]; omega

/-- The row-block window 2 at point `t` holds rows `512 (t / 8) + r` of its 4096 × 1 array. -/
theorem iblk2_apply (c : Dev nD) (t : Fin cfg1.N) (r : Fin 512) :
    (iblk V c 2 t : Vec F S512x1 .i32) (ix2 r 0) = V c main_v0 (ix2 (blk (t.val / 8) (div_lt t) r) 0) := by
  unfold iblk
  rw [View.read_apply]
  show V c main_v0 _ = V c main_v0 _
  refine congrArg _ ?_
  funext a; apply Fin.ext
  match a with
  | ⟨0, _⟩ => show win1_2.index t 0 * 512 + 1 * r.val = t.val / 8 * 512 + r.val; rw [(idx2 t).1]; omega
  | ⟨1, _⟩ => show win1_2.index t 1 * 1 + 1 * 0 = 0; rw [(idx2 t).2]

/-- The column-label window at point `t` holds the labels of rows `512 (t % 8) + q` (as a 1 × 4096 array). -/
theorem iblk3_apply (c : Dev nD) (t : Fin cfg1.N) (q : Fin 512) :
    (iblk V c 3 t : Vec F S1x512 .i32) (ix2 0 q) = V c main_v1 (ix2 0 (blk (t.val % 8) (mod_lt t) q)) := by
  unfold iblk
  rw [View.read_apply]
  show V c main_v1 _ = V c main_v1 _
  refine congrArg _ ?_
  funext a; apply Fin.ext
  match a with
  | ⟨0, _⟩ => show win1_3.index t 0 * 1 + 1 * 0 = 0; rw [(idx3 t).1]
  | ⟨1, _⟩ => show win1_3.index t 1 * 512 + 1 * q.val = t.val % 8 * 512 + q.val; rw [(idx3 t).2]; omega

/-- The row-block window 4 at point `t` holds rows `512 (t / 8) + r` of its 4096 × 1 array. -/
theorem iblk4_apply (c : Dev nD) (t : Fin cfg1.N) (r : Fin 512) :
    (iblk V c 4 t : Vec F S512x1 .f32) (ix2 r 0) = V c main_v9 (ix2 (blk (t.val / 8) (div_lt t) r) 0) := by
  unfold iblk
  rw [View.read_apply]
  show V c main_v9 _ = V c main_v9 _
  refine congrArg _ ?_
  funext a; apply Fin.ext
  match a with
  | ⟨0, _⟩ => show win1_4.index t 0 * 512 + 1 * r.val = t.val / 8 * 512 + r.val; rw [(idx4 t).1]; omega
  | ⟨1, _⟩ => show win1_4.index t 1 * 1 + 1 * 0 = 0; rw [(idx4 t).2]
/-- The row-block window 5 at point `t` holds rows `512 (t / 8) + r` of its 4096 × 1 array. -/
theorem iblk5_apply (c : Dev nD) (t : Fin cfg1.N) (r : Fin 512) :
    (iblk V c 5 t : Vec F S512x1 .f32) (ix2 r 0) = V c main_v10_0 (ix2 (blk (t.val / 8) (div_lt t) r) 0) := by
  unfold iblk
  rw [View.read_apply]
  show V c main_v10_0 _ = V c main_v10_0 _
  refine congrArg _ ?_
  funext a; apply Fin.ext
  match a with
  | ⟨0, _⟩ => show win1_5.index t 0 * 512 + 1 * r.val = t.val / 8 * 512 + r.val; rw [(idx5 t).1]; omega
  | ⟨1, _⟩ => show win1_5.index t 1 * 1 + 1 * 0 = 0; rw [(idx5 t).2]
/-- The row-block window 6 at point `t` holds rows `512 (t / 8) + r` of its 4096 × 1 array. -/
theorem iblk6_apply (c : Dev nD) (t : Fin cfg1.N) (r : Fin 512) :
    (iblk V c 6 t : Vec F S512x1 .f32) (ix2 r 0) = V c main_v10_1 (ix2 (blk (t.val / 8) (div_lt t) r) 0) := by
  unfold iblk
  rw [View.read_apply]
  show V c main_v10_1 _ = V c main_v10_1 _
  refine congrArg _ ?_
  funext a; apply Fin.ext
  match a with
  | ⟨0, _⟩ => show win1_6.index t 0 * 512 + 1 * r.val = t.val / 8 * 512 + r.val; rw [(idx6 t).1]; omega
  | ⟨1, _⟩ => show win1_6.index t 1 * 1 + 1 * 0 = 0; rw [(idx6 t).2]

end

end Cert.KernelIdeal.Loss

end
-- ==== Proof.KI.R1Final.lean ====
import proofs.«115905_j90486370992708_1_alg».proof.Proof.KI.R1Blocks

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The arrays the second kernel leaves

Each output block is written back once, at column block 7 of its row block, and these blocks tile the 4096 × 1 array. -/

section
variable (V : (c : Dev nD) → (b : Ref sig .tc) → Buf (Elt F) ((c : Thread nD τ).loc b))
variable (qL qR : PosShare TreeShare)

theorem mem_blk7 (t : Fin cfg1.N) (i : S4096x1.Idx) :
    i ∈ ((cfg1.win 7).blk t).view.set ↔ ∀ a : Fin 2, win1_7.index t a * S512x1.size a ≤ (i a).val ∧ (i a).val < win1_7.index t a * S512x1.size a + S512x1.size a := by
  show i ∈ ((View.whole main_v11).slice (win1_7.rect t)).set ↔ _
  rw [View.set_slice_whole, Rect.mem_set_unit]
  exact Iff.rfl

/-- The blocks written back at column block 7 tile the 4096 × 1 array: row `i` is in the block of row block `i / 512`. -/
theorem cover7 (i : S4096x1.Idx) : ∃ t : Fin cfg1.N, (cfg1.win 7).flush t = true ∧ i ∈ ((cfg1.win 7).blk t).view.set := by
  have hi0 : (i 0).val < 4096 := (i 0).isLt
  have hi1 : (i 1).val < 1 := (i 1).isLt
  have hN : cfg1.N = 64 := N_1
  refine ⟨⟨8 * ((i 0).val / 512) + 7, by omega⟩, (flush1_7 _).mpr (by show (8 * ((i 0).val / 512) + 7) % 8 = 7; omega), ?_⟩
  rw [mem_blk7]
  intro a
  match a with
  | ⟨0, _⟩ =>
    show win1_7.index _ (0 : Fin 2) * 512 ≤ (i 0).val ∧ (i 0).val < win1_7.index _ (0 : Fin 2) * 512 + 512
    rw [(idx7 _).1]
    show (8 * ((i 0).val / 512) + 7) / 8 * 512 ≤ (i 0).val ∧ (i 0).val < (8 * ((i 0).val / 512) + 7) / 8 * 512 + 512
    omega
  | ⟨1, _⟩ =>
    show win1_7.index _ (1 : Fin 2) * 1 ≤ (i 1).val ∧ (i 1).val < win1_7.index _ (1 : Fin 2) * 1 + 1
    rw [(idx7 _).2]
    omega

/-- THE ARRAY after the region: any function `G` of the row that every block written back at column block 7 agrees with. -/
theorem final7 (c : Dev nD) (G : S4096x1.Idx → Elt F .f32)
    (hG : ∀ (t : Fin cfg1.N) (h7 : t.val % 8 = 7) (r : Fin 512),
      (outsAt V c t.val t.isLt).1 (ix2 r 0) = G (ix2 (blk (t.val / 8) (div_lt t) r) 0)) :
    (dat1 V qL qR c).arrAt 7 cfg1.N = G := by
  refine (dat1 V qL qR c).arrAt_eq_of_cover 7 G (fun t hf => ?_) cover7
  have h7 := (flush1_7 t).mp hf
  show (cfg1.win 7).cut (grid1.coords t) ((dat1 V qL qR c).after 7 t) = _
  rw [after7]
  funext y
  obtain ⟨r, u, rfl⟩ : ∃ (r : Fin 512) (u : Fin 1), y = ix2 r u := ⟨y 0, y 1, eq_ix2 y⟩
  obtain rfl : u = 0 := Subsingleton.elim _ _
  rw [View.read_apply]
  refine (hG t h7 r).trans (congrArg G ?_)
  funext a; apply Fin.ext
  match a with
  | ⟨0, _⟩ => show t.val / 8 * 512 + r.val = win1_7.index t 0 * 512 + 1 * r.val; rw [(idx7 t).1]; omega
  | ⟨1, _⟩ => show 0 = win1_7.index t 1 * 1 + 1 * 0; rw [(idx7 t).2]

/-- The recursion does not depend on how the point's number is spelt. -/
theorem outsAt_congr (c : Dev nD) {n n' : ℕ} (h : n = n') (hn : n < cfg1.N) (hn' : n' < cfg1.N) :
    outsAt V c n hn = outsAt V c n' hn' := by subst h; rfl

end

/-- The point's grid coordinates: row block `t / 8`, column block `t % 8`. -/
theorem coords_val : ∀ t : Fin cfg1.N, ((grid1.coords t) 0).val = t.val / 8 ∧ ((grid1.coords t) 1).val = t.val % 8 :=
  (by decide +kernel : ∀ t : Fin grid1.N, ((grid1.coords t) 0).val = t.val / 8 ∧ ((grid1.coords t) 1).val = t.val % 8)

/-- The point at row block `i0` and column block `k`. -/
def pt (i0 k : Fin 8) : Fin cfg1.N := ⟨8 * i0.val + k.val, by rw [show cfg1.N = 64 from N_1]; omega⟩

theorem pt_val (i0 k : Fin 8) : (pt i0 k).val = 8 * i0.val + k.val := rfl
theorem pt_div (i0 k : Fin 8) : (pt i0 k).val / 8 = i0.val := by rw [pt_val]; omega
theorem pt_mod (i0 k : Fin 8) : (pt i0 k).val % 8 = k.val := by rw [pt_val]; omega

section
variable (V : (c : Dev nD) → (b : Ref sig .tc) → Buf (Elt F) ((c : Thread nD τ).loc b))

/-- The accumulators after the point at row block `i0`, column block `k`. -/
def accSeq (c : Dev nD) (i0 k : Fin 8) : Vec F S512x1 .f32 × Vec F S512x1 .f32 × Vec F S512x1 .f32 × Vec F S512x1 .f32 := (outsAt V c (pt i0 k).val (pt i0 k).isLt).2

theorem accSeq_zero (c : Dev nD) (i0 : Fin 8) :
    accSeq V c i0 0 = step (grid1.coords (pt i0 0)) (iblk V c 0 (pt i0 0)) (iblk V c 1 (pt i0 0)) (iblk V c 2 (pt i0 0)) (iblk V c 3 (pt i0 0)) (iblk V c 4 (pt i0 0)) (iblk V c 5 (pt i0 0)) (iblk V c 6 (pt i0 0)) init := by
  unfold accSeq
  have h : (pt i0 0).val % 8 = 0 := pt_mod i0 0
  rw [outsAt_scr V c (pt i0 0), dif_pos h]

theorem accSeq_succ (c : Dev nD) (i0 : Fin 8) (k : Fin 7) :
    accSeq V c i0 k.succ = step (grid1.coords (pt i0 k.succ)) (iblk V c 0 (pt i0 k.succ)) (iblk V c 1 (pt i0 k.succ)) (iblk V c 2 (pt i0 k.succ)) (iblk V c 3 (pt i0 k.succ)) (iblk V c 4 (pt i0 k.succ)) (iblk V c 5 (pt i0 k.succ)) (iblk V c 6 (pt i0 k.succ)) (accSeq V c i0 k.castSucc) := by
  unfold accSeq
  have hk : ¬(pt i0 k.succ).val % 8 = 0 := by rw [pt_mod]; simp [Fin.val_succ]
  rw [outsAt_scr V c (pt i0 k.succ), dif_neg hk]
  rw [outsAt_congr V c (show (pt i0 k.succ).val - 1 = (pt i0 k.castSucc).val by simp only [pt_val, Fin.val_succ, Fin.coe_castSucc]; omega) _ (pt i0 k.castSucc).isLt]

end

end Cert.KernelIdeal.Loss

end
-- ==== Proof.KVal1.lean ====
/-
  The second kernel's values at one grid point, in the specification's terms.

  The grid point computes the same similarity tile and the same masks for positives and negatives as the first kernel. It
  then keeps a positive whose similarity, less the margin, is below the row's `maxNeg`, and a negative whose similarity,
  plus the margin, is above the row's `minPos` (the two columns come in as input blocks); a kept mask enters the
  arithmetic as the float `1` or `0`. Two accumulators add, per row, the lane sums of `exp (c · (sim − b)) · mask` (with
  `b` the row's threshold and `c = -2` for positives, `40` for negatives); two more keep the running maximum of the masks,
  which is positive exactly when some column was kept. The last grid point of a row block writes, per row,
  `½ log1p (first sum) + (1/40) log1p (second sum)` where both maxima are positive, and `0` elsewhere.
-/
import proofs.«115905_j90486370992708_1_alg».proof.Proof.KVal0

noncomputable section

namespace Cert.KVal

open Cert.KernelIdeal Cert.KernelIdeal.Gen Idealize.ShloMosaic Idealize.ShloMosaic.ValueIdx
open scoped BigOperators

/-! ## The stores and the kept masks, for any tiles and accumulators -/

/-- A kept positive as a float: the positives' mask and "similarity less the margin below the row's bound". -/
theorem k1_pay15_apply (v8 : FVec Ideal S512x512 .f32) (v29 : IVec S512x512 1) (v34 : FVec Ideal S512x1 .f32)
    (r q : Fin 512) :
    k1_pay15 (F := Ideal) v8 v29 v34 (ix2 r q)
      = Spec.maskF (IntOp.andi (v29 (ix2 r q))
          (Ideal.cmp .olt (v8 (ix2 r q) - Ideal.ofBits .f32 0x3DCCCCCD#32) (v34 (ix2 r 0)))) := by
  unfold k1_pay15
  refine (Spec.maskF_sitofp_setWidth _).trans ?_
  exact congrArg Spec.maskF (congrArg (IntOp.andi (v29 (ix2 r q)))
    (congrArg (Ideal.cmp .olt (v8 (ix2 r q) - Ideal.ofBits .f32 0x3DCCCCCD#32)) (spread_column v34 _ r q)))

/-- A kept negative as a float: the negatives' mask and "similarity plus the margin above the row's bound". -/
theorem k1_pay16_apply (v8 : FVec Ideal S512x512 .f32) (v30 : IVec S512x512 1) (v32 : FVec Ideal S512x1 .f32)
    (v35 : FVec Ideal S512x512 .f32) (r q : Fin 512) :
    k1_pay16 (F := Ideal) v8 v30 v32 v35 (ix2 r q)
      = Spec.maskF (IntOp.andi (v30 (ix2 r q))
          (Ideal.cmp .ogt (v8 (ix2 r q) + v35 (ix2 r q)) (v32 (ix2 r 0)))) := by
  unfold k1_pay16
  refine (Spec.maskF_sitofp_setWidth _).trans ?_
  exact congrArg Spec.maskF (congrArg (IntOp.andi (v30 (ix2 r q)))
    (congrArg (Ideal.cmp .ogt (v8 (ix2 r q) + v35 (ix2 r q))) (spread_column v32 _ r q)))

/-- The margin tile holds the margin everywhere. -/
theorem k1_pay14_apply (r q : Fin 512) : k1_pay14 (F := Ideal) (ix2 r q) = Ideal.ofBits .f32 0x3DCCCCCD#32 := rfl

/-- The three column inputs are passed through unchanged. -/
theorem k1_pay12_eq (v : Vec Ideal S512x1 .f32) : k1_pay12 (F := Ideal) v = v := by
  unfold k1_pay12; exact shapeCast_self v _
theorem k1_pay13_eq (v : Vec Ideal S512x1 .f32) : k1_pay13 (F := Ideal) v = v := by
  unfold k1_pay13; exact shapeCast_self v _
theorem k1_pay17_eq (v : Vec Ideal S512x1 .f32) : k1_pay17 (F := Ideal) v = v := by
  unfold k1_pay17; exact shapeCast_self v _

/-- The positives' sum: what the accumulator held plus the lane sum of `exp (-2 (sim − b)) · mask`. -/
theorem k1_pay18_apply (v8 : FVec Ideal S512x512 .f32) (v29 : IVec S512x512 1) (v34 : FVec Ideal S512x1 .f32)
    (x4 acc : Vec Ideal S512x1 .f32) (r : Fin 512) (u : Fin 1) :
    k1_pay18 (F := Ideal) v8 v29 v34 x4 acc (ix2 r u)
      = acc (ix2 r u) + ∑ q : Fin 512,
          Ideal.exp (Ideal.ofBits .f32 0xC0000000#32 * (v8 (ix2 r q) - x4 (ix2 r 0)))
            * k1_pay15 (F := Ideal) v8 v29 v34 (ix2 r q) := by
  unfold k1_pay18
  refine (congrFun (shapeCast_self _ _) _).trans ?_
  refine congrArg (acc (ix2 r u) + ·) ((rowSum_apply _ _ _ _ _ _ r u).trans (Finset.sum_congr rfl fun q _ => ?_))
  exact congrArg (fun t => Ideal.exp (Ideal.ofBits .f32 0xC0000000#32 * (v8 (ix2 r q) - t))
      * k1_pay15 (F := Ideal) v8 v29 v34 (ix2 r q))
    ((spread_column (k1_pay17 (F := Ideal) x4) _ r q).trans (congrFun (k1_pay17_eq x4) _))

/-- The negatives' sum: what the accumulator held plus the lane sum of `exp (40 (sim − b)) · mask`. -/
theorem k1_pay19_apply (v8 : FVec Ideal S512x512 .f32) (v30 : IVec S512x512 1) (v32 : FVec Ideal S512x1 .f32)
    (v35 : FVec Ideal S512x512 .f32) (x4 acc : Vec Ideal S512x1 .f32) (r : Fin 512) (u : Fin 1) :
    k1_pay19 (F := Ideal) v8 v30 v32 v35 x4 acc (ix2 r u)
      = acc (ix2 r u) + ∑ q : Fin 512,
          Ideal.exp (Ideal.ofBits .f32 0x42200000#32 * (v8 (ix2 r q) - x4 (ix2 r 0)))
            * k1_pay16 (F := Ideal) v8 v30 v32 v35 (ix2 r q) := by
  unfold k1_pay19
  refine (congrFun (shapeCast_self _ _) _).trans ?_
  refine congrArg (acc (ix2 r u) + ·) ((rowSum_apply _ _ _ _ _ _ r u).trans (Finset.sum_congr rfl fun q _ => ?_))
  exact congrArg (fun t => Ideal.exp (Ideal.ofBits .f32 0x42200000#32 * (v8 (ix2 r q) - t))
      * k1_pay16 (F := Ideal) v8 v30 v32 v35 (ix2 r q))
    ((spread_column (k1_pay17 (F := Ideal) x4) _ r q).trans (congrFun (k1_pay17_eq x4) _))

/-- A running maximum of a mask tile: the larger of what the accumulator held and the row maximum, from `-∞`. -/
theorem k1_pay1_apply (t : FVec Ideal S512x512 .f32) (acc : Vec Ideal S512x1 .f32) (r : Fin 512) (u : Fin 1) :
    k1_pay1 (F := Ideal) t acc (ix2 r u)
      = max (acc (ix2 r u))
          ((Finset.univ : Finset (Fin 512)).fold max (Ideal.ofBits .f32 0xFF800000#32) fun q => t (ix2 r q)) :=
  k0_pay2_apply t acc r u

theorem k1_pay2_apply (t : FVec Ideal S512x512 .f32) (acc : Vec Ideal S512x1 .f32) (r : Fin 512) (u : Fin 1) :
    k1_pay2 (F := Ideal) t acc (ix2 r u)
      = max (acc (ix2 r u))
          ((Finset.univ : Finset (Fin 512)).fold max (Ideal.ofBits .f32 0xFF800000#32) fun q => t (ix2 r q)) :=
  k0_pay2_apply t acc r u

/-- The four accumulators start at zero. -/
theorem k1_pay4_apply (r : Fin 512) (u : Fin 1) : k1_pay4 (F := Ideal) (ix2 r u) = Ideal.ofBits .f32 0x00000000#32 := by
  unfold k1_pay4; exact (congrFun (shapeCast_self _ _) _).trans rfl
theorem k1_pay5_apply (r : Fin 512) (u : Fin 1) : k1_pay5 (F := Ideal) (ix2 r u) = Ideal.ofBits .f32 0x00000000#32 := by
  unfold k1_pay5; exact (congrFun (shapeCast_self _ _) _).trans rfl
theorem k1_pay6_apply (r : Fin 512) (u : Fin 1) : k1_pay6 (F := Ideal) (ix2 r u) = Ideal.ofBits .f32 0x00000000#32 := by
  unfold k1_pay6; exact (congrFun (shapeCast_self _ _) _).trans rfl
theorem k1_pay7_apply (r : Fin 512) (u : Fin 1) : k1_pay7 (F := Ideal) (ix2 r u) = Ideal.ofBits .f32 0x00000000#32 := by
  unfold k1_pay7; exact (congrFun (shapeCast_self _ _) _).trans rfl

/-- The row's loss, from the four accumulators: the weighted `log1p`s where both maxima are positive, else `0`. -/
theorem k1_pay3_apply (s0 s1 s2 s3 : Vec Ideal S512x1 .f32) (r : Fin 512) (u : Fin 1) :
    k1_pay3 (F := Ideal) s0 s1 s2 s3 (ix2 r u)
      = Scalar.select
          (IntOp.andi (Ideal.cmp .ogt (s2 (ix2 r u)) (Ideal.ofBits .f32 0x00000000#32))
            (Ideal.cmp .ogt (s3 (ix2 r u)) (Ideal.ofBits .f32 0x00000000#32)))
          (Ideal.ofBits .f32 0x3F000000#32 * Ideal.log1p (s0 (ix2 r u))
            + Ideal.ofBits .f32 0x3CCCCCCD#32 * Ideal.log1p (s1 (ix2 r u)))
          (Ideal.ofBits .f32 0x00000000#32) := rfl

/-! ## The masks and the kept masks against the specification -/

/-- What the three column inputs of row block `k0` hold: per row, the class threshold, `minPos` and `maxNeg`. -/
structure InCols (X : Spec.SX.Idx → EReal) (beta : Spec.SBeta.Idx → EReal) (lab : Spec.SLab.Idx → BitVec 32)
    (k0 : Fin 8) (x4 x5 x6 : Vec Ideal S512x1 .f32) : Prop where
  bRow : ∀ r : Fin 512, x4 (ix2 r 0) = Spec.bRow beta lab (blk k0 r)
  minPos : ∀ r : Fin 512, x5 (ix2 r 0) = Spec.minPos X lab (blk k0 r)
  maxNeg : ∀ r : Fin 512, x6 (ix2 r 0) = Spec.maxNeg X lab (blk k0 r)

section Tile
variable {X : Spec.SX.Idx → EReal} {beta : Spec.SBeta.Idx → EReal} {lab : Spec.SLab.Idx → BitVec 32} {k0 k1 : Fin 8}
  {x0 x1 : Vec Ideal S512x1024 .f32} {x2 : Vec Ideal S512x1 .i32} {x3 : Vec Ideal S1x512 .i32}
  {x4 x5 x6 : Vec Ideal S512x1 .f32}

/-- The second kernel's similarity tile. -/
theorem sim_tile1 (hB : InBlocks X lab k0 k1 x0 x1 x2 x3) (r q : Fin 512) :
    k1_pay8 (F := Ideal) x0 x1 (ix2 r q) = Spec.sim X (blk k0 r) (blk k1 q) :=
  sim_tile hB r q

/-- The second kernel's mask for positives. -/
theorem k1_pay10_apply (hB : InBlocks X lab k0 k1 x0 x1 x2 x3) (i : grid1.Coords) (hk0 : (i 0).val = k0.val)
    (hk1 : (i 1).val = k1.val) (r q : Fin 512) :
    k1_pay10 (F := Ideal) i x0 x1 x2 x3 (ix2 r q) = Spec.pos X lab (blk k0 r) (blk k1 q) := by
  unfold k1_pay10
  exact pos_tile hB _ _ hk0 hk1 _ _ r q

/-- The second kernel's mask for negatives. -/
theorem k1_pay11_apply (hB : InBlocks X lab k0 k1 x0 x1 x2 x3) (r q : Fin 512) :
    k1_pay11 (F := Ideal) x2 x3 (ix2 r q) = Spec.neg lab (blk k0 r) (blk k1 q) := by
  unfold k1_pay11
  show IntOp.xori (k0_pay6 (F := Ideal) x2 x3 (ix2 r q)) 1#1 = _
  rw [same_tile hB, Spec.xori_one]
  rfl

/-- The kept positives of the tile, as floats. -/
theorem posKeep_tile (hB : InBlocks X lab k0 k1 x0 x1 x2 x3) (hC : InCols X beta lab k0 x4 x5 x6) (i : grid1.Coords)
    (hk0 : (i 0).val = k0.val) (hk1 : (i 1).val = k1.val) (r q : Fin 512) :
    k1_pay15 (F := Ideal) (k1_pay8 x0 x1) (k1_pay10 i x0 x1 x2 x3) (k1_pay13 x6) (ix2 r q)
      = Spec.maskF (Spec.posKeep X lab (blk k0 r) (blk k1 q)) := by
  rw [k1_pay15_apply, k1_pay10_apply hB i hk0 hk1, sim_tile1 hB, k1_pay13_eq, hC.maxNeg]
  rfl

/-- The kept negatives of the tile, as floats. -/
theorem negKeep_tile (hB : InBlocks X lab k0 k1 x0 x1 x2 x3) (hC : InCols X beta lab k0 x4 x5 x6) (r q : Fin 512) :
    k1_pay16 (F := Ideal) (k1_pay8 x0 x1) (k1_pay11 x2 x3) (k1_pay12 x5) (k1_pay14 (F := Ideal)) (ix2 r q)
      = Spec.maskF (Spec.negKeep X lab (blk k0 r) (blk k1 q)) := by
  rw [k1_pay16_apply, k1_pay11_apply hB, sim_tile1 hB, k1_pay12_eq, hC.minPos, k1_pay14_apply]
  rfl

end Tile

end Cert.KVal

end
-- ==== Proof.KVal1Final.lean ====
/-
  The second kernel's four accumulators after a row of grid points, and the row's loss.

  For a fixed row block `i0` the kernel visits the eight column blocks in order; all four accumulators start at `0`. The
  first two add, per row, each block's lane sums of the kept positives' and kept negatives' exponential terms; addition is
  associative and commutative, so after the last block they hold the specification's `posSum` and `negSum`. The other
  two keep the running maximum of the kept masks read as `1` or `0` (each block's own maximum is taken from `-∞`, which
  `0` absorbs); such a maximum is above `0` exactly when some mask is set, which is the specification's "or" over all
  columns. The value written for row `r` is therefore the specification's `perRow` of row `i0 * 512 + r`.
-/
import proofs.«115905_j90486370992708_1_alg».proof.Proof.KVal1
import proofs.«115905_j90486370992708_1_alg».proof.Proof.LibBlock

noncomputable section

namespace Cert.KVal

open Cert.KernelIdeal Cert.KernelIdeal.Gen Idealize.ShloMosaic Idealize.ShloMosaic.ValueIdx Cert.LibBlock
open scoped BigOperators

/-! ## Words and flags -/

/-- The word of `-∞` denotes the least extended real. -/
theorem ofBits_neg_inf : Ideal.ofBits .f32 0xFF800000#32 = ⊥ := by
  simp [Ideal.ofBits, Ideal.ieee]

/-- `0` absorbs `-∞` under `max`. -/
theorem max_zero_neg_inf :
    max (Ideal.ofBits .f32 0x00000000#32) (Ideal.ofBits .f32 0xFF800000#32) = Ideal.ofBits .f32 0x00000000#32 := by
  rw [ofBits_neg_inf]
  exact max_eq_left bot_le

/-- Two bits that are set under the same condition are equal. -/
theorem bit_ext (a b : BitVec 1) (h : a = 1#1 ↔ b = 1#1) : a = b := by
  revert h
  revert a
  refine Spec.bit_cases _ ?_ ?_ <;> (revert b; refine Spec.bit_cases _ ?_ ?_) <;> decide

/-- The maximum, from `0`, of masks read as `1` or `0` is above `0` exactly when some mask is set: as a bit, it is the "or"
    of the masks. -/
theorem any_flag {n : ℕ} (m : Fin n → BitVec 1) :
    Ideal.cmp .ogt
        ((Finset.univ : Finset (Fin n)).fold max (Ideal.ofBits .f32 0x00000000#32) (fun j => Spec.maskF (m j)))
        (Ideal.ofBits .f32 0x00000000#32)
      = (Finset.univ : Finset (Fin n)).fold IntOp.ori 0#1 m := by
  rw [Ideal.ofBits_zero_f32]
  refine bit_ext _ _ ?_
  rw [Spec.cmp_ogt_eq_one, Spec.fold_ori_eq_one, Finset.lt_fold_max]
  constructor
  · rintro (h | ⟨j, hj, h⟩)
    · exact absurd h (lt_irrefl _)
    · refine ⟨j, hj, ?_⟩
      by_contra hne
      have h0 : Spec.maskF (m j) = 0 := by unfold Spec.maskF; rw [if_neg hne]
      rw [h0] at h
      exact lt_irrefl _ h
  · rintro ⟨j, hj, h⟩
    refine Or.inr ⟨j, hj, ?_⟩
    rw [h, Spec.maskF_one]
    exact zero_lt_one

/-! ## A chain of eight updates -/

/-- Eight values, each got from the one before by the step of its index, the first from `init`: a property that holds of
    `init` at `0` and passes from `k` to `k + 1` through step `k` holds of the last value at `8`. -/
theorem chain {β : Type} (a : Fin 8 → β) (P : ℕ → β → Prop) (init : β) (f : (k : ℕ) → k < 8 → β → β)
    (h0 : a ⟨0, by omega⟩ = f 0 (by omega) init)
    (hs : ∀ (k : ℕ) (hk : k + 1 < 8), a ⟨k + 1, hk⟩ = f (k + 1) hk (a ⟨k, Nat.lt_of_succ_lt hk⟩))
    (hP0 : P 0 init) (hstep : ∀ (k : ℕ) (hk : k < 8) (s : β), P k s → P (k + 1) (f k hk s)) :
    P 8 (a ⟨7, by omega⟩) := by
  have inv : ∀ (k : ℕ) (hk : k < 8), P (k + 1) (a ⟨k, hk⟩) := by
    intro k
    induction k with
    | zero => intro hk; rw [h0]; exact hstep 0 (by omega) init hP0
    | succ k ih => intro hk; rw [hs k hk]; exact hstep (k + 1) hk _ (ih (Nat.lt_of_succ_lt hk))
  exact inv 7 (by omega)

/-! ## The four updates of one grid point -/

/-- The kept positives' sum. -/
def upd0 (i : grid1.Coords) (x0 x1 : Vec Ideal S512x1024 .f32) (x2 : Vec Ideal S512x1 .i32) (x3 : Vec Ideal S1x512 .i32)
    (x4 x6 s : Vec Ideal S512x1 .f32) : Vec Ideal S512x1 .f32 :=
  k1_pay18 (k1_pay8 x0 x1) (k1_pay10 i x0 x1 x2 x3) (k1_pay13 x6) x4 s

/-- The kept negatives' sum. -/
def upd1 (x0 x1 : Vec Ideal S512x1024 .f32) (x2 : Vec Ideal S512x1 .i32) (x3 : Vec Ideal S1x512 .i32)
    (x4 x5 s : Vec Ideal S512x1 .f32) : Vec Ideal S512x1 .f32 :=
  k1_pay19 (k1_pay8 x0 x1) (k1_pay11 x2 x3) (k1_pay12 x5) (k1_pay14 (F := Ideal)) x4 s

/-- "Some positive kept", as a running maximum. -/
def upd2 (i : grid1.Coords) (x0 x1 : Vec Ideal S512x1024 .f32) (x2 : Vec Ideal S512x1 .i32) (x3 : Vec Ideal S1x512 .i32)
    (x6 s : Vec Ideal S512x1 .f32) : Vec Ideal S512x1 .f32 :=
  k1_pay1 (k1_pay15 (k1_pay8 x0 x1) (k1_pay10 i x0 x1 x2 x3) (k1_pay13 x6)) s

/-- "Some negative kept", as a running maximum. -/
def upd3 (x0 x1 : Vec Ideal S512x1024 .f32) (x2 : Vec Ideal S512x1 .i32) (x3 : Vec Ideal S1x512 .i32)
    (x5 s : Vec Ideal S512x1 .f32) : Vec Ideal S512x1 .f32 :=
  k1_pay2 (k1_pay16 (k1_pay8 x0 x1) (k1_pay11 x2 x3) (k1_pay12 x5) (k1_pay14 (F := Ideal))) s

/-- Column `j`'s term of row `R`'s sum over kept positives. -/
def posTerm (X : Spec.SX.Idx → EReal) (beta : Spec.SBeta.Idx → EReal) (lab : Spec.SLab.Idx → BitVec 32)
    (R j : Fin 4096) : EReal :=
  Ideal.exp (Ideal.ofBits .f32 0xC0000000#32 * (Spec.sim X R j - Spec.bRow beta lab R))
    * Spec.maskF (Spec.posKeep X lab R j)

/-- Column `j`'s term of row `R`'s sum over kept negatives. -/
def negTerm (X : Spec.SX.Idx → EReal) (beta : Spec.SBeta.Idx → EReal) (lab : Spec.SLab.Idx → BitVec 32)
    (R j : Fin 4096) : EReal :=
  Ideal.exp (Ideal.ofBits .f32 0x42200000#32 * (Spec.sim X R j - Spec.bRow beta lab R))
    * Spec.maskF (Spec.negKeep X lab R j)

section Step
variable {X : Spec.SX.Idx → EReal} {beta : Spec.SBeta.Idx → EReal} {lab : Spec.SLab.Idx → BitVec 32} {k0 : Fin 8}
  {x0 x1 : Vec Ideal S512x1024 .f32} {x2 : Vec Ideal S512x1 .i32} {x3 : Vec Ideal S1x512 .i32}
  {x4 x5 x6 : Vec Ideal S512x1 .f32}

theorem upd0_step (k : ℕ) (hk : k < 8) (hB : InBlocks X lab k0 ⟨k, hk⟩ x0 x1 x2 x3)
    (hC : InCols X beta lab k0 x4 x5 x6) (i : grid1.Coords) (hk0 : (i 0).val = k0.val) (hk1 : (i 1).val = k)
    (s : Vec Ideal S512x1 .f32) (r : Fin 512)
    (hs : s (ix2 r 0) = ∑ j ∈ pre 8 512 k, posTerm X beta lab (blk k0 r) j) :
    upd0 i x0 x1 x2 x3 x4 x6 s (ix2 r 0) = ∑ j ∈ pre 8 512 (k + 1), posTerm X beta lab (blk k0 r) j := by
  show k1_pay18 (F := Ideal) _ _ _ x4 s (ix2 r 0) = _
  rw [k1_pay18_apply, hs]
  refine Eq.trans ?_ (sum_pre_succ (a := 8) (b := 512) (posTerm X beta lab (blk k0 r)) ⟨k, hk⟩).symm
  refine congrArg (_ + ·) (Finset.sum_congr rfl fun q _ => ?_)
  rw [sim_tile1 hB, hC.bRow, posKeep_tile hB hC i hk0 hk1]
  rfl

theorem upd1_step (k : ℕ) (hk : k < 8) (hB : InBlocks X lab k0 ⟨k, hk⟩ x0 x1 x2 x3)
    (hC : InCols X beta lab k0 x4 x5 x6) (s : Vec Ideal S512x1 .f32) (r : Fin 512)
    (hs : s (ix2 r 0) = ∑ j ∈ pre 8 512 k, negTerm X beta lab (blk k0 r) j) :
    upd1 x0 x1 x2 x3 x4 x5 s (ix2 r 0) = ∑ j ∈ pre 8 512 (k + 1), negTerm X beta lab (blk k0 r) j := by
  show k1_pay19 (F := Ideal) _ _ _ _ x4 s (ix2 r 0) = _
  rw [k1_pay19_apply, hs]
  refine Eq.trans ?_ (sum_pre_succ (a := 8) (b := 512) (negTerm X beta lab (blk k0 r)) ⟨k, hk⟩).symm
  refine congrArg (_ + ·) (Finset.sum_congr rfl fun q _ => ?_)
  rw [sim_tile1 hB, hC.bRow, negKeep_tile hB hC]
  rfl

theorem upd2_step (k : ℕ) (hk : k < 8) (hB : InBlocks X lab k0 ⟨k, hk⟩ x0 x1 x2 x3)
    (hC : InCols X beta lab k0 x4 x5 x6) (i : grid1.Coords) (hk0 : (i 0).val = k0.val) (hk1 : (i 1).val = k)
    (s : Vec Ideal S512x1 .f32) (r : Fin 512)
    (hs : s (ix2 r 0) = (pre 8 512 k).fold max (Ideal.ofBits .f32 0x00000000#32)
      (fun j => Spec.maskF (Spec.posKeep X lab (blk k0 r) j))) :
    upd2 i x0 x1 x2 x3 x6 s (ix2 r 0) = (pre 8 512 (k + 1)).fold max (Ideal.ofBits .f32 0x00000000#32)
      (fun j => Spec.maskF (Spec.posKeep X lab (blk k0 r) j)) := by
  show k1_pay1 (F := Ideal) _ s (ix2 r 0) = _
  rw [k1_pay1_apply, hs]
  refine Eq.trans ?_ (fold_pre_succ (a := 8) (b := 512) max max_zero_neg_inf
    (fun j => Spec.maskF (Spec.posKeep X lab (blk k0 r) j)) ⟨k, hk⟩).symm
  exact congrArg (max _) (congrArg (fun g => (Finset.univ : Finset (Fin 512)).fold max _ g)
    (funext fun q => posKeep_tile hB hC i hk0 hk1 r q))

theorem upd3_step (k : ℕ) (hk : k < 8) (hB : InBlocks X lab k0 ⟨k, hk⟩ x0 x1 x2 x3)
    (hC : InCols X beta lab k0 x4 x5 x6) (s : Vec Ideal S512x1 .f32) (r : Fin 512)
    (hs : s (ix2 r 0) = (pre 8 512 k).fold max (Ideal.ofBits .f32 0x00000000#32)
      (fun j => Spec.maskF (Spec.negKeep X lab (blk k0 r) j))) :
    upd3 x0 x1 x2 x3 x5 s (ix2 r 0) = (pre 8 512 (k + 1)).fold max (Ideal.ofBits .f32 0x00000000#32)
      (fun j => Spec.maskF (Spec.negKeep X lab (blk k0 r) j)) := by
  show k1_pay2 (F := Ideal) _ s (ix2 r 0) = _
  rw [k1_pay2_apply, hs]
  refine Eq.trans ?_ (fold_pre_succ (a := 8) (b := 512) max max_zero_neg_inf
    (fun j => Spec.maskF (Spec.negKeep X lab (blk k0 r) j)) ⟨k, hk⟩).symm
  exact congrArg (max _) (congrArg (fun g => (Finset.univ : Finset (Fin 512)).fold max _ g)
    (funext fun q => negKeep_tile hB hC r q))

end Step

/-- After the eight column blocks of row block `i0`, the value written for row `r` — computed from the four accumulators
    `a0 7`, `a1 7`, `a2 7`, `a3 7` — is the specification's loss of row `i0 * 512 + r`. `aN k` is accumulator `N` after
    column block `k`. -/
theorem loss_final (X : Spec.SX.Idx → EReal) (beta : Spec.SBeta.Idx → EReal) (lab : Spec.SLab.Idx → BitVec 32)
    (i0 : Fin 8) (coords : Fin 8 → grid1.Coords) (hc0 : ∀ k, (coords k 0).val = i0.val)
    (hc1 : ∀ k, (coords k 1).val = k.val)
    (xrow xcol : Fin 8 → Vec Ideal S512x1024 .f32) (lrow : Fin 8 → Vec Ideal S512x1 .i32)
    (lcol : Fin 8 → Vec Ideal S1x512 .i32) (brow mp mn : Fin 8 → Vec Ideal S512x1 .f32)
    (hB : ∀ k, InBlocks X lab i0 k (xrow k) (xcol k) (lrow k) (lcol k))
    (hC : ∀ k, InCols X beta lab i0 (brow k) (mp k) (mn k))
    (a0 a1 a2 a3 : Fin 8 → Vec Ideal S512x1 .f32)
    (h00 : a0 ⟨0, by omega⟩ = upd0 (coords ⟨0, by omega⟩) (xrow ⟨0, by omega⟩) (xcol ⟨0, by omega⟩) (lrow ⟨0, by omega⟩)
      (lcol ⟨0, by omega⟩) (brow ⟨0, by omega⟩) (mn ⟨0, by omega⟩) (k1_pay4 (F := Ideal)))
    (hs0 : ∀ (k : ℕ) (hk : k + 1 < 8), a0 ⟨k + 1, hk⟩ = upd0 (coords ⟨k + 1, hk⟩) (xrow ⟨k + 1, hk⟩) (xcol ⟨k + 1, hk⟩)
      (lrow ⟨k + 1, hk⟩) (lcol ⟨k + 1, hk⟩) (brow ⟨k + 1, hk⟩) (mn ⟨k + 1, hk⟩) (a0 ⟨k, Nat.lt_of_succ_lt hk⟩))
    (h10 : a1 ⟨0, by omega⟩ = upd1 (xrow ⟨0, by omega⟩) (xcol ⟨0, by omega⟩) (lrow ⟨0, by omega⟩) (lcol ⟨0, by omega⟩)
      (brow ⟨0, by omega⟩) (mp ⟨0, by omega⟩) (k1_pay5 (F := Ideal)))
    (hs1 : ∀ (k : ℕ) (hk : k + 1 < 8), a1 ⟨k + 1, hk⟩ = upd1 (xrow ⟨k + 1, hk⟩) (xcol ⟨k + 1, hk⟩) (lrow ⟨k + 1, hk⟩)
      (lcol ⟨k + 1, hk⟩) (brow ⟨k + 1, hk⟩) (mp ⟨k + 1, hk⟩) (a1 ⟨k, Nat.lt_of_succ_lt hk⟩))
    (h20 : a2 ⟨0, by omega⟩ = upd2 (coords ⟨0, by omega⟩) (xrow ⟨0, by omega⟩) (xcol ⟨0, by omega⟩) (lrow ⟨0, by omega⟩)
      (lcol ⟨0, by omega⟩) (mn ⟨0, by omega⟩) (k1_pay6 (F := Ideal)))
    (hs2 : ∀ (k : ℕ) (hk : k + 1 < 8), a2 ⟨k + 1, hk⟩ = upd2 (coords ⟨k + 1, hk⟩) (xrow ⟨k + 1, hk⟩) (xcol ⟨k + 1, hk⟩)
      (lrow ⟨k + 1, hk⟩) (lcol ⟨k + 1, hk⟩) (mn ⟨k + 1, hk⟩) (a2 ⟨k, Nat.lt_of_succ_lt hk⟩))
    (h30 : a3 ⟨0, by omega⟩ = upd3 (xrow ⟨0, by omega⟩) (xcol ⟨0, by omega⟩) (lrow ⟨0, by omega⟩) (lcol ⟨0, by omega⟩)
      (mp ⟨0, by omega⟩) (k1_pay7 (F := Ideal)))
    (hs3 : ∀ (k : ℕ) (hk : k + 1 < 8), a3 ⟨k + 1, hk⟩ = upd3 (xrow ⟨k + 1, hk⟩) (xcol ⟨k + 1, hk⟩) (lrow ⟨k + 1, hk⟩)
      (lcol ⟨k + 1, hk⟩) (mp ⟨k + 1, hk⟩) (a3 ⟨k, Nat.lt_of_succ_lt hk⟩))
    (r : Fin 512) :
    k1_pay3 (F := Ideal) (a0 ⟨7, by omega⟩) (a1 ⟨7, by omega⟩) (a2 ⟨7, by omega⟩) (a3 ⟨7, by omega⟩) (ix2 r 0)
      = Spec.perRow X beta lab (blk i0 r) := by
  have e0 : a0 ⟨7, by omega⟩ (ix2 r 0) = Spec.posSum X beta lab (blk i0 r) := by
    have h := chain a0 (fun k s => s (ix2 r 0) = ∑ j ∈ pre 8 512 k, posTerm X beta lab (blk i0 r) j)
      (k1_pay4 (F := Ideal))
      (fun k hk s => upd0 (coords ⟨k, hk⟩) (xrow ⟨k, hk⟩) (xcol ⟨k, hk⟩) (lrow ⟨k, hk⟩) (lcol ⟨k, hk⟩) (brow ⟨k, hk⟩)
        (mn ⟨k, hk⟩) s)
      h00 hs0
      (by rw [sum_pre_zero (a := 8) (b := 512), k1_pay4_apply]; exact Ideal.ofBits_zero_f32)
      (fun k hk s hP => upd0_step k hk (hB ⟨k, hk⟩) (hC ⟨k, hk⟩) _ (hc0 _) (hc1 _) s r hP)
    exact h.trans (sum_pre_full (a := 8) (b := 512) _)
  have e1 : a1 ⟨7, by omega⟩ (ix2 r 0) = Spec.negSum X beta lab (blk i0 r) := by
    have h := chain a1 (fun k s => s (ix2 r 0) = ∑ j ∈ pre 8 512 k, negTerm X beta lab (blk i0 r) j)
      (k1_pay5 (F := Ideal))
      (fun k hk s => upd1 (xrow ⟨k, hk⟩) (xcol ⟨k, hk⟩) (lrow ⟨k, hk⟩) (lcol ⟨k, hk⟩) (brow ⟨k, hk⟩) (mp ⟨k, hk⟩) s)
      h10 hs1
      (by rw [sum_pre_zero (a := 8) (b := 512), k1_pay5_apply]; exact Ideal.ofBits_zero_f32)
      (fun k hk s hP => upd1_step k hk (hB ⟨k, hk⟩) (hC ⟨k, hk⟩) s r hP)
    exact h.trans (sum_pre_full (a := 8) (b := 512) _)
  have e2 : a2 ⟨7, by omega⟩ (ix2 r 0) = (Finset.univ : Finset (Fin 4096)).fold max (Ideal.ofBits .f32 0x00000000#32)
      (fun j => Spec.maskF (Spec.posKeep X lab (blk i0 r) j)) := by
    have h := chain a2 (fun k s => s (ix2 r 0) = (pre 8 512 k).fold max (Ideal.ofBits .f32 0x00000000#32)
        (fun j => Spec.maskF (Spec.posKeep X lab (blk i0 r) j)))
      (k1_pay6 (F := Ideal))
      (fun k hk s => upd2 (coords ⟨k, hk⟩) (xrow ⟨k, hk⟩) (xcol ⟨k, hk⟩) (lrow ⟨k, hk⟩) (lcol ⟨k, hk⟩) (mn ⟨k, hk⟩) s)
      h20 hs2
      (by rw [fold_pre_zero (a := 8) (b := 512), k1_pay6_apply])
      (fun k hk s hP => upd2_step k hk (hB ⟨k, hk⟩) (hC ⟨k, hk⟩) _ (hc0 _) (hc1 _) s r hP)
    exact h.trans (fold_pre_full (a := 8) (b := 512) max _ _)
  have e3 : a3 ⟨7, by omega⟩ (ix2 r 0) = (Finset.univ : Finset (Fin 4096)).fold max (Ideal.ofBits .f32 0x00000000#32)
      (fun j => Spec.maskF (Spec.negKeep X lab (blk i0 r) j)) := by
    have h := chain a3 (fun k s => s (ix2 r 0) = (pre 8 512 k).fold max (Ideal.ofBits .f32 0x00000000#32)
        (fun j => Spec.maskF (Spec.negKeep X lab (blk i0 r) j)))
      (k1_pay7 (F := Ideal))
      (fun k hk s => upd3 (xrow ⟨k, hk⟩) (xcol ⟨k, hk⟩) (lrow ⟨k, hk⟩) (lcol ⟨k, hk⟩) (mp ⟨k, hk⟩) s)
      h30 hs3
      (by rw [fold_pre_zero (a := 8) (b := 512), k1_pay7_apply])
      (fun k hk s hP => upd3_step k hk (hB ⟨k, hk⟩) (hC ⟨k, hk⟩) s r hP)
    exact h.trans (fold_pre_full (a := 8) (b := 512) max _ _)
  rw [k1_pay3_apply, e0, e1, e2, e3, any_flag, any_flag]
  unfold Spec.perRow Spec.valid Spec.anyNeg Spec.anyPos
  exact congrArg (fun c => Scalar.select c _ _) (BitVec.and_comm _ _)

end Cert.KVal

end
-- ==== Proof.RefGather.lean ====
import Idealize.ShloMosaic.Lib.ValueIdx

/-!
A gather of single elements of a flat array: for an operand of `N` elements and a column of `R` start indices
(shape `[R, 1]`), result element `t` is the operand at start index `t`, read as a signed integer and clamped into
`[0, N - 1]`. This is what indexing a flat array by an integer vector lowers to.
-/

noncomputable section

namespace Cert.RefSpec

open Idealize.ShloMosaic Idealize.ShloMosaic.ValueIdx

/-- A rank-1 index's coordinate is below the extent, written as `n` itself. -/
theorem idx1_lt {n : Nat} (j : (⟨1, ![n]⟩ : Shape).Idx) : (j 0).val < n := (j 0).isLt

/-- The dimension numbers of that gather: the operand's one axis collapsed and indexed by the start index, whose
    component sits on axis 1 of the start indices. -/
abbrev rowDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The start-indices index `[t, 0]` of result index `t`. -/
abbrev rowIdx {R : Nat} (y : (⟨1, ![R]⟩ : Shape).Idx) : (⟨2, ![R, 1]⟩ : Shape).Idx :=
  fun a => match a with | ⟨0, _⟩ => ⟨(y 0).val, idx1_lt y⟩ | ⟨1, _⟩ => ⟨0, Nat.one_pos⟩

/-- The gather read at `t`: the operand at the start index `idx[t, 0]`, read signed and clamped into `[0, N - 1]`. -/
theorem gather_rows_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (rowDims N R wf) x idx y = x (ix1 ⟨min (idx (rowIdx y)).toInt.toNat (N - 1), by omega⟩) := by
  unfold Host.gather
  congr 1
  funext a
  obtain rfl : a = 0 := Subsingleton.elim _ _
  refine Fin.ext ?_
  show (rowDims N R wf).start y idx 0 + (rowDims N R wf).batchCoord y 0 + (rowDims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowDims N R wf).startIndexMap from List.mem_singleton.mpr rfl)]
  have hsi : (rowDims N R wf).siIdx y ⟨List.idxOf (0 : Fin 1) (rowDims N R wf).startIndexMap,
      List.idxOf_lt_length_iff.2 (List.mem_singleton.mpr rfl)⟩ = rowIdx y := by
    funext b; refine Fin.ext ?_
    match b with
    | ⟨0, _⟩ => rfl
    | ⟨1, _⟩ => rfl
  rw [hsi]
  rfl

end Cert.RefSpec

end
-- ==== Proof.SpecHost.lean ====
import proofs.«115905_j90486370992708_1_alg».proof.Proof.Spec
import proofs.«115905_j90486370992708_1_alg».proof.Proof.SpecLaws
import proofs.«115905_j90486370992708_1_alg».proof.Proof.RefGather

/-!
Two host stages read against the specification, stated over the literal shapes so that any program whose host operations
have these shapes can cite them.

* The gather of the thresholds at a column of wrapped labels is the specification's per-row threshold.
* The sum of a 4096 × 1 column of row losses over both axes, from the zero constant, divided by the constant 4096, is the
  specification's result: the sum over every index of a 4096 × 1 array is the sum over its rows.
-/

noncomputable section

namespace Cert.Spec

open Idealize.ShloMosaic Idealize.ShloMosaic.ValueIdx Cert.RefSpec
open scoped BigOperators

/-- The start-indices index of row `r` is `(r, 0)`. -/
theorem rowIdx_ix1 (r : Fin 4096) : rowIdx (ix1 r) = (ix2 r (0 : Fin 1) : (⟨2, ![4096, 1]⟩ : Shape).Idx) := by
  funext a; match a with | ⟨0, _⟩ => rfl | ⟨1, _⟩ => rfl

/-- The thresholds gathered at a column holding each row's wrapped label: row `r` gets its class's threshold. -/
theorem gather_bRow (wf : GatherDims.WF ⟨1, ![100]⟩ ⟨2, ![4096, 1]⟩ ⟨1, ![4096]⟩ [] [0] [] [0] [] 1 ![1])
    (beta : SBeta.Idx → EReal) (lab : SLab.Idx → BitVec 32) (idx : IVec ⟨2, ![4096, 1]⟩ 32)
    (hidx : ∀ r : Fin 4096, idx (ix2 r (0 : Fin 1)) = wrapLab lab r) (r : Fin 4096) :
    Host.gather (rowDims 100 4096 wf) beta idx (ix1 r) = bRow beta lab r := by
  refine (gather_rows_apply (by decide) wf beta idx (ix1 r)).trans ?_
  unfold bRow
  refine congrArg beta (congrArg ix1 (Fin.ext ?_))
  show min (idx (rowIdx (ix1 r))).toInt.toNat (100 - 1) = min (wrapLab lab r).toInt.toNat 99
  rw [rowIdx_ix1, hidx]

/-- The sum over every index of a 4096 × 1 array is the sum over its rows. -/
theorem sum_col (P : (⟨2, ![4096, 1]⟩ : Shape).Idx → EReal) : ∑ i, P i = ∑ r : Fin 4096, P (ix2 r (0 : Fin 1)) := by
  rw [sum_idx2]
  refine Finset.sum_congr rfl fun r _ => ?_
  exact Fin.sum_univ_one _

/-- The host's tail on a column of row losses: their sum from the zero constant, divided by the constant 4096. -/
theorem tail_eq_G (X : SX.Idx → EReal) (beta : SBeta.Idx → EReal) (lab : SLab.Idx → BitVec 32)
    (P : FVec Ideal ⟨2, ![4096, 1]⟩ .f32) (hP : ∀ r : Fin 4096, P (ix2 r (0 : Fin 1)) = perRow X beta lab r)
    (h : (⟨2, ![4096, 1]⟩ : Shape).ReducesTo [0, 1] S0) (hu : 0 < S0.numel) :
    Host.divf (F := Ideal) (Host.reduceAdd (F := Ideal) P (constant (F := Ideal) S0 .f32 0x00000000#32) h hu)
        (constant (F := Ideal) S0 .f32 0x45800000#32)
      = G X beta lab := by
  funext i
  show Ideal.div (Ideal.hostReduceAdd h P (Ideal.ofBits .f32 0x00000000#32) i) (Ideal.ofBits .f32 0x45800000#32) = _
  rw [Ideal.hostReduceAdd_total h (fun b => b.elim0) P _ i, sum_col]
  unfold G
  refine congrArg (fun s => Ideal.div (Ideal.ofBits .f32 0x00000000#32 + s) (Ideal.ofBits .f32 0x45800000#32)) ?_
  exact Finset.sum_congr rfl fun r _ => hP r

end Cert.Spec

end
-- ==== Proof.KI.ValueSpec1.lean ====
import proofs.«115905_j90486370992708_1_alg».proof.Proof.KI.ValueSpec0
import proofs.«115905_j90486370992708_1_alg».proof.Proof.KI.R1Final
import proofs.«115905_j90486370992708_1_alg».proof.Proof.KVal1Final
import proofs.«115905_j90486370992708_1_alg».proof.Proof.SpecHost

noncomputable section

namespace Cert.KernelIdeal.LossSpec

open Cert.KernelIdeal Cert.KernelIdeal.Gen Cert.KernelIdeal.Loss Cert.KernelIdeal.Hand
open Idealize.ShloMosaic Idealize.ShloMosaic.TcCoe Idealize.SL.Sem Idealize.ShloMosaic.ValueIdx

/-! # The second kernel's output array, on the extended reals

Row `512 i + r` of the output is the row's loss: for each row block the eight grid points add the eight column blocks
of kept exponentials and take the greatest keep flags, and the sums and the "some column kept" over all 4096 columns
regroup into those eight blocks. The kernel reads the first kernel's two output arrays, which hold each row's least
similarity over positives and greatest over negatives. -/

variable (m : (ℓ : Loc nD τ sig) → Buf (Elt Ideal) ℓ)

abbrev X (c : Dev nD) : Cert.Spec.SX.Idx → EReal := m ((c : Thread nD τ).loc main_arg0)
abbrev beta (c : Dev nD) : Cert.Spec.SBeta.Idx → EReal := m ((c : Thread nD τ).loc main_arg1)
abbrev lab (c : Dev nD) : Cert.Spec.SLab.Idx → BitVec 32 := m ((c : Thread nD τ).loc main_arg2)

/-- The second kernel finds every array but the first kernel's two outputs as the first kernel found it. -/
theorem W2_of (c : Dev nD) (b : Ref sig .tc) (h0 : b ≠ main_v10_0) (h1 : b ≠ main_v10_1) : W2 m c b = Gen.V1 m c b := by
  show Function.update (Function.update (Gen.V1 m c) main_v10_0 (o0 m c)) main_v10_1 (o1 m c) (Proc.devRef .tc b) = _
  rw [Function.update_of_ne (StableHlo.devRef_ne_of_ne h1 : (Proc.devRef .tc b : DevRef τ sig) ≠ Proc.devRef .tc main_v10_1),
    Function.update_of_ne (StableHlo.devRef_ne_of_ne h0 : (Proc.devRef .tc b : DevRef τ sig) ≠ Proc.devRef .tc main_v10_0)]
theorem W2_v10_0 (c : Dev nD) : W2 m c main_v10_0 = o0 m c := by
  show Function.update (Function.update (Gen.V1 m c) main_v10_0 (o0 m c)) main_v10_1 (o1 m c) (Proc.devRef .tc main_v10_0) = _
  rw [Function.update_of_ne (StableHlo.devRef_ne_of_ne (by decide) : (Proc.devRef .tc main_v10_0 : DevRef τ sig) ≠ Proc.devRef .tc main_v10_1),
    Function.update_self]
theorem W2_v10_1 (c : Dev nD) : W2 m c main_v10_1 = o1 m c := by
  show Function.update (Function.update (Gen.V1 m c) main_v10_0 (o0 m c)) main_v10_1 (o1 m c) (Proc.devRef .tc main_v10_1) = _
  rw [Function.update_self]

/-- The column of wrapped labels the thresholds are gathered at. -/
theorem wrap_apply (c : Dev nD) (r : Fin 4096) :
    (broadcastInDim S4096x1 ![0] bcast_S4096_S4096x1_0
      (select
        (cmpi CmpIPredicate.slt (m ((c : Thread nD τ).loc main_arg2)) (broadcastInDim S4096 ![] bcast_S_S4096 (constantI S_ 32 0#32)))
        (addi (m ((c : Thread nD τ).loc main_arg2)) (broadcastInDim S4096 ![] bcast_S_S4096 (constantI S_ 32 100#32)))
        (m ((c : Thread nD τ).loc main_arg2))) : IVec S4096x1 32) (ix2 r (0 : Fin 1)) = Cert.Spec.wrapLab (lab m c) r := by
  refine (broadcastInDim_apply _ bcast_S4096_S4096x1_0 _ (ix2 r (0 : Fin 1)) (ix1 r) (fun a => match a with
    | ⟨0, _⟩ => by show r.val = if (4096 : Nat) = 1 then 0 else r.val; rw [if_neg (by decide)])).trans ?_
  show Scalar.select
      (IntOp.cmpi .slt (lab m c (ix1 r)) (broadcastInDim S4096 ![] bcast_S_S4096 (constantI S_ 32 0#32) (ix1 r)))
      (IntOp.addi (lab m c (ix1 r)) (broadcastInDim S4096 ![] bcast_S_S4096 (constantI S_ 32 100#32) (ix1 r)))
      (lab m c (ix1 r)) = _
  rw [broadcastInDim_apply _ bcast_S_S4096 (constantI S_ 32 0#32) (ix1 r) (fun a => a.elim0) (fun a => a.elim0),
    broadcastInDim_apply _ bcast_S_S4096 (constantI S_ 32 100#32) (ix1 r) (fun a => a.elim0) (fun a => a.elim0)]
  rfl

/-- Each row's class threshold, as both kernels' host stretch computes it. -/
theorem bRow_apply (c : Dev nD) (r : Fin 4096) :
    (Gen.V1 m c main_v9 : S4096x1.Idx → EReal) (ix2 r 0) = Cert.Spec.bRow (beta m c) (lab m c) r := by
  rw [HostSide.V1_v9]
  refine (shapeCast_apply _ _ (ix2 r 0) (ix1 r) (by rw [Shape.rowMajor_val_one, Shape.rowMajor_val_two]; show r.val = r.val * 1 + 0; omega)).trans ?_
  have hd : gather_S100_S4096x1_S4096_n_0_n_n_0_1_1
      = Cert.RefSpec.rowDims 100 4096 gather_S100_S4096x1_S4096_n_0_n_n_0_1_1_wf := rfl
  rw [hd]
  exact Cert.Spec.gather_bRow _ (beta m c) (lab m c) _ (wrap_apply m c) r

theorem blk_div (i0 k : Fin 8) (r : Fin 512) : blk ((pt i0 k).val / 8) (div_lt (pt i0 k)) r = Cert.KVal.blk i0 r :=
  Fin.ext (by show (pt i0 k).val / 8 * 512 + r.val = i0.val * 512 + r.val; rw [pt_div])
theorem blk_mod (i0 k : Fin 8) (q : Fin 512) : blk ((pt i0 k).val % 8) (mod_lt (pt i0 k)) q = Cert.KVal.blk k q :=
  Fin.ext (by show (pt i0 k).val % 8 * 512 + q.val = k.val * 512 + q.val; rw [pt_mod])

/-- What the embeddings' and the labels' blocks of the point at row block `i0`, column block `k` hold. -/
theorem inBlocks (c : Dev nD) (i0 k : Fin 8) :
    Cert.KVal.InBlocks (X m c) (lab m c) i0 k (iblk (E2 m) c 0 (pt i0 k)) (iblk (E2 m) c 1 (pt i0 k))
      (iblk (E2 m) c 2 (pt i0 k)) (iblk (E2 m) c 3 (pt i0 k)) where
  row r d := by
    rw [iblk0_apply, blk_div]
    exact (congrFun (W2_of m c main_arg0 (by decide) (by decide)) _).trans (congrFun (HostSide.V1_arg0 m c) _)
  col q d := by
    rw [iblk1_apply, blk_mod]
    exact (congrFun (W2_of m c main_arg0 (by decide) (by decide)) _).trans (congrFun (HostSide.V1_arg0 m c) _)
  rowLab r := by
    rw [iblk2_apply, blk_div]
    exact (congrFun (W2_of m c main_v0 (by decide) (by decide)) _).trans (HostSide.V1_v0_apply m c _)
  colLab q := by
    rw [iblk3_apply, blk_mod]
    exact (congrFun (W2_of m c main_v1 (by decide) (by decide)) _).trans (HostSide.V1_v1_apply m c _)

/-- What the three per-row input blocks of row block `i0` hold: the class thresholds and the first kernel's results. -/
theorem inCols (c : Dev nD) (i0 k : Fin 8) :
    Cert.KVal.InCols (X m c) (beta m c) (lab m c) i0 (iblk (E2 m) c 4 (pt i0 k)) (iblk (E2 m) c 5 (pt i0 k)) (iblk (E2 m) c 6 (pt i0 k)) where
  bRow r := by
    rw [iblk4_apply, blk_div]
    exact (congrFun (W2_of m c main_v9 (by decide) (by decide)) _).trans (bRow_apply m c _)
  minPos r := by
    rw [iblk5_apply, blk_div]
    exact (congrFun (W2_v10_0 m c) _).trans (congrFun (MinMaxSpec.minPos_array m c) _)
  maxNeg r := by
    rw [iblk6_apply, blk_div]
    exact (congrFun (W2_v10_1 m c) _).trans (congrFun (MinMaxSpec.maxNeg_array m c) _)

/-- At column block 7 of row block `i0` the row losses computed from the four accumulators are the specification's. -/
theorem rows (c : Dev nD) (i0 : Fin 8) (r : Fin 512) :
    lossOf (accSeq (E2 m) c i0 7) (ix2 r 0) = Cert.Spec.perRow (X m c) (beta m c) (lab m c) (Cert.KVal.blk i0 r) :=
  Cert.KVal.loss_final (X m c) (beta m c) (lab m c) i0 (fun k => grid1.coords (pt i0 k))
    (fun k => (coords_val (pt i0 k)).1.trans (pt_div i0 k)) (fun k => (coords_val (pt i0 k)).2.trans (pt_mod i0 k))
    (fun k => iblk (E2 m) c 0 (pt i0 k)) (fun k => iblk (E2 m) c 1 (pt i0 k))
    (fun k => iblk (E2 m) c 2 (pt i0 k)) (fun k => iblk (E2 m) c 3 (pt i0 k))
    (fun k => iblk (E2 m) c 4 (pt i0 k)) (fun k => iblk (E2 m) c 5 (pt i0 k)) (fun k => iblk (E2 m) c 6 (pt i0 k))
    (fun k => inBlocks m c i0 k) (fun k => inCols m c i0 k)
    (fun k => (accSeq (E2 m) c i0 k).1) (fun k => (accSeq (E2 m) c i0 k).2.1)
    (fun k => (accSeq (E2 m) c i0 k).2.2.1) (fun k => (accSeq (E2 m) c i0 k).2.2.2)
    (congrArg (·.1) (accSeq_zero (E2 m) c i0)) (fun k hk => congrArg (·.1) (accSeq_succ (E2 m) c i0 ⟨k, by omega⟩))
    (congrArg (·.2.1) (accSeq_zero (E2 m) c i0)) (fun k hk => congrArg (·.2.1) (accSeq_succ (E2 m) c i0 ⟨k, by omega⟩))
    (congrArg (·.2.2.1) (accSeq_zero (E2 m) c i0)) (fun k hk => congrArg (·.2.2.1) (accSeq_succ (E2 m) c i0 ⟨k, by omega⟩))
    (congrArg (·.2.2.2) (accSeq_zero (E2 m) c i0)) (fun k hk => congrArg (·.2.2.2) (accSeq_succ (E2 m) c i0 ⟨k, by omega⟩))
    r

theorem pt_last (t : Fin cfg1.N) (h7 : t.val % 8 = 7) : t = pt ⟨t.val / 8, div_lt t⟩ 7 :=
  Fin.ext (by show t.val = 8 * (t.val / 8) + 7; omega)

theorem out_rows (c : Dev nD) (t : Fin cfg1.N) (h7 : t.val % 8 = 7) (r : Fin 512) :
    (outsAt (E2 m) c t.val t.isLt).1 (ix2 r 0)
      = Cert.Spec.perRow (X m c) (beta m c) (lab m c) (blk (t.val / 8) (div_lt t) r) := by
  rw [outsAt_out (E2 m) c t h7]
  have e : (outsAt (E2 m) c t.val t.isLt).2 = accSeq (E2 m) c ⟨t.val / 8, div_lt t⟩ 7 :=
    congrArg Prod.snd (outsAt_congr (E2 m) c (congrArg Fin.val (pt_last t h7)) t.isLt _)
  rw [e]
  exact rows m c ⟨t.val / 8, div_lt t⟩ r

/-- THE OUTPUT ARRAY: per row its loss. -/
theorem perRow_array (c : Dev nD) :
    (o2 m c : S4096x1.Idx → EReal) = fun i => Cert.Spec.perRow (X m c) (beta m c) (lab m c) (i 0) :=
  final7 (E2 m) Share.qL Share.qR c _ (fun t h7 r => out_rows m c t h7 r)

/-- THE RESULT: the mean of the row losses — the specification's value. -/
theorem result (c : Dev nD) :
    (Gen.V4 m (outs m) c main_v13 : S_.Idx → EReal) = Cert.Spec.G (X m c) (beta m c) (lab m c) := by
  rw [HostSide.V4_v13, outs_v11]
  exact Cert.Spec.tail_eq_G (X m c) (beta m c) (lab m c) _ (fun r => congrFun (perRow_array m c) _) _ _

end Cert.KernelIdeal.LossSpec

end
-- ==== Proof.RefSim.lean ====
import proofs.«115905_j90486370992708_1_alg».proof.Proof.Gen.ReferenceIdeal.Read
import proofs.«115905_j90486370992708_1_alg».proof.Proof.Spec

/-! The reference's similarity matrix, entry by entry: the product of the embeddings with their transpose at `(r, j)`
is the inner product of rows `r` and `j`. -/

noncomputable section

namespace Cert.RefSpec

open Cert.ReferenceIdeal Cert.ReferenceIdeal.Gen Cert.ReferenceIdeal.Read Idealize.ShloMosaic Idealize.ShloMosaic.ValueIdx
open scoped BigOperators

/-- Entry `(r, j)` of the product `X · Xᵀ` is `∑ d, X r d * X j d`. -/
theorem sim_eq (x0 : (⟨S4096x1024, .f32⟩ : BufTy).Contents (Elt Ideal)) (r j : Fin 4096) :
    val_main_v1 (F := Ideal) x0 (ix2 r j) = Cert.Spec.sim x0 r j := by
  rw [val_main_v1_apply]
  unfold Cert.Spec.sim
  refine Finset.sum_congr rfl fun k _ => ?_
  rw [val_main_v0_apply]
  have e1 : lidx_main_v1 (ix2 r j) k = ix2 r k := by
    funext a; match a with | ⟨0, _⟩ => rfl | ⟨1, _⟩ => rfl
  have e2 : idx_main_v0 (ridx_main_v1 (ix2 r j) k) = ix2 j k := by
    funext a; match a with | ⟨0, _⟩ => rfl | ⟨1, _⟩ => rfl
  rw [e1, e2]

end Cert.RefSpec

end
-- ==== Proof.RefMasks.lean ====
import proofs.«115905_j90486370992708_1_alg».proof.Proof.Gen.ReferenceIdeal.Read
import proofs.«115905_j90486370992708_1_alg».proof.Proof.Spec
import proofs.«115905_j90486370992708_1_alg».proof.Proof.SpecLaws
import proofs.«115905_j90486370992708_1_alg».proof.Proof.RefSim

/-!
The reference's masks and row extrema, entry by entry, are the specification's.

At entry `(r, j)` of the 4096 × 4096 matrices: the label comparison reads labels `r` and `j`; the comparison of the two
index matrices is "`r` is `j`"; the positive and negative masks are the conjunctions the specification writes; the row
minimum over the positives (with `+∞` elsewhere) and the row maximum over the negatives (with `-∞` elsewhere) are
folds of `min` / `max` over the 4096 columns; the kept masks compare the shifted similarity with those extrema; and
"some column is kept" is the fold of the bitwise or over the columns.
-/

noncomputable section

namespace Cert.RefSpec

open Cert.ReferenceIdeal Cert.ReferenceIdeal.Gen Cert.ReferenceIdeal.Read Idealize.ShloMosaic Idealize.ShloMosaic.ValueIdx
open scoped BigOperators

variable (x0 : (⟨S4096x1024, .f32⟩ : BufTy).Contents (Elt Ideal)) (x2 : (⟨S4096, .i32⟩ : BufTy).Contents (Elt Ideal))

/-- Column `j` of row `r`, as the index with `j` inserted on the reduced axis. -/
theorem lift_eq (h : S4096x4096.Reduces [1] S4096) (r j : Fin 4096) : h.lift (ix1 r) j = ix2 r j := by
  funext c
  refine Fin.ext ?_
  match c with
  | ⟨0, _⟩ => rfl
  | ⟨1, _⟩ => rfl

/-- The column of a row's value, broadcast along the row: entry `(r, j)` reads row `r`. -/
theorem col_idx (r j : Fin 4096) : idx_main_v24 (idx_main_v25 (ix2 r j)) = ix1 r := by
  funext a; match a with | ⟨0, _⟩ => rfl

theorem same_eq (r j : Fin 4096) : val_main_v6 (F := Ideal) x2 (ix2 r j) = Cert.Spec.same x2 r j := by
  rw [val_main_v6_apply, val_main_v4_apply, val_main_v5_apply, val_main_v2_apply, val_main_v3_apply]
  have e1 : idx_main_v2 (idx_main_v4 (ix2 r j)) = ix1 r := by funext a; match a with | ⟨0, _⟩ => rfl
  have e2 : idx_main_v3 (idx_main_v5 (ix2 r j)) = ix1 j := by funext a; match a with | ⟨0, _⟩ => rfl
  rw [e1, e2]
  rfl

theorem offDiag_eq (r j : Fin 4096) : val_main_v12 (F := Ideal) (ix2 r j) = Cert.Spec.offDiag r j := by
  rw [val_main_v12_apply, val_main_v11_apply, val_main_v10_apply, val_main_v7_apply, val_main_v8_apply, val_main_v9_apply,
    val_main_c_apply]
  exact Cert.Spec.offDiag_eq_add_zero r j

theorem pos_eq (r j : Fin 4096) : val_main_v16 (F := Ideal) x0 x2 (ix2 r j) = Cert.Spec.pos x0 x2 r j := by
  rw [val_main_v16_apply, val_main_v13_apply, val_main_v15_apply, val_main_v14_apply, val_main_cst_apply, same_eq, offDiag_eq,
    sim_eq]
  rfl

theorem neg_eq (r j : Fin 4096) : val_main_v17 (F := Ideal) x2 (ix2 r j) = Cert.Spec.neg x2 r j := by
  rw [val_main_v17_apply, same_eq]
  rfl

/-- The least similarity over a row's positives. -/
theorem minPos_eq (r : Fin 4096) : val_main_v19 (F := Ideal) x0 x2 (ix1 r) = Cert.Spec.minPos x0 x2 r := by
  have hred : S4096x4096.Reduces [1] S4096 := by decide
  unfold val_main_v19
  refine (Host.reduce_eq_fold_single (FloatOps.minimumf (F := Ideal) (φ := .f32)) _ _ reducesTo_S4096x4096_S4096_d1 hred h_S_
    (ix1 r)).trans ?_
  rw [val_main_cst_1_apply]
  unfold Cert.Spec.minPos
  refine Finset.fold_congr fun (j : Fin 4096) _ => ?_
  show val_main_v18 (F := Ideal) x0 x2 (hred.lift (ix1 r) j) = _
  rw [lift_eq, val_main_v18_apply, pos_eq, sim_eq, val_main_call0_v1_apply, val_main_call0_v0_apply, val_main_cst_0_apply]
  rfl

/-- The greatest similarity over a row's negatives. -/
theorem maxNeg_eq (r : Fin 4096) : val_main_v21 (F := Ideal) x0 x2 (ix1 r) = Cert.Spec.maxNeg x0 x2 r := by
  have hred : S4096x4096.Reduces [1] S4096 := by decide
  unfold val_main_v21
  refine (Host.reduce_eq_fold_single (FloatOps.maximumf (F := Ideal) (φ := .f32)) _ _ reducesTo_S4096x4096_S4096_d1 hred h_S_
    (ix1 r)).trans ?_
  rw [val_main_cst_3_apply]
  unfold Cert.Spec.maxNeg
  refine Finset.fold_congr fun (j : Fin 4096) _ => ?_
  show val_main_v20 (F := Ideal) x0 x2 (hred.lift (ix1 r) j) = _
  rw [lift_eq, val_main_v20_apply, neg_eq, sim_eq, val_main_call1_v1_apply, val_main_call1_v0_apply, val_main_cst_2_apply]
  rfl

theorem negKeep_eq (r j : Fin 4096) : val_main_v27 (F := Ideal) x0 x2 (ix2 r j) = Cert.Spec.negKeep x0 x2 r j := by
  rw [val_main_v27_apply, neg_eq, val_main_v26_apply, val_main_v23_apply, sim_eq, val_main_v22_apply, val_main_cst_4_apply,
    val_main_v25_apply, val_main_v24_apply, col_idx, minPos_eq]
  rfl

theorem posKeep_eq (r j : Fin 4096) : val_main_v33 (F := Ideal) x0 x2 (ix2 r j) = Cert.Spec.posKeep x0 x2 r j := by
  have e : idx_main_v30 (idx_main_v31 (ix2 r j)) = ix1 r := by funext a; match a with | ⟨0, _⟩ => rfl
  rw [val_main_v33_apply, pos_eq, val_main_v32_apply, val_main_v29_apply, sim_eq, val_main_v28_apply, val_main_cst_5_apply,
    val_main_v31_apply, val_main_v30_apply, e, maxNeg_eq]
  rfl

/-- Some negative of the row is kept. -/
theorem anyNeg_eq (r : Fin 4096) : val_main_v34 (F := Ideal) x0 x2 (ix1 r) = Cert.Spec.anyNeg x0 x2 r := by
  have hred : S4096x4096.Reduces [1] S4096 := by decide
  unfold val_main_v34
  refine (Host.reduce_eq_fold_single (IntOp.ori (w := 1)) _ _ reducesTo_S4096x4096_S4096_d1 hred h_S_ (ix1 r)).trans ?_
  rw [val_main_c_6_apply]
  unfold Cert.Spec.anyNeg
  refine Finset.fold_congr fun (j : Fin 4096) _ => ?_
  show val_main_v27 (F := Ideal) x0 x2 (hred.lift (ix1 r) j) = _
  rw [lift_eq, negKeep_eq]

/-- Some positive of the row is kept. -/
theorem anyPos_eq (r : Fin 4096) : val_main_v35 (F := Ideal) x0 x2 (ix1 r) = Cert.Spec.anyPos x0 x2 r := by
  have hred : S4096x4096.Reduces [1] S4096 := by decide
  unfold val_main_v35
  refine (Host.reduce_eq_fold_single (IntOp.ori (w := 1)) _ _ reducesTo_S4096x4096_S4096_d1 hred h_S_ (ix1 r)).trans ?_
  rw [val_main_c_7_apply]
  unfold Cert.Spec.anyPos
  refine Finset.fold_congr fun (j : Fin 4096) _ => ?_
  show val_main_v33 (F := Ideal) x0 x2 (hred.lift (ix1 r) j) = _
  rw [lift_eq, posKeep_eq]

theorem valid_eq (r : Fin 4096) : val_main_v36 (F := Ideal) x0 x2 (ix1 r) = Cert.Spec.valid x0 x2 r := by
  rw [val_main_v36_apply, anyNeg_eq, anyPos_eq]
  rfl

end Cert.RefSpec

end
-- ==== Proof.RefB.lean ====
import proofs.«115905_j90486370992708_1_alg».proof.Proof.Gen.ReferenceIdeal.Read
import proofs.«115905_j90486370992708_1_alg».proof.Proof.Spec
import proofs.«115905_j90486370992708_1_alg».proof.Proof.RefGather

/-!
The reference's per-row threshold: the thresholds gathered at the labels, a negative label first moved up by 100, is
`beta` at the wrapped label read signed and clamped into `[0, 99]` — the specification's `bRow`.
-/

noncomputable section

namespace Cert.RefSpec

open Cert.ReferenceIdeal Cert.ReferenceIdeal.Gen Cert.ReferenceIdeal.Read Idealize.ShloMosaic Idealize.ShloMosaic.ValueIdx

variable (x1 : (⟨S100, .f32⟩ : BufTy).Contents (Elt Ideal)) (x2 : (⟨S4096, .i32⟩ : BufTy).Contents (Elt Ideal))

/-- The column of start indices at row `r` is row `r`'s wrapped label. -/
theorem wrap_eq (r : Fin 4096) : val_main_v42 (F := Ideal) x2 (rowIdx (ix1 r)) = Cert.Spec.wrapLab x2 r := by
  have e : idx_main_v42 (rowIdx (ix1 r)) = ix1 r := by funext a; match a with | ⟨0, _⟩ => rfl
  rw [val_main_v42_apply, e, val_main_v41_apply, val_main_v38_apply, val_main_v40_apply, val_main_v37_apply, val_main_v39_apply,
    val_main_c_8_apply, val_main_c_9_apply]
  rfl

/-- The gathered threshold of row `r`. -/
theorem b_eq (r : Fin 4096) : val_main_v43 (F := Ideal) x1 x2 (ix1 r) = Cert.Spec.bRow x1 x2 r := by
  unfold val_main_v43
  have hd : gather_S100_S4096x1_S4096_n_0_n_n_0_1_1
      = rowDims 100 4096 gather_S100_S4096x1_S4096_n_0_n_n_0_1_1_wf := rfl
  rw [hd]
  refine (gather_rows_apply (by decide) _ x1 (val_main_v42 (F := Ideal) x2) (ix1 r)).trans ?_
  unfold Cert.Spec.bRow
  refine congrArg x1 (congrArg ix1 (Fin.ext ?_))
  show min (val_main_v42 (F := Ideal) x2 (rowIdx (ix1 r))).toInt.toNat (100 - 1) = min (Cert.Spec.wrapLab x2 r).toInt.toNat 99
  rw [wrap_eq]

end Cert.RefSpec

end
-- ==== Proof.RefSums.lean ====
import proofs.«115905_j90486370992708_1_alg».proof.Proof.Gen.ReferenceIdeal.Read
import proofs.«115905_j90486370992708_1_alg».proof.Proof.Spec
import proofs.«115905_j90486370992708_1_alg».proof.Proof.SpecLaws
import proofs.«115905_j90486370992708_1_alg».proof.Proof.RefSim
import proofs.«115905_j90486370992708_1_alg».proof.Proof.RefMasks
import proofs.«115905_j90486370992708_1_alg».proof.Proof.RefB

/-!
The reference's two masked sums of exponentials, its row losses and their mean are the specification's.

A row sum of the host starts from the zero constant, which is the extended real `0`, and adds the 4096 entries of the row;
the final sum over the rows keeps its zero constant, as the specification does, and the division is the extended reals'.
-/

noncomputable section

namespace Cert.RefSpec

open Cert.ReferenceIdeal Cert.ReferenceIdeal.Gen Cert.ReferenceIdeal.Read Idealize.ShloMosaic Idealize.ShloMosaic.ValueIdx
open scoped BigOperators

variable (x0 : (⟨S4096x1024, .f32⟩ : BufTy).Contents (Elt Ideal)) (x1 : (⟨S100, .f32⟩ : BufTy).Contents (Elt Ideal))
  (x2 : (⟨S4096, .i32⟩ : BufTy).Contents (Elt Ideal))

/-- Column `k` of row `r` in a row sum. -/
theorem row_idx53 (r k : Fin 4096) : idx_main_v53 (ix1 r) k = ix2 r k := by
  funext a; match a with | ⟨0, _⟩ => rfl | ⟨1, _⟩ => rfl
theorem row_idx63 (r k : Fin 4096) : idx_main_v63 (ix1 r) k = ix2 r k := by
  funext a; match a with | ⟨0, _⟩ => rfl | ⟨1, _⟩ => rfl
/-- The threshold broadcast along a row: entry `(r, j)` reads row `r`'s. -/
theorem b_idx47 (r j : Fin 4096) : idx_main_v44 (idx_main_v47 (ix2 r j)) = ix1 r := by
  funext a; match a with | ⟨0, _⟩ => rfl
theorem b_idx57 (r j : Fin 4096) : idx_main_v44 (idx_main_v57 (ix2 r j)) = ix1 r := by
  funext a; match a with | ⟨0, _⟩ => rfl

theorem posSum_eq (r : Fin 4096) : val_main_v53 (F := Ideal) x0 x1 x2 (ix1 r) = Cert.Spec.posSum x0 x1 x2 r := by
  rw [val_main_v53_apply, val_main_cst_11_apply, Ideal.ofBits_def, Ideal.ofBits_zero_f32, zero_add]
  unfold Cert.Spec.posSum
  refine Finset.sum_congr rfl fun k _ => ?_
  rw [row_idx53, val_main_v52_apply, val_main_v51_apply, val_main_v50_apply, val_main_v49_apply, val_main_cst_10_apply,
    val_main_v48_apply, sim_eq, val_main_v47_apply, val_main_v44_apply, b_idx47, b_eq, val_main_v45_apply, posKeep_eq,
    Cert.Spec.maskF_uitofp]
  rfl

theorem negSum_eq (r : Fin 4096) : val_main_v63 (F := Ideal) x0 x1 x2 (ix1 r) = Cert.Spec.negSum x0 x1 x2 r := by
  rw [val_main_v63_apply, val_main_cst_14_apply, Ideal.ofBits_def, Ideal.ofBits_zero_f32, zero_add]
  unfold Cert.Spec.negSum
  refine Finset.sum_congr rfl fun k _ => ?_
  rw [row_idx63, val_main_v62_apply, val_main_v61_apply, val_main_v60_apply, val_main_v59_apply, val_main_cst_13_apply,
    val_main_v58_apply, sim_eq, val_main_v57_apply, val_main_v44_apply, b_idx57, b_eq, val_main_v46_apply, negKeep_eq,
    Cert.Spec.maskF_uitofp]
  rfl

theorem perRow_eq (r : Fin 4096) : val_main_v68 (F := Ideal) x0 x1 x2 (ix1 r) = Cert.Spec.perRow x0 x1 x2 r := by
  rw [val_main_v68_apply, valid_eq, val_main_v67_apply, val_main_v56_apply, val_main_v66_apply, val_main_v55_apply,
    val_main_v65_apply, val_main_cst_12_apply, val_main_cst_15_apply, val_main_v54_apply, val_main_v64_apply, posSum_eq, negSum_eq,
    val_main_call2_v1_apply, val_main_call2_v0_apply, val_main_cst_16_apply]
  rfl

/-- The reference's result is the specification's, as functions of the three argument arrays. -/
theorem G_eq : val_main_v70 (F := Ideal) x0 x1 x2 = Cert.Spec.G x0 x1 x2 := by
  funext i
  have hs : ∑ j : S4096.Idx, val_main_v68 (F := Ideal) x0 x1 x2 j = ∑ r : Fin 4096, Cert.Spec.perRow x0 x1 x2 r := by
    rw [Cert.Spec.sum_idx1]
    exact Finset.sum_congr rfl fun r _ => perRow_eq x0 x1 x2 r
  rw [val_main_v70_apply, val_main_v69_apply, val_main_cst_17_apply, val_main_cst_18_apply, hs]
  rfl

end Cert.RefSpec

end
-- ==== Proof.RefIsSpec.lean ====
import proofs.«115905_j90486370992708_1_alg».proof.Proof.Gen.ReferenceIdeal.Read
import proofs.«115905_j90486370992708_1_alg».proof.Proof.Spec
import proofs.«115905_j90486370992708_1_alg».proof.Proof.RefSums

/-!
The reference program's run, with its result named by the specification: every weakly fair execution terminates, the
result buffer holds the specification's function of the three argument arrays as they were at the start, and the
argument arrays end unchanged. Dropping the result gives the program's frame.
-/

noncomputable section

namespace Cert.RefSpec

open Cert.ReferenceIdeal Cert.ReferenceIdeal.Gen Idealize.ShloMosaic Idealize.ShloMosaic.TcCoe Idealize.SL.Sem

/-- The run's result term is the specification at the launch contents of the arguments. -/
theorem result_eq (m : (ℓ : Loc nD τ sig) → Buf (Elt Ideal) ℓ) (c : Dev nD) :
    Cert.ReferenceIdeal.Value.res_main_v70 (F := Ideal) m c
      = Cert.Spec.G (m ((c.tc : Thread nD τ).loc main_arg0)) (m ((c.tc : Thread nD τ).loc main_arg1))
          (m ((c.tc : Thread nD τ).loc main_arg2)) :=
  (Cert.ReferenceIdeal.Read.val_main_v70_eq (F := Ideal) m c).trans (G_eq _ _ _)

/-- The reference's run with the result as the specification. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v70)
          = Cert.Spec.G (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c => ⟨(h c).1.trans (result_eq m c), (h c).2⟩)
    (Cert.ReferenceIdeal.Value.run (F := Ideal) m ρ)

/-- The reference's frame: it terminates without a fault and its argument arrays end unchanged. -/
theorem frame_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c => (h c).2) (Cert.ReferenceIdeal.Value.run (F := Ideal) m ρ)

end Cert.RefSpec

end
-- ==== Proof.Claims.lean ====
import proofs.«115905_j90486370992708_1_alg».proof.Defs
import proofs.«115905_j90486370992708_1_alg».proof.Proof.Gen.Pre_finite_inputs
import proofs.«115905_j90486370992708_1_alg».proof.Proof.K.Frame
import proofs.«115905_j90486370992708_1_alg».proof.Proof.KI.Frame
import proofs.«115905_j90486370992708_1_alg».proof.Proof.KI.ValueSpec1
import proofs.«115905_j90486370992708_1_alg».proof.Proof.RefIsSpec

noncomputable section

open Idealize.ShloMosaic Idealize.ShloMosaic.TcCoe Idealize.SL.Sem

/-! # The claims

The kernel's program and its idealization run to the end, fault nowhere and leave the three argument arrays as they were:
each is a host stretch, the two kernel regions, a host stretch, and each region's body was run at every grid point. On the
extended reals the idealized program's result is the mean over the 4096 rows of the row losses — the specification — and
so is the reference's: both read it off the same three argument arrays. -/

namespace Cert.Proof.Claims

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ => Cert.RefSpec.frame_run m ρ

theorem preserves : Cert.preserves_Kernel_KernelIdeal := trivial

theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.LossSpec.result m c), (h c).2⟩)
      (Cert.KernelIdeal.Hand.run_value m ρ)
  · refine (θ_run Cert.ReferenceIdeal.defs _ _).mono (fun r h c => ⟨(h c).1.trans ?_, (h c).2⟩) (Cert.RefSpec.run m' ρ')
    rw [(hagree c).1, (hagree c).2.1, (hagree c).2.2]

end Cert.Proof.Claims

end
-- ==== Proof.lean ====
/- The certificate of the two-pass metric-learning loss: the kernel's program, its idealization and the jnp reference run to
   the end and leave their arguments unchanged; the idealization is the program's own text read on the extended reals; and
   on the extended reals the idealized kernel and the reference compute the same mean of row losses. The frames of the two
   kernel programs run each kernel body at every grid point of its 8 × 8 grid; the values are read off those runs and met
   with the reference's at one specification. -/
import proofs.«115905_j90486370992708_1_alg».proof.Defs
import proofs.«115905_j90486370992708_1_alg».proof.Proof.Gen.Kernel
import proofs.«115905_j90486370992708_1_alg».proof.Proof.Gen.Kernel.Skeleton
import proofs.«115905_j90486370992708_1_alg».proof.Proof.Gen.Kernel.Launch
import proofs.«115905_j90486370992708_1_alg».proof.Proof.Gen.Kernel.Regions
import proofs.«115905_j90486370992708_1_alg».proof.Proof.Gen.Kernel.Points
import proofs.«115905_j90486370992708_1_alg».proof.Proof.Gen.KernelIdeal
import proofs.«115905_j90486370992708_1_alg».proof.Proof.Gen.KernelIdeal.Skeleton
import proofs.«115905_j90486370992708_1_alg».proof.Proof.Gen.KernelIdeal.Launch
import proofs.«115905_j90486370992708_1_alg».proof.Proof.Gen.KernelIdeal.Regions
import proofs.«115905_j90486370992708_1_alg».proof.Proof.Gen.KernelIdeal.Points
import proofs.«115905_j90486370992708_1_alg».proof.Proof.Gen.ReferenceIdeal
import proofs.«115905_j90486370992708_1_alg».proof.Proof.Gen.Pre_finite_inputs
import proofs.«115905_j90486370992708_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
